-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128x3 : Shape := ⟨3, ![2048, 128, 3]⟩
abbrev S2048x3 : Shape := ⟨2, ![2048, 3]⟩
abbrev S256x39 : Shape := ⟨2, ![256, 39]⟩
abbrev S256 : Shape := ⟨1, ![256]⟩
abbrev S256x256 : Shape := ⟨2, ![256, 256]⟩
abbrev S256x295 : Shape := ⟨2, ![256, 295]⟩
abbrev S1x256 : Shape := ⟨2, ![1, 256]⟩
abbrev S1 : Shape := ⟨1, ![1]⟩
abbrev S128x256 : Shape := ⟨2, ![128, 256]⟩
abbrev S128 : Shape := ⟨1, ![128]⟩
abbrev S128x155 : Shape := ⟨2, ![128, 155]⟩
abbrev S3x128 : Shape := ⟨2, ![3, 128]⟩
abbrev S3 : Shape := ⟨1, ![3]⟩
abbrev S_ : Shape := ⟨0, ![]⟩

class Facts : Prop where
  bcast_S_S2048x128x3 : S_.BroadcastsInDim S2048x128x3 (![] : Fin 0 → Fin S2048x128x3.rank)
  reducesTo_S2048x128x3_S_d0_1_2 : S2048x128x3.ReducesTo [0, 1, 2] S_
  h_S_ : 0 < S_.numel
  bcast_S_S2048x3 : S_.BroadcastsInDim S2048x3 (![] : Fin 0 → Fin S2048x3.rank)
  reducesTo_S2048x3_S_d0_1 : S2048x3.ReducesTo [0, 1] S_
  bcast_S_S256x39 : S_.BroadcastsInDim S256x39 (![] : Fin 0 → Fin S256x39.rank)
  reducesTo_S256x39_S_d0_1 : S256x39.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x295 : S_.BroadcastsInDim S256x295 (![] : Fin 0 → Fin S256x295.rank)
  reducesTo_S256x295_S_d0_1 : S256x295.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x155 : S_.BroadcastsInDim S128x155 (![] : Fin 0 → Fin S128x155.rank)
  reducesTo_S128x155_S_d0_1 : S128x155.ReducesTo [0, 1] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_

variable [Facts]

def fn_part7 {F : FTy → Type} [FloatOps F] (main_arg25 : FVec F S3 .f32) (main_v118 : IVec S_ 1) (main_v119 : FVec F S3x128 .f32) : IVec S_ 1 :=
  let main_cst_46 : FVec F S_ .f32 := constant S_ .f32 0x7F800000#32
  let main_v120 : FVec F S3x128 .f32 := broadcastInDim S3x128 ![] bcast_S_S3x128 main_cst_46
  let main_v121 : IVec S3x128 1 := cmpf .olt main_v119 main_v120
  let main_c_47 : IVec S_ 1 := constantI S_ 1 1#1
  let main_v122 : IVec S_ 1 := (fun x v => Host.reduce IntOp.andi x v reducesTo_S3x128_S_d0_1 h_S_) main_v121 main_c_47
  let main_v123 : IVec S_ 1 := andi main_v118 main_v122
  let main_v124 : FVec F S3 .f32 := Host.absf main_arg25
  let main_cst_48 : FVec F S_ .f32 := constant S_ .f32 0x7F800000#32
  let main_v125 : FVec F S3 .f32 := broadcastInDim S3 ![] bcast_S_S3 main_cst_48
  let main_v126 : IVec S3 1 := cmpf .olt main_v124 main_v125
  let main_c_49 : IVec S_ 1 := constantI S_ 1 1#1
  let main_v127 : IVec S_ 1 := (fun x v => Host.reduce IntOp.andi x v reducesTo_S3_S_d0 h_S_) main_v126 main_c_49
  let main_v128 : IVec S_ 1 := andi main_v123 main_v127
  main_v128

def fn_part6 {F : FTy → Type} [FloatOps F] (main_arg21 : FVec F S128 .f32) (main_arg22 : FVec F S128x155 .f32) (main_arg23 : FVec F S128 .f32) (main_arg24 : FVec F S3x128 .f32) (main_arg25 : FVec F S3 .f32) (main_v98 : IVec S_ 1) (main_v101 : IVec S128x256 1) (main_c_39 : IVec S_ 1) : IVec S_ 1 :=
  let main_v102 : IVec S_ 1 := (fun x v => Host.reduce IntOp.andi x v reducesTo_S128x256_S_d0_1 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x155 .f32 := Host.absf main_arg22
  let main_cst_42 : FVec F S_ .f32 := constant S_ .f32 0x7F800000#32
  let main_v110 : FVec F S128x155 .f32 := broadcastInDim S128x155 ![] bcast_S_S128x155 main_cst_42
  let main_v111 : IVec S128x155 1 := cmpf .olt main_v109 main_v110
  let main_c_43 : IVec S_ 1 := constantI S_ 1 1#1
  let main_v112 : IVec S_ 1 := (fun x v => Host.reduce IntOp.andi x v reducesTo_S128x155_S_d0_1 h_S_) main_v111 main_c_43
  let main_v113 : IVec S_ 1 := andi main_v108 main_v112
  let main_v114 : FVec F S128 .f32 := Host.absf main_arg23
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S3x128 .f32 := Host.absf main_arg24
  fn_part7 (F := F) main_arg25 main_v118 main_v119

def fn_part5 {F : FTy → Type} [FloatOps F] (main_arg18 : FVec F S1x256 .f32) (main_arg19 : FVec F S1 .f32) (main_arg20 : FVec F S128x256 .f32) (main_arg21 : FVec F S128 .f32) (main_arg22 : FVec F S128x155 .f32) (main_arg23 : FVec F S128 .f32) (main_arg24 : FVec F S3x128 .f32) (main_arg25 : FVec F S3 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S1x256 .f32 := Host.absf main_arg18
  let main_cst_34 : FVec F S_ .f32 := constant S_ .f32 0x7F800000#32
  let main_v90 : FVec F S1x256 .f32 := broadcastInDim S1x256 ![] bcast_S_S1x256 main_cst_34
  let main_v91 : IVec S1x256 1 := cmpf .olt main_v89 main_v90
  let main_c_35 : IVec S_ 1 := constantI S_ 1 1#1
  let main_v92 : IVec S_ 1 := (fun x v => Host.reduce IntOp.andi x v reducesTo_S1x256_S_d0_1 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : FVec F S128x256 .f32 := Host.absf main_arg20
  let main_cst_38 : FVec F S_ .f32 := constant S_ .f32 0x7F800000#32
  let main_v100 : FVec F S128x256 .f32 := broadcastInDim S128x256 ![] bcast_S_S128x256 main_cst_38
  let main_v101 : IVec S128x256 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S256x256 .f32) (main_arg15 : FVec F S256 .f32) (main_arg16 : FVec F S256x256 .f32) (main_arg17 : FVec F S256 .f32) (main_arg18 : FVec F S1x256 .f32) (main_arg19 : FVec F S1 .f32) (main_arg20 : FVec F S128x256 .f32) (main_arg21 : FVec F S128 .f32) (main_arg22 : FVec F S128x155 .f32) (main_arg23 : FVec F S128 .f32) (main_arg24 : FVec F S3x128 .f32) (main_arg25 : FVec F S3 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg16
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S256 .f32) (main_arg12 : FVec F S256x295 .f32) (main_arg13 : FVec F S256 .f32) (main_arg14 : FVec F S256x256 .f32) (main_arg15 : FVec F S256 .f32) (main_arg16 : FVec F S256x256 .f32) (main_arg17 : FVec F S256 .f32) (main_arg18 : FVec F S1x256 .f32) (main_arg19 : FVec F S1 .f32) (main_arg20 : FVec F S128x256 .f32) (main_arg21 : FVec F S128 .f32) (main_arg22 : FVec F S128x155 .f32) (main_arg23 : FVec F S128 .f32) (main_arg24 : FVec F S3x128 .f32) (main_arg25 : FVec F S3 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x295 .f32 := Host.absf main_arg12
  let main_cst_22 : FVec F S_ .f32 := constant S_ .f32 0x7F800000#32
  let main_v60 : FVec F S256x295 .f32 := broadcastInDim S256x295 ![] bcast_S_S256x295 main_cst_22
  let main_v61 : IVec S256x295 1 := cmpf .olt main_v59 main_v60
  let main_c_23 : IVec S_ 1 := constantI S_ 1 1#1
  let main_v62 : IVec S_ 1 := (fun x v => Host.reduce IntOp.andi x v reducesTo_S256x295_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S256 .f32) (main_arg8 : FVec F S256x256 .f32) (main_arg9 : FVec F S256 .f32) (main_arg10 : FVec F S256x256 .f32) (main_arg11 : FVec F S256 .f32) (main_arg12 : FVec F S256x295 .f32) (main_arg13 : FVec F S256 .f32) (main_arg14 : FVec F S256x256 .f32) (main_arg15 : FVec F S256 .f32) (main_arg16 : FVec F S256x256 .f32) (main_arg17 : FVec F S256 .f32) (main_arg18 : FVec F S1x256 .f32) (main_arg19 : FVec F S1 .f32) (main_arg20 : FVec F S128x256 .f32) (main_arg21 : FVec F S128 .f32) (main_arg22 : FVec F S128x155 .f32) (main_arg23 : FVec F S128 .f32) (main_arg24 : FVec F S3x128 .f32) (main_arg25 : FVec F S3 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x295 .f32) (main_arg13 : FVec F S256 .f32) (main_arg14 : FVec F S256x256 .f32) (main_arg15 : FVec F S256 .f32) (main_arg16 : FVec F S256x256 .f32) (main_arg17 : FVec F S256 .f32) (main_arg18 : FVec F S1x256 .f32) (main_arg19 : FVec F S1 .f32) (main_arg20 : FVec F S128x256 .f32) (main_arg21 : FVec F S128 .f32) (main_arg22 : FVec F S128x155 .f32) (main_arg23 : FVec F S128 .f32) (main_arg24 : FVec F S3x128 .f32) (main_arg25 : FVec F S3 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S2048x128x3 .f32) (main_arg1 : FVec F S2048x3 .f32) (main_arg2 : FVec F S256x39 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x295 .f32) (main_arg13 : FVec F S256 .f32) (main_arg14 : FVec F S256x256 .f32) (main_arg15 : FVec F S256 .f32) (main_arg16 : FVec F S256x256 .f32) (main_arg17 : FVec F S256 .f32) (main_arg18 : FVec F S1x256 .f32) (main_arg19 : FVec F S1 .f32) (main_arg20 : FVec F S128x256 .f32) (main_arg21 : FVec F S128 .f32) (main_arg22 : FVec F S128x155 .f32) (main_arg23 : FVec F S128 .f32) (main_arg24 : FVec F S3x128 .f32) (main_arg25 : FVec F S3 .f32) : IVec S_ 1 :=
  let main_v0 : FVec F S2048x128x3 .f32 := Host.absf main_arg0
  let main_cst : FVec F S_ .f32 := constant S_ .f32 0x7F800000#32
  let main_v1 : FVec F S2048x128x3 .f32 := broadcastInDim S2048x128x3 ![] bcast_S_S2048x128x3 main_cst
  let main_v2 : IVec S2048x128x3 1 := cmpf .olt main_v0 main_v1
  let main_c : IVec S_ 1 := constantI S_ 1 1#1
  let main_v3 : IVec S_ 1 := (fun x v => Host.reduce IntOp.andi x v reducesTo_S2048x128x3_S_d0_1_2 h_S_) main_v2 main_c
  let main_v4 : FVec F S2048x3 .f32 := Host.absf main_arg1
  let main_cst_0 : FVec F S_ .f32 := constant S_ .f32 0x7F800000#32
  let main_v5 : FVec F S2048x3 .f32 := broadcastInDim S2048x3 ![] bcast_S_S2048x3 main_cst_0
  let main_v6 : IVec S2048x3 1 := cmpf .olt main_v4 main_v5
  let main_c_1 : IVec S_ 1 := constantI S_ 1 1#1
  let main_v7 : IVec S_ 1 := (fun x v => Host.reduce IntOp.andi x v reducesTo_S2048x3_S_d0_1 h_S_) main_v6 main_c_1
  let main_v8 : IVec S_ 1 := andi main_v3 main_v7
  let main_v9 : FVec F S256x39 .f32 := Host.absf main_arg2
  let main_cst_2 : FVec F S_ .f32 := constant S_ .f32 0x7F800000#32
  let main_v10 : FVec F S256x39 .f32 := broadcastInDim S256x39 ![] bcast_S_S256x39 main_cst_2
  let main_v11 : IVec S256x39 1 := cmpf .olt main_v9 main_v10
  let main_c_3 : IVec S_ 1 := constantI S_ 1 1#1
  let main_v12 : IVec S_ 1 := (fun x v => Host.reduce IntOp.andi x v reducesTo_S256x39_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S2048x128x3 : Shape := ⟨3, ![2048, 128, 3]⟩
abbrev S2048x3 : Shape := ⟨2, ![2048, 3]⟩
abbrev S256x39 : Shape := ⟨2, ![256, 39]⟩
abbrev S256 : Shape := ⟨1, ![256]⟩
abbrev S256x256 : Shape := ⟨2, ![256, 256]⟩
abbrev S256x295 : Shape := ⟨2, ![256, 295]⟩
abbrev S1x256 : Shape := ⟨2, ![1, 256]⟩
abbrev S1 : Shape := ⟨1, ![1]⟩
abbrev S128x256 : Shape := ⟨2, ![128, 256]⟩
abbrev S128 : Shape := ⟨1, ![128]⟩
abbrev S128x155 : Shape := ⟨2, ![128, 155]⟩
abbrev S3x128 : Shape := ⟨2, ![3, 128]⟩
abbrev S3 : Shape := ⟨1, ![3]⟩
abbrev S6 : Shape := ⟨1, ![6]⟩
abbrev S4 : Shape := ⟨1, ![4]⟩
abbrev S262144x3 : Shape := ⟨2, ![262144, 3]⟩
abbrev S_ : Shape := ⟨0, ![]⟩
abbrev S2048 : Shape := ⟨1, ![2048]⟩
abbrev S2048x1 : Shape := ⟨2, ![2048, 1]⟩
abbrev S262144x3x1 : Shape := ⟨3, ![262144, 3, 1]⟩
abbrev S1x1x6 : Shape := ⟨3, ![1, 1, 6]⟩
abbrev S262144x3x6 : Shape := ⟨3, ![262144, 3, 6]⟩
abbrev S262144x18 : Shape := ⟨2, ![262144, 18]⟩
abbrev S262144x39 : Shape := ⟨2, ![262144, 39]⟩
abbrev S2048x3x1 : Shape := ⟨3, ![2048, 3, 1]⟩
abbrev S1x1x4 : Shape := ⟨3, ![1, 1, 4]⟩
abbrev S2048x3x4 : Shape := ⟨3, ![2048, 3, 4]⟩
abbrev S2048x12 : Shape := ⟨2, ![2048, 12]⟩
abbrev S2048x27 : Shape := ⟨2, ![2048, 27]⟩
abbrev S2048x1x27 : Shape := ⟨3, ![2048, 1, 27]⟩
abbrev S2048x128x27 : Shape := ⟨3, ![2048, 128, 27]⟩
abbrev S262144x27 : Shape := ⟨2, ![262144, 27]⟩
abbrev S39x256 : Shape := ⟨2, ![39, 256]⟩
abbrev S295x256 : Shape := ⟨2, ![295, 256]⟩
abbrev S256x128 : Shape := ⟨2, ![256, 128]⟩
abbrev S256x1 : Shape := ⟨2, ![256, 1]⟩
abbrev S256x129 : Shape := ⟨2, ![256, 129]⟩
abbrev S129 : Shape := ⟨1, ![129]⟩
abbrev S155x128 : Shape := ⟨2, ![155, 128]⟩
abbrev S128x128 : Shape := ⟨2, ![128, 128]⟩
abbrev S27x128 : Shape := ⟨2, ![27, 128]⟩
abbrev S128x3 : Shape := ⟨2, ![128, 3]⟩
abbrev S262144x4 : Shape := ⟨2, ![262144, 4]⟩
abbrev S4096x39 : Shape := ⟨2, ![4096, 39]⟩
abbrev S4096x27 : Shape := ⟨2, ![4096, 27]⟩
abbrev S4096x4 : Shape := ⟨2, ![4096, 4]⟩
abbrev S4096x256 : Shape := ⟨2, ![4096, 256]⟩
abbrev S4096x129 : Shape := ⟨2, ![4096, 129]⟩
abbrev S1x129 : Shape := ⟨2, ![1, 129]⟩
abbrev S4096x128 : Shape := ⟨2, ![4096, 128]⟩
abbrev S4096x1 : Shape := ⟨2, ![4096, 1]⟩
abbrev S1x128 : Shape := ⟨2, ![1, 128]⟩
abbrev S4096x3 : Shape := ⟨2, ![4096, 3]⟩
abbrev S1x3 : Shape := ⟨2, ![1, 3]⟩
abbrev S262144x1 : Shape := ⟨2, ![262144, 1]⟩
abbrev S2048x128x1 : Shape := ⟨3, ![2048, 128, 1]⟩

abbrev nBuf : Space → Nat
  | .hbm => 98
  | .vmem => 30
  | .smem => 0
  | _ => 0

abbrev bufTy : (tb : Table) → Fin (tcTables nBuf tb) → BufTy
  | .hbm, ⟨0, _⟩ => ⟨S2048x128x3, .f32⟩
  | .hbm, ⟨1, _⟩ => ⟨S2048x3, .f32⟩
  | .hbm, ⟨2, _⟩ => ⟨S256x39, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x295, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S1x256, .f32⟩
  | .hbm, ⟨19, _⟩ => ⟨S1, .f32⟩
  | .hbm, ⟨20, _⟩ => ⟨S128x256, .f32⟩
  | .hbm, ⟨21, _⟩ => ⟨S128, .f32⟩
  | .hbm, ⟨22, _⟩ => ⟨S128x155, .f32⟩
  | .hbm, ⟨23, _⟩ => ⟨S128, .f32⟩
  | .hbm, ⟨24, _⟩ => ⟨S3x128, .f32⟩
  | .hbm, ⟨25, _⟩ => ⟨S3, .f32⟩
  | .hbm, ⟨26, _⟩ => ⟨S6, .f32⟩
  | .hbm, ⟨27, _⟩ => ⟨S4, .f32⟩
  | .hbm, ⟨28, _⟩ => ⟨S262144x3, .f32⟩
  | .hbm, ⟨29, _⟩ => ⟨S2048x3, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x3, .f32⟩
  | .hbm, ⟨38, _⟩ => ⟨S2048x3, .f32⟩
  | .hbm, ⟨39, _⟩ => ⟨S262144x3x1, .f32⟩
  | .hbm, ⟨40, _⟩ => ⟨S1x1x6, .f32⟩
  | .hbm, ⟨41, _⟩ => ⟨S262144x3x6, .f32⟩
  | .hbm, ⟨42, _⟩ => ⟨S262144x3x6, .f32⟩
  | .hbm, ⟨43, _⟩ => ⟨S262144x3x6, .f32⟩
  | .hbm, ⟨44, _⟩ => ⟨S262144x18, .f32⟩
  | .hbm, ⟨45, _⟩ => ⟨S262144x18, .f32⟩
  | .hbm, ⟨46, _⟩ => ⟨S262144x18, .f32⟩
  | .hbm, ⟨47, _⟩ => ⟨S262144x39, .f32⟩
  | .hbm, ⟨48, _⟩ => ⟨S2048x3x1, .f32⟩
  | .hbm, ⟨49, _⟩ => ⟨S1x1x4, .f32⟩
  | .hbm, ⟨50, _⟩ => ⟨S2048x3x4, .f32⟩
  | .hbm, ⟨51, _⟩ => ⟨S2048x3x4, .f32⟩
  | .hbm, ⟨52, _⟩ => ⟨S2048x3x4, .f32⟩
  | .hbm, ⟨53, _⟩ => ⟨S2048x12, .f32⟩
  | .hbm, ⟨54, _⟩ => ⟨S2048x12, .f32⟩
  | .hbm, ⟨55, _⟩ => ⟨S2048x12, .f32⟩
  | .hbm, ⟨56, _⟩ => ⟨S2048x27, .f32⟩
  | .hbm, ⟨57, _⟩ => ⟨S2048x1x27, .f32⟩
  | .hbm, ⟨58, _⟩ => ⟨S2048x128x27, .f32⟩
  | .hbm, ⟨59, _⟩ => ⟨S262144x27, .f32⟩
  | .hbm, ⟨60, _⟩ => ⟨S262144x39, .bf16⟩
  | .hbm, ⟨61, _⟩ => ⟨S262144x27, .bf16⟩
  | .hbm, ⟨62, _⟩ => ⟨S39x256, .f32⟩
  | .hbm, ⟨63, _⟩ => ⟨S39x256, .bf16⟩
  | .hbm, ⟨64, _⟩ => ⟨S256x256, .f32⟩
  | .hbm, ⟨65, _⟩ => ⟨S256x256, .bf16⟩
  | .hbm, ⟨66, _⟩ => ⟨S256x256, .f32⟩
  | .hbm, ⟨67, _⟩ => ⟨S256x256, .bf16⟩
  | .hbm, ⟨68, _⟩ => ⟨S256x256, .f32⟩
  | .hbm, ⟨69, _⟩ => ⟨S256x256, .bf16⟩
  | .hbm, ⟨70, _⟩ => ⟨S256x256, .f32⟩
  | .hbm, ⟨71, _⟩ => ⟨S256x256, .bf16⟩
  | .hbm, ⟨72, _⟩ => ⟨S295x256, .f32⟩
  | .hbm, ⟨73, _⟩ => ⟨S256x256, .f32⟩
  | .hbm, ⟨74, _⟩ => ⟨S256x256, .bf16⟩
  | .hbm, ⟨75, _⟩ => ⟨S39x256, .f32⟩
  | .hbm, ⟨76, _⟩ => ⟨S39x256, .bf16⟩
  | .hbm, ⟨77, _⟩ => ⟨S256x256, .f32⟩
  | .hbm, ⟨78, _⟩ => ⟨S256x256, .bf16⟩
  | .hbm, ⟨79, _⟩ => ⟨S256x256, .f32⟩
  | .hbm, ⟨80, _⟩ => ⟨S256x256, .bf16⟩
  | .hbm, ⟨81, _⟩ => ⟨S256x128, .f32⟩
  | .hbm, ⟨82, _⟩ => ⟨S256x1, .f32⟩
  | .hbm, ⟨83, _⟩ => ⟨S256x129, .f32⟩
  | .hbm, ⟨84, _⟩ => ⟨S256x129, .bf16⟩
  | .hbm, ⟨85, _⟩ => ⟨S129, .f32⟩
  | .hbm, ⟨86, _⟩ => ⟨S155x128, .f32⟩
  | .hbm, ⟨87, _⟩ => ⟨S128x128, .f32⟩
  | .hbm, ⟨88, _⟩ => ⟨S128x128, .bf16⟩
  | .hbm, ⟨89, _⟩ => ⟨S27x128, .f32⟩
  | .hbm, ⟨90, _⟩ => ⟨S27x128, .bf16⟩
  | .hbm, ⟨91, _⟩ => ⟨S128x3, .f32⟩
  | .hbm, ⟨92, _⟩ => ⟨S128x3, .bf16⟩
  | .hbm, ⟨93, _⟩ => ⟨S262144x4, .f32⟩
  | .hbm, ⟨94, _⟩ => ⟨S262144x1, .f32⟩
  | .hbm, ⟨95, _⟩ => ⟨S2048x128x1, .f32⟩
  | .hbm, ⟨96, _⟩ => ⟨S262144x3, .f32⟩
  | .hbm, ⟨97, _⟩ => ⟨S2048x128x3, .f32⟩
  | .local _ .vmem, ⟨0, _⟩ => ⟨S4096x39, .bf16⟩
  | .local _ .vmem, ⟨1, _⟩ => ⟨S4096x39, .bf16⟩
  | .local _ .vmem, ⟨2, _⟩ => ⟨S4096x27, .bf16⟩
  | .local _ .vmem, ⟨3, _⟩ => ⟨S4096x27, .bf16⟩
  | .local _ .vmem, ⟨4, _⟩ => ⟨S39x256, .bf16⟩
  | .local _ .vmem, ⟨5, _⟩ => ⟨S256, .f32⟩
  | .local _ .vmem, ⟨6, _⟩ => ⟨S256x256, .bf16⟩
  | .local _ .vmem, ⟨7, _⟩ => ⟨S256, .f32⟩
  | .local _ .vmem, ⟨8, _⟩ => ⟨S256x256, .bf16⟩
  | .local _ .vmem, ⟨9, _⟩ => ⟨S256, .f32⟩
  | .local _ .vmem, ⟨10, _⟩ => ⟨S256x256, .bf16⟩
  | .local _ .vmem, ⟨11, _⟩ => ⟨S256, .f32⟩
  | .local _ .vmem, ⟨12, _⟩ => ⟨S256x256, .bf16⟩
  | .local _ .vmem, ⟨13, _⟩ => ⟨S256, .f32⟩
  | .local _ .vmem, ⟨14, _⟩ => ⟨S256x256, .bf16⟩
  | .local _ .vmem, ⟨15, _⟩ => ⟨S39x256, .bf16⟩
  | .local _ .vmem, ⟨16, _⟩ => ⟨S256, .f32⟩
  | .local _ .vmem, ⟨17, _⟩ => ⟨S256x256, .bf16⟩
  | .local _ .vmem, ⟨18, _⟩ => ⟨S256, .f32⟩
  | .local _ .vmem, ⟨19, _⟩ => ⟨S256x256, .bf16⟩
  | .local _ .vmem, ⟨20, _⟩ => ⟨S256, .f32⟩
  | .local _ .vmem, ⟨21, _⟩ => ⟨S256x129, .bf16⟩
  | .local _ .vmem, ⟨22, _⟩ => ⟨S129, .f32⟩
  | .local _ .vmem, ⟨23, _⟩ => ⟨S128x128, .bf16⟩
  | .local _ .vmem, ⟨24, _⟩ => ⟨S27x128, .bf16⟩
  | .local _ .vmem, ⟨25, _⟩ => ⟨S128, .f32⟩
  | .local _ .vmem, ⟨26, _⟩ => ⟨S128x3, .bf16⟩
  | .local _ .vmem, ⟨27, _⟩ => ⟨S3, .f32⟩
  | .local _ .vmem, ⟨28, _⟩ => ⟨S4096x4, .f32⟩
  | .local _ .vmem, ⟨29, _⟩ => ⟨S4096x4, .f32⟩
  | _, _ => ⟨S2048x128x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_cst_0 : Ref sig .tc := ⟨.hbm, 27, rfl⟩
abbrev main_v0 : Ref sig .tc := ⟨.hbm, 28, rfl⟩
abbrev main_call0_v0 : Ref sig .tc := ⟨.hbm, 29, rfl⟩
abbrev main_call0_cst : Ref sig .tc := ⟨.hbm, 30, rfl⟩
abbrev main_call0_v1 : Ref sig .tc := ⟨.hbm, 31, rfl⟩
abbrev main_call0_v2 : Ref sig .tc := ⟨.hbm, 32, rfl⟩
abbrev main_v1 : Ref sig .tc := ⟨.hbm, 33, rfl⟩
abbrev main_cst_1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg26_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem26_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x39 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x27 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S39x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S39x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x129 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S129 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x128 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S27x128 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128x3 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S3 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S4096x4 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

class Facts₀ : Prop where
  shapeCasts_S2048x128x3_S262144x3 : S2048x128x3.ShapeCasts S262144x3
  reducesTo_S2048x3_S2048_d1 : S2048x3.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x3_0_1 : S2048x1.BroadcastsInDim S2048x3 (![0, 1] : Fin 2 → Fin S2048x3.rank)
  bcast_S262144x3_S262144x3x1_0_1 : S262144x3.BroadcastsInDim S262144x3x1 (![0, 1] : Fin 2 → Fin S262144x3x1.rank)
  bcast_S6_S1x1x6_2 : S6.BroadcastsInDim S1x1x6 (![2] : Fin 1 → Fin S1x1x6.rank)
  bcast_S262144x3x1_S262144x3x6_0_1_2 : S262144x3x1.BroadcastsInDim S262144x3x6 (![0, 1, 2] : Fin 3 → Fin S262144x3x6.rank)
  bcast_S1x1x6_S262144x3x6_0_1_2 : S1x1x6.BroadcastsInDim S262144x3x6 (![0, 1, 2] : Fin 3 → Fin S262144x3x6.rank)
  shapeCasts_S262144x3x6_S262144x18 : S262144x3x6.ShapeCasts S262144x18
  concatenates_S262144x18_S262144x18_S262144x3_S262144x39_d1 : Shape.Concatenates [S262144x18, S262144x18, S262144x3] S262144x39 1
  bcast_S2048x3_S2048x3x1_0_1 : S2048x3.BroadcastsInDim S2048x3x1 (![0, 1] : Fin 2 → Fin S2048x3x1.rank)
  bcast_S4_S1x1x4_2 : S4.BroadcastsInDim S1x1x4 (![2] : Fin 1 → Fin S1x1x4.rank)
  bcast_S2048x3x1_S2048x3x4_0_1_2 : S2048x3x1.BroadcastsInDim S2048x3x4 (![0, 1, 2] : Fin 3 → Fin S2048x3x4.rank)
  bcast_S1x1x4_S2048x3x4_0_1_2 : S1x1x4.BroadcastsInDim S2048x3x4 (![0, 1, 2] : Fin 3 → Fin S2048x3x4.rank)
  shapeCasts_S2048x3x4_S2048x12 : S2048x3x4.ShapeCasts S2048x12
  concatenates_S2048x12_S2048x12_S2048x3_S2048x27_d1 : Shape.Concatenates [S2048x12, S2048x12, S2048x3] S2048x27 1
  bcast_S2048x27_S2048x1x27_0_2 : S2048x27.BroadcastsInDim S2048x1x27 (![0, 2] : Fin 2 → Fin S2048x1x27.rank)
  bcast_S2048x1x27_S2048x128x27_0_1_2 : S2048x1x27.BroadcastsInDim S2048x128x27 (![0, 1, 2] : Fin 3 → Fin S2048x128x27.rank)
  shapeCasts_S2048x128x27_S262144x27 : S2048x128x27.ShapeCasts S262144x27
  bitsLt_bf16_f32 : FTy.bits .bf16 < FTy.bits .f32
  transposes_S256x39_S39x256_1_0 : S256x39.Transposes [1, 0] S39x256
  transposes_S256x256_S256x256_1_0 : S256x256.Transposes [1, 0] S256x256
  transposes_S256x295_S295x256_1_0 : S256x295.Transposes [1, 0] S295x256
  slices_S295x256_S256x256_0_0 : S295x256.Slices ![0, 0] S256x256
  slices_S295x256_S39x256_256_0 : S295x256.Slices ![256, 0] S39x256
  transposes_S128x256_S256x128_1_0 : S128x256.Transposes [1, 0] S256x128
  transposes_S1x256_S256x1_1_0 : S1x256.Transposes [1, 0] S256x1
  concatenates_S256x128_S256x1_S256x129_d1 : Shape.Concatenates [S256x128, S256x1] S256x129 1
  concatenates_S128_S1_S129_d0 : Shape.Concatenates [S128, S1] S129 0
  transposes_S128x155_S155x128_1_0 : S128x155.Transposes [1, 0] S155x128
  slices_S155x128_S128x128_0_0 : S155x128.Slices ![0, 0] S128x128
  slices_S155x128_S27x128_128_0 : S155x128.Slices ![128, 0] S27x128
  transposes_S3x128_S128x3_1_0 : S3x128.Transposes [1, 0] S128x3
  inb_S4096x39_S4096x39_0_0 : ∀ a, (![0, 0] : Fin 2 → Nat) a + S4096x39.size a ≤ S4096x39.size a
  h_S4096x39 : 0 < S4096x39.numel
  shapeCasts_S4096x39_S4096x39 : S4096x39.ShapeCasts S4096x39
  inb_S4096x27_S4096x27_0_0 : ∀ a, (![0, 0] : Fin 2 → Nat) a + S4096x27.size a ≤ S4096x27.size a
  h_S4096x27 : 0 < S4096x27.numel
  shapeCasts_S4096x27_S4096x27 : S4096x27.ShapeCasts S4096x27
  inb_S39x256_S39x256_0_0 : ∀ a, (![0, 0] : Fin 2 → Nat) a + S39x256.size a ≤ S39x256.size a
  h_S39x256 : 0 < S39x256.numel
  shapeCasts_S39x256_S39x256 : S39x256.ShapeCasts S39x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x129_S256x129_0_0 : ∀ a, (![0, 0] : Fin 2 → Nat) a + S256x129.size a ≤ S256x129.size a
  h_S256x129 : 0 < S256x129.numel
  shapeCasts_S256x129_S256x129 : S256x129.ShapeCasts S256x129
  inb_S129_S129_0 : ∀ a, (![0] : Fin 1 → Nat) a + S129.size a ≤ S129.size a
  h_S129 : 0 < S129.numel
  shapeCasts_S129_S129 : S129.ShapeCasts S129
  shapeCasts_S129_S1x129 : S129.ShapeCasts S1x129
  broadcasts_S1x129_S4096x129 : S1x129.Broadcasts S4096x129
  slices_S4096x129_o0_0_S4096x128 : S4096x129.Slices ![0, 0] S4096x128
  slices_S4096x129_o0_128_S4096x1 : S4096x129.Slices ![0, 128] S4096x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S27x128_S27x128_0_0 : ∀ a, (![0, 0] : Fin 2 → Nat) a + S27x128.size a ≤ S27x128.size a
  h_S27x128 : 0 < S27x128.numel
  shapeCasts_S27x128_S27x128 : S27x128.ShapeCasts S27x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S3_S3_0 : ∀ a, (![0] : Fin 1 → Nat) a + S3.size a ≤ S3.size a
  h_S3 : 0 < S3.numel
  shapeCasts_S3_S1x3 : S3.ShapeCasts S1x3
  broadcasts_S1x3_S4096x3 : S1x3.Broadcasts S4096x3
  concatenates_S4096x1_S4096x3_S4096x4_d1 : Shape.Concatenates [S4096x1, S4096x3] S4096x4 1
  inb_S4096x4_S4096x4_0_0 : ∀ a, (![0, 0] : Fin 2 → Nat) a + S4096x4.size a ≤ S4096x4.size a
  h_S4096x4 : 0 < S4096x4.numel
  slices_S262144x4_S262144x1_0_0 : S262144x4.Slices ![0, 0] S262144x1
  shapeCasts_S262144x1_S2048x128x1 : S262144x1.ShapeCasts S2048x128x1
  slices_S262144x4_S262144x3_0_1 : S262144x4.Slices ![0, 1] S262144x3
  shapeCasts_S262144x3_S2048x128x3 : S262144x3.ShapeCasts S2048x128x3
  dot_S4096x39_S39x256_S4096x256_1_0_0_1_n_n_wf : DotDims.WF S4096x39 S39x256 S4096x256 [1] [0] [0] [1] [] []
  dot_S4096x256_S256x256_S4096x256_1_0_0_1_n_n_wf : DotDims.WF S4096x256 S256x256 S4096x256 [1] [0] [0] [1] [] []
  dot_S4096x256_S256x129_S4096x129_1_0_0_1_n_n_wf : DotDims.WF S4096x256 S256x129 S4096x129 [1] [0] [0] [1] [] []
  dot_S4096x128_S128x128_S4096x128_1_0_0_1_n_n_wf : DotDims.WF S4096x128 S128x128 S4096x128 [1] [0] [0] [1] [] []
  dot_S4096x27_S27x128_S4096x128_1_0_0_1_n_n_wf : DotDims.WF S4096x27 S27x128 S4096x128 [1] [0] [0] [1] [] []
  dot_S4096x128_S128x3_S4096x3_1_0_0_1_n_n_wf : DotDims.WF S4096x128 S128x3 S4096x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x39.size a ≤ S262144x39.size a
  hwx0_0 : ∀ i : grid0.Coords, EltTy.bits .bf16 = 32 ∨ (Rect.block (s := S262144x39) S4096x39.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x27.size a ≤ S262144x27.size a
  hwx0_1 : ∀ i : grid0.Coords, EltTy.bits .bf16 = 32 ∨ (Rect.block (s := S262144x27) S4096x27.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S39x256.size a ≤ S39x256.size a
  hwx0_2 : ∀ i : grid0.Coords, EltTy.bits .bf16 = 32 ∨ (Rect.block (s := S39x256) S39x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .bf16 = 32 ∨ (Rect.block (s := S256x256) S256x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S39x256.size a ≤ S39x256.size a
  hwx0_13 : ∀ i : grid0.Coords, EltTy.bits .bf16 = 32 ∨ (Rect.block (s := S39x256) S39x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S256.size a
  hwx0_14 : ∀ i : grid0.Coords, EltTy.bits .f32 = 32 ∨ (Rect.block (s := S256) S256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x256.size a ≤ S256x256.size a
  hwx0_15 : ∀ i : grid0.Coords, EltTy.bits .bf16 = 32 ∨ (Rect.block (s := S256x256) S256x256.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256.size a ≤ S256.size a
  hwx0_16 : ∀ i : grid0.Coords, EltTy.bits .f32 = 32 ∨ (Rect.block (s := S256) S256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256x256.size a ≤ S256x256.size a
  hwx0_17 : ∀ i : grid0.Coords, EltTy.bits .bf16 = 32 ∨ (Rect.block (s := S256x256) S256x256.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256.size a ≤ S256.size a
  hwx0_18 : ∀ i : grid0.Coords, EltTy.bits .f32 = 32 ∨ (Rect.block (s := S256) S256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256x129.size a ≤ S256x129.size a
  hwx0_19 : ∀ i : grid0.Coords, EltTy.bits .bf16 = 32 ∨ (Rect.block (s := S256x129) S256x129.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S129.size a ≤ S129.size a
  hwx0_20 : ∀ i : grid0.Coords, EltTy.bits .f32 = 32 ∨ (Rect.block (s := S129) S129.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128x128.size a ≤ S128x128.size a
  hwx0_21 : ∀ i : grid0.Coords, EltTy.bits .bf16 = 32 ∨ (Rect.block (s := S128x128) S128x128.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S27x128.size a ≤ S27x128.size a
  hwx0_22 : ∀ i : grid0.Coords, EltTy.bits .bf16 = 32 ∨ (Rect.block (s := S27x128) S27x128.size (cc0_transform_22 i) (hinb0_22 i)).WholeWords (EltTy.packing .bf16)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S128.size a ≤ S128.size a
  hwx0_23 : ∀ i : grid0.Coords, EltTy.bits .f32 = 32 ∨ (Rect.block (s := S128) S128.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S128x3.size a ≤ S128x3.size a
  hwx0_24 : ∀ i : grid0.Coords, EltTy.bits .bf16 = 32 ∨ (Rect.block (s := S128x3) S128x3.size (cc0_transform_24 i) (hinb0_24 i)).WholeWords (EltTy.packing .bf16)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S3.size a ≤ S3.size a
  hwx0_25 : ∀ i : grid0.Coords, EltTy.bits .f32 = 32 ∨ (Rect.block (s := S3) S3.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S4096x4.size a ≤ S262144x4.size a
  hwx0_26 : ∀ i : grid0.Coords, EltTy.bits .f32 = 32 ∨ (Rect.block (s := S262144x4) S4096x4.size (cc0_transform_26 i) (hinb0_26 i)).WholeWords (EltTy.packing .f32)

variable [Facts₀]

def dot_S4096x39_S39x256_S4096x256_1_0_0_1_n_n : DotDims S4096x39 S39x256 S4096x256 where
  lhsContracting := [1]
  rhsContracting := [0]
  lhsNonContracting := [0]
  rhsNonContracting := [1]
  lhsBatch := []
  rhsBatch := []
  wf := dot_S4096x39_S39x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x129_S4096x129_1_0_0_1_n_n : DotDims S4096x256 S256x129 S4096x129 where
  lhsContracting := [1]
  rhsContracting := [0]
  lhsNonContracting := [0]
  rhsNonContracting := [1]
  lhsBatch := []
  rhsBatch := []
  wf := dot_S4096x256_S256x129_S4096x129_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x27_S27x128_S4096x128_1_0_0_1_n_n : DotDims S4096x27 S27x128 S4096x128 where
  lhsContracting := [1]
  rhsContracting := [0]
  lhsNonContracting := [0]
  rhsNonContracting := [1]
  lhsBatch := []
  rhsBatch := []
  wf := dot_S4096x27_S27x128_S4096x128_1_0_0_1_n_n_wf
def dot_S4096x128_S128x3_S4096x3_1_0_0_1_n_n : DotDims S4096x128 S128x3 S4096x3 where
  lhsContracting := [1]
  rhsContracting := [0]
  lhsNonContracting := [0]
  rhsNonContracting := [1]
  lhsBatch := []
  rhsBatch := []
  wf := dot_S4096x128_S128x3_S4096x3_1_0_0_1_n_n_wf

abbrev win0_0 : Pipeline.Window sig grid0 :=
  Pipeline.Window.ofSpec (Memref.whole main_v27) S4096x39.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S4096x27.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S39x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v38) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v41) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v43) S39x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v45) S256x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg15) S256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v47) S256x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg17) S256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v51) S256x129.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v52) S129.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v55) S128x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v57) S27x128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S128.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v59) S128x3.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg25) S3.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v60) S4096x4.size cc0_transform_26 reads0_26 true false 2 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S2048x128x3 : Shape := ⟨3, ![2048, 128, 3]⟩
abbrev S2048x3 : Shape := ⟨2, ![2048, 3]⟩
abbrev S256x39 : Shape := ⟨2, ![256, 39]⟩
abbrev S256 : Shape := ⟨1, ![256]⟩
abbrev S256x256 : Shape := ⟨2, ![256, 256]⟩
abbrev S256x295 : Shape := ⟨2, ![256, 295]⟩
abbrev S1x256 : Shape := ⟨2, ![1, 256]⟩
abbrev S1 : Shape := ⟨1, ![1]⟩
abbrev S128x256 : Shape := ⟨2, ![128, 256]⟩
abbrev S128 : Shape := ⟨1, ![128]⟩
abbrev S128x155 : Shape := ⟨2, ![128, 155]⟩
abbrev S3x128 : Shape := ⟨2, ![3, 128]⟩
abbrev S3 : Shape := ⟨1, ![3]⟩
abbrev S6 : Shape := ⟨1, ![6]⟩
abbrev S4 : Shape := ⟨1, ![4]⟩
abbrev S262144x3 : Shape := ⟨2, ![262144, 3]⟩
abbrev S_ : Shape := ⟨0, ![]⟩
abbrev S2048 : Shape := ⟨1, ![2048]⟩
abbrev S2048x1 : Shape := ⟨2, ![2048, 1]⟩
abbrev S2048x1x3 : Shape := ⟨3, ![2048, 1, 3]⟩
abbrev S262144x3x1 : Shape := ⟨3, ![262144, 3, 1]⟩
abbrev S1x1x6 : Shape := ⟨3, ![1, 1, 6]⟩
abbrev S262144x3x6 : Shape := ⟨3, ![262144, 3, 6]⟩
abbrev S262144x18 : Shape := ⟨2, ![262144, 18]⟩
abbrev S262144x39 : Shape := ⟨2, ![262144, 39]⟩
abbrev S1x1x4 : Shape := ⟨3, ![1, 1, 4]⟩
abbrev S262144x3x4 : Shape := ⟨3, ![262144, 3, 4]⟩
abbrev S262144x12 : Shape := ⟨2, ![262144, 12]⟩
abbrev S262144x27 : Shape := ⟨2, ![262144, 27]⟩
abbrev S39x256 : Shape := ⟨2, ![39, 256]⟩
abbrev S262144x256 : Shape := ⟨2, ![262144, 256]⟩
abbrev S262144x295 : Shape := ⟨2, ![262144, 295]⟩
abbrev S295x256 : Shape := ⟨2, ![295, 256]⟩
abbrev S256x1 : Shape := ⟨2, ![256, 1]⟩
abbrev S262144x1 : Shape := ⟨2, ![262144, 1]⟩
abbrev S1x1 : Shape := ⟨2, ![1, 1]⟩
abbrev S256x128 : Shape := ⟨2, ![256, 128]⟩
abbrev S262144x128 : Shape := ⟨2, ![262144, 128]⟩
abbrev S1x128 : Shape := ⟨2, ![1, 128]⟩
abbrev S262144x155 : Shape := ⟨2, ![262144, 155]⟩
abbrev S155x128 : Shape := ⟨2, ![155, 128]⟩
abbrev S128x3 : Shape := ⟨2, ![128, 3]⟩
abbrev S1x3 : Shape := ⟨2, ![1, 3]⟩
abbrev S2048x128x1 : Shape := ⟨3, ![2048, 128, 1]⟩

abbrev nBuf : Space → Nat
  | .hbm => 165
  | .vmem => 0
  | .smem => 0
  | _ => 0

abbrev hbmTy0_0 (i : Nat) : BufTy := match i % 128 with
  | 0 => ⟨S2048x128x3, .f32⟩
  | 1 => ⟨S2048x3, .f32⟩
  | 2 => ⟨S256x39, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256x295, .f32⟩
  | 13 => ⟨S256, .f32⟩
  | 14 => ⟨S256x256, .f32⟩
  | 15 => ⟨S256, .f32⟩
  | 16 => ⟨S256x256, .f32⟩
  | 17 => ⟨S256, .f32⟩
  | 18 => ⟨S1x256, .f32⟩
  | 19 => ⟨S1, .f32⟩
  | 20 => ⟨S128x256, .f32⟩
  | 21 => ⟨S128, .f32⟩
  | 22 => ⟨S128x155, .f32⟩
  | 23 => ⟨S128, .f32⟩
  | 24 => ⟨S3x128, .f32⟩
  | 25 => ⟨S3, .f32⟩
  | 26 => ⟨S6, .f32⟩
  | 27 => ⟨S4, .f32⟩
  | 28 => ⟨S262144x3, .f32⟩
  | 29 => ⟨S2048x3, .f32⟩
  | 30 => ⟨S_, .f32⟩
  | 31 => ⟨S2048, .f32⟩
  | 32 => ⟨S2048x1, .f32⟩
  | 33 => ⟨S2048x1, .f32⟩
  | 34 => ⟨S_, .f32⟩
  | 35 => ⟨S2048x1, .f32⟩
  | 36 => ⟨S2048x1, .f32⟩
  | 37 => ⟨S2048x3, .f32⟩
  | 38 => ⟨S2048x3, .f32⟩
  | 39 => ⟨S2048x1x3, .f32⟩
  | 40 => ⟨S2048x128x3, .f32⟩
  | 41 => ⟨S262144x3, .f32⟩
  | 42 => ⟨S262144x3x1, .f32⟩
  | 43 => ⟨S1x1x6, .f32⟩
  | 44 => ⟨S262144x3x6, .f32⟩
  | 45 => ⟨S262144x3x6, .f32⟩
  | 46 => ⟨S262144x3x6, .f32⟩
  | 47 => ⟨S262144x18, .f32⟩
  | 48 => ⟨S262144x18, .f32⟩
  | 49 => ⟨S262144x18, .f32⟩
  | 50 => ⟨S262144x39, .f32⟩
  | 51 => ⟨S262144x3x1, .f32⟩
  | 52 => ⟨S1x1x4, .f32⟩
  | 53 => ⟨S262144x3x4, .f32⟩
  | 54 => ⟨S262144x3x4, .f32⟩
  | 55 => ⟨S262144x3x4, .f32⟩
  | 56 => ⟨S262144x12, .f32⟩
  | 57 => ⟨S262144x12, .f32⟩
  | 58 => ⟨S262144x12, .f32⟩
  | 59 => ⟨S262144x27, .f32⟩
  | 60 => ⟨S39x256, .f32⟩
  | 61 => ⟨S262144x256, .f32⟩
  | 62 => ⟨S1x256, .f32⟩
  | 63 => ⟨S262144x256, .f32⟩
  | 64 => ⟨S262144x256, .f32⟩
  | 65 => ⟨S_, .f32⟩
  | 66 => ⟨S262144x256, .f32⟩
  | 67 => ⟨S262144x256, .f32⟩
  | 68 => ⟨S256x256, .f32⟩
  | 69 => ⟨S262144x256, .f32⟩
  | 70 => ⟨S1x256, .f32⟩
  | 71 => ⟨S262144x256, .f32⟩
  | 72 => ⟨S262144x256, .f32⟩
  | 73 => ⟨S_, .f32⟩
  | 74 => ⟨S262144x256, .f32⟩
  | 75 => ⟨S262144x256, .f32⟩
  | 76 => ⟨S256x256, .f32⟩
  | 77 => ⟨S262144x256, .f32⟩
  | 78 => ⟨S1x256, .f32⟩
  | 79 => ⟨S262144x256, .f32⟩
  | 80 => ⟨S262144x256, .f32⟩
  | 81 => ⟨S_, .f32⟩
  | 82 => ⟨S262144x256, .f32⟩
  | 83 => ⟨S262144x256, .f32⟩
  | 84 => ⟨S256x256, .f32⟩
  | 85 => ⟨S262144x256, .f32⟩
  | 86 => ⟨S1x256, .f32⟩
  | 87 => ⟨S262144x256, .f32⟩
  | 88 => ⟨S262144x256, .f32⟩
  | 89 => ⟨S_, .f32⟩
  | 90 => ⟨S262144x256, .f32⟩
  | 91 => ⟨S262144x256, .f32⟩
  | 92 => ⟨S256x256, .f32⟩
  | 93 => ⟨S262144x256, .f32⟩
  | 94 => ⟨S1x256, .f32⟩
  | 95 => ⟨S262144x256, .f32⟩
  | 96 => ⟨S262144x256, .f32⟩
  | 97 => ⟨S_, .f32⟩
  | 98 => ⟨S262144x256, .f32⟩
  | 99 => ⟨S262144x256, .f32⟩
  | 100 => ⟨S262144x295, .f32⟩
  | 101 => ⟨S295x256, .f32⟩
  | 102 => ⟨S262144x256, .f32⟩
  | 103 => ⟨S1x256, .f32⟩
  | 104 => ⟨S262144x256, .f32⟩
  | 105 => ⟨S262144x256, .f32⟩
  | 106 => ⟨S_, .f32⟩
  | 107 => ⟨S262144x256, .f32⟩
  | 108 => ⟨S262144x256, .f32⟩
  | 109 => ⟨S256x256, .f32⟩
  | 110 => ⟨S262144x256, .f32⟩
  | 111 => ⟨S1x256, .f32⟩
  | 112 => ⟨S262144x256, .f32⟩
  | 113 => ⟨S262144x256, .f32⟩
  | 114 => ⟨S_, .f32⟩
  | 115 => ⟨S262144x256, .f32⟩
  | 116 => ⟨S262144x256, .f32⟩
  | 117 => ⟨S256x256, .f32⟩
  | 118 => ⟨S262144x256, .f32⟩
  | 119 => ⟨S1x256, .f32⟩
  | 120 => ⟨S262144x256, .f32⟩
  | 121 => ⟨S262144x256, .f32⟩
  | 122 => ⟨S_, .f32⟩
  | 123 => ⟨S262144x256, .f32⟩
  | 124 => ⟨S262144x256, .f32⟩
  | 125 => ⟨S256x1, .f32⟩
  | 126 => ⟨S262144x1, .f32⟩
  | 127 => ⟨S1x1, .f32⟩
  | _ => ⟨S2048x128x3, .f32⟩

abbrev hbmTy0_1 (i : Nat) : BufTy := match i % 128 with
  | 0 => ⟨S262144x1, .f32⟩
  | 1 => ⟨S262144x1, .f32⟩
  | 2 => ⟨S_, .f32⟩
  | 3 => ⟨S262144x1, .f32⟩
  | 4 => ⟨S262144x1, .f32⟩
  | 5 => ⟨S256x128, .f32⟩
  | 6 => ⟨S262144x128, .f32⟩
  | 7 => ⟨S1x128, .f32⟩
  | 8 => ⟨S262144x128, .f32⟩
  | 9 => ⟨S262144x128, .f32⟩
  | 10 => ⟨S_, .f32⟩
  | 11 => ⟨S262144x128, .f32⟩
  | 12 => ⟨S262144x128, .f32⟩
  | 13 => ⟨S262144x155, .f32⟩
  | 14 => ⟨S155x128, .f32⟩
  | 15 => ⟨S262144x128, .f32⟩
  | 16 => ⟨S1x128, .f32⟩
  | 17 => ⟨S262144x128, .f32⟩
  | 18 => ⟨S262144x128, .f32⟩
  | 19 => ⟨S_, .f32⟩
  | 20 => ⟨S262144x128, .f32⟩
  | 21 => ⟨S262144x128, .f32⟩
  | 22 => ⟨S128x3, .f32⟩
  | 23 => ⟨S262144x3, .f32⟩
  | 24 => ⟨S1x3, .f32⟩
  | 25 => ⟨S262144x3, .f32⟩
  | 26 => ⟨S262144x3, .f32⟩
  | 27 => ⟨S262144x3, .f32⟩
  | 28 => ⟨S262144x3, .f32⟩
  | 29 => ⟨S_, .f32⟩
  | 30 => ⟨S262144x3, .f32⟩
  | 31 => ⟨S262144x3, .f32⟩
  | 32 => ⟨S_, .f32⟩
  | 33 => ⟨S262144x3, .f32⟩
  | 34 => ⟨S262144x3, .f32⟩
  | 35 => ⟨S2048x128x1, .f32⟩
  | 36 => ⟨S2048x128x3, .f32⟩
  | _ => ⟨S2048x128x3, .f32⟩

abbrev hbmTy (i : Nat) : BufTy := match i / 128 with
  | 0 => hbmTy0_0 i
  | 1 => hbmTy0_1 i
  | _ => ⟨S2048x128x3, .f32⟩

abbrev bufTy : (tb : Table) → Fin (tcTables nBuf tb) → BufTy
  | .hbm, ⟨i, _⟩ => hbmTy i
  | _, _ => ⟨S2048x128x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_cst_0 : Ref sig .tc := ⟨.hbm, 27, rfl⟩
abbrev main_v0 : Ref sig .tc := ⟨.hbm, 28, rfl⟩
abbrev main_call0_v0 : Ref sig .tc := ⟨.hbm, 29, rfl⟩
abbrev main_call0_cst : Ref sig .tc := ⟨.hbm, 30, rfl⟩
abbrev main_call0_v1 : Ref sig .tc := ⟨.hbm, 31, rfl⟩
abbrev main_call0_v2 : Ref sig .tc := ⟨.hbm, 32, rfl⟩
abbrev main_v1 : Ref sig .tc := ⟨.hbm, 33, rfl⟩
abbrev main_cst_1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_call1_cst : Ref sig .tc := ⟨.hbm, 65, rfl⟩
abbrev main_call1_v0 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_call2_cst : Ref sig .tc := ⟨.hbm, 73, rfl⟩
abbrev main_call2_v0 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_call3_cst : Ref sig .tc := ⟨.hbm, 81, rfl⟩
abbrev main_call3_v0 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_call4_cst : Ref sig .tc := ⟨.hbm, 89, rfl⟩
abbrev main_call4_v0 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_call5_cst : Ref sig .tc := ⟨.hbm, 97, rfl⟩
abbrev main_call5_v0 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_call6_cst : Ref sig .tc := ⟨.hbm, 106, rfl⟩
abbrev main_call6_v0 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_call7_cst : Ref sig .tc := ⟨.hbm, 114, rfl⟩
abbrev main_call7_v0 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_call8_cst : Ref sig .tc := ⟨.hbm, 122, rfl⟩
abbrev main_call8_v0 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_call9_cst : Ref sig .tc := ⟨.hbm, 130, rfl⟩
abbrev main_call9_v0 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_call10_cst : Ref sig .tc := ⟨.hbm, 138, rfl⟩
abbrev main_call10_v0 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_call11_cst : Ref sig .tc := ⟨.hbm, 147, rfl⟩
abbrev main_call11_v0 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_cst_2 : Ref sig .tc := ⟨.hbm, 157, rfl⟩
abbrev main_v102 : Ref sig .tc := ⟨.hbm, 158, rfl⟩
abbrev main_v103 : Ref sig .tc := ⟨.hbm, 159, rfl⟩
abbrev main_cst_3 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩

abbrev nD : Nat := 1
abbrev τ : Topo := Topo.v7x

variable {F : FTy → Type} [FloatOps F]

class Facts₀ : Prop where
  shapeCasts_S2048x128x3_S262144x3 : S2048x128x3.ShapeCasts S262144x3
  reducesTo_S2048x3_S2048_d1 : S2048x3.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x3_0_1 : S2048x1.BroadcastsInDim S2048x3 (![0, 1] : Fin 2 → Fin S2048x3.rank)
  bcast_S2048x3_S2048x1x3_0_2 : S2048x3.BroadcastsInDim S2048x1x3 (![0, 2] : Fin 2 → Fin S2048x1x3.rank)
  bcast_S2048x1x3_S2048x128x3_0_1_2 : S2048x1x3.BroadcastsInDim S2048x128x3 (![0, 1, 2] : Fin 3 → Fin S2048x128x3.rank)
  bcast_S262144x3_S262144x3x1_0_1 : S262144x3.BroadcastsInDim S262144x3x1 (![0, 1] : Fin 2 → Fin S262144x3x1.rank)
  bcast_S6_S1x1x6_2 : S6.BroadcastsInDim S1x1x6 (![2] : Fin 1 → Fin S1x1x6.rank)
  bcast_S262144x3x1_S262144x3x6_0_1_2 : S262144x3x1.BroadcastsInDim S262144x3x6 (![0, 1, 2] : Fin 3 → Fin S262144x3x6.rank)
  bcast_S1x1x6_S262144x3x6_0_1_2 : S1x1x6.BroadcastsInDim S262144x3x6 (![0, 1, 2] : Fin 3 → Fin S262144x3x6.rank)
  shapeCasts_S262144x3x6_S262144x18 : S262144x3x6.ShapeCasts S262144x18
  concatenates_S262144x18_S262144x18_S262144x3_S262144x39_d1 : Shape.Concatenates [S262144x18, S262144x18, S262144x3] S262144x39 1
  bcast_S4_S1x1x4_2 : S4.BroadcastsInDim S1x1x4 (![2] : Fin 1 → Fin S1x1x4.rank)
  bcast_S262144x3x1_S262144x3x4_0_1_2 : S262144x3x1.BroadcastsInDim S262144x3x4 (![0, 1, 2] : Fin 3 → Fin S262144x3x4.rank)
  bcast_S1x1x4_S262144x3x4_0_1_2 : S1x1x4.BroadcastsInDim S262144x3x4 (![0, 1, 2] : Fin 3 → Fin S262144x3x4.rank)
  shapeCasts_S262144x3x4_S262144x12 : S262144x3x4.ShapeCasts S262144x12
  concatenates_S262144x12_S262144x12_S262144x3_S262144x27_d1 : Shape.Concatenates [S262144x12, S262144x12, S262144x3] S262144x27 1
  transposes_S256x39_S39x256_1_0 : S256x39.Transposes [1, 0] S39x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  transposes_S256x256_S256x256_1_0 : S256x256.Transposes [1, 0] S256x256
  concatenates_S262144x256_S262144x39_S262144x295_d1 : Shape.Concatenates [S262144x256, S262144x39] S262144x295 1
  transposes_S256x295_S295x256_1_0 : S256x295.Transposes [1, 0] S295x256
  transposes_S1x256_S256x1_1_0 : S1x256.Transposes [1, 0] S256x1
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  bcast_S_S262144x1 : S_.BroadcastsInDim S262144x1 (![] : Fin 0 → Fin S262144x1.rank)
  transposes_S128x256_S256x128_1_0 : S128x256.Transposes [1, 0] S256x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  concatenates_S262144x128_S262144x27_S262144x155_d1 : Shape.Concatenates [S262144x128, S262144x27] S262144x155 1
  transposes_S128x155_S155x128_1_0 : S128x155.Transposes [1, 0] S155x128
  transposes_S3x128_S128x3_1_0 : S3x128.Transposes [1, 0] S128x3
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  bcast_S_S262144x3 : S_.BroadcastsInDim S262144x3 (![] : Fin 0 → Fin S262144x3.rank)
  shapeCasts_S262144x1_S2048x128x1 : S262144x1.ShapeCasts S2048x128x1
  shapeCasts_S262144x3_S2048x128x3 : S262144x3.ShapeCasts S2048x128x3
  dot_S262144x39_S39x256_S262144x256_1_0_0_1_n_n_wf : DotDims.WF S262144x39 S39x256 S262144x256 [1] [0] [0] [1] [] []
  dot_S262144x256_S256x256_S262144x256_1_0_0_1_n_n_wf : DotDims.WF S262144x256 S256x256 S262144x256 [1] [0] [0] [1] [] []
  dot_S262144x295_S295x256_S262144x256_1_0_0_1_n_n_wf : DotDims.WF S262144x295 S295x256 S262144x256 [1] [0] [0] [1] [] []
  dot_S262144x256_S256x1_S262144x1_1_0_0_1_n_n_wf : DotDims.WF S262144x256 S256x1 S262144x1 [1] [0] [0] [1] [] []
  dot_S262144x256_S256x128_S262144x128_1_0_0_1_n_n_wf : DotDims.WF S262144x256 S256x128 S262144x128 [1] [0] [0] [1] [] []
  dot_S262144x155_S155x128_S262144x128_1_0_0_1_n_n_wf : DotDims.WF S262144x155 S155x128 S262144x128 [1] [0] [0] [1] [] []
  dot_S262144x128_S128x3_S262144x3_1_0_0_1_n_n_wf : DotDims.WF S262144x128 S128x3 S262144x3 [1] [0] [0] [1] [] []

variable [Facts₀]

def dot_S262144x39_S39x256_S262144x256_1_0_0_1_n_n : DotDims S262144x39 S39x256 S262144x256 where
  lhsContracting := [1]
  rhsContracting := [0]
  lhsNonContracting := [0]
  rhsNonContracting := [1]
  lhsBatch := []
  rhsBatch := []
  wf := dot_S262144x39_S39x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x295_S295x256_S262144x256_1_0_0_1_n_n : DotDims S262144x295 S295x256 S262144x256 where
  lhsContracting := [1]
  rhsContracting := [0]
  lhsNonContracting := [0]
  rhsNonContracting := [1]
  lhsBatch := []
  rhsBatch := []
  wf := dot_S262144x295_S295x256_S262144x256_1_0_0_1_n_n_wf
def dot_S262144x256_S256x1_S262144x1_1_0_0_1_n_n : DotDims S262144x256 S256x1 S262144x1 where
  lhsContracting := [1]
  rhsContracting := [0]
  lhsNonContracting := [0]
  rhsNonContracting := [1]
  lhsBatch := []
  rhsBatch := []
  wf := dot_S262144x256_S256x1_S262144x1_1_0_0_1_n_n_wf
def dot_S262144x256_S256x128_S262144x128_1_0_0_1_n_n : DotDims S262144x256 S256x128 S262144x128 where
  lhsContracting := [1]
  rhsContracting := [0]
  lhsNonContracting := [0]
  rhsNonContracting := [1]
  lhsBatch := []
  rhsBatch := []
  wf := dot_S262144x256_S256x128_S262144x128_1_0_0_1_n_n_wf
def dot_S262144x155_S155x128_S262144x128_1_0_0_1_n_n : DotDims S262144x155 S155x128 S262144x128 where
  lhsContracting := [1]
  rhsContracting := [0]
  lhsNonContracting := [0]
  rhsNonContracting := [1]
  lhsBatch := []
  rhsBatch := []
  wf := dot_S262144x155_S155x128_S262144x128_1_0_0_1_n_n_wf
def dot_S262144x128_S128x3_S262144x3_1_0_0_1_n_n : DotDims S262144x128 S128x3 S262144x3 where
  lhsContracting := [1]
  rhsContracting := [0]
  lhsNonContracting := [0]
  rhsNonContracting := [1]
  lhsBatch := []
  rhsBatch := []
  wf := dot_S262144x128_S128x3_S262144x3_1_0_0_1_n_n_wf

class Facts : Prop extends Facts₀ where

variable [Facts]
-- ==== Proof.KFrameHost.lean ====
import proofs.«181742_j549755814570_2_alg».proof.Proof.Gen.Kernel.Launch
import proofs.«181742_j549755814570_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! # The program around its one region

The program is three stretches of host operations, the region, and a tail of four host operations. Each host operation
writes exactly one buffer, its result, and no result buffer is an argument array. Hence: the region finds every
argument array as launched; the tail leaves every argument array, and every array of the pipeline, as the region left
it; and from the frame run's post each argument array ends as launched — an array some input window stages because an
input window's array is never written back, any other because nothing at all writes it. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core c's TensorCore buffer contents when the region is entered, as a valuation: after the three stretches of host
    operations before the region. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program around the region: the host stretches before it, the region, the host tail after it. It reduces to the
    region continued by the tail. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The tail's side conditions -/

/-- The tail touches the pipeline's arrays and the bypassing buffers only: each operation's buffers are unscoped
    TensorCore references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: each operation writes only its own result buffer, which is no array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## What the host operations write -/

/-- The buffers the 67 host operations before the region write, one result each, in program order. -/
abbrev prefixW : List (Ref sig .tc) :=
  [main_cst, main_cst_0, main_v0,
   main_call0_v0, main_call0_cst, main_call0_v1, main_call0_v2, main_v1,
   main_cst_1, main_v2, main_v3, main_v4, main_v5, main_v6, main_v7, main_v8, main_v9, main_v10, main_v11, main_v12,
   main_v13, main_v14, main_v15, main_v16, main_v17, main_v18, main_v19, main_v20, main_v21, main_v22, main_v23,
   main_v24, main_v25, main_v26, main_v27, main_v28, main_v29, main_v30, main_v31, main_v32, main_v33, main_v34,
   main_v35, main_v36, main_v37, main_v38, main_v39, main_v40, main_v41, main_v42, main_v43, main_v44, main_v45,
   main_v46, main_v47, main_v48, main_v49, main_v50, main_v51, main_v52, main_v53, main_v54, main_v55, main_v56,
   main_v57, main_v58, main_v59]

/-- Every host operation before the region writes within that list. -/
theorem prefix_writes : (List.flatten [hostOps0, hostOps0_1, hostOps0_2] : List (HloOp τ sig (Elt F))).Forall
    fun op => op.writes ⊆ (prefixW.map (Proc.devRef (τ := τ) .tc)).toFinset := by
  simp only [hostOps0, hostOps0_1, hostOps0_2, List.flatten_cons, List.flatten_nil, List.append_nil, List.cons_append,
    List.nil_append, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the four host operations after the region write. -/
abbrev tailW : List (Ref sig .tc) := [main_v61, main_v62, main_v63, main_v64]

/-- Every host operation after the region writes within that list. -/
theorem tail_writes : (List.flatten [hostOps1] : List (HloOp τ sig (Elt F))).Forall
    fun op => op.writes ⊆ (tailW.map (Proc.devRef (τ := τ) .tc)).toFinset := by
  simp only [hostOps1, List.flatten_cons, List.flatten_nil, List.append_nil, List.cons_append, List.nil_append, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer no host operation before the region writes is found by the region as launched. -/
theorem V_of (c : Dev nD) (r : Ref sig .tc) (h : r ∉ prefixW) : V m c r = m ((c : Thread nD τ).loc r) :=
  StableHlo.after_of_writes_sub _ _ prefix_writes h

/-- A buffer that is no array of the pipeline and that no host operation writes, before or after the region, ends as
    launched: the tail writes elsewhere, the region's write-backs are to its arrays only, the prefix writes elsewhere. -/
theorem W_of (dats : (p : Fin 1) → (c : Dev nD) → Dat τ (Elt F) Unit ℕ (UR sig nD τ) ℕ (cfgs p) c) (c : Dev nD)
    (r : Ref sig .tc) (ht : r ∉ tailW) (ha : ∀ w, Pipeline.arrRef spec0 w ≠ r) (hp : r ∉ prefixW) :
    Pipeline.afterTail₀ cfgs dats 0 (V0 m) [hostOps1] c r = m ((c : Thread nD τ).loc r) := by
  unfold Pipeline.afterTail₀
  rw [StableHlo.after_of_writes_sub _ _ tail_writes ht, Pipeline.withArrays_of_ne _ c (V0 m c) _ r (by exact ha)]
  exact V_of m c r hp

/-- The array of an INPUT window that no host operation writes ends as launched, for proof data whose arrays are the
    region-entry contents: the tail writes elsewhere, an input window's array is never written back, and the prefix
    writes elsewhere. -/
theorem Wst_of (dats : (p : Fin 1) → (c : Dev nD) → Dat τ (Elt F) Unit ℕ (UR sig nD τ) ℕ (cfgs p) c)
    (hA : ∀ c w, (dats 0 c).A w = V m c (Pipeline.arrRef spec0 w)) (c : Dev nD) (w : Fin cfg0.W)
    (hin : (cfg0.win w).isOut = false) (ht : Pipeline.arrRef spec0 w ∉ tailW) (hp : Pipeline.arrRef spec0 w ∉ prefixW) :
    Pipeline.afterTail₀ cfgs dats 0 (V0 m) [hostOps1] c (Pipeline.arrRef spec0 w)
      = m ((c : Thread nD τ).loc (Pipeline.arrRef spec0 w)) := by
  unfold Pipeline.afterTail₀
  rw [StableHlo.after_of_writes_sub _ _ tail_writes ht]
  exact (Pipeline.withArrays_arr spec0 launch0.win.arr_inj c (V0 m c) _ w).trans
    (((dats 0 c).arrAt_in w hin _).trans ((hA c w).trans (V_of m c _ hp)))

/-! ## Each argument array as the region finds it -/

theorem V_main_arg0 (c : Dev nD) : V m c main_arg0 = m ((c : Thread nD τ).loc main_arg0) := V_of m c main_arg0 (by decide)
theorem V_main_arg1 (c : Dev nD) : V m c main_arg1 = m ((c : Thread nD τ).loc main_arg1) := V_of m c main_arg1 (by decide)
theorem V_main_arg2 (c : Dev nD) : V m c main_arg2 = m ((c : Thread nD τ).loc main_arg2) := V_of m c main_arg2 (by decide)
theorem V_main_arg3 (c : Dev nD) : V m c main_arg3 = m ((c : Thread nD τ).loc main_arg3) := V_of m c main_arg3 (by decide)
theorem V_main_arg4 (c : Dev nD) : V m c main_arg4 = m ((c : Thread nD τ).loc main_arg4) := V_of m c main_arg4 (by decide)
theorem V_main_arg5 (c : Dev nD) : V m c main_arg5 = m ((c : Thread nD τ).loc main_arg5) := V_of m c main_arg5 (by decide)
theorem V_main_arg6 (c : Dev nD) : V m c main_arg6 = m ((c : Thread nD τ).loc main_arg6) := V_of m c main_arg6 (by decide)
theorem V_main_arg7 (c : Dev nD) : V m c main_arg7 = m ((c : Thread nD τ).loc main_arg7) := V_of m c main_arg7 (by decide)
theorem V_main_arg8 (c : Dev nD) : V m c main_arg8 = m ((c : Thread nD τ).loc main_arg8) := V_of m c main_arg8 (by decide)
theorem V_main_arg9 (c : Dev nD) : V m c main_arg9 = m ((c : Thread nD τ).loc main_arg9) := V_of m c main_arg9 (by decide)
theorem V_main_arg10 (c : Dev nD) : V m c main_arg10 = m ((c : Thread nD τ).loc main_arg10) := V_of m c main_arg10 (by decide)
theorem V_main_arg11 (c : Dev nD) : V m c main_arg11 = m ((c : Thread nD τ).loc main_arg11) := V_of m c main_arg11 (by decide)
theorem V_main_arg12 (c : Dev nD) : V m c main_arg12 = m ((c : Thread nD τ).loc main_arg12) := V_of m c main_arg12 (by decide)
theorem V_main_arg13 (c : Dev nD) : V m c main_arg13 = m ((c : Thread nD τ).loc main_arg13) := V_of m c main_arg13 (by decide)
theorem V_main_arg14 (c : Dev nD) : V m c main_arg14 = m ((c : Thread nD τ).loc main_arg14) := V_of m c main_arg14 (by decide)
theorem V_main_arg15 (c : Dev nD) : V m c main_arg15 = m ((c : Thread nD τ).loc main_arg15) := V_of m c main_arg15 (by decide)
theorem V_main_arg16 (c : Dev nD) : V m c main_arg16 = m ((c : Thread nD τ).loc main_arg16) := V_of m c main_arg16 (by decide)
theorem V_main_arg17 (c : Dev nD) : V m c main_arg17 = m ((c : Thread nD τ).loc main_arg17) := V_of m c main_arg17 (by decide)
theorem V_main_arg18 (c : Dev nD) : V m c main_arg18 = m ((c : Thread nD τ).loc main_arg18) := V_of m c main_arg18 (by decide)
theorem V_main_arg19 (c : Dev nD) : V m c main_arg19 = m ((c : Thread nD τ).loc main_arg19) := V_of m c main_arg19 (by decide)
theorem V_main_arg20 (c : Dev nD) : V m c main_arg20 = m ((c : Thread nD τ).loc main_arg20) := V_of m c main_arg20 (by decide)
theorem V_main_arg21 (c : Dev nD) : V m c main_arg21 = m ((c : Thread nD τ).loc main_arg21) := V_of m c main_arg21 (by decide)
theorem V_main_arg22 (c : Dev nD) : V m c main_arg22 = m ((c : Thread nD τ).loc main_arg22) := V_of m c main_arg22 (by decide)
theorem V_main_arg23 (c : Dev nD) : V m c main_arg23 = m ((c : Thread nD τ).loc main_arg23) := V_of m c main_arg23 (by decide)
theorem V_main_arg24 (c : Dev nD) : V m c main_arg24 = m ((c : Thread nD τ).loc main_arg24) := V_of m c main_arg24 (by decide)
theorem V_main_arg25 (c : Dev nD) : V m c main_arg25 = m ((c : Thread nD τ).loc main_arg25) := V_of m c main_arg25 (by decide)

/-! ## Each argument array after the tail

Sixteen argument arrays are no window's array: they end as launched for any proof data. The other ten are the arrays of
input windows 3, 5, 7, 9, 11, 14, 16, 18, 23 and 25: they end as launched for proof data whose arrays are the
region-entry contents. -/

theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  W_of m dats c main_arg0 (by decide) (by decide) (by decide)
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  W_of m dats c main_arg1 (by decide) (by decide) (by decide)
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  W_of m dats c main_arg2 (by decide) (by decide) (by decide)
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  W_of m dats c main_arg4 (by decide) (by decide) (by decide)
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  W_of m dats c main_arg6 (by decide) (by decide) (by decide)
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  W_of m dats c main_arg8 (by decide) (by decide) (by decide)
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  W_of m dats c main_arg10 (by decide) (by decide) (by decide)
theorem W_main_arg12 (dats : (p : Fin 1) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) :=
  W_of m dats c main_arg12 (by decide) (by decide) (by decide)
theorem W_main_arg14 (dats : (p : Fin 1) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) :=
  W_of m dats c main_arg14 (by decide) (by decide) (by decide)
theorem W_main_arg16 (dats : (p : Fin 1) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) :=
  W_of m dats c main_arg16 (by decide) (by decide) (by decide)
theorem W_main_arg18 (dats : (p : Fin 1) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) :=
  W_of m dats c main_arg18 (by decide) (by decide) (by decide)
theorem W_main_arg19 (dats : (p : Fin 1) → (c : Dev nD) → Dat τ (Elt F) Unit ℕ (UR sig nD τ) ℕ (cfgs p) c) (c : Dev nD) :
    Pipeline.afterTail₀ cfgs dats 0 (V0 m) [hostOps1] c main_arg19 = m ((c : Thread nD τ).loc main_arg19) :=
  W_of m dats c main_arg19 (by decide) (by decide) (by decide)
theorem W_main_arg20 (dats : (p : Fin 1) → (c : Dev nD) → Dat τ (Elt F) Unit ℕ (UR sig nD τ) ℕ (cfgs p) c) (c : Dev nD) :
    Pipeline.afterTail₀ cfgs dats 0 (V0 m) [hostOps1] c main_arg20 = m ((c : Thread nD τ).loc main_arg20) :=
  W_of m dats c main_arg20 (by decide) (by decide) (by decide)
theorem W_main_arg21 (dats : (p : Fin 1) → (c : Dev nD) → Dat τ (Elt F) Unit ℕ (UR sig nD τ) ℕ (cfgs p) c) (c : Dev nD) :
    Pipeline.afterTail₀ cfgs dats 0 (V0 m) [hostOps1] c main_arg21 = m ((c : Thread nD τ).loc main_arg21) :=
  W_of m dats c main_arg21 (by decide) (by decide) (by decide)
theorem W_main_arg22 (dats : (p : Fin 1) → (c : Dev nD) → Dat τ (Elt F) Unit ℕ (UR sig nD τ) ℕ (cfgs p) c) (c : Dev nD) :
    Pipeline.afterTail₀ cfgs dats 0 (V0 m) [hostOps1] c main_arg22 = m ((c : Thread nD τ).loc main_arg22) :=
  W_of m dats c main_arg22 (by decide) (by decide) (by decide)
theorem W_main_arg24 (dats : (p : Fin 1) → (c : Dev nD) → Dat τ (Elt F) Unit ℕ (UR sig nD τ) ℕ (cfgs p) c) (c : Dev nD) :
    Pipeline.afterTail₀ cfgs dats 0 (V0 m) [hostOps1] c main_arg24 = m ((c : Thread nD τ).loc main_arg24) :=
  W_of m dats c main_arg24 (by decide) (by decide) (by decide)

theorem Wst_main_arg3 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg3 = m ((c : Thread nD τ).loc main_arg3) :=
  Wst_of m dats hA c 3 rfl (by decide) (by decide)
theorem Wst_main_arg5 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg5 = m ((c : Thread nD τ).loc main_arg5) :=
  Wst_of m dats hA c 5 rfl (by decide) (by decide)
theorem Wst_main_arg7 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg7 = m ((c : Thread nD τ).loc main_arg7) :=
  Wst_of m dats hA c 7 rfl (by decide) (by decide)
theorem Wst_main_arg9 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg9 = m ((c : Thread nD τ).loc main_arg9) :=
  Wst_of m dats hA c 9 rfl (by decide) (by decide)
theorem Wst_main_arg11 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg11 = m ((c : Thread nD τ).loc main_arg11) :=
  Wst_of m dats hA c 11 rfl (by decide) (by decide)
theorem Wst_main_arg13 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg13 = m ((c : Thread nD τ).loc main_arg13) :=
  Wst_of m dats hA c 14 rfl (by decide) (by decide)
theorem Wst_main_arg15 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg15 = m ((c : Thread nD τ).loc main_arg15) :=
  Wst_of m dats hA c 16 rfl (by decide) (by decide)
theorem Wst_main_arg17 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg17 = m ((c : Thread nD τ).loc main_arg17) :=
  Wst_of m dats hA c 18 rfl (by decide) (by decide)
theorem Wst_main_arg23 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg23 = m ((c : Thread nD τ).loc main_arg23) :=
  Wst_of m dats hA c 23 rfl (by decide) (by decide)
theorem Wst_main_arg25 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg25 = m ((c : Thread nD τ).loc main_arg25) :=
  Wst_of m dats hA c 25 rfl (by decide) (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for ANY proof data
whose array is the region-entry contents and whose body leaves the block in place: where the window is not fetched its
block index has not moved, and the window is uncut and never idle. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)

/-! ## The argument arrays from the frame run's post -/

set_option maxHeartbeats 1620000 in
/-- From the frame run's post at a final state, every argument array ends as launched, for any proof data whose arrays
    are the region-entry contents: the array of an input window is never written back, so it holds the region-entry
    contents, which are the launch contents; any other argument array is among the buffers the post leaves to the tail,
    which writes elsewhere. -/
theorem args_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).1 3).trans (((dats 0 c).arrAt_in 3 rfl _).trans ((hA c 3).trans (V_main_arg3 m c))),
    ((h c).2 main_arg4 (Pipeline.mem_restRefs_of main_arg4 (by decide) (by decide))).trans (W_main_arg4 m dats c),
    ((h c).1 5).trans (((dats 0 c).arrAt_in 5 rfl _).trans ((hA c 5).trans (V_main_arg5 m c))),
    ((h c).2 main_arg6 (Pipeline.mem_restRefs_of main_arg6 (by decide) (by decide))).trans (W_main_arg6 m dats c),
    ((h c).1 7).trans (((dats 0 c).arrAt_in 7 rfl _).trans ((hA c 7).trans (V_main_arg7 m c))),
    ((h c).2 main_arg8 (Pipeline.mem_restRefs_of main_arg8 (by decide) (by decide))).trans (W_main_arg8 m dats c),
    ((h c).1 9).trans (((dats 0 c).arrAt_in 9 rfl _).trans ((hA c 9).trans (V_main_arg9 m c))),
    ((h c).2 main_arg10 (Pipeline.mem_restRefs_of main_arg10 (by decide) (by decide))).trans (W_main_arg10 m dats c),
    ((h c).1 11).trans (((dats 0 c).arrAt_in 11 rfl _).trans ((hA c 11).trans (V_main_arg11 m c))),
    ((h c).2 main_arg12 (Pipeline.mem_restRefs_of main_arg12 (by decide) (by decide))).trans (W_main_arg12 m dats c),
    ((h c).1 14).trans (((dats 0 c).arrAt_in 14 rfl _).trans ((hA c 14).trans (V_main_arg13 m c))),
    ((h c).2 main_arg14 (Pipeline.mem_restRefs_of main_arg14 (by decide) (by decide))).trans (W_main_arg14 m dats c),
    ((h c).1 16).trans (((dats 0 c).arrAt_in 16 rfl _).trans ((hA c 16).trans (V_main_arg15 m c))),
    ((h c).2 main_arg16 (Pipeline.mem_restRefs_of main_arg16 (by decide) (by decide))).trans (W_main_arg16 m dats c),
    ((h c).1 18).trans (((dats 0 c).arrAt_in 18 rfl _).trans ((hA c 18).trans (V_main_arg17 m c))),
    ((h c).2 main_arg18 (Pipeline.mem_restRefs_of main_arg18 (by decide) (by decide))).trans (W_main_arg18 m dats c),
    ((h c).2 main_arg19 (Pipeline.mem_restRefs_of main_arg19 (by decide) (by decide))).trans (W_main_arg19 m dats c),
    ((h c).2 main_arg20 (Pipeline.mem_restRefs_of main_arg20 (by decide) (by decide))).trans (W_main_arg20 m dats c),
    ((h c).2 main_arg21 (Pipeline.mem_restRefs_of main_arg21 (by decide) (by decide))).trans (W_main_arg21 m dats c),
    ((h c).2 main_arg22 (Pipeline.mem_restRefs_of main_arg22 (by decide) (by decide))).trans (W_main_arg22 m dats c),
    ((h c).1 23).trans (((dats 0 c).arrAt_in 23 rfl _).trans ((hA c 23).trans (V_main_arg23 m c))),
    ((h c).2 main_arg24 (Pipeline.mem_restRefs_of main_arg24 (by decide) (by decide))).trans (W_main_arg24 m dats c),
    ((h c).1 25).trans (((dats 0 c).arrAt_in 25 rfl _).trans ((hA c 25).trans (V_main_arg25 m c)))⟩

/-- THE FRAME from a frame run: a run to the frame run's post, for proof data whose arrays are the region-entry
    contents, is a run after which every argument array is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => args_of_post m dats hA r h c) h

end Cert.Kernel.Hand

end
-- ==== Proof.KFrameBody.lean ====
import proofs.«181742_j549755814570_2_alg».proof.Proof.Gen.Kernel.Launch
import proofs.«181742_j549755814570_2_alg».proof.Proof.Gen.Kernel.Skeleton
import proofs.«181742_j549755814570_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! # The kernel body's triple

The body reads each of its 26 input buffers whole, computes, and overwrites its one output buffer whole by a single
store. On whole buffers holding x0 … x25 it therefore leaves the inputs as they were and the output buffer at
out0_26 x0 … x25: the canonical contents of that one store, whose payload is the skeleton's payload chain applied
to the 26 whole-buffer reads. -/

-- membership in a rectangle whose long axis has 4096 coordinates recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer's whole rectangle -/

abbrev rc_S4096x39 : Rect S4096x39 := Rect.unit (s := S4096x39) ![0, 0] S4096x39.size inb_S4096x39_S4096x39_0_0
abbrev rc_S4096x27 : Rect S4096x27 := Rect.unit (s := S4096x27) ![0, 0] S4096x27.size inb_S4096x27_S4096x27_0_0
abbrev rc_S39x256 : Rect S39x256 := Rect.unit (s := S39x256) ![0, 0] S39x256.size inb_S39x256_S39x256_0_0
abbrev rc_S256 : Rect S256 := Rect.unit (s := S256) ![0] S256.size inb_S256_S256_0
abbrev rc_S256x256 : Rect S256x256 := Rect.unit (s := S256x256) ![0, 0] S256x256.size inb_S256x256_S256x256_0_0
abbrev rc_S256x129 : Rect S256x129 := Rect.unit (s := S256x129) ![0, 0] S256x129.size inb_S256x129_S256x129_0_0
abbrev rc_S129 : Rect S129 := Rect.unit (s := S129) ![0] S129.size inb_S129_S129_0
abbrev rc_S128x128 : Rect S128x128 := Rect.unit (s := S128x128) ![0, 0] S128x128.size inb_S128x128_S128x128_0_0
abbrev rc_S27x128 : Rect S27x128 := Rect.unit (s := S27x128) ![0, 0] S27x128.size inb_S27x128_S27x128_0_0
abbrev rc_S128 : Rect S128 := Rect.unit (s := S128) ![0] S128.size inb_S128_S128_0
abbrev rc_S128x3 : Rect S128x3 := Rect.unit (s := S128x3) ![0, 0] S128x3.size inb_S128x3_S128x3_0_0
abbrev rc_S3 : Rect S3 := Rect.unit (s := S3) ![0] S3.size inb_S3_S3_0
abbrev rc_S4096x4 : Rect S4096x4 := Rect.unit (s := S4096x4) ![0, 0] S4096x4.size inb_S4096x4_S4096x4_0_0

/-! ## What the body leaves in the output buffer -/

/-- The output buffer after the body, from the 26 input buffers' contents: its one store as a piece. The stored
    value is the last payload applied to the earlier ones, each applied to the whole-buffer reads in the order the
    skeleton binds them. -/
def out0_26 (x0 : Vec F S4096x39 .bf16) (x1 : Vec F S4096x27 .bf16) (x2 : Vec F S39x256 .bf16) (x3 : Vec F S256 .f32)
    (x4 : Vec F S256x256 .bf16) (x5 : Vec F S256 .f32) (x6 : Vec F S256x256 .bf16) (x7 : Vec F S256 .f32)
    (x8 : Vec F S256x256 .bf16) (x9 : Vec F S256 .f32) (x10 : Vec F S256x256 .bf16) (x11 : Vec F S256 .f32)
    (x12 : Vec F S256x256 .bf16) (x13 : Vec F S39x256 .bf16) (x14 : Vec F S256 .f32) (x15 : Vec F S256x256 .bf16)
    (x16 : Vec F S256 .f32) (x17 : Vec F S256x256 .bf16) (x18 : Vec F S256 .f32) (x19 : Vec F S256x129 .bf16)
    (x20 : Vec F S129 .f32) (x21 : Vec F S128x128 .bf16) (x22 : Vec F S27x128 .bf16) (x23 : Vec F S128 .f32)
    (x24 : Vec F S128x3 .bf16) (x25 : Vec F S3 .f32) : Vec F S4096x4 .f32 :=
  View.canon [⟨rc_S4096x4,
    k0_pay1
      (k0_pay7
        (k0_pay5 (k0_pay2 (View.ld x0 rc_S4096x39))
          (k0_pay4 (View.ld x0 rc_S4096x39) (View.ld x2 rc_S39x256) (View.ld x3 rc_S256) (View.ld x4 rc_S256x256)
            (View.ld x5 rc_S256) (View.ld x6 rc_S256x256) (View.ld x7 rc_S256) (View.ld x8 rc_S256x256))
          (View.ld x9 rc_S256) (View.ld x10 rc_S256x256) (View.ld x11 rc_S256) (View.ld x12 rc_S256x256)
          (View.ld x13 rc_S39x256) (View.ld x14 rc_S256) (View.ld x15 rc_S256x256) (View.ld x16 rc_S256))
        (View.ld x17 rc_S256x256) (View.ld x18 rc_S256) (View.ld x19 rc_S256x129) (View.ld x20 rc_S129))
      (k0_pay8 (k0_pay3 (View.ld x1 rc_S4096x27))
        (k0_pay5 (k0_pay2 (View.ld x0 rc_S4096x39))
          (k0_pay4 (View.ld x0 rc_S4096x39) (View.ld x2 rc_S39x256) (View.ld x3 rc_S256) (View.ld x4 rc_S256x256)
            (View.ld x5 rc_S256) (View.ld x6 rc_S256x256) (View.ld x7 rc_S256) (View.ld x8 rc_S256x256))
          (View.ld x9 rc_S256) (View.ld x10 rc_S256x256) (View.ld x11 rc_S256) (View.ld x12 rc_S256x256)
          (View.ld x13 rc_S39x256) (View.ld x14 rc_S256) (View.ld x15 rc_S256x256) (View.ld x16 rc_S256))
        (View.ld x17 rc_S256x256) (View.ld x18 rc_S256) (View.ld x19 rc_S256x129) (View.ld x20 rc_S129)
        (View.ld x21 rc_S128x128) (View.ld x22 rc_S27x128) (View.ld x23 rc_S128))
      (View.ld x24 rc_S128x3) (View.ld x25 rc_S3)⟩]

/-- The one store's rectangle is the whole buffer, so it covers it. -/
theorem cover0_26 (p0 : Vec F S4096x4 .f32) (y : S4096x4.Idx) :
    ∃ pc ∈ ([⟨rc_S4096x4, p0⟩] : List (View.Piece (Elt F) S4096x4 .f32)), y ∈ pc.1.set :=
  View.cover_of_tiled [⟨rc_S4096x4, p0⟩] S4096x4.size (by rfl) y

/-! ## The body's triple -/

set_option maxHeartbeats 4000000 in
/-- The kernel body on whole staging buffers, the inputs' at contents x0 … x25 and the output's at anything, runs to
    the continuation holding the inputs' as they were and the output's at out0_26 of the inputs'. -/
theorem sound_kernel (c : Dev nD) (E : Set ℕ) (i : grid0.Coords)
    (arg1 : Memref sig .tc .vmem S4096x39 .bf16) (harg1 : arg1.IsWhole) (arg2 : Memref sig .tc .vmem S4096x27 .bf16) (harg2 : arg2.IsWhole)
    (arg3 : Memref sig .tc .vmem S39x256 .bf16) (harg3 : arg3.IsWhole) (arg4 : Memref sig .tc .vmem S256 .f32) (harg4 : arg4.IsWhole)
    (arg5 : Memref sig .tc .vmem S256x256 .bf16) (harg5 : arg5.IsWhole) (arg6 : Memref sig .tc .vmem S256 .f32) (harg6 : arg6.IsWhole)
    (arg7 : Memref sig .tc .vmem S256x256 .bf16) (harg7 : arg7.IsWhole) (arg8 : Memref sig .tc .vmem S256 .f32) (harg8 : arg8.IsWhole)
    (arg9 : Memref sig .tc .vmem S256x256 .bf16) (harg9 : arg9.IsWhole) (arg10 : Memref sig .tc .vmem S256 .f32) (harg10 : arg10.IsWhole)
    (arg11 : Memref sig .tc .vmem S256x256 .bf16) (harg11 : arg11.IsWhole) (arg12 : Memref sig .tc .vmem S256 .f32) (harg12 : arg12.IsWhole)
    (arg13 : Memref sig .tc .vmem S256x256 .bf16) (harg13 : arg13.IsWhole) (arg14 : Memref sig .tc .vmem S39x256 .bf16) (harg14 : arg14.IsWhole)
    (arg15 : Memref sig .tc .vmem S256 .f32) (harg15 : arg15.IsWhole) (arg16 : Memref sig .tc .vmem S256x256 .bf16) (harg16 : arg16.IsWhole)
    (arg17 : Memref sig .tc .vmem S256 .f32) (harg17 : arg17.IsWhole) (arg18 : Memref sig .tc .vmem S256x256 .bf16) (harg18 : arg18.IsWhole)
    (arg19 : Memref sig .tc .vmem S256 .f32) (harg19 : arg19.IsWhole) (arg20 : Memref sig .tc .vmem S256x129 .bf16) (harg20 : arg20.IsWhole)
    (arg21 : Memref sig .tc .vmem S129 .f32) (harg21 : arg21.IsWhole) (arg22 : Memref sig .tc .vmem S128x128 .bf16) (harg22 : arg22.IsWhole)
    (arg23 : Memref sig .tc .vmem S27x128 .bf16) (harg23 : arg23.IsWhole) (arg24 : Memref sig .tc .vmem S128 .f32) (harg24 : arg24.IsWhole)
    (arg25 : Memref sig .tc .vmem S128x3 .bf16) (harg25 : arg25.IsWhole) (arg26 : Memref sig .tc .vmem S3 .f32) (harg26 : arg26.IsWhole)
    (arg27 : Memref sig .tc .vmem S4096x4 .f32) (harg27 : arg27.IsWhole)
    (x0 : Vec F S4096x39 .bf16) (x1 : Vec F S4096x27 .bf16) (x2 : Vec F S39x256 .bf16) (x3 : Vec F S256 .f32)
    (x4 : Vec F S256x256 .bf16) (x5 : Vec F S256 .f32) (x6 : Vec F S256x256 .bf16) (x7 : Vec F S256 .f32)
    (x8 : Vec F S256x256 .bf16) (x9 : Vec F S256 .f32) (x10 : Vec F S256x256 .bf16) (x11 : Vec F S256 .f32)
    (x12 : Vec F S256x256 .bf16) (x13 : Vec F S39x256 .bf16) (x14 : Vec F S256 .f32) (x15 : Vec F S256x256 .bf16)
    (x16 : Vec F S256 .f32) (x17 : Vec F S256x256 .bf16) (x18 : Vec F S256 .f32) (x19 : Vec F S256x129 .bf16)
    (x20 : Vec F S129 .f32) (x21 : Vec F S128x128 .bf16) (x22 : Vec F S27x128 .bf16) (x23 : Vec F S128 .f32)
    (x24 : Vec F S128x3 .bf16) (x25 : Vec F S3 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13 ∗ owns (c : Thread nD τ) arg15 fullShare x14
        ∗ owns (c : Thread nD τ) arg16 fullShare x15 ∗ owns (c : Thread nD τ) arg17 fullShare x16 ∗ owns (c : Thread nD τ) arg18 fullShare x17
        ∗ owns (c : Thread nD τ) arg19 fullShare x18 ∗ owns (c : Thread nD τ) arg20 fullShare x19 ∗ owns (c : Thread nD τ) arg21 fullShare x20
        ∗ owns (c : Thread nD τ) arg22 fullShare x21 ∗ owns (c : Thread nD τ) arg23 fullShare x22 ∗ owns (c : Thread nD τ) arg24 fullShare x23
        ∗ owns (c : Thread nD τ) arg25 fullShare x24 ∗ owns (c : Thread nD τ) arg26 fullShare x25
        ∗ (∃ d, owns (c : Thread nD τ) arg27 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12 ∗ owns (c : Thread nD τ) arg14 fullShare x13 ∗ owns (c : Thread nD τ) arg15 fullShare x14
            ∗ owns (c : Thread nD τ) arg16 fullShare x15 ∗ owns (c : Thread nD τ) arg17 fullShare x16 ∗ owns (c : Thread nD τ) arg18 fullShare x17
            ∗ owns (c : Thread nD τ) arg19 fullShare x18 ∗ owns (c : Thread nD τ) arg20 fullShare x19 ∗ owns (c : Thread nD τ) arg21 fullShare x20
            ∗ owns (c : Thread nD τ) arg22 fullShare x21 ∗ owns (c : Thread nD τ) arg23 fullShare x22 ∗ owns (c : Thread nD τ) arg24 fullShare x23
            ∗ owns (c : Thread nD τ) arg25 fullShare x24 ∗ owns (c : Thread nD τ) arg26 fullShare x25
            ∗ owns (c : Thread nD τ) arg27 fullShare
                (out0_26 x0 x1 x2 x3 x4 x5 x6 x7 x8 x9 x10 x11 x12 x13 x14 x15 x16 x17 x18 x19 x20 x21 x22 x23 x24 x25)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8 arg9 harg9
            arg10 harg10 arg11 harg11 arg12 harg12 arg13 harg13 arg14 harg14 arg15 harg15 arg16 harg16 arg17 harg17 arg18 harg18
            arg19 harg19 arg20 harg20 arg21 harg21 arg22 harg22 arg23 harg23 arg24 harg24 arg25 harg25 arg26 harg26 arg27 harg27) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩,
    ⟨%f14, %hf14, H14⟩, ⟨%f15, %hf15, H15⟩, ⟨%f16, %hf16, H16⟩, ⟨%f17, %hf17, H17⟩, ⟨%f18, %hf18, H18⟩, ⟨%f19, %hf19, H19⟩,
    ⟨%f20, %hf20, H20⟩, ⟨%f21, %hf21, H21⟩, ⟨%f22, %hf22, H22⟩, ⟨%f23, %hf23, H23⟩, ⟨%f24, %hf24, H24⟩, ⟨%f25, %hf25, H25⟩,
    ⟨%d26, %f26, -, H26⟩, Hk⟩
  subst hf0 hf1 hf2 hf3 hf4 hf5 hf6 hf7 hf8 hf9 hf10 hf11 hf12 hf13 hf14 hf15 hf16 hf17 hf18 hf19 hf20 hf21 hf22 hf23 hf24 hf25
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  iexists _; isplitr
  swap; · iexact H26
  ipureintro
  exact View.read_writes_eq_canon _ _ _ (cover0_26 _)

end Cert.Kernel.Hand

end
-- ==== Proof.KFrame.lean ====
import proofs.«181742_j549755814570_2_alg».proof.Proof.KFrameHost
import proofs.«181742_j549755814570_2_alg».proof.Proof.KFrameBody

/-! # The frame of the kernel program

The proof data of the one pipeline — the arrays as the region finds them; after the body each input buffer at its
block and the output buffer at out0_26 of the input blocks —, the body obligation at every grid point from the body's
triple, the frame run around the region, and from it the frame claim: the program terminates without fault and every
argument array ends as launched. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core c: the arrays as the region finds them; after the body at point t each
    input's buffer at its block and the output's at out0_26 of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => out0_26 (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (iblk m c 12 t)
        (iblk m c 13 t) (iblk m c 14 t) (iblk m c 15 t) (iblk m c 16 t) (iblk m c 17 t) (iblk m c 18 t) (iblk m c 19 t)
        (iblk m c 20 t) (iblk m c 21 t) (iblk m c 22 t) (iblk m c 23 t) (iblk m c 24 t) (iblk m c 25 t)
    | ⟨_ + 27, h⟩ => absurd h (Nat.not_lt.2 (Nat.le_add_left _ _))
  Φ _ := Pipeline.ΦA spec0 c
  q _ := fullShare
  owed _ := 0

/-- The proof data's arrays are the region-entry contents: the definition projected, so that the fold over the host
    prefix is never unfolded to check it. -/
theorem A_eq (c : Dev nD) (w : Fin cfg0.W) : (dats m 0 c).A w = V m c (Pipeline.arrRef spec0 w) := by
  dsimp only [dats]

/-! What the body leaves, window by window: the proof data's case split reduced. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t
    = out0_26 (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (iblk m c 12 t)
        (iblk m c 13 t) (iblk m c 14 t) (iblk m c 15 t) (iblk m c 16 t) (iblk m c 17 t) (iblk m c 18 t) (iblk m c 19 t)
        (iblk m c 20 t) (iblk m c 21 t) (iblk m c 22 t) (iblk m c 23 t) (iblk m c 24 t) (iblk m c 25 t) := by dsimp only [dats]

/-! Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d

/-! ## The body obligation, at a generic point -/

/-- What the body is called with at point t: the invariant, what the core owes, and each window's current staging
    buffer at what it holds before the body, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

/-- and what it returns: each window's buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

set_option maxHeartbeats 4000000 in
/-- The body at any point: the inputs' buffers hold their blocks, so the body's triple applies at the blocks; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9,
    before0_10, before0_11, before0_12, before0_13, before0_14, before0_15, before0_16, before0_17, before0_18, before0_19,
    before0_20, before0_21, before0_22, before0_23, before0_24, before0_25]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10,
    after0_11, after0_12, after0_13, after0_14, after0_15, after0_16, after0_17, after0_18, after0_19, after0_20,
    after0_21, after0_22, after0_23, after0_24, after0_25, after0_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩,
    ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel c Set.univ (grid0.coords t) _ _ _ _ _ _ _ _ _ _ _ _ _ _ _ _ _ _ _ _ _ _ _ _ _ _ _ _ _ _ _ _ _ _ _ _
    _ _ _ _ _ _ _ _ _ _ _ _ _ _ _ _ _ _
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t)
    (iblk m c 15 t) (iblk m c 16 t) (iblk m c 17 t) (iblk m c 18 t) (iblk m c 19 t) (iblk m c 20 t) (iblk m c 21 t)
    (iblk m c 22 t) (iblk m c 23 t) (iblk m c 24 t) (iblk m c 25 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  iintro ⟨H0, H1, H2, H3, H4, H5, H6, H7, H8, H9, H10, H11, H12, H13, H14, H15, H16, H17, H18, H19, H20, H21, H22, H23, H24,
    H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

set_option maxHeartbeats 4000000 in
/-- The library's body obligation, at every point: its two conjunctions over the windows opened one by one. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
set_option maxHeartbeats 4000000 in
/-- At the compiled mesh, for any values, from any memory with zero counters: every weakly fair execution of the program
    on the TensorCores terminates, and every final state has every array of the pipeline at what the library computes
    from the proof data and every other unscoped buffer as the host tail leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.Hand.run_main' depends on axioms: [propext, Classical.choice, Quot.sound] -/
#guard_msgs in #print axioms run_main

/-- THE FRAME, at any float instance: from any memory with zero counters the program terminates without fault and
    every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  frame_of m ρ (dats m) (A_eq m) (run_main m ρ)

end Cert.Kernel.Hand

end
-- ==== Proof.KIFrameHost.lean ====
import proofs.«181742_j549755814570_2_alg».proof.Proof.Gen.KernelIdeal.Launch
import proofs.«181742_j549755814570_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! # The program around its one region

The program is three stretches of host operations, the region, and a tail of four host operations. Each host operation
writes exactly one buffer, its result, and no result buffer is an argument array. Hence: the region finds every
argument array as launched; the tail leaves every argument array, and every array of the pipeline, as the region left
it; and from the frame run's post each argument array ends as launched — an array some input window stages because an
input window's array is never written back, any other because nothing at all writes it. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core c's TensorCore buffer contents when the region is entered, as a valuation: after the three stretches of host
    operations before the region. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program around the region: the host stretches before it, the region, the host tail after it. It reduces to the
    region continued by the tail. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The tail's side conditions -/

/-- The tail touches the pipeline's arrays and the bypassing buffers only: each operation's buffers are unscoped
    TensorCore references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: each operation writes only its own result buffer, which is no array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## What the host operations write -/

/-- The buffers the 67 host operations before the region write, one result each, in program order. -/
abbrev prefixW : List (Ref sig .tc) :=
  [main_cst, main_cst_0, main_v0,
   main_call0_v0, main_call0_cst, main_call0_v1, main_call0_v2, main_v1,
   main_cst_1, main_v2, main_v3, main_v4, main_v5, main_v6, main_v7, main_v8, main_v9, main_v10, main_v11, main_v12,
   main_v13, main_v14, main_v15, main_v16, main_v17, main_v18, main_v19, main_v20, main_v21, main_v22, main_v23,
   main_v24, main_v25, main_v26, main_v27, main_v28, main_v29, main_v30, main_v31, main_v32, main_v33, main_v34,
   main_v35, main_v36, main_v37, main_v38, main_v39, main_v40, main_v41, main_v42, main_v43, main_v44, main_v45,
   main_v46, main_v47, main_v48, main_v49, main_v50, main_v51, main_v52, main_v53, main_v54, main_v55, main_v56,
   main_v57, main_v58, main_v59]

/-- Every host operation before the region writes within that list. -/
theorem prefix_writes : (List.flatten [hostOps0, hostOps0_1, hostOps0_2] : List (HloOp τ sig (Elt F))).Forall
    fun op => op.writes ⊆ (prefixW.map (Proc.devRef (τ := τ) .tc)).toFinset := by
  simp only [hostOps0, hostOps0_1, hostOps0_2, List.flatten_cons, List.flatten_nil, List.append_nil, List.cons_append,
    List.nil_append, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the four host operations after the region write. -/
abbrev tailW : List (Ref sig .tc) := [main_v61, main_v62, main_v63, main_v64]

/-- Every host operation after the region writes within that list. -/
theorem tail_writes : (List.flatten [hostOps1] : List (HloOp τ sig (Elt F))).Forall
    fun op => op.writes ⊆ (tailW.map (Proc.devRef (τ := τ) .tc)).toFinset := by
  simp only [hostOps1, List.flatten_cons, List.flatten_nil, List.append_nil, List.cons_append, List.nil_append, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer no host operation before the region writes is found by the region as launched. -/
theorem V_of (c : Dev nD) (r : Ref sig .tc) (h : r ∉ prefixW) : V m c r = m ((c : Thread nD τ).loc r) :=
  StableHlo.after_of_writes_sub _ _ prefix_writes h

/-- A buffer that is no array of the pipeline and that no host operation writes, before or after the region, ends as
    launched: the tail writes elsewhere, the region's write-backs are to its arrays only, the prefix writes elsewhere. -/
theorem W_of (dats : (p : Fin 1) → (c : Dev nD) → Dat τ (Elt F) Unit ℕ (UR sig nD τ) ℕ (cfgs p) c) (c : Dev nD)
    (r : Ref sig .tc) (ht : r ∉ tailW) (ha : ∀ w, Pipeline.arrRef spec0 w ≠ r) (hp : r ∉ prefixW) :
    Pipeline.afterTail₀ cfgs dats 0 (V0 m) [hostOps1] c r = m ((c : Thread nD τ).loc r) := by
  unfold Pipeline.afterTail₀
  rw [StableHlo.after_of_writes_sub _ _ tail_writes ht, Pipeline.withArrays_of_ne _ c (V0 m c) _ r (by exact ha)]
  exact V_of m c r hp

/-- The array of an INPUT window that no host operation writes ends as launched, for proof data whose arrays are the
    region-entry contents: the tail writes elsewhere, an input window's array is never written back, and the prefix
    writes elsewhere. -/
theorem Wst_of (dats : (p : Fin 1) → (c : Dev nD) → Dat τ (Elt F) Unit ℕ (UR sig nD τ) ℕ (cfgs p) c)
    (hA : ∀ c w, (dats 0 c).A w = V m c (Pipeline.arrRef spec0 w)) (c : Dev nD) (w : Fin cfg0.W)
    (hin : (cfg0.win w).isOut = false) (ht : Pipeline.arrRef spec0 w ∉ tailW) (hp : Pipeline.arrRef spec0 w ∉ prefixW) :
    Pipeline.afterTail₀ cfgs dats 0 (V0 m) [hostOps1] c (Pipeline.arrRef spec0 w)
      = m ((c : Thread nD τ).loc (Pipeline.arrRef spec0 w)) := by
  unfold Pipeline.afterTail₀
  rw [StableHlo.after_of_writes_sub _ _ tail_writes ht]
  exact (Pipeline.withArrays_arr spec0 launch0.win.arr_inj c (V0 m c) _ w).trans
    (((dats 0 c).arrAt_in w hin _).trans ((hA c w).trans (V_of m c _ hp)))

/-! ## Each argument array as the region finds it -/

theorem V_main_arg0 (c : Dev nD) : V m c main_arg0 = m ((c : Thread nD τ).loc main_arg0) := V_of m c main_arg0 (by decide)
theorem V_main_arg1 (c : Dev nD) : V m c main_arg1 = m ((c : Thread nD τ).loc main_arg1) := V_of m c main_arg1 (by decide)
theorem V_main_arg2 (c : Dev nD) : V m c main_arg2 = m ((c : Thread nD τ).loc main_arg2) := V_of m c main_arg2 (by decide)
theorem V_main_arg3 (c : Dev nD) : V m c main_arg3 = m ((c : Thread nD τ).loc main_arg3) := V_of m c main_arg3 (by decide)
theorem V_main_arg4 (c : Dev nD) : V m c main_arg4 = m ((c : Thread nD τ).loc main_arg4) := V_of m c main_arg4 (by decide)
theorem V_main_arg5 (c : Dev nD) : V m c main_arg5 = m ((c : Thread nD τ).loc main_arg5) := V_of m c main_arg5 (by decide)
theorem V_main_arg6 (c : Dev nD) : V m c main_arg6 = m ((c : Thread nD τ).loc main_arg6) := V_of m c main_arg6 (by decide)
theorem V_main_arg7 (c : Dev nD) : V m c main_arg7 = m ((c : Thread nD τ).loc main_arg7) := V_of m c main_arg7 (by decide)
theorem V_main_arg8 (c : Dev nD) : V m c main_arg8 = m ((c : Thread nD τ).loc main_arg8) := V_of m c main_arg8 (by decide)
theorem V_main_arg9 (c : Dev nD) : V m c main_arg9 = m ((c : Thread nD τ).loc main_arg9) := V_of m c main_arg9 (by decide)
theorem V_main_arg10 (c : Dev nD) : V m c main_arg10 = m ((c : Thread nD τ).loc main_arg10) := V_of m c main_arg10 (by decide)
theorem V_main_arg11 (c : Dev nD) : V m c main_arg11 = m ((c : Thread nD τ).loc main_arg11) := V_of m c main_arg11 (by decide)
theorem V_main_arg12 (c : Dev nD) : V m c main_arg12 = m ((c : Thread nD τ).loc main_arg12) := V_of m c main_arg12 (by decide)
theorem V_main_arg13 (c : Dev nD) : V m c main_arg13 = m ((c : Thread nD τ).loc main_arg13) := V_of m c main_arg13 (by decide)
theorem V_main_arg14 (c : Dev nD) : V m c main_arg14 = m ((c : Thread nD τ).loc main_arg14) := V_of m c main_arg14 (by decide)
theorem V_main_arg15 (c : Dev nD) : V m c main_arg15 = m ((c : Thread nD τ).loc main_arg15) := V_of m c main_arg15 (by decide)
theorem V_main_arg16 (c : Dev nD) : V m c main_arg16 = m ((c : Thread nD τ).loc main_arg16) := V_of m c main_arg16 (by decide)
theorem V_main_arg17 (c : Dev nD) : V m c main_arg17 = m ((c : Thread nD τ).loc main_arg17) := V_of m c main_arg17 (by decide)
theorem V_main_arg18 (c : Dev nD) : V m c main_arg18 = m ((c : Thread nD τ).loc main_arg18) := V_of m c main_arg18 (by decide)
theorem V_main_arg19 (c : Dev nD) : V m c main_arg19 = m ((c : Thread nD τ).loc main_arg19) := V_of m c main_arg19 (by decide)
theorem V_main_arg20 (c : Dev nD) : V m c main_arg20 = m ((c : Thread nD τ).loc main_arg20) := V_of m c main_arg20 (by decide)
theorem V_main_arg21 (c : Dev nD) : V m c main_arg21 = m ((c : Thread nD τ).loc main_arg21) := V_of m c main_arg21 (by decide)
theorem V_main_arg22 (c : Dev nD) : V m c main_arg22 = m ((c : Thread nD τ).loc main_arg22) := V_of m c main_arg22 (by decide)
theorem V_main_arg23 (c : Dev nD) : V m c main_arg23 = m ((c : Thread nD τ).loc main_arg23) := V_of m c main_arg23 (by decide)
theorem V_main_arg24 (c : Dev nD) : V m c main_arg24 = m ((c : Thread nD τ).loc main_arg24) := V_of m c main_arg24 (by decide)
theorem V_main_arg25 (c : Dev nD) : V m c main_arg25 = m ((c : Thread nD τ).loc main_arg25) := V_of m c main_arg25 (by decide)

/-! ## Each argument array after the tail

Sixteen argument arrays are no window's array: they end as launched for any proof data. The other ten are the arrays of
input windows 3, 5, 7, 9, 11, 14, 16, 18, 23 and 25: they end as launched for proof data whose arrays are the
region-entry contents. -/

theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  W_of m dats c main_arg0 (by decide) (by decide) (by decide)
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  W_of m dats c main_arg1 (by decide) (by decide) (by decide)
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  W_of m dats c main_arg2 (by decide) (by decide) (by decide)
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  W_of m dats c main_arg4 (by decide) (by decide) (by decide)
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  W_of m dats c main_arg6 (by decide) (by decide) (by decide)
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  W_of m dats c main_arg8 (by decide) (by decide) (by decide)
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  W_of m dats c main_arg10 (by decide) (by decide) (by decide)
theorem W_main_arg12 (dats : (p : Fin 1) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) :=
  W_of m dats c main_arg12 (by decide) (by decide) (by decide)
theorem W_main_arg14 (dats : (p : Fin 1) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) :=
  W_of m dats c main_arg14 (by decide) (by decide) (by decide)
theorem W_main_arg16 (dats : (p : Fin 1) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) :=
  W_of m dats c main_arg16 (by decide) (by decide) (by decide)
theorem W_main_arg18 (dats : (p : Fin 1) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) :=
  W_of m dats c main_arg18 (by decide) (by decide) (by decide)
theorem W_main_arg19 (dats : (p : Fin 1) → (c : Dev nD) → Dat τ (Elt F) Unit ℕ (UR sig nD τ) ℕ (cfgs p) c) (c : Dev nD) :
    Pipeline.afterTail₀ cfgs dats 0 (V0 m) [hostOps1] c main_arg19 = m ((c : Thread nD τ).loc main_arg19) :=
  W_of m dats c main_arg19 (by decide) (by decide) (by decide)
theorem W_main_arg20 (dats : (p : Fin 1) → (c : Dev nD) → Dat τ (Elt F) Unit ℕ (UR sig nD τ) ℕ (cfgs p) c) (c : Dev nD) :
    Pipeline.afterTail₀ cfgs dats 0 (V0 m) [hostOps1] c main_arg20 = m ((c : Thread nD τ).loc main_arg20) :=
  W_of m dats c main_arg20 (by decide) (by decide) (by decide)
theorem W_main_arg21 (dats : (p : Fin 1) → (c : Dev nD) → Dat τ (Elt F) Unit ℕ (UR sig nD τ) ℕ (cfgs p) c) (c : Dev nD) :
    Pipeline.afterTail₀ cfgs dats 0 (V0 m) [hostOps1] c main_arg21 = m ((c : Thread nD τ).loc main_arg21) :=
  W_of m dats c main_arg21 (by decide) (by decide) (by decide)
theorem W_main_arg22 (dats : (p : Fin 1) → (c : Dev nD) → Dat τ (Elt F) Unit ℕ (UR sig nD τ) ℕ (cfgs p) c) (c : Dev nD) :
    Pipeline.afterTail₀ cfgs dats 0 (V0 m) [hostOps1] c main_arg22 = m ((c : Thread nD τ).loc main_arg22) :=
  W_of m dats c main_arg22 (by decide) (by decide) (by decide)
theorem W_main_arg24 (dats : (p : Fin 1) → (c : Dev nD) → Dat τ (Elt F) Unit ℕ (UR sig nD τ) ℕ (cfgs p) c) (c : Dev nD) :
    Pipeline.afterTail₀ cfgs dats 0 (V0 m) [hostOps1] c main_arg24 = m ((c : Thread nD τ).loc main_arg24) :=
  W_of m dats c main_arg24 (by decide) (by decide) (by decide)

theorem Wst_main_arg3 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg3 = m ((c : Thread nD τ).loc main_arg3) :=
  Wst_of m dats hA c 3 rfl (by decide) (by decide)
theorem Wst_main_arg5 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg5 = m ((c : Thread nD τ).loc main_arg5) :=
  Wst_of m dats hA c 5 rfl (by decide) (by decide)
theorem Wst_main_arg7 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg7 = m ((c : Thread nD τ).loc main_arg7) :=
  Wst_of m dats hA c 7 rfl (by decide) (by decide)
theorem Wst_main_arg9 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg9 = m ((c : Thread nD τ).loc main_arg9) :=
  Wst_of m dats hA c 9 rfl (by decide) (by decide)
theorem Wst_main_arg11 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg11 = m ((c : Thread nD τ).loc main_arg11) :=
  Wst_of m dats hA c 11 rfl (by decide) (by decide)
theorem Wst_main_arg13 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg13 = m ((c : Thread nD τ).loc main_arg13) :=
  Wst_of m dats hA c 14 rfl (by decide) (by decide)
theorem Wst_main_arg15 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg15 = m ((c : Thread nD τ).loc main_arg15) :=
  Wst_of m dats hA c 16 rfl (by decide) (by decide)
theorem Wst_main_arg17 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg17 = m ((c : Thread nD τ).loc main_arg17) :=
  Wst_of m dats hA c 18 rfl (by decide) (by decide)
theorem Wst_main_arg23 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg23 = m ((c : Thread nD τ).loc main_arg23) :=
  Wst_of m dats hA c 23 rfl (by decide) (by decide)
theorem Wst_main_arg25 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg25 = m ((c : Thread nD τ).loc main_arg25) :=
  Wst_of m dats hA c 25 rfl (by decide) (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for ANY proof data
whose array is the region-entry contents and whose body leaves the block in place: where the window is not fetched its
block index has not moved, and the window is uncut and never idle. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)

/-! ## The argument arrays from the frame run's post -/

set_option maxHeartbeats 1620000 in
/-- From the frame run's post at a final state, every argument array ends as launched, for any proof data whose arrays
    are the region-entry contents: the array of an input window is never written back, so it holds the region-entry
    contents, which are the launch contents; any other argument array is among the buffers the post leaves to the tail,
    which writes elsewhere. -/
theorem args_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).1 3).trans (((dats 0 c).arrAt_in 3 rfl _).trans ((hA c 3).trans (V_main_arg3 m c))),
    ((h c).2 main_arg4 (Pipeline.mem_restRefs_of main_arg4 (by decide) (by decide))).trans (W_main_arg4 m dats c),
    ((h c).1 5).trans (((dats 0 c).arrAt_in 5 rfl _).trans ((hA c 5).trans (V_main_arg5 m c))),
    ((h c).2 main_arg6 (Pipeline.mem_restRefs_of main_arg6 (by decide) (by decide))).trans (W_main_arg6 m dats c),
    ((h c).1 7).trans (((dats 0 c).arrAt_in 7 rfl _).trans ((hA c 7).trans (V_main_arg7 m c))),
    ((h c).2 main_arg8 (Pipeline.mem_restRefs_of main_arg8 (by decide) (by decide))).trans (W_main_arg8 m dats c),
    ((h c).1 9).trans (((dats 0 c).arrAt_in 9 rfl _).trans ((hA c 9).trans (V_main_arg9 m c))),
    ((h c).2 main_arg10 (Pipeline.mem_restRefs_of main_arg10 (by decide) (by decide))).trans (W_main_arg10 m dats c),
    ((h c).1 11).trans (((dats 0 c).arrAt_in 11 rfl _).trans ((hA c 11).trans (V_main_arg11 m c))),
    ((h c).2 main_arg12 (Pipeline.mem_restRefs_of main_arg12 (by decide) (by decide))).trans (W_main_arg12 m dats c),
    ((h c).1 14).trans (((dats 0 c).arrAt_in 14 rfl _).trans ((hA c 14).trans (V_main_arg13 m c))),
    ((h c).2 main_arg14 (Pipeline.mem_restRefs_of main_arg14 (by decide) (by decide))).trans (W_main_arg14 m dats c),
    ((h c).1 16).trans (((dats 0 c).arrAt_in 16 rfl _).trans ((hA c 16).trans (V_main_arg15 m c))),
    ((h c).2 main_arg16 (Pipeline.mem_restRefs_of main_arg16 (by decide) (by decide))).trans (W_main_arg16 m dats c),
    ((h c).1 18).trans (((dats 0 c).arrAt_in 18 rfl _).trans ((hA c 18).trans (V_main_arg17 m c))),
    ((h c).2 main_arg18 (Pipeline.mem_restRefs_of main_arg18 (by decide) (by decide))).trans (W_main_arg18 m dats c),
    ((h c).2 main_arg19 (Pipeline.mem_restRefs_of main_arg19 (by decide) (by decide))).trans (W_main_arg19 m dats c),
    ((h c).2 main_arg20 (Pipeline.mem_restRefs_of main_arg20 (by decide) (by decide))).trans (W_main_arg20 m dats c),
    ((h c).2 main_arg21 (Pipeline.mem_restRefs_of main_arg21 (by decide) (by decide))).trans (W_main_arg21 m dats c),
    ((h c).2 main_arg22 (Pipeline.mem_restRefs_of main_arg22 (by decide) (by decide))).trans (W_main_arg22 m dats c),
    ((h c).1 23).trans (((dats 0 c).arrAt_in 23 rfl _).trans ((hA c 23).trans (V_main_arg23 m c))),
    ((h c).2 main_arg24 (Pipeline.mem_restRefs_of main_arg24 (by decide) (by decide))).trans (W_main_arg24 m dats c),
    ((h c).1 25).trans (((dats 0 c).arrAt_in 25 rfl _).trans ((hA c 25).trans (V_main_arg25 m c)))⟩

/-- THE FRAME from a frame run: a run to the frame run's post, for proof data whose arrays are the region-entry
    contents, is a run after which every argument array is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => args_of_post m dats hA r h c) h

end Cert.KernelIdeal.Hand

end
-- ==== Proof.KIFrameBody.lean ====
import proofs.«181742_j549755814570_2_alg».proof.Proof.Gen.KernelIdeal.Launch
import proofs.«181742_j549755814570_2_alg».proof.Proof.Gen.KernelIdeal.Skeleton
import proofs.«181742_j549755814570_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! # The kernel body's triple

The body reads each of its 26 input buffers whole, computes, and overwrites its one output buffer whole by a single
store. On whole buffers holding x0 … x25 it therefore leaves the inputs as they were and the output buffer at
out0_26 x0 … x25: the canonical contents of that one store, whose payload is the skeleton's payload chain applied
to the 26 whole-buffer reads. -/

-- membership in a rectangle whose long axis has 4096 coordinates recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer's whole rectangle -/

abbrev rc_S4096x39 : Rect S4096x39 := Rect.unit (s := S4096x39) ![0, 0] S4096x39.size inb_S4096x39_S4096x39_0_0
abbrev rc_S4096x27 : Rect S4096x27 := Rect.unit (s := S4096x27) ![0, 0] S4096x27.size inb_S4096x27_S4096x27_0_0
abbrev rc_S39x256 : Rect S39x256 := Rect.unit (s := S39x256) ![0, 0] S39x256.size inb_S39x256_S39x256_0_0
abbrev rc_S256 : Rect S256 := Rect.unit (s := S256) ![0] S256.size inb_S256_S256_0
abbrev rc_S256x256 : Rect S256x256 := Rect.unit (s := S256x256) ![0, 0] S256x256.size inb_S256x256_S256x256_0_0
abbrev rc_S256x129 : Rect S256x129 := Rect.unit (s := S256x129) ![0, 0] S256x129.size inb_S256x129_S256x129_0_0
abbrev rc_S129 : Rect S129 := Rect.unit (s := S129) ![0] S129.size inb_S129_S129_0
abbrev rc_S128x128 : Rect S128x128 := Rect.unit (s := S128x128) ![0, 0] S128x128.size inb_S128x128_S128x128_0_0
abbrev rc_S27x128 : Rect S27x128 := Rect.unit (s := S27x128) ![0, 0] S27x128.size inb_S27x128_S27x128_0_0
abbrev rc_S128 : Rect S128 := Rect.unit (s := S128) ![0] S128.size inb_S128_S128_0
abbrev rc_S128x3 : Rect S128x3 := Rect.unit (s := S128x3) ![0, 0] S128x3.size inb_S128x3_S128x3_0_0
abbrev rc_S3 : Rect S3 := Rect.unit (s := S3) ![0] S3.size inb_S3_S3_0
abbrev rc_S4096x4 : Rect S4096x4 := Rect.unit (s := S4096x4) ![0, 0] S4096x4.size inb_S4096x4_S4096x4_0_0

/-! ## What the body leaves in the output buffer -/

/-- The output buffer after the body, from the 26 input buffers' contents: its one store as a piece. The stored
    value is the last payload applied to the earlier ones, each applied to the whole-buffer reads in the order the
    skeleton binds them. -/
def out0_26 (x0 : Vec F S4096x39 .bf16) (x1 : Vec F S4096x27 .bf16) (x2 : Vec F S39x256 .bf16) (x3 : Vec F S256 .f32)
    (x4 : Vec F S256x256 .bf16) (x5 : Vec F S256 .f32) (x6 : Vec F S256x256 .bf16) (x7 : Vec F S256 .f32)
    (x8 : Vec F S256x256 .bf16) (x9 : Vec F S256 .f32) (x10 : Vec F S256x256 .bf16) (x11 : Vec F S256 .f32)
    (x12 : Vec F S256x256 .bf16) (x13 : Vec F S39x256 .bf16) (x14 : Vec F S256 .f32) (x15 : Vec F S256x256 .bf16)
    (x16 : Vec F S256 .f32) (x17 : Vec F S256x256 .bf16) (x18 : Vec F S256 .f32) (x19 : Vec F S256x129 .bf16)
    (x20 : Vec F S129 .f32) (x21 : Vec F S128x128 .bf16) (x22 : Vec F S27x128 .bf16) (x23 : Vec F S128 .f32)
    (x24 : Vec F S128x3 .bf16) (x25 : Vec F S3 .f32) : Vec F S4096x4 .f32 :=
  View.canon [⟨rc_S4096x4,
    k0_pay1
      (k0_pay7
        (k0_pay5 (k0_pay2 (View.ld x0 rc_S4096x39))
          (k0_pay4 (View.ld x0 rc_S4096x39) (View.ld x2 rc_S39x256) (View.ld x3 rc_S256) (View.ld x4 rc_S256x256)
            (View.ld x5 rc_S256) (View.ld x6 rc_S256x256) (View.ld x7 rc_S256) (View.ld x8 rc_S256x256))
          (View.ld x9 rc_S256) (View.ld x10 rc_S256x256) (View.ld x11 rc_S256) (View.ld x12 rc_S256x256)
          (View.ld x13 rc_S39x256) (View.ld x14 rc_S256) (View.ld x15 rc_S256x256) (View.ld x16 rc_S256))
        (View.ld x17 rc_S256x256) (View.ld x18 rc_S256) (View.ld x19 rc_S256x129) (View.ld x20 rc_S129))
      (k0_pay8 (k0_pay3 (View.ld x1 rc_S4096x27))
        (k0_pay5 (k0_pay2 (View.ld x0 rc_S4096x39))
          (k0_pay4 (View.ld x0 rc_S4096x39) (View.ld x2 rc_S39x256) (View.ld x3 rc_S256) (View.ld x4 rc_S256x256)
            (View.ld x5 rc_S256) (View.ld x6 rc_S256x256) (View.ld x7 rc_S256) (View.ld x8 rc_S256x256))
          (View.ld x9 rc_S256) (View.ld x10 rc_S256x256) (View.ld x11 rc_S256) (View.ld x12 rc_S256x256)
          (View.ld x13 rc_S39x256) (View.ld x14 rc_S256) (View.ld x15 rc_S256x256) (View.ld x16 rc_S256))
        (View.ld x17 rc_S256x256) (View.ld x18 rc_S256) (View.ld x19 rc_S256x129) (View.ld x20 rc_S129)
        (View.ld x21 rc_S128x128) (View.ld x22 rc_S27x128) (View.ld x23 rc_S128))
      (View.ld x24 rc_S128x3) (View.ld x25 rc_S3)⟩]

/-- The one store's rectangle is the whole buffer, so it covers it. -/
theorem cover0_26 (p0 : Vec F S4096x4 .f32) (y : S4096x4.Idx) :
    ∃ pc ∈ ([⟨rc_S4096x4, p0⟩] : List (View.Piece (Elt F) S4096x4 .f32)), y ∈ pc.1.set :=
  View.cover_of_tiled [⟨rc_S4096x4, p0⟩] S4096x4.size (by rfl) y

/-! ## The body's triple -/

set_option maxHeartbeats 4000000 in
/-- The kernel body on whole staging buffers, the inputs' at contents x0 … x25 and the output's at anything, runs to
    the continuation holding the inputs' as they were and the output's at out0_26 of the inputs'. -/
theorem sound_kernel (c : Dev nD) (E : Set ℕ) (i : grid0.Coords)
    (arg1 : Memref sig .tc .vmem S4096x39 .bf16) (harg1 : arg1.IsWhole) (arg2 : Memref sig .tc .vmem S4096x27 .bf16) (harg2 : arg2.IsWhole)
    (arg3 : Memref sig .tc .vmem S39x256 .bf16) (harg3 : arg3.IsWhole) (arg4 : Memref sig .tc .vmem S256 .f32) (harg4 : arg4.IsWhole)
    (arg5 : Memref sig .tc .vmem S256x256 .bf16) (harg5 : arg5.IsWhole) (arg6 : Memref sig .tc .vmem S256 .f32) (harg6 : arg6.IsWhole)
    (arg7 : Memref sig .tc .vmem S256x256 .bf16) (harg7 : arg7.IsWhole) (arg8 : Memref sig .tc .vmem S256 .f32) (harg8 : arg8.IsWhole)
    (arg9 : Memref sig .tc .vmem S256x256 .bf16) (harg9 : arg9.IsWhole) (arg10 : Memref sig .tc .vmem S256 .f32) (harg10 : arg10.IsWhole)
    (arg11 : Memref sig .tc .vmem S256x256 .bf16) (harg11 : arg11.IsWhole) (arg12 : Memref sig .tc .vmem S256 .f32) (harg12 : arg12.IsWhole)
    (arg13 : Memref sig .tc .vmem S256x256 .bf16) (harg13 : arg13.IsWhole) (arg14 : Memref sig .tc .vmem S39x256 .bf16) (harg14 : arg14.IsWhole)
    (arg15 : Memref sig .tc .vmem S256 .f32) (harg15 : arg15.IsWhole) (arg16 : Memref sig .tc .vmem S256x256 .bf16) (harg16 : arg16.IsWhole)
    (arg17 : Memref sig .tc .vmem S256 .f32) (harg17 : arg17.IsWhole) (arg18 : Memref sig .tc .vmem S256x256 .bf16) (harg18 : arg18.IsWhole)
    (arg19 : Memref sig .tc .vmem S256 .f32) (harg19 : arg19.IsWhole) (arg20 : Memref sig .tc .vmem S256x129 .bf16) (harg20 : arg20.IsWhole)
    (arg21 : Memref sig .tc .vmem S129 .f32) (harg21 : arg21.IsWhole) (arg22 : Memref sig .tc .vmem S128x128 .bf16) (harg22 : arg22.IsWhole)
    (arg23 : Memref sig .tc .vmem S27x128 .bf16) (harg23 : arg23.IsWhole) (arg24 : Memref sig .tc .vmem S128 .f32) (harg24 : arg24.IsWhole)
    (arg25 : Memref sig .tc .vmem S128x3 .bf16) (harg25 : arg25.IsWhole) (arg26 : Memref sig .tc .vmem S3 .f32) (harg26 : arg26.IsWhole)
    (arg27 : Memref sig .tc .vmem S4096x4 .f32) (harg27 : arg27.IsWhole)
    (x0 : Vec F S4096x39 .bf16) (x1 : Vec F S4096x27 .bf16) (x2 : Vec F S39x256 .bf16) (x3 : Vec F S256 .f32)
    (x4 : Vec F S256x256 .bf16) (x5 : Vec F S256 .f32) (x6 : Vec F S256x256 .bf16) (x7 : Vec F S256 .f32)
    (x8 : Vec F S256x256 .bf16) (x9 : Vec F S256 .f32) (x10 : Vec F S256x256 .bf16) (x11 : Vec F S256 .f32)
    (x12 : Vec F S256x256 .bf16) (x13 : Vec F S39x256 .bf16) (x14 : Vec F S256 .f32) (x15 : Vec F S256x256 .bf16)
    (x16 : Vec F S256 .f32) (x17 : Vec F S256x256 .bf16) (x18 : Vec F S256 .f32) (x19 : Vec F S256x129 .bf16)
    (x20 : Vec F S129 .f32) (x21 : Vec F S128x128 .bf16) (x22 : Vec F S27x128 .bf16) (x23 : Vec F S128 .f32)
    (x24 : Vec F S128x3 .bf16) (x25 : Vec F S3 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13 ∗ owns (c : Thread nD τ) arg15 fullShare x14
        ∗ owns (c : Thread nD τ) arg16 fullShare x15 ∗ owns (c : Thread nD τ) arg17 fullShare x16 ∗ owns (c : Thread nD τ) arg18 fullShare x17
        ∗ owns (c : Thread nD τ) arg19 fullShare x18 ∗ owns (c : Thread nD τ) arg20 fullShare x19 ∗ owns (c : Thread nD τ) arg21 fullShare x20
        ∗ owns (c : Thread nD τ) arg22 fullShare x21 ∗ owns (c : Thread nD τ) arg23 fullShare x22 ∗ owns (c : Thread nD τ) arg24 fullShare x23
        ∗ owns (c : Thread nD τ) arg25 fullShare x24 ∗ owns (c : Thread nD τ) arg26 fullShare x25
        ∗ (∃ d, owns (c : Thread nD τ) arg27 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12 ∗ owns (c : Thread nD τ) arg14 fullShare x13 ∗ owns (c : Thread nD τ) arg15 fullShare x14
            ∗ owns (c : Thread nD τ) arg16 fullShare x15 ∗ owns (c : Thread nD τ) arg17 fullShare x16 ∗ owns (c : Thread nD τ) arg18 fullShare x17
            ∗ owns (c : Thread nD τ) arg19 fullShare x18 ∗ owns (c : Thread nD τ) arg20 fullShare x19 ∗ owns (c : Thread nD τ) arg21 fullShare x20
            ∗ owns (c : Thread nD τ) arg22 fullShare x21 ∗ owns (c : Thread nD τ) arg23 fullShare x22 ∗ owns (c : Thread nD τ) arg24 fullShare x23
            ∗ owns (c : Thread nD τ) arg25 fullShare x24 ∗ owns (c : Thread nD τ) arg26 fullShare x25
            ∗ owns (c : Thread nD τ) arg27 fullShare
                (out0_26 x0 x1 x2 x3 x4 x5 x6 x7 x8 x9 x10 x11 x12 x13 x14 x15 x16 x17 x18 x19 x20 x21 x22 x23 x24 x25)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8 arg9 harg9
            arg10 harg10 arg11 harg11 arg12 harg12 arg13 harg13 arg14 harg14 arg15 harg15 arg16 harg16 arg17 harg17 arg18 harg18
            arg19 harg19 arg20 harg20 arg21 harg21 arg22 harg22 arg23 harg23 arg24 harg24 arg25 harg25 arg26 harg26 arg27 harg27) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩,
    ⟨%f14, %hf14, H14⟩, ⟨%f15, %hf15, H15⟩, ⟨%f16, %hf16, H16⟩, ⟨%f17, %hf17, H17⟩, ⟨%f18, %hf18, H18⟩, ⟨%f19, %hf19, H19⟩,
    ⟨%f20, %hf20, H20⟩, ⟨%f21, %hf21, H21⟩, ⟨%f22, %hf22, H22⟩, ⟨%f23, %hf23, H23⟩, ⟨%f24, %hf24, H24⟩, ⟨%f25, %hf25, H25⟩,
    ⟨%d26, %f26, -, H26⟩, Hk⟩
  subst hf0 hf1 hf2 hf3 hf4 hf5 hf6 hf7 hf8 hf9 hf10 hf11 hf12 hf13 hf14 hf15 hf16 hf17 hf18 hf19 hf20 hf21 hf22 hf23 hf24 hf25
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  iexists _; isplitr
  swap; · iexact H26
  ipureintro
  exact View.read_writes_eq_canon _ _ _ (cover0_26 _)

end Cert.KernelIdeal.Hand

end
-- ==== Proof.KIFrame.lean ====
import proofs.«181742_j549755814570_2_alg».proof.Proof.KIFrameHost
import proofs.«181742_j549755814570_2_alg».proof.Proof.KIFrameBody

/-! # The frame of the kernel program

The proof data of the one pipeline — the arrays as the region finds them; after the body each input buffer at its
block and the output buffer at out0_26 of the input blocks —, the body obligation at every grid point from the body's
triple, the frame run around the region, and from it the frame claim: the program terminates without fault and every
argument array ends as launched. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core c: the arrays as the region finds them; after the body at point t each
    input's buffer at its block and the output's at out0_26 of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => out0_26 (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (iblk m c 12 t)
        (iblk m c 13 t) (iblk m c 14 t) (iblk m c 15 t) (iblk m c 16 t) (iblk m c 17 t) (iblk m c 18 t) (iblk m c 19 t)
        (iblk m c 20 t) (iblk m c 21 t) (iblk m c 22 t) (iblk m c 23 t) (iblk m c 24 t) (iblk m c 25 t)
    | ⟨_ + 27, h⟩ => absurd h (Nat.not_lt.2 (Nat.le_add_left _ _))
  Φ _ := Pipeline.ΦA spec0 c
  q _ := fullShare
  owed _ := 0

/-- The proof data's arrays are the region-entry contents: the definition projected, so that the fold over the host
    prefix is never unfolded to check it. -/
theorem A_eq (c : Dev nD) (w : Fin cfg0.W) : (dats m 0 c).A w = V m c (Pipeline.arrRef spec0 w) := by
  dsimp only [dats]

/-! What the body leaves, window by window: the proof data's case split reduced. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t
    = out0_26 (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (iblk m c 12 t)
        (iblk m c 13 t) (iblk m c 14 t) (iblk m c 15 t) (iblk m c 16 t) (iblk m c 17 t) (iblk m c 18 t) (iblk m c 19 t)
        (iblk m c 20 t) (iblk m c 21 t) (iblk m c 22 t) (iblk m c 23 t) (iblk m c 24 t) (iblk m c 25 t) := by dsimp only [dats]

/-! Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d

/-! ## The body obligation, at a generic point -/

/-- What the body is called with at point t: the invariant, what the core owes, and each window's current staging
    buffer at what it holds before the body, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

/-- and what it returns: each window's buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

set_option maxHeartbeats 4000000 in
/-- The body at any point: the inputs' buffers hold their blocks, so the body's triple applies at the blocks; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9,
    before0_10, before0_11, before0_12, before0_13, before0_14, before0_15, before0_16, before0_17, before0_18, before0_19,
    before0_20, before0_21, before0_22, before0_23, before0_24, before0_25]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10,
    after0_11, after0_12, after0_13, after0_14, after0_15, after0_16, after0_17, after0_18, after0_19, after0_20,
    after0_21, after0_22, after0_23, after0_24, after0_25, after0_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩,
    ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel c Set.univ (grid0.coords t) _ _ _ _ _ _ _ _ _ _ _ _ _ _ _ _ _ _ _ _ _ _ _ _ _ _ _ _ _ _ _ _ _ _ _ _
    _ _ _ _ _ _ _ _ _ _ _ _ _ _ _ _ _ _
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t)
    (iblk m c 15 t) (iblk m c 16 t) (iblk m c 17 t) (iblk m c 18 t) (iblk m c 19 t) (iblk m c 20 t) (iblk m c 21 t)
    (iblk m c 22 t) (iblk m c 23 t) (iblk m c 24 t) (iblk m c 25 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  iintro ⟨H0, H1, H2, H3, H4, H5, H6, H7, H8, H9, H10, H11, H12, H13, H14, H15, H16, H17, H18, H19, H20, H21, H22, H23, H24,
    H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

set_option maxHeartbeats 4000000 in
/-- The library's body obligation, at every point: its two conjunctions over the windows opened one by one. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
set_option maxHeartbeats 4000000 in
/-- At the compiled mesh, for any values, from any memory with zero counters: every weakly fair execution of the program
    on the TensorCores terminates, and every final state has every array of the pipeline at what the library computes
    from the proof data and every other unscoped buffer as the host tail leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.Hand.run_main' depends on axioms: [propext, Classical.choice, Quot.sound] -/
#guard_msgs in #print axioms run_main

/-- THE FRAME, at any float instance: from any memory with zero counters the program terminates without fault and
    every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  frame_of m ρ (dats m) (A_eq m) (run_main m ρ)

end Cert.KernelIdeal.Hand

end
-- ==== Proof.RefTerm.lean ====
/-
  What the reference function computes, stage by stage, as functions of its 26 argument arrays,
  at the ideal instance (a float an extended real).  Each definition applies the operations of the
  reference's @main in its order, with the shapes, dimension lists and side conditions it prints:
  the sample positions and the normalised directions, their two positional embeddings, the eleven
  affine layers with their `max(·, 0)`, the logistic of the last one, and the two reshaped results.
  Definitions only.
-/
import proofs.«181742_j549755814570_2_alg».proof.ReferenceIdeal
import Idealize.ShloMosaic.PureOps.Ideal

noncomputable section

namespace Cert.RefTerm

open Idealize.ShloMosaic
open Cert.ReferenceIdeal

variable [Facts]
open Facts₀ Facts

/-! ## The sample positions and the view directions -/

/-- %0: the positions, one row per sample. -/
def pts (a0 : FVec Ideal S2048x128x3 .f32) : FVec Ideal S262144x3 .f32 :=
  shapeCast S262144x3 a0 shapeCasts_S2048x128x3_S262144x3

/-- @norm of the directions (%1): the square root of the row sums of squares, kept as a column. -/
def dirsNorm (a1 : FVec Ideal S2048x3 .f32) : FVec Ideal S2048x1 .f32 :=
  Host.sqrt (F := Ideal)
    (broadcastInDim S2048x1 ![0] bcast_S2048_S2048x1_0
      (Host.reduceAdd (F := Ideal) (mulf (F := Ideal) a1 a1) (constant (F := Ideal) S_ .f32 0x00000000#32)
        reducesTo_S2048x3_S2048_d1 h_S_))

/-- %5: each direction divided by the larger of its norm and the literal. -/
def dirsN (a1 : FVec Ideal S2048x3 .f32) : FVec Ideal S2048x3 .f32 :=
  Host.divf (F := Ideal) a1
    (broadcastInDim S2048x3 ![0, 1] bcast_S2048x1_S2048x3_0_1
      (maximumf (F := Ideal) (dirsNorm a1)
        (broadcastInDim S2048x1 ![] bcast_S_S2048x1 (constant (F := Ideal) S_ .f32 0x2B8CBCCC#32))))

/-- %8: the normalised direction of a sample's ray, one row per sample. -/
def dirsRow (a1 : FVec Ideal S2048x3 .f32) : FVec Ideal S262144x3 .f32 :=
  shapeCast S262144x3
    (broadcastInDim S2048x128x3 ![0, 1, 2] bcast_S2048x1x3_S2048x128x3_0_1_2
      (broadcastInDim S2048x1x3 ![0, 2] bcast_S2048x3_S2048x1x3_0_2 (dirsN a1)))
    shapeCasts_S2048x128x3_S262144x3

/-! ## The positional embeddings -/

/-- %cst: the six frequencies. -/
def freqs6 : FVec Ideal S6 .f32 := fun i => FloatOps.ofBits (F := Ideal) .f32 (lit0 (S6.rowMajor i))

/-- %cst_0: the four frequencies. -/
def freqs4 : FVec Ideal S4 .f32 := fun i => FloatOps.ofBits (F := Ideal) .f32 (lit1 (S4.rowMajor i))

/-- %14: each coordinate of a row times each of the six frequencies, 18 columns. -/
def peScaled (x : FVec Ideal S262144x3 .f32) : FVec Ideal S262144x18 .f32 :=
  shapeCast S262144x18
    (mulf (F := Ideal)
      (broadcastInDim S262144x3x6 ![0, 1, 2] bcast_S262144x3x1_S262144x3x6_0_1_2
        (broadcastInDim S262144x3x1 ![0, 1] bcast_S262144x3_S262144x3x1_0_1 x))
      (broadcastInDim S262144x3x6 ![0, 1, 2] bcast_S1x1x6_S262144x3x6_0_1_2
        (broadcastInDim S1x1x6 ![2] bcast_S6_S1x1x6_2 freqs6)))
    shapeCasts_S262144x3x6_S262144x18

/-- %17 as a function of %0: sines, cosines, then the row itself: 39 columns. -/
def peOf (x : FVec Ideal S262144x3 .f32) : FVec Ideal S262144x39 .f32 :=
  concatenate S262144x39 1
    [⟨S262144x18, Host.sin (F := Ideal) (peScaled x)⟩, ⟨S262144x18, Host.cos (F := Ideal) (peScaled x)⟩, ⟨S262144x3, x⟩]
    concatenates_S262144x18_S262144x18_S262144x3_S262144x39_d1

/-- %17: the embedding of the positions. -/
def peArr (a0 : FVec Ideal S2048x128x3 .f32) : FVec Ideal S262144x39 .f32 := peOf (pts a0)

/-- %23: each coordinate of a row times each of the four frequencies, 12 columns. -/
def deScaled (x : FVec Ideal S262144x3 .f32) : FVec Ideal S262144x12 .f32 :=
  shapeCast S262144x12
    (mulf (F := Ideal)
      (broadcastInDim S262144x3x4 ![0, 1, 2] bcast_S262144x3x1_S262144x3x4_0_1_2
        (broadcastInDim S262144x3x1 ![0, 1] bcast_S262144x3_S262144x3x1_0_1 x))
      (broadcastInDim S262144x3x4 ![0, 1, 2] bcast_S1x1x4_S262144x3x4_0_1_2
        (broadcastInDim S1x1x4 ![2] bcast_S4_S1x1x4_2 freqs4)))
    shapeCasts_S262144x3x4_S262144x12

/-- %26 as a function of %8: sines, cosines, then the row itself: 27 columns. -/
def deOf (x : FVec Ideal S262144x3 .f32) : FVec Ideal S262144x27 .f32 :=
  concatenate S262144x27 1
    [⟨S262144x12, Host.sin (F := Ideal) (deScaled x)⟩, ⟨S262144x12, Host.cos (F := Ideal) (deScaled x)⟩, ⟨S262144x3, x⟩]
    concatenates_S262144x12_S262144x12_S262144x3_S262144x27_d1

/-- %26: the embedding of the directions. -/
def deArr (a1 : FVec Ideal S2048x3 .f32) : FVec Ideal S262144x27 .f32 := deOf (dirsRow a1)

/-! ## The outlined `max(·, 0)` at its three shapes -/

/-- @relu: the larger of the operand and a broadcast 0, [262144, 256]. -/
def relu256 (x : FVec Ideal S262144x256 .f32) : FVec Ideal S262144x256 .f32 :=
  maximumf (F := Ideal) x (broadcastInDim S262144x256 ![] bcast_S_S262144x256 (constant (F := Ideal) S_ .f32 0x00000000#32))

/-- @relu_0: the same at [262144, 1]. -/
def relu1 (x : FVec Ideal S262144x1 .f32) : FVec Ideal S262144x1 .f32 :=
  maximumf (F := Ideal) x (broadcastInDim S262144x1 ![] bcast_S_S262144x1 (constant (F := Ideal) S_ .f32 0x00000000#32))

/-- @relu_1: the same at [262144, 128]. -/
def relu128 (x : FVec Ideal S262144x128 .f32) : FVec Ideal S262144x128 .f32 :=
  maximumf (F := Ideal) x (broadcastInDim S262144x128 ![] bcast_S_S262144x128 (constant (F := Ideal) S_ .f32 0x00000000#32))

/-! ## The layers, as functions of the values they read

Each is: the product of the activations with the transposed weight, plus the bias broadcast along
the rows, then `max(·, 0)` (the last one: then the logistic, written out). -/

/-- %28 … %32: the first layer, from the 39 embedding columns. -/
def layerIn (x : FVec Ideal S262144x39 .f32) (W : FVec Ideal S256x39 .f32) (b : FVec Ideal S256 .f32) : FVec Ideal S262144x256 .f32 :=
  relu256
    (addf (F := Ideal)
      (Host.dotGeneral (F := Ideal) dot_S262144x39_S39x256_S262144x256_1_0_0_1_n_n none x
        (transpose S39x256 [1, 0] W transposes_S256x39_S39x256_1_0))
      (broadcastInDim S262144x256 ![0, 1] bcast_S1x256_S262144x256_0_1
        (broadcastInDim S1x256 ![1] bcast_S256_S1x256_1 b)))

/-- A 256-to-256 layer (%33 … %38 and the five like it). -/
def layer256 (x : FVec Ideal S262144x256 .f32) (W : FVec Ideal S256x256 .f32) (b : FVec Ideal S256 .f32) : FVec Ideal S262144x256 .f32 :=
  relu256
    (addf (F := Ideal)
      (Host.dotGeneral (F := Ideal) dot_S262144x256_S256x256_S262144x256_1_0_0_1_n_n none x
        (transpose S256x256 [1, 0] W transposes_S256x256_S256x256_1_0))
      (broadcastInDim S262144x256 ![0, 1] bcast_S1x256_S262144x256_0_1
        (broadcastInDim S1x256 ![1] bcast_S256_S1x256_1 b)))

/-- %57 … %63: the sixth layer reads the fifth's result followed by the embedding, 295 columns. -/
def layerSkip (x : FVec Ideal S262144x256 .f32) (pe : FVec Ideal S262144x39 .f32) (W : FVec Ideal S256x295 .f32) (b : FVec Ideal S256 .f32) :
    FVec Ideal S262144x256 .f32 :=
  relu256
    (addf (F := Ideal)
      (Host.dotGeneral (F := Ideal) dot_S262144x295_S295x256_S262144x256_1_0_0_1_n_n none
        (concatenate S262144x295 1 [⟨S262144x256, x⟩, ⟨S262144x39, pe⟩] concatenates_S262144x256_S262144x39_S262144x295_d1)
        (transpose S295x256 [1, 0] W transposes_S256x295_S295x256_1_0))
      (broadcastInDim S262144x256 ![0, 1] bcast_S1x256_S262144x256_0_1
        (broadcastInDim S1x256 ![1] bcast_S256_S1x256_1 b)))

/-- %76 … %81: the density head, one column. -/
def layerDens (x : FVec Ideal S262144x256 .f32) (W : FVec Ideal S1x256 .f32) (b : FVec Ideal S1 .f32) : FVec Ideal S262144x1 .f32 :=
  relu1
    (addf (F := Ideal)
      (Host.dotGeneral (F := Ideal) dot_S262144x256_S256x1_S262144x1_1_0_0_1_n_n none x
        (transpose S256x1 [1, 0] W transposes_S1x256_S256x1_1_0))
      (broadcastInDim S262144x1 ![0, 1] bcast_S1x1_S262144x1_0_1
        (broadcastInDim S1x1 ![1] bcast_S1_S1x1_1 b)))

/-- %82 … %87: the bottleneck, 128 columns. -/
def layerBott (x : FVec Ideal S262144x256 .f32) (W : FVec Ideal S128x256 .f32) (b : FVec Ideal S128 .f32) : FVec Ideal S262144x128 .f32 :=
  relu128
    (addf (F := Ideal)
      (Host.dotGeneral (F := Ideal) dot_S262144x256_S256x128_S262144x128_1_0_0_1_n_n none x
        (transpose S256x128 [1, 0] W transposes_S128x256_S256x128_1_0))
      (broadcastInDim S262144x128 ![0, 1] bcast_S1x128_S262144x128_0_1
        (broadcastInDim S1x128 ![1] bcast_S128_S1x128_1 b)))

/-- %88 … %94: the colour layer reads the bottleneck followed by the direction embedding, 155 columns. -/
def layerCf (x : FVec Ideal S262144x128 .f32) (de : FVec Ideal S262144x27 .f32) (W : FVec Ideal S128x155 .f32) (b : FVec Ideal S128 .f32) :
    FVec Ideal S262144x128 .f32 :=
  relu128
    (addf (F := Ideal)
      (Host.dotGeneral (F := Ideal) dot_S262144x155_S155x128_S262144x128_1_0_0_1_n_n none
        (concatenate S262144x155 1 [⟨S262144x128, x⟩, ⟨S262144x27, de⟩] concatenates_S262144x128_S262144x27_S262144x155_d1)
        (transpose S155x128 [1, 0] W transposes_S128x155_S155x128_1_0))
      (broadcastInDim S262144x128 ![0, 1] bcast_S1x128_S262144x128_0_1
        (broadcastInDim S1x128 ![1] bcast_S128_S1x128_1 b)))

/-- %95 … %99: the last affine layer, three columns. -/
def layerOut (x : FVec Ideal S262144x128 .f32) (W : FVec Ideal S3x128 .f32) (b : FVec Ideal S3 .f32) : FVec Ideal S262144x3 .f32 :=
  addf (F := Ideal)
    (Host.dotGeneral (F := Ideal) dot_S262144x128_S128x3_S262144x3_1_0_0_1_n_n none x
      (transpose S128x3 [1, 0] W transposes_S3x128_S128x3_1_0))
    (broadcastInDim S262144x3 ![0, 1] bcast_S1x3_S262144x3_0_1
      (broadcastInDim S1x3 ![1] bcast_S3_S1x3_1 b))

/-- %100 … %105: one over (one plus the exponential of the negation), the ones broadcast literals. -/
def logisticOf (x : FVec Ideal S262144x3 .f32) : FVec Ideal S262144x3 .f32 :=
  Host.divf (F := Ideal)
    (broadcastInDim S262144x3 ![] bcast_S_S262144x3 (constant (F := Ideal) S_ .f32 0x3F800000#32))
    (addf (F := Ideal)
      (broadcastInDim S262144x3 ![] bcast_S_S262144x3 (constant (F := Ideal) S_ .f32 0x3F800000#32))
      (Host.exp (F := Ideal) (Host.negf (F := Ideal) x)))

/-! ## The stages of @main over the 26 arguments -/

/-- %32. -/
def x1 (a0 : FVec Ideal S2048x128x3 .f32) (a1 : FVec Ideal S2048x3 .f32) (a2 : FVec Ideal S256x39 .f32) (a3 : FVec Ideal S256 .f32) (a4 : FVec Ideal S256x256 .f32) (a5 : FVec Ideal S256 .f32) (a6 : FVec Ideal S256x256 .f32) (a7 : FVec Ideal S256 .f32) (a8 : FVec Ideal S256x256 .f32) (a9 : FVec Ideal S256 .f32) (a10 : FVec Ideal S256x256 .f32) (a11 : FVec Ideal S256 .f32) (a12 : FVec Ideal S256x295 .f32) (a13 : FVec Ideal S256 .f32) (a14 : FVec Ideal S256x256 .f32) (a15 : FVec Ideal S256 .f32) (a16 : FVec Ideal S256x256 .f32) (a17 : FVec Ideal S256 .f32) (a18 : FVec Ideal S1x256 .f32) (a19 : FVec Ideal S1 .f32) (a20 : FVec Ideal S128x256 .f32) (a21 : FVec Ideal S128 .f32) (a22 : FVec Ideal S128x155 .f32) (a23 : FVec Ideal S128 .f32) (a24 : FVec Ideal S3x128 .f32) (a25 : FVec Ideal S3 .f32) :
    FVec Ideal S262144x256 .f32 :=
  layerIn (peArr a0) a2 a3

/-- %38. -/
def x2 (a0 : FVec Ideal S2048x128x3 .f32) (a1 : FVec Ideal S2048x3 .f32) (a2 : FVec Ideal S256x39 .f32) (a3 : FVec Ideal S256 .f32) (a4 : FVec Ideal S256x256 .f32) (a5 : FVec Ideal S256 .f32) (a6 : FVec Ideal S256x256 .f32) (a7 : FVec Ideal S256 .f32) (a8 : FVec Ideal S256x256 .f32) (a9 : FVec Ideal S256 .f32) (a10 : FVec Ideal S256x256 .f32) (a11 : FVec Ideal S256 .f32) (a12 : FVec Ideal S256x295 .f32) (a13 : FVec Ideal S256 .f32) (a14 : FVec Ideal S256x256 .f32) (a15 : FVec Ideal S256 .f32) (a16 : FVec Ideal S256x256 .f32) (a17 : FVec Ideal S256 .f32) (a18 : FVec Ideal S1x256 .f32) (a19 : FVec Ideal S1 .f32) (a20 : FVec Ideal S128x256 .f32) (a21 : FVec Ideal S128 .f32) (a22 : FVec Ideal S128x155 .f32) (a23 : FVec Ideal S128 .f32) (a24 : FVec Ideal S3x128 .f32) (a25 : FVec Ideal S3 .f32) :
    FVec Ideal S262144x256 .f32 :=
  layer256 (x1 a0 a1 a2 a3 a4 a5 a6 a7 a8 a9 a10 a11 a12 a13 a14 a15 a16 a17 a18 a19 a20 a21 a22 a23 a24 a25) a4 a5

/-- %44. -/
def x3 (a0 : FVec Ideal S2048x128x3 .f32) (a1 : FVec Ideal S2048x3 .f32) (a2 : FVec Ideal S256x39 .f32) (a3 : FVec Ideal S256 .f32) (a4 : FVec Ideal S256x256 .f32) (a5 : FVec Ideal S256 .f32) (a6 : FVec Ideal S256x256 .f32) (a7 : FVec Ideal S256 .f32) (a8 : FVec Ideal S256x256 .f32) (a9 : FVec Ideal S256 .f32) (a10 : FVec Ideal S256x256 .f32) (a11 : FVec Ideal S256 .f32) (a12 : FVec Ideal S256x295 .f32) (a13 : FVec Ideal S256 .f32) (a14 : FVec Ideal S256x256 .f32) (a15 : FVec Ideal S256 .f32) (a16 : FVec Ideal S256x256 .f32) (a17 : FVec Ideal S256 .f32) (a18 : FVec Ideal S1x256 .f32) (a19 : FVec Ideal S1 .f32) (a20 : FVec Ideal S128x256 .f32) (a21 : FVec Ideal S128 .f32) (a22 : FVec Ideal S128x155 .f32) (a23 : FVec Ideal S128 .f32) (a24 : FVec Ideal S3x128 .f32) (a25 : FVec Ideal S3 .f32) :
    FVec Ideal S262144x256 .f32 :=
  layer256 (x2 a0 a1 a2 a3 a4 a5 a6 a7 a8 a9 a10 a11 a12 a13 a14 a15 a16 a17 a18 a19 a20 a21 a22 a23 a24 a25) a6 a7

/-- %50. -/
def x4 (a0 : FVec Ideal S2048x128x3 .f32) (a1 : FVec Ideal S2048x3 .f32) (a2 : FVec Ideal S256x39 .f32) (a3 : FVec Ideal S256 .f32) (a4 : FVec Ideal S256x256 .f32) (a5 : FVec Ideal S256 .f32) (a6 : FVec Ideal S256x256 .f32) (a7 : FVec Ideal S256 .f32) (a8 : FVec Ideal S256x256 .f32) (a9 : FVec Ideal S256 .f32) (a10 : FVec Ideal S256x256 .f32) (a11 : FVec Ideal S256 .f32) (a12 : FVec Ideal S256x295 .f32) (a13 : FVec Ideal S256 .f32) (a14 : FVec Ideal S256x256 .f32) (a15 : FVec Ideal S256 .f32) (a16 : FVec Ideal S256x256 .f32) (a17 : FVec Ideal S256 .f32) (a18 : FVec Ideal S1x256 .f32) (a19 : FVec Ideal S1 .f32) (a20 : FVec Ideal S128x256 .f32) (a21 : FVec Ideal S128 .f32) (a22 : FVec Ideal S128x155 .f32) (a23 : FVec Ideal S128 .f32) (a24 : FVec Ideal S3x128 .f32) (a25 : FVec Ideal S3 .f32) :
    FVec Ideal S262144x256 .f32 :=
  layer256 (x3 a0 a1 a2 a3 a4 a5 a6 a7 a8 a9 a10 a11 a12 a13 a14 a15 a16 a17 a18 a19 a20 a21 a22 a23 a24 a25) a8 a9

/-- %56. -/
def x5 (a0 : FVec Ideal S2048x128x3 .f32) (a1 : FVec Ideal S2048x3 .f32) (a2 : FVec Ideal S256x39 .f32) (a3 : FVec Ideal S256 .f32) (a4 : FVec Ideal S256x256 .f32) (a5 : FVec Ideal S256 .f32) (a6 : FVec Ideal S256x256 .f32) (a7 : FVec Ideal S256 .f32) (a8 : FVec Ideal S256x256 .f32) (a9 : FVec Ideal S256 .f32) (a10 : FVec Ideal S256x256 .f32) (a11 : FVec Ideal S256 .f32) (a12 : FVec Ideal S256x295 .f32) (a13 : FVec Ideal S256 .f32) (a14 : FVec Ideal S256x256 .f32) (a15 : FVec Ideal S256 .f32) (a16 : FVec Ideal S256x256 .f32) (a17 : FVec Ideal S256 .f32) (a18 : FVec Ideal S1x256 .f32) (a19 : FVec Ideal S1 .f32) (a20 : FVec Ideal S128x256 .f32) (a21 : FVec Ideal S128 .f32) (a22 : FVec Ideal S128x155 .f32) (a23 : FVec Ideal S128 .f32) (a24 : FVec Ideal S3x128 .f32) (a25 : FVec Ideal S3 .f32) :
    FVec Ideal S262144x256 .f32 :=
  layer256 (x4 a0 a1 a2 a3 a4 a5 a6 a7 a8 a9 a10 a11 a12 a13 a14 a15 a16 a17 a18 a19 a20 a21 a22 a23 a24 a25) a10 a11

/-- %63. -/
def x6 (a0 : FVec Ideal S2048x128x3 .f32) (a1 : FVec Ideal S2048x3 .f32) (a2 : FVec Ideal S256x39 .f32) (a3 : FVec Ideal S256 .f32) (a4 : FVec Ideal S256x256 .f32) (a5 : FVec Ideal S256 .f32) (a6 : FVec Ideal S256x256 .f32) (a7 : FVec Ideal S256 .f32) (a8 : FVec Ideal S256x256 .f32) (a9 : FVec Ideal S256 .f32) (a10 : FVec Ideal S256x256 .f32) (a11 : FVec Ideal S256 .f32) (a12 : FVec Ideal S256x295 .f32) (a13 : FVec Ideal S256 .f32) (a14 : FVec Ideal S256x256 .f32) (a15 : FVec Ideal S256 .f32) (a16 : FVec Ideal S256x256 .f32) (a17 : FVec Ideal S256 .f32) (a18 : FVec Ideal S1x256 .f32) (a19 : FVec Ideal S1 .f32) (a20 : FVec Ideal S128x256 .f32) (a21 : FVec Ideal S128 .f32) (a22 : FVec Ideal S128x155 .f32) (a23 : FVec Ideal S128 .f32) (a24 : FVec Ideal S3x128 .f32) (a25 : FVec Ideal S3 .f32) :
    FVec Ideal S262144x256 .f32 :=
  layerSkip (x5 a0 a1 a2 a3 a4 a5 a6 a7 a8 a9 a10 a11 a12 a13 a14 a15 a16 a17 a18 a19 a20 a21 a22 a23 a24 a25) (peArr a0) a12 a13

/-- %69. -/
def x7 (a0 : FVec Ideal S2048x128x3 .f32) (a1 : FVec Ideal S2048x3 .f32) (a2 : FVec Ideal S256x39 .f32) (a3 : FVec Ideal S256 .f32) (a4 : FVec Ideal S256x256 .f32) (a5 : FVec Ideal S256 .f32) (a6 : FVec Ideal S256x256 .f32) (a7 : FVec Ideal S256 .f32) (a8 : FVec Ideal S256x256 .f32) (a9 : FVec Ideal S256 .f32) (a10 : FVec Ideal S256x256 .f32) (a11 : FVec Ideal S256 .f32) (a12 : FVec Ideal S256x295 .f32) (a13 : FVec Ideal S256 .f32) (a14 : FVec Ideal S256x256 .f32) (a15 : FVec Ideal S256 .f32) (a16 : FVec Ideal S256x256 .f32) (a17 : FVec Ideal S256 .f32) (a18 : FVec Ideal S1x256 .f32) (a19 : FVec Ideal S1 .f32) (a20 : FVec Ideal S128x256 .f32) (a21 : FVec Ideal S128 .f32) (a22 : FVec Ideal S128x155 .f32) (a23 : FVec Ideal S128 .f32) (a24 : FVec Ideal S3x128 .f32) (a25 : FVec Ideal S3 .f32) :
    FVec Ideal S262144x256 .f32 :=
  layer256 (x6 a0 a1 a2 a3 a4 a5 a6 a7 a8 a9 a10 a11 a12 a13 a14 a15 a16 a17 a18 a19 a20 a21 a22 a23 a24 a25) a14 a15

/-- %75. -/
def x8 (a0 : FVec Ideal S2048x128x3 .f32) (a1 : FVec Ideal S2048x3 .f32) (a2 : FVec Ideal S256x39 .f32) (a3 : FVec Ideal S256 .f32) (a4 : FVec Ideal S256x256 .f32) (a5 : FVec Ideal S256 .f32) (a6 : FVec Ideal S256x256 .f32) (a7 : FVec Ideal S256 .f32) (a8 : FVec Ideal S256x256 .f32) (a9 : FVec Ideal S256 .f32) (a10 : FVec Ideal S256x256 .f32) (a11 : FVec Ideal S256 .f32) (a12 : FVec Ideal S256x295 .f32) (a13 : FVec Ideal S256 .f32) (a14 : FVec Ideal S256x256 .f32) (a15 : FVec Ideal S256 .f32) (a16 : FVec Ideal S256x256 .f32) (a17 : FVec Ideal S256 .f32) (a18 : FVec Ideal S1x256 .f32) (a19 : FVec Ideal S1 .f32) (a20 : FVec Ideal S128x256 .f32) (a21 : FVec Ideal S128 .f32) (a22 : FVec Ideal S128x155 .f32) (a23 : FVec Ideal S128 .f32) (a24 : FVec Ideal S3x128 .f32) (a25 : FVec Ideal S3 .f32) :
    FVec Ideal S262144x256 .f32 :=
  layer256 (x7 a0 a1 a2 a3 a4 a5 a6 a7 a8 a9 a10 a11 a12 a13 a14 a15 a16 a17 a18 a19 a20 a21 a22 a23 a24 a25) a16 a17

/-- %81: the density, one column. -/
def dens2 (a0 : FVec Ideal S2048x128x3 .f32) (a1 : FVec Ideal S2048x3 .f32) (a2 : FVec Ideal S256x39 .f32) (a3 : FVec Ideal S256 .f32) (a4 : FVec Ideal S256x256 .f32) (a5 : FVec Ideal S256 .f32) (a6 : FVec Ideal S256x256 .f32) (a7 : FVec Ideal S256 .f32) (a8 : FVec Ideal S256x256 .f32) (a9 : FVec Ideal S256 .f32) (a10 : FVec Ideal S256x256 .f32) (a11 : FVec Ideal S256 .f32) (a12 : FVec Ideal S256x295 .f32) (a13 : FVec Ideal S256 .f32) (a14 : FVec Ideal S256x256 .f32) (a15 : FVec Ideal S256 .f32) (a16 : FVec Ideal S256x256 .f32) (a17 : FVec Ideal S256 .f32) (a18 : FVec Ideal S1x256 .f32) (a19 : FVec Ideal S1 .f32) (a20 : FVec Ideal S128x256 .f32) (a21 : FVec Ideal S128 .f32) (a22 : FVec Ideal S128x155 .f32) (a23 : FVec Ideal S128 .f32) (a24 : FVec Ideal S3x128 .f32) (a25 : FVec Ideal S3 .f32) :
    FVec Ideal S262144x1 .f32 :=
  layerDens (x8 a0 a1 a2 a3 a4 a5 a6 a7 a8 a9 a10 a11 a12 a13 a14 a15 a16 a17 a18 a19 a20 a21 a22 a23 a24 a25) a18 a19

/-- %87: the bottleneck. -/
def bottA (a0 : FVec Ideal S2048x128x3 .f32) (a1 : FVec Ideal S2048x3 .f32) (a2 : FVec Ideal S256x39 .f32) (a3 : FVec Ideal S256 .f32) (a4 : FVec Ideal S256x256 .f32) (a5 : FVec Ideal S256 .f32) (a6 : FVec Ideal S256x256 .f32) (a7 : FVec Ideal S256 .f32) (a8 : FVec Ideal S256x256 .f32) (a9 : FVec Ideal S256 .f32) (a10 : FVec Ideal S256x256 .f32) (a11 : FVec Ideal S256 .f32) (a12 : FVec Ideal S256x295 .f32) (a13 : FVec Ideal S256 .f32) (a14 : FVec Ideal S256x256 .f32) (a15 : FVec Ideal S256 .f32) (a16 : FVec Ideal S256x256 .f32) (a17 : FVec Ideal S256 .f32) (a18 : FVec Ideal S1x256 .f32) (a19 : FVec Ideal S1 .f32) (a20 : FVec Ideal S128x256 .f32) (a21 : FVec Ideal S128 .f32) (a22 : FVec Ideal S128x155 .f32) (a23 : FVec Ideal S128 .f32) (a24 : FVec Ideal S3x128 .f32) (a25 : FVec Ideal S3 .f32) :
    FVec Ideal S262144x128 .f32 :=
  layerBott (x8 a0 a1 a2 a3 a4 a5 a6 a7 a8 a9 a10 a11 a12 a13 a14 a15 a16 a17 a18 a19 a20 a21 a22 a23 a24 a25) a20 a21

/-- %94: the colour features. -/
def cfA (a0 : FVec Ideal S2048x128x3 .f32) (a1 : FVec Ideal S2048x3 .f32) (a2 : FVec Ideal S256x39 .f32) (a3 : FVec Ideal S256 .f32) (a4 : FVec Ideal S256x256 .f32) (a5 : FVec Ideal S256 .f32) (a6 : FVec Ideal S256x256 .f32) (a7 : FVec Ideal S256 .f32) (a8 : FVec Ideal S256x256 .f32) (a9 : FVec Ideal S256 .f32) (a10 : FVec Ideal S256x256 .f32) (a11 : FVec Ideal S256 .f32) (a12 : FVec Ideal S256x295 .f32) (a13 : FVec Ideal S256 .f32) (a14 : FVec Ideal S256x256 .f32) (a15 : FVec Ideal S256 .f32) (a16 : FVec Ideal S256x256 .f32) (a17 : FVec Ideal S256 .f32) (a18 : FVec Ideal S1x256 .f32) (a19 : FVec Ideal S1 .f32) (a20 : FVec Ideal S128x256 .f32) (a21 : FVec Ideal S128 .f32) (a22 : FVec Ideal S128x155 .f32) (a23 : FVec Ideal S128 .f32) (a24 : FVec Ideal S3x128 .f32) (a25 : FVec Ideal S3 .f32) :
    FVec Ideal S262144x128 .f32 :=
  layerCf (bottA a0 a1 a2 a3 a4 a5 a6 a7 a8 a9 a10 a11 a12 a13 a14 a15 a16 a17 a18 a19 a20 a21 a22 a23 a24 a25) (deArr a1) a22 a23

/-- %105: the colour, three columns. -/
def col2 (a0 : FVec Ideal S2048x128x3 .f32) (a1 : FVec Ideal S2048x3 .f32) (a2 : FVec Ideal S256x39 .f32) (a3 : FVec Ideal S256 .f32) (a4 : FVec Ideal S256x256 .f32) (a5 : FVec Ideal S256 .f32) (a6 : FVec Ideal S256x256 .f32) (a7 : FVec Ideal S256 .f32) (a8 : FVec Ideal S256x256 .f32) (a9 : FVec Ideal S256 .f32) (a10 : FVec Ideal S256x256 .f32) (a11 : FVec Ideal S256 .f32) (a12 : FVec Ideal S256x295 .f32) (a13 : FVec Ideal S256 .f32) (a14 : FVec Ideal S256x256 .f32) (a15 : FVec Ideal S256 .f32) (a16 : FVec Ideal S256x256 .f32) (a17 : FVec Ideal S256 .f32) (a18 : FVec Ideal S1x256 .f32) (a19 : FVec Ideal S1 .f32) (a20 : FVec Ideal S128x256 .f32) (a21 : FVec Ideal S128 .f32) (a22 : FVec Ideal S128x155 .f32) (a23 : FVec Ideal S128 .f32) (a24 : FVec Ideal S3x128 .f32) (a25 : FVec Ideal S3 .f32) :
    FVec Ideal S262144x3 .f32 :=
  logisticOf (layerOut (cfA a0 a1 a2 a3 a4 a5 a6 a7 a8 a9 a10 a11 a12 a13 a14 a15 a16 a17 a18 a19 a20 a21 a22 a23 a24 a25) a24 a25)

/-- %106: the first result. -/
def refDensity (a0 : FVec Ideal S2048x128x3 .f32) (a1 : FVec Ideal S2048x3 .f32) (a2 : FVec Ideal S256x39 .f32) (a3 : FVec Ideal S256 .f32) (a4 : FVec Ideal S256x256 .f32) (a5 : FVec Ideal S256 .f32) (a6 : FVec Ideal S256x256 .f32) (a7 : FVec Ideal S256 .f32) (a8 : FVec Ideal S256x256 .f32) (a9 : FVec Ideal S256 .f32) (a10 : FVec Ideal S256x256 .f32) (a11 : FVec Ideal S256 .f32) (a12 : FVec Ideal S256x295 .f32) (a13 : FVec Ideal S256 .f32) (a14 : FVec Ideal S256x256 .f32) (a15 : FVec Ideal S256 .f32) (a16 : FVec Ideal S256x256 .f32) (a17 : FVec Ideal S256 .f32) (a18 : FVec Ideal S1x256 .f32) (a19 : FVec Ideal S1 .f32) (a20 : FVec Ideal S128x256 .f32) (a21 : FVec Ideal S128 .f32) (a22 : FVec Ideal S128x155 .f32) (a23 : FVec Ideal S128 .f32) (a24 : FVec Ideal S3x128 .f32) (a25 : FVec Ideal S3 .f32) :
    FVec Ideal S2048x128x1 .f32 :=
  shapeCast S2048x128x1 (dens2 a0 a1 a2 a3 a4 a5 a6 a7 a8 a9 a10 a11 a12 a13 a14 a15 a16 a17 a18 a19 a20 a21 a22 a23 a24 a25) shapeCasts_S262144x1_S2048x128x1

/-- %107: the second result. -/
def refColor (a0 : FVec Ideal S2048x128x3 .f32) (a1 : FVec Ideal S2048x3 .f32) (a2 : FVec Ideal S256x39 .f32) (a3 : FVec Ideal S256 .f32) (a4 : FVec Ideal S256x256 .f32) (a5 : FVec Ideal S256 .f32) (a6 : FVec Ideal S256x256 .f32) (a7 : FVec Ideal S256 .f32) (a8 : FVec Ideal S256x256 .f32) (a9 : FVec Ideal S256 .f32) (a10 : FVec Ideal S256x256 .f32) (a11 : FVec Ideal S256 .f32) (a12 : FVec Ideal S256x295 .f32) (a13 : FVec Ideal S256 .f32) (a14 : FVec Ideal S256x256 .f32) (a15 : FVec Ideal S256 .f32) (a16 : FVec Ideal S256x256 .f32) (a17 : FVec Ideal S256 .f32) (a18 : FVec Ideal S1x256 .f32) (a19 : FVec Ideal S1 .f32) (a20 : FVec Ideal S128x256 .f32) (a21 : FVec Ideal S128 .f32) (a22 : FVec Ideal S128x155 .f32) (a23 : FVec Ideal S128 .f32) (a24 : FVec Ideal S3x128 .f32) (a25 : FVec Ideal S3 .f32) :
    FVec Ideal S2048x128x3 .f32 :=
  shapeCast S2048x128x3 (col2 a0 a1 a2 a3 a4 a5 a6 a7 a8 a9 a10 a11 a12 a13 a14 a15 a16 a17 a18 a19 a20 a21 a22 a23 a24 a25) shapeCasts_S262144x3_S2048x128x3

end Cert.RefTerm

end
-- ==== Proof.RefRun.lean ====
/-
  The reference program's run, read back.

  @main of the reference is a straight line of 139 host operations: the 102 it states itself and, at
  each of its twelve calls, the callee's own operations over that call's buffers (the norm's five, each
  rectifier's three).  A call is the callee's body at the call's buffers, so @main IS that line; every
  weakly fair execution of a straight line terminates with each buffer at the fold of the operations'
  results over the launch contents.  No operation writes an argument, so the arguments keep their
  launch contents.
-/
import proofs.«181742_j549755814570_2_alg».proof.Proof.Gen.ReferenceIdeal
import Idealize.ShloMosaic.Lib.StableHlo.Run
import Idealize.ShloMosaic.Lib.Pipeline.Frame
import Idealize.ShloMosaic.PureOps.Ideal
import proofs.«181742_j549755814570_2_alg».proof.Proof.RefTerm

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first window's operations (statements 1 … 60 of @main), a callee's operations standing in its call's place. -/
abbrev ops0 : List (HloOp τ sig (Elt F)) :=
  [ nullary main_cst (fun i => FloatOps.ofBits .f32 (lit0 (S6.rowMajor i))),
    nullary main_cst_0 (fun i => FloatOps.ofBits .f32 (lit1 (S4.rowMajor i))),
    reshape main_arg0 main_v0 rfl shapeCasts_S2048x128x3_S262144x3,
    binary main_arg1 main_arg1 main_call0_v0 (mulf : (⟨S2048x3, .f32⟩ : BufTy).Contents (Elt F) → (⟨S2048x3, .f32⟩ : BufTy).Contents (Elt F) → (⟨S2048x3, .f32⟩ : BufTy).Contents (Elt F)),
    nullary main_call0_cst (constant S_ .f32 0x00000000#32),
    binary main_call0_v0 main_call0_cst main_call0_v1 ((fun x v => Host.reduceAdd x v reducesTo_S2048x3_S2048_d1 h_S_) : (⟨S2048x3, .f32⟩ : BufTy).Contents (Elt F) → (⟨S_, .f32⟩ : BufTy).Contents (Elt F) → (⟨S2048, .f32⟩ : BufTy).Contents (Elt F)),
    unary main_call0_v1 main_call0_v2 (broadcastInDim S2048x1 ![0] bcast_S2048_S2048x1_0 : (⟨S2048, .f32⟩ : BufTy).Contents (Elt F) → (⟨S2048x1, .f32⟩ : BufTy).Contents (Elt F)),
    unary main_call0_v2 main_v1 (Host.sqrt : (⟨S2048x1, .f32⟩ : BufTy).Contents (Elt F) → (⟨S2048x1, .f32⟩ : BufTy).Contents (Elt F)),
    nullary main_cst_1 (constant S_ .f32 0x2B8CBCCC#32),
    unary main_cst_1 main_v2 (broadcastInDim S2048x1 ![] bcast_S_S2048x1 : (⟨S_, .f32⟩ : BufTy).Contents (Elt F) → (⟨S2048x1, .f32⟩ : BufTy).Contents (Elt F)),
    binary main_v1 main_v2 main_v3 (maximumf : (⟨S2048x1, .f32⟩ : BufTy).Contents (Elt F) → (⟨S2048x1, .f32⟩ : BufTy).Contents (Elt F) → (⟨S2048x1, .f32⟩ : BufTy).Contents (Elt F)),
    unary main_v3 main_v4 (broadcastInDim S2048x3 ![0, 1] bcast_S2048x1_S2048x3_0_1 : (⟨S2048x1, .f32⟩ : BufTy).Contents (Elt F) → (⟨S2048x3, .f32⟩ : BufTy).Contents (Elt F)),
    binary main_arg1 main_v4 main_v5 (Host.divf : (⟨S2048x3, .f32⟩ : BufTy).Contents (Elt F) → (⟨S2048x3, .f32⟩ : BufTy).Contents (Elt F) → (⟨S2048x3, .f32⟩ : BufTy).Contents (Elt F)),
    unary main_v5 main_v6 (broadcastInDim S2048x1x3 ![0, 2] bcast_S2048x3_S2048x1x3_0_2 : (⟨S2048x3, .f32⟩ : BufTy).Contents (Elt F) → (⟨S2048x1x3, .f32⟩ : BufTy).Contents (Elt F)),
    unary main_v6 main_v7 (broadcastInDim S2048x128x3 ![0, 1, 2] bcast_S2048x1x3_S2048x128x3_0_1_2 : (⟨S2048x1x3, .f32⟩ : BufTy).Contents (Elt F) → (⟨S2048x128x3, .f32⟩ : BufTy).Contents (Elt F)),
    reshape main_v7 main_v8 rfl shapeCasts_S2048x128x3_S262144x3,
    unary main_v0 main_v9 (broadcastInDim S262144x3x1 ![0, 1] bcast_S262144x3_S262144x3x1_0_1 : (⟨S262144x3, .f32⟩ : BufTy).Contents (Elt F) → (⟨S262144x3x1, .f32⟩ : BufTy).Contents (Elt F)),
    unary main_cst main_v10 (broadcastInDim S1x1x6 ![2] bcast_S6_S1x1x6_2 : (⟨S6, .f32⟩ : BufTy).Contents (Elt F) → (⟨S1x1x6, .f32⟩ : BufTy).Contents (Elt F)),
    unary main_v9 main_v11 (broadcastInDim S262144x3x6 ![0, 1, 2] bcast_S262144x3x1_S262144x3x6_0_1_2 : (⟨S262144x3x1, .f32⟩ : BufTy).Contents (Elt F) → (⟨S262144x3x6, .f32⟩ : BufTy).Contents (Elt F)),
    unary main_v10 main_v12 (broadcastInDim S262144x3x6 ![0, 1, 2] bcast_S1x1x6_S262144x3x6_0_1_2 : (⟨S1x1x6, .f32⟩ : BufTy).Contents (Elt F) → (⟨S262144x3x6, .f32⟩ : BufTy).Contents (Elt F)),
    binary main_v11 main_v12 main_v13 (mulf : (⟨S262144x3x6, .f32⟩ : BufTy).Contents (Elt F) → (⟨S262144x3x6, .f32⟩ : BufTy).Contents (Elt F) → (⟨S262144x3x6, .f32⟩ : BufTy).Contents (Elt F)),
    reshape main_v13 main_v14 rfl shapeCasts_S262144x3x6_S262144x18,
    unary main_v14 main_v15 (Host.sin : (⟨S262144x18, .f32⟩ : BufTy).Contents (Elt F) → (⟨S262144x18, .f32⟩ : BufTy).Contents (Elt F)),
    unary main_v14 main_v16 (Host.cos : (⟨S262144x18, .f32⟩ : BufTy).Contents (Elt F) → (⟨S262144x18, .f32⟩ : BufTy).Contents (Elt F)),
    nary ![main_v15, main_v16, main_v0] main_v17 (fun u => concatenate S262144x39 1 [⟨S262144x18, u 0⟩, ⟨S262144x18, u 1⟩, ⟨S262144x3, u 2⟩] concatenates_S262144x18_S262144x18_S262144x3_S262144x39_d1),
    unary main_v8 main_v18 (broadcastInDim S262144x3x1 ![0, 1] bcast_S262144x3_S262144x3x1_0_1 : (⟨S262144x3, .f32⟩ : BufTy).Contents (Elt F) → (⟨S262144x3x1, .f32⟩ : BufTy).Contents (Elt F)),
    unary main_cst_0 main_v19 (broadcastInDim S1x1x4 ![2] bcast_S4_S1x1x4_2 : (⟨S4, .f32⟩ : BufTy).Contents (Elt F) → (⟨S1x1x4, .f32⟩ : BufTy).Contents (Elt F)),
    unary main_v18 main_v20 (broadcastInDim S262144x3x4 ![0, 1, 2] bcast_S262144x3x1_S262144x3x4_0_1_2 : (⟨S262144x3x1, .f32⟩ : BufTy).Contents (Elt F) → (⟨S262144x3x4, .f32⟩ : BufTy).Contents (Elt F)),
    unary main_v19 main_v21 (broadcastInDim S262144x3x4 ![0, 1, 2] bcast_S1x1x4_S262144x3x4_0_1_2 : (⟨S1x1x4, .f32⟩ : BufTy).Contents (Elt F) → (⟨S262144x3x4, .f32⟩ : BufTy).Contents (Elt F)),
    binary main_v20 main_v21 main_v22 (mulf : (⟨S262144x3x4, .f32⟩ : BufTy).Contents (Elt F) → (⟨S262144x3x4, .f32⟩ : BufTy).Contents (Elt F) → (⟨S262144x3x4, .f32⟩ : BufTy).Contents (Elt F)),
    reshape main_v22 main_v23 rfl shapeCasts_S262144x3x4_S262144x12,
    unary main_v23 main_v24 (Host.sin : (⟨S262144x12, .f32⟩ : BufTy).Contents (Elt F) → (⟨S262144x12, .f32⟩ : BufTy).Contents (Elt F)),
    unary main_v23 main_v25 (Host.cos : (⟨S262144x12, .f32⟩ : BufTy).Contents (Elt F) → (⟨S262144x12, .f32⟩ : BufTy).Contents (Elt F)),
    nary ![main_v24, main_v25, main_v8] main_v26 (fun u => concatenate S262144x27 1 [⟨S262144x12, u 0⟩, ⟨S262144x12, u 1⟩, ⟨S262144x3, u 2⟩] concatenates_S262144x12_S262144x12_S262144x3_S262144x27_d1),
    unary main_arg2 main_v27 ((transpose S39x256 [1, 0] · transposes_S256x39_S39x256_1_0) : (⟨S256x39, .f32⟩ : BufTy).Contents (Elt F) → (⟨S39x256, .f32⟩ : BufTy).Contents (Elt F)),
    binary main_v17 main_v27 main_v28 ((fun l r => Host.dotGeneral dot_S262144x39_S39x256_S262144x256_1_0_0_1_n_n none l r) : (⟨S262144x39, .f32⟩ : BufTy).Contents (Elt F) → (⟨S39x256, .f32⟩ : BufTy).Contents (Elt F) → (⟨S262144x256, .f32⟩ : BufTy).Contents (Elt F)),
    unary main_arg3 main_v29 (broadcastInDim S1x256 ![1] bcast_S256_S1x256_1 : (⟨S256, .f32⟩ : BufTy).Contents (Elt F) → (⟨S1x256, .f32⟩ : BufTy).Contents (Elt F)),
    unary main_v29 main_v30 (broadcastInDim S262144x256 ![0, 1] bcast_S1x256_S262144x256_0_1 : (⟨S1x256, .f32⟩ : BufTy).Contents (Elt F) → (⟨S262144x256, .f32⟩ : BufTy).Contents (Elt F)),
    binary main_v28 main_v30 main_v31 (addf : (⟨S262144x256, .f32⟩ : BufTy).Contents (Elt F) → (⟨S262144x256, .f32⟩ : BufTy).Contents (Elt F) → (⟨S262144x256, .f32⟩ : BufTy).Contents (Elt F)),
    nullary main_call1_cst (constant S_ .f32 0x00000000#32),
    unary main_call1_cst main_call1_v0 (broadcastInDim S262144x256 ![] bcast_S_S262144x256 : (⟨S_, .f32⟩ : BufTy).Contents (Elt F) → (⟨S262144x256, .f32⟩ : BufTy).Contents (Elt F)),
    binary main_v31 main_call1_v0 main_v32 (maximumf : (⟨S262144x256, .f32⟩ : BufTy).Contents (Elt F) → (⟨S262144x256, .f32⟩ : BufTy).Contents (Elt F) → (⟨S262144x256, .f32⟩ : BufTy).Contents (Elt F)),
    unary main_arg4 main_v33 ((transpose S256x256 [1, 0] · transposes_S256x256_S256x256_1_0) : (⟨S256x256, .f32⟩ : BufTy).Contents (Elt F) → (⟨S256x256, .f32⟩ : BufTy).Contents (Elt F)),
    binary main_v32 main_v33 main_v34 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    unary main_arg5 main_v35 (broadcastInDim S1x256 ![1] bcast_S256_S1x256_1 : (⟨S256, .f32⟩ : BufTy).Contents (Elt F) → (⟨S1x256, .f32⟩ : BufTy).Contents (Elt F)),
    unary main_v35 main_v36 (broadcastInDim S262144x256 ![0, 1] bcast_S1x256_S262144x256_0_1 : (⟨S1x256, .f32⟩ : BufTy).Contents (Elt F) → (⟨S262144x256, .f32⟩ : BufTy).Contents (Elt F)),
    binary main_v34 main_v36 main_v37 (addf : (⟨S262144x256, .f32⟩ : BufTy).Contents (Elt F) → (⟨S262144x256, .f32⟩ : BufTy).Contents (Elt F) → (⟨S262144x256, .f32⟩ : BufTy).Contents (Elt F)),
    nullary main_call2_cst (constant S_ .f32 0x00000000#32),
    unary main_call2_cst main_call2_v0 (broadcastInDim S262144x256 ![] bcast_S_S262144x256 : (⟨S_, .f32⟩ : BufTy).Contents (Elt F) → (⟨S262144x256, .f32⟩ : BufTy).Contents (Elt F)),
    binary main_v37 main_call2_v0 main_v38 (maximumf : (⟨S262144x256, .f32⟩ : BufTy).Contents (Elt F) → (⟨S262144x256, .f32⟩ : BufTy).Contents (Elt F) → (⟨S262144x256, .f32⟩ : BufTy).Contents (Elt F)),
    unary main_arg6 main_v39 ((transpose S256x256 [1, 0] · transposes_S256x256_S256x256_1_0) : (⟨S256x256, .f32⟩ : BufTy).Contents (Elt F) → (⟨S256x256, .f32⟩ : BufTy).Contents (Elt F)),
    binary main_v38 main_v39 main_v40 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    unary main_arg7 main_v41 (broadcastInDim S1x256 ![1] bcast_S256_S1x256_1 : (⟨S256, .f32⟩ : BufTy).Contents (Elt F) → (⟨S1x256, .f32⟩ : BufTy).Contents (Elt F)),
    unary main_v41 main_v42 (broadcastInDim S262144x256 ![0, 1] bcast_S1x256_S262144x256_0_1 : (⟨S1x256, .f32⟩ : BufTy).Contents (Elt F) → (⟨S262144x256, .f32⟩ : BufTy).Contents (Elt F)),
    binary main_v40 main_v42 main_v43 (addf : (⟨S262144x256, .f32⟩ : BufTy).Contents (Elt F) → (⟨S262144x256, .f32⟩ : BufTy).Contents (Elt F) → (⟨S262144x256, .f32⟩ : BufTy).Contents (Elt F)),
    nullary main_call3_cst (constant S_ .f32 0x00000000#32),
    unary main_call3_cst main_call3_v0 (broadcastInDim S262144x256 ![] bcast_S_S262144x256 : (⟨S_, .f32⟩ : BufTy).Contents (Elt F) → (⟨S262144x256, .f32⟩ : BufTy).Contents (Elt F)),
    binary main_v43 main_call3_v0 main_v44 (maximumf : (⟨S262144x256, .f32⟩ : BufTy).Contents (Elt F) → (⟨S262144x256, .f32⟩ : BufTy).Contents (Elt F) → (⟨S262144x256, .f32⟩ : BufTy).Contents (Elt F)),
    unary main_arg8 main_v45 ((transpose S256x256 [1, 0] · transposes_S256x256_S256x256_1_0) : (⟨S256x256, .f32⟩ : BufTy).Contents (Elt F) → (⟨S256x256, .f32⟩ : BufTy).Contents (Elt F)),
    binary main_v44 main_v45 main_v46 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    unary main_arg9 main_v47 (broadcastInDim S1x256 ![1] bcast_S256_S1x256_1 : (⟨S256, .f32⟩ : BufTy).Contents (Elt F) → (⟨S1x256, .f32⟩ : BufTy).Contents (Elt F)),
    unary main_v47 main_v48 (broadcastInDim S262144x256 ![0, 1] bcast_S1x256_S262144x256_0_1 : (⟨S1x256, .f32⟩ : BufTy).Contents (Elt F) → (⟨S262144x256, .f32⟩ : BufTy).Contents (Elt F)),
    binary main_v46 main_v48 main_v49 (addf : (⟨S262144x256, .f32⟩ : BufTy).Contents (Elt F) → (⟨S262144x256, .f32⟩ : BufTy).Contents (Elt F) → (⟨S262144x256, .f32⟩ : BufTy).Contents (Elt F)),
    nullary main_call4_cst (constant S_ .f32 0x00000000#32),
    unary main_call4_cst main_call4_v0 (broadcastInDim S262144x256 ![] bcast_S_S262144x256 : (⟨S_, .f32⟩ : BufTy).Contents (Elt F) → (⟨S262144x256, .f32⟩ : BufTy).Contents (Elt F)),
    binary main_v49 main_call4_v0 main_v50 (maximumf : (⟨S262144x256, .f32⟩ : BufTy).Contents (Elt F) → (⟨S262144x256, .f32⟩ : BufTy).Contents (Elt F) → (⟨S262144x256, .f32⟩ : BufTy).Contents (Elt F)),
    unary main_arg10 main_v51 ((transpose S256x256 [1, 0] · transposes_S256x256_S256x256_1_0) : (⟨S256x256, .f32⟩ : BufTy).Contents (Elt F) → (⟨S256x256, .f32⟩ : BufTy).Contents (Elt F)),
    binary main_v50 main_v51 main_v52 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    unary main_arg11 main_v53 (broadcastInDim S1x256 ![1] bcast_S256_S1x256_1 : (⟨S256, .f32⟩ : BufTy).Contents (Elt F) → (⟨S1x256, .f32⟩ : BufTy).Contents (Elt F)),
    unary main_v53 main_v54 (broadcastInDim S262144x256 ![0, 1] bcast_S1x256_S262144x256_0_1 : (⟨S1x256, .f32⟩ : BufTy).Contents (Elt F) → (⟨S262144x256, .f32⟩ : BufTy).Contents (Elt F)),
    binary main_v52 main_v54 main_v55 (addf : (⟨S262144x256, .f32⟩ : BufTy).Contents (Elt F) → (⟨S262144x256, .f32⟩ : BufTy).Contents (Elt F) → (⟨S262144x256, .f32⟩ : BufTy).Contents (Elt F)),
    nullary main_call5_cst (constant S_ .f32 0x00000000#32),
    unary main_call5_cst main_call5_v0 (broadcastInDim S262144x256 ![] bcast_S_S262144x256 : (⟨S_, .f32⟩ : BufTy).Contents (Elt F) → (⟨S262144x256, .f32⟩ : BufTy).Contents (Elt F)),
    binary main_v55 main_call5_v0 main_v56 (maximumf : (⟨S262144x256, .f32⟩ : BufTy).Contents (Elt F) → (⟨S262144x256, .f32⟩ : BufTy).Contents (Elt F) → (⟨S262144x256, .f32⟩ : BufTy).Contents (Elt F)) ]

/-- The second window's operations (statements 61 … 113 of @main), a callee's operations standing in its call's place. -/
abbrev ops1 : List (HloOp τ sig (Elt F)) :=
  [ binary main_v56 main_v17 main_v57 ((fun a b => concatenate S262144x295 1 [⟨S262144x256, a⟩, ⟨S262144x39, b⟩] concatenates_S262144x256_S262144x39_S262144x295_d1) : (⟨S262144x256, .f32⟩ : BufTy).Contents (Elt F) → (⟨S262144x39, .f32⟩ : BufTy).Contents (Elt F) → (⟨S262144x295, .f32⟩ : BufTy).Contents (Elt F)),
    unary main_arg12 main_v58 ((transpose S295x256 [1, 0] · transposes_S256x295_S295x256_1_0) : (⟨S256x295, .f32⟩ : BufTy).Contents (Elt F) → (⟨S295x256, .f32⟩ : BufTy).Contents (Elt F)),
    binary main_v57 main_v58 main_v59 ((fun l r => Host.dotGeneral dot_S262144x295_S295x256_S262144x256_1_0_0_1_n_n none l r) : (⟨S262144x295, .f32⟩ : BufTy).Contents (Elt F) → (⟨S295x256, .f32⟩ : BufTy).Contents (Elt F) → (⟨S262144x256, .f32⟩ : BufTy).Contents (Elt F)),
    unary main_arg13 main_v60 (broadcastInDim S1x256 ![1] bcast_S256_S1x256_1 : (⟨S256, .f32⟩ : BufTy).Contents (Elt F) → (⟨S1x256, .f32⟩ : BufTy).Contents (Elt F)),
    unary main_v60 main_v61 (broadcastInDim S262144x256 ![0, 1] bcast_S1x256_S262144x256_0_1 : (⟨S1x256, .f32⟩ : BufTy).Contents (Elt F) → (⟨S262144x256, .f32⟩ : BufTy).Contents (Elt F)),
    binary main_v59 main_v61 main_v62 (addf : (⟨S262144x256, .f32⟩ : BufTy).Contents (Elt F) → (⟨S262144x256, .f32⟩ : BufTy).Contents (Elt F) → (⟨S262144x256, .f32⟩ : BufTy).Contents (Elt F)),
    nullary main_call6_cst (constant S_ .f32 0x00000000#32),
    unary main_call6_cst main_call6_v0 (broadcastInDim S262144x256 ![] bcast_S_S262144x256 : (⟨S_, .f32⟩ : BufTy).Contents (Elt F) → (⟨S262144x256, .f32⟩ : BufTy).Contents (Elt F)),
    binary main_v62 main_call6_v0 main_v63 (maximumf : (⟨S262144x256, .f32⟩ : BufTy).Contents (Elt F) → (⟨S262144x256, .f32⟩ : BufTy).Contents (Elt F) → (⟨S262144x256, .f32⟩ : BufTy).Contents (Elt F)),
    unary main_arg14 main_v64 ((transpose S256x256 [1, 0] · transposes_S256x256_S256x256_1_0) : (⟨S256x256, .f32⟩ : BufTy).Contents (Elt F) → (⟨S256x256, .f32⟩ : BufTy).Contents (Elt F)),
    binary main_v63 main_v64 main_v65 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    unary main_arg15 main_v66 (broadcastInDim S1x256 ![1] bcast_S256_S1x256_1 : (⟨S256, .f32⟩ : BufTy).Contents (Elt F) → (⟨S1x256, .f32⟩ : BufTy).Contents (Elt F)),
    unary main_v66 main_v67 (broadcastInDim S262144x256 ![0, 1] bcast_S1x256_S262144x256_0_1 : (⟨S1x256, .f32⟩ : BufTy).Contents (Elt F) → (⟨S262144x256, .f32⟩ : BufTy).Contents (Elt F)),
    binary main_v65 main_v67 main_v68 (addf : (⟨S262144x256, .f32⟩ : BufTy).Contents (Elt F) → (⟨S262144x256, .f32⟩ : BufTy).Contents (Elt F) → (⟨S262144x256, .f32⟩ : BufTy).Contents (Elt F)),
    nullary main_call7_cst (constant S_ .f32 0x00000000#32),
    unary main_call7_cst main_call7_v0 (broadcastInDim S262144x256 ![] bcast_S_S262144x256 : (⟨S_, .f32⟩ : BufTy).Contents (Elt F) → (⟨S262144x256, .f32⟩ : BufTy).Contents (Elt F)),
    binary main_v68 main_call7_v0 main_v69 (maximumf : (⟨S262144x256, .f32⟩ : BufTy).Contents (Elt F) → (⟨S262144x256, .f32⟩ : BufTy).Contents (Elt F) → (⟨S262144x256, .f32⟩ : BufTy).Contents (Elt F)),
    unary main_arg16 main_v70 ((transpose S256x256 [1, 0] · transposes_S256x256_S256x256_1_0) : (⟨S256x256, .f32⟩ : BufTy).Contents (Elt F) → (⟨S256x256, .f32⟩ : BufTy).Contents (Elt F)),
    binary main_v69 main_v70 main_v71 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    unary main_arg17 main_v72 (broadcastInDim S1x256 ![1] bcast_S256_S1x256_1 : (⟨S256, .f32⟩ : BufTy).Contents (Elt F) → (⟨S1x256, .f32⟩ : BufTy).Contents (Elt F)),
    unary main_v72 main_v73 (broadcastInDim S262144x256 ![0, 1] bcast_S1x256_S262144x256_0_1 : (⟨S1x256, .f32⟩ : BufTy).Contents (Elt F) → (⟨S262144x256, .f32⟩ : BufTy).Contents (Elt F)),
    binary main_v71 main_v73 main_v74 (addf : (⟨S262144x256, .f32⟩ : BufTy).Contents (Elt F) → (⟨S262144x256, .f32⟩ : BufTy).Contents (Elt F) → (⟨S262144x256, .f32⟩ : BufTy).Contents (Elt F)),
    nullary main_call8_cst (constant S_ .f32 0x00000000#32),
    unary main_call8_cst main_call8_v0 (broadcastInDim S262144x256 ![] bcast_S_S262144x256 : (⟨S_, .f32⟩ : BufTy).Contents (Elt F) → (⟨S262144x256, .f32⟩ : BufTy).Contents (Elt F)),
    binary main_v74 main_call8_v0 main_v75 (maximumf : (⟨S262144x256, .f32⟩ : BufTy).Contents (Elt F) → (⟨S262144x256, .f32⟩ : BufTy).Contents (Elt F) → (⟨S262144x256, .f32⟩ : BufTy).Contents (Elt F)),
    unary main_arg18 main_v76 ((transpose S256x1 [1, 0] · transposes_S1x256_S256x1_1_0) : (⟨S1x256, .f32⟩ : BufTy).Contents (Elt F) → (⟨S256x1, .f32⟩ : BufTy).Contents (Elt F)),
    binary main_v75 main_v76 main_v77 ((fun l r => Host.dotGeneral dot_S262144x256_S256x1_S262144x1_1_0_0_1_n_n none l r) : (⟨S262144x256, .f32⟩ : BufTy).Contents (Elt F) → (⟨S256x1, .f32⟩ : BufTy).Contents (Elt F) → (⟨S262144x1, .f32⟩ : BufTy).Contents (Elt F)),
    unary main_arg19 main_v78 (broadcastInDim S1x1 ![1] bcast_S1_S1x1_1 : (⟨S1, .f32⟩ : BufTy).Contents (Elt F) → (⟨S1x1, .f32⟩ : BufTy).Contents (Elt F)),
    unary main_v78 main_v79 (broadcastInDim S262144x1 ![0, 1] bcast_S1x1_S262144x1_0_1 : (⟨S1x1, .f32⟩ : BufTy).Contents (Elt F) → (⟨S262144x1, .f32⟩ : BufTy).Contents (Elt F)),
    binary main_v77 main_v79 main_v80 (addf : (⟨S262144x1, .f32⟩ : BufTy).Contents (Elt F) → (⟨S262144x1, .f32⟩ : BufTy).Contents (Elt F) → (⟨S262144x1, .f32⟩ : BufTy).Contents (Elt F)),
    nullary main_call9_cst (constant S_ .f32 0x00000000#32),
    unary main_call9_cst main_call9_v0 (broadcastInDim S262144x1 ![] bcast_S_S262144x1 : (⟨S_, .f32⟩ : BufTy).Contents (Elt F) → (⟨S262144x1, .f32⟩ : BufTy).Contents (Elt F)),
    binary main_v80 main_call9_v0 main_v81 (maximumf : (⟨S262144x1, .f32⟩ : BufTy).Contents (Elt F) → (⟨S262144x1, .f32⟩ : BufTy).Contents (Elt F) → (⟨S262144x1, .f32⟩ : BufTy).Contents (Elt F)),
    unary main_arg20 main_v82 ((transpose S256x128 [1, 0] · transposes_S128x256_S256x128_1_0) : (⟨S128x256, .f32⟩ : BufTy).Contents (Elt F) → (⟨S256x128, .f32⟩ : BufTy).Contents (Elt F)),
    binary main_v75 main_v82 main_v83 ((fun l r => Host.dotGeneral dot_S262144x256_S256x128_S262144x128_1_0_0_1_n_n none l r) : (⟨S262144x256, .f32⟩ : BufTy).Contents (Elt F) → (⟨S256x128, .f32⟩ : BufTy).Contents (Elt F) → (⟨S262144x128, .f32⟩ : BufTy).Contents (Elt F)),
    unary main_arg21 main_v84 (broadcastInDim S1x128 ![1] bcast_S128_S1x128_1 : (⟨S128, .f32⟩ : BufTy).Contents (Elt F) → (⟨S1x128, .f32⟩ : BufTy).Contents (Elt F)),
    unary main_v84 main_v85 (broadcastInDim S262144x128 ![0, 1] bcast_S1x128_S262144x128_0_1 : (⟨S1x128, .f32⟩ : BufTy).Contents (Elt F) → (⟨S262144x128, .f32⟩ : BufTy).Contents (Elt F)),
    binary main_v83 main_v85 main_v86 (addf : (⟨S262144x128, .f32⟩ : BufTy).Contents (Elt F) → (⟨S262144x128, .f32⟩ : BufTy).Contents (Elt F) → (⟨S262144x128, .f32⟩ : BufTy).Contents (Elt F)),
    nullary main_call10_cst (constant S_ .f32 0x00000000#32),
    unary main_call10_cst main_call10_v0 (broadcastInDim S262144x128 ![] bcast_S_S262144x128 : (⟨S_, .f32⟩ : BufTy).Contents (Elt F) → (⟨S262144x128, .f32⟩ : BufTy).Contents (Elt F)),
    binary main_v86 main_call10_v0 main_v87 (maximumf : (⟨S262144x128, .f32⟩ : BufTy).Contents (Elt F) → (⟨S262144x128, .f32⟩ : BufTy).Contents (Elt F) → (⟨S262144x128, .f32⟩ : BufTy).Contents (Elt F)),
    binary main_v87 main_v26 main_v88 ((fun a b => concatenate S262144x155 1 [⟨S262144x128, a⟩, ⟨S262144x27, b⟩] concatenates_S262144x128_S262144x27_S262144x155_d1) : (⟨S262144x128, .f32⟩ : BufTy).Contents (Elt F) → (⟨S262144x27, .f32⟩ : BufTy).Contents (Elt F) → (⟨S262144x155, .f32⟩ : BufTy).Contents (Elt F)),
    unary main_arg22 main_v89 ((transpose S155x128 [1, 0] · transposes_S128x155_S155x128_1_0) : (⟨S128x155, .f32⟩ : BufTy).Contents (Elt F) → (⟨S155x128, .f32⟩ : BufTy).Contents (Elt F)),
    binary main_v88 main_v89 main_v90 ((fun l r => Host.dotGeneral dot_S262144x155_S155x128_S262144x128_1_0_0_1_n_n none l r) : (⟨S262144x155, .f32⟩ : BufTy).Contents (Elt F) → (⟨S155x128, .f32⟩ : BufTy).Contents (Elt F) → (⟨S262144x128, .f32⟩ : BufTy).Contents (Elt F)),
    unary main_arg23 main_v91 (broadcastInDim S1x128 ![1] bcast_S128_S1x128_1 : (⟨S128, .f32⟩ : BufTy).Contents (Elt F) → (⟨S1x128, .f32⟩ : BufTy).Contents (Elt F)),
    unary main_v91 main_v92 (broadcastInDim S262144x128 ![0, 1] bcast_S1x128_S262144x128_0_1 : (⟨S1x128, .f32⟩ : BufTy).Contents (Elt F) → (⟨S262144x128, .f32⟩ : BufTy).Contents (Elt F)),
    binary main_v90 main_v92 main_v93 (addf : (⟨S262144x128, .f32⟩ : BufTy).Contents (Elt F) → (⟨S262144x128, .f32⟩ : BufTy).Contents (Elt F) → (⟨S262144x128, .f32⟩ : BufTy).Contents (Elt F)),
    nullary main_call11_cst (constant S_ .f32 0x00000000#32),
    unary main_call11_cst main_call11_v0 (broadcastInDim S262144x128 ![] bcast_S_S262144x128 : (⟨S_, .f32⟩ : BufTy).Contents (Elt F) → (⟨S262144x128, .f32⟩ : BufTy).Contents (Elt F)),
    binary main_v93 main_call11_v0 main_v94 (maximumf : (⟨S262144x128, .f32⟩ : BufTy).Contents (Elt F) → (⟨S262144x128, .f32⟩ : BufTy).Contents (Elt F) → (⟨S262144x128, .f32⟩ : BufTy).Contents (Elt F)),
    unary main_arg24 main_v95 ((transpose S128x3 [1, 0] · transposes_S3x128_S128x3_1_0) : (⟨S3x128, .f32⟩ : BufTy).Contents (Elt F) → (⟨S128x3, .f32⟩ : BufTy).Contents (Elt F)),
    binary main_v94 main_v95 main_v96 ((fun l r => Host.dotGeneral dot_S262144x128_S128x3_S262144x3_1_0_0_1_n_n none l r) : (⟨S262144x128, .f32⟩ : BufTy).Contents (Elt F) → (⟨S128x3, .f32⟩ : BufTy).Contents (Elt F) → (⟨S262144x3, .f32⟩ : BufTy).Contents (Elt F)),
    unary main_arg25 main_v97 (broadcastInDim S1x3 ![1] bcast_S3_S1x3_1 : (⟨S3, .f32⟩ : BufTy).Contents (Elt F) → (⟨S1x3, .f32⟩ : BufTy).Contents (Elt F)),
    unary main_v97 main_v98 (broadcastInDim S262144x3 ![0, 1] bcast_S1x3_S262144x3_0_1 : (⟨S1x3, .f32⟩ : BufTy).Contents (Elt F) → (⟨S262144x3, .f32⟩ : BufTy).Contents (Elt F)),
    binary main_v96 main_v98 main_v99 (addf : (⟨S262144x3, .f32⟩ : BufTy).Contents (Elt F) → (⟨S262144x3, .f32⟩ : BufTy).Contents (Elt F) → (⟨S262144x3, .f32⟩ : BufTy).Contents (Elt F)),
    unary main_v99 main_v100 (Host.negf : (⟨S262144x3, .f32⟩ : BufTy).Contents (Elt F) → (⟨S262144x3, .f32⟩ : BufTy).Contents (Elt F)),
    unary main_v100 main_v101 (Host.exp : (⟨S262144x3, .f32⟩ : BufTy).Contents (Elt F) → (⟨S262144x3, .f32⟩ : BufTy).Contents (Elt F)),
    nullary main_cst_2 (constant S_ .f32 0x3F800000#32),
    unary main_cst_2 main_v102 (broadcastInDim S262144x3 ![] bcast_S_S262144x3 : (⟨S_, .f32⟩ : BufTy).Contents (Elt F) → (⟨S262144x3, .f32⟩ : BufTy).Contents (Elt F)),
    binary main_v102 main_v101 main_v103 (addf : (⟨S262144x3, .f32⟩ : BufTy).Contents (Elt F) → (⟨S262144x3, .f32⟩ : BufTy).Contents (Elt F) → (⟨S262144x3, .f32⟩ : BufTy).Contents (Elt F)),
    nullary main_cst_3 (constant S_ .f32 0x3F800000#32),
    unary main_cst_3 main_v104 (broadcastInDim S262144x3 ![] bcast_S_S262144x3 : (⟨S_, .f32⟩ : BufTy).Contents (Elt F) → (⟨S262144x3, .f32⟩ : BufTy).Contents (Elt F)),
    binary main_v104 main_v103 main_v105 (Host.divf : (⟨S262144x3, .f32⟩ : BufTy).Contents (Elt F) → (⟨S262144x3, .f32⟩ : BufTy).Contents (Elt F) → (⟨S262144x3, .f32⟩ : BufTy).Contents (Elt F)),
    reshape main_v81 main_v106 rfl shapeCasts_S262144x1_S2048x128x1,
    reshape main_v105 main_v107 rfl shapeCasts_S262144x3_S2048x128x3 ]

/-- Every operation of @main, in order, callee bodies inlined at their call sites. -/
abbrev ops : List (HloOp τ sig (Elt F)) := ops0 ++ ops1

/-- The first window is its line: each call unfolds to its callee's operations at the call's buffers, where the
    typed references' transports are the identity. -/
theorem main_part0_eq (c : Dev nD) : main_part0 (F := F) c = seq ops0 := rfl

/-- The second window is its line. -/
theorem main_part1_eq (c : Dev nD) : main_part1 (F := F) c = seq ops1 := rfl

/-- @main is the sequence of its operations: two lines run one after the other are their concatenation. -/
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., nullary_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., unary_bufs_sub .., reshape_bufs_sub .., unary_bufs_sub .., unary_bufs_sub .., unary_bufs_sub .., unary_bufs_sub .., binary_bufs_sub .., reshape_bufs_sub .., unary_bufs_sub .., unary_bufs_sub .., nary_bufs_sub .., unary_bufs_sub .., unary_bufs_sub .., unary_bufs_sub .., unary_bufs_sub .., binary_bufs_sub .., reshape_bufs_sub .., unary_bufs_sub .., unary_bufs_sub .., nary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub ..⟩

theorem ops1_sub : (ops1 : List (HloOp τ sig (Elt F))).Forall fun op => op.bufs ⊆ tcRefs τ sig :=
  ⟨binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub .., reshape_bufs_sub ..⟩

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

/-- The buffers the first window's operations write. -/
abbrev W0 : List (Ref sig .tc) := [main_cst, main_cst_0, main_v0, main_call0_v0, main_call0_cst, main_call0_v1, main_call0_v2, main_v1, main_cst_1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_call1_cst, main_call1_v0, main_v32, main_v33, main_v34, main_v35, main_v36, main_v37, main_call2_cst, main_call2_v0, main_v38, main_v39, main_v40, main_v41, main_v42, main_v43, main_call3_cst, main_call3_v0, main_v44, main_v45, main_v46, main_v47, main_v48, main_v49, main_call4_cst, main_call4_v0, main_v50, main_v51, main_v52, main_v53, main_v54, main_v55, main_call5_cst, main_call5_v0, main_v56]

/-- The buffers the second window's operations write. -/
abbrev W1 : List (Ref sig .tc) := [main_v57, main_v58, main_v59, main_v60, main_v61, main_v62, main_call6_cst, main_call6_v0, main_v63, main_v64, main_v65, main_v66, main_v67, main_v68, main_call7_cst, main_call7_v0, main_v69, main_v70, main_v71, main_v72, main_v73, main_v74, main_call8_cst, main_call8_v0, main_v75, main_v76, main_v77, main_v78, main_v79, main_v80, main_call9_cst, main_call9_v0, main_v81, main_v82, main_v83, main_v84, main_v85, main_v86, main_call10_cst, main_call10_v0, main_v87, main_v88, main_v89, main_v90, main_v91, main_v92, main_v93, main_call11_cst, main_call11_v0, main_v94, main_v95, main_v96, main_v97, main_v98, main_v99, main_v100, main_v101, main_cst_2, main_v102, main_v103, main_cst_3, main_v104, main_v105, main_v106, main_v107]

theorem ops0_writes : (ops0 : List (HloOp τ sig (Elt F))).Forall fun op =>
    op.writes ⊆ (W0.map (Proc.devRef (τ := τ) .tc)).toFinset := by
  simp only [List.Forall]
  exact ⟨by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide)⟩

theorem ops1_writes : (ops1 : List (HloOp τ sig (Elt F))).Forall fun op =>
    op.writes ⊆ (W1.map (Proc.devRef (τ := τ) .tc)).toFinset := by
  simp only [List.Forall]
  exact ⟨by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide)⟩

/-- A buffer neither window writes keeps its contents through @main's operations. -/
theorem after_keep (V : Valuation τ sig (Elt F)) (r : Ref sig .tc) (h0 : r ∉ W0) (h1 : r ∉ W1) :
    after ops V (Proc.devRef .tc r) = V (Proc.devRef .tc r) := by
  rw [show (ops : List (HloOp τ sig (Elt F))) = ops0 ++ ops1 from rfl, after_append,
    after_of_writes_sub ops1 _ ops1_writes h1, after_of_writes_sub ops0 _ ops0_writes h0]

/-- On every device, for any float values, from any memory with zero counters: every weakly fair execution of
    @main terminates with each buffer at the fold of the operations' results over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- The arguments are unchanged by the run. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => ⟨(h c main_arg0).trans (after_keep _ main_arg0 (by decide) (by decide)),
      (h c main_arg1).trans (after_keep _ main_arg1 (by decide) (by decide)),
      (h c main_arg2).trans (after_keep _ main_arg2 (by decide) (by decide)),
      (h c main_arg3).trans (after_keep _ main_arg3 (by decide) (by decide)),
      (h c main_arg4).trans (after_keep _ main_arg4 (by decide) (by decide)),
      (h c main_arg5).trans (after_keep _ main_arg5 (by decide) (by decide)),
      (h c main_arg6).trans (after_keep _ main_arg6 (by decide) (by decide)),
      (h c main_arg7).trans (after_keep _ main_arg7 (by decide) (by decide)),
      (h c main_arg8).trans (after_keep _ main_arg8 (by decide) (by decide)),
      (h c main_arg9).trans (after_keep _ main_arg9 (by decide) (by decide)),
      (h c main_arg10).trans (after_keep _ main_arg10 (by decide) (by decide)),
      (h c main_arg11).trans (after_keep _ main_arg11 (by decide) (by decide)),
      (h c main_arg12).trans (after_keep _ main_arg12 (by decide) (by decide)),
      (h c main_arg13).trans (after_keep _ main_arg13 (by decide) (by decide)),
      (h c main_arg14).trans (after_keep _ main_arg14 (by decide) (by decide)),
      (h c main_arg15).trans (after_keep _ main_arg15 (by decide) (by decide)),
      (h c main_arg16).trans (after_keep _ main_arg16 (by decide) (by decide)),
      (h c main_arg17).trans (after_keep _ main_arg17 (by decide) (by decide)),
      (h c main_arg18).trans (after_keep _ main_arg18 (by decide) (by decide)),
      (h c main_arg19).trans (after_keep _ main_arg19 (by decide) (by decide)),
      (h c main_arg20).trans (after_keep _ main_arg20 (by decide) (by decide)),
      (h c main_arg21).trans (after_keep _ main_arg21 (by decide) (by decide)),
      (h c main_arg22).trans (after_keep _ main_arg22 (by decide) (by decide)),
      (h c main_arg23).trans (after_keep _ main_arg23 (by decide) (by decide)),
      (h c main_arg24).trans (after_keep _ main_arg24 (by decide) (by decide)),
      (h c main_arg25).trans (after_keep _ main_arg25 (by decide) (by decide))⟩)
    (run_after m ρ)

set_option maxHeartbeats 40000000 in
/-- The first result's buffer after @main's operations is the reference's density term of the arguments' contents:
    the fold read off operation by operation (each result buffer at its operation's function of its operands'
    contents, every other buffer as it was), which is that term by definition. -/
theorem after_v106 (V : Valuation τ sig (Elt Ideal)) :
    after ops V (Proc.devRef .tc main_v106) = Cert.RefTerm.refDensity (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) := by
  rw [show (ops : List (HloOp τ sig (Elt Ideal))) = ops0 ++ ops1 from rfl, after_append]
  after_results_simp
  rfl

set_option maxHeartbeats 40000000 in
/-- The second result's buffer after @main's operations is the reference's colour term of the arguments' contents. -/
theorem after_v107 (V : Valuation τ sig (Elt Ideal)) :
    after ops V (Proc.devRef .tc main_v107) = Cert.RefTerm.refColor (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) := by
  rw [show (ops : List (HloOp τ sig (Elt Ideal))) = ops0 ++ ops1 from rfl, after_append]
  after_results_simp
  rfl

/-- On every device, from any memory with zero counters: every weakly fair execution of @main terminates with the
    two results at the reference's terms of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v106) = Cert.RefTerm.refDensity (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
        ∧ r.2.mem ((c.tc : Thread nD τ).loc main_v107) = Cert.RefTerm.refColor (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25))) :=
  (θ_run defs _ _).mono (fun _ h c => ⟨⟨(h c main_v106).trans (after_v106 (launchContents m c)),
      (h c main_v107).trans (after_v107 (launchContents m c))⟩,
      ⟨(h c main_arg0).trans (after_keep _ main_arg0 (by decide) (by decide)),
      (h c main_arg1).trans (after_keep _ main_arg1 (by decide) (by decide)),
      (h c main_arg2).trans (after_keep _ main_arg2 (by decide) (by decide)),
      (h c main_arg3).trans (after_keep _ main_arg3 (by decide) (by decide)),
      (h c main_arg4).trans (after_keep _ main_arg4 (by decide) (by decide)),
      (h c main_arg5).trans (after_keep _ main_arg5 (by decide) (by decide)),
      (h c main_arg6).trans (after_keep _ main_arg6 (by decide) (by decide)),
      (h c main_arg7).trans (after_keep _ main_arg7 (by decide) (by decide)),
      (h c main_arg8).trans (after_keep _ main_arg8 (by decide) (by decide)),
      (h c main_arg9).trans (after_keep _ main_arg9 (by decide) (by decide)),
      (h c main_arg10).trans (after_keep _ main_arg10 (by decide) (by decide)),
      (h c main_arg11).trans (after_keep _ main_arg11 (by decide) (by decide)),
      (h c main_arg12).trans (after_keep _ main_arg12 (by decide) (by decide)),
      (h c main_arg13).trans (after_keep _ main_arg13 (by decide) (by decide)),
      (h c main_arg14).trans (after_keep _ main_arg14 (by decide) (by decide)),
      (h c main_arg15).trans (after_keep _ main_arg15 (by decide) (by decide)),
      (h c main_arg16).trans (after_keep _ main_arg16 (by decide) (by decide)),
      (h c main_arg17).trans (after_keep _ main_arg17 (by decide) (by decide)),
      (h c main_arg18).trans (after_keep _ main_arg18 (by decide) (by decide)),
      (h c main_arg19).trans (after_keep _ main_arg19 (by decide) (by decide)),
      (h c main_arg20).trans (after_keep _ main_arg20 (by decide) (by decide)),
      (h c main_arg21).trans (after_keep _ main_arg21 (by decide) (by decide)),
      (h c main_arg22).trans (after_keep _ main_arg22 (by decide) (by decide)),
      (h c main_arg23).trans (after_keep _ main_arg23 (by decide) (by decide)),
      (h c main_arg24).trans (after_keep _ main_arg24 (by decide) (by decide)),
      (h c main_arg25).trans (after_keep _ main_arg25 (by decide) (by decide))⟩⟩)
    (run_after m ρ)

end Cert.ReferenceIdeal.Hand

end
-- ==== Proof.KTerm.lean ====
/-
  What the kernel's program computes on the host before and after its one region, as pure
  functions of the argument arrays, on the extended reals: the sample points flattened to rows;
  each ray direction divided by the larger of its length and a small literal; the two harmonic
  embeddings (sines and cosines of the coordinates scaled by powers of two, followed by the
  coordinates themselves), the direction embedding computed once per ray and then repeated for
  the ray's 128 samples; each weight matrix transposed, the sixth and the colour layer's cut into
  two bands of rows, the bottleneck and density heads laid side by side; and, after the region, the
  result's first column and its last three columns given back their [ray, sample] shape.
-/
import proofs.«181742_j549755814570_2_alg».proof.Proof.Gen.KernelIdeal
import Idealize.ShloMosaic.PureOps.Ideal

noncomputable section

namespace Cert.KTerm

open Idealize.ShloMosaic Cert.KernelIdeal Cert.KernelIdeal.Facts₀

/-- The sample points as rows. -/
def pts (a0 : FVec Ideal S2048x128x3 .f32) : FVec Ideal S262144x3 .f32 :=
  shapeCast S262144x3 a0 shapeCasts_S2048x128x3_S262144x3

def freqs6 : FVec Ideal S6 .f32 := fun i => FloatOps.ofBits .f32 (lit0 (S6.rowMajor i))
def freqs4 : FVec Ideal S4 .f32 := fun i => FloatOps.ofBits .f32 (lit1 (S4.rowMajor i))

/-- Each direction's length. -/
def dirsNorm (a1 : FVec Ideal S2048x3 .f32) : FVec Ideal S2048x1 .f32 :=
  Host.sqrt (F := Ideal) (broadcastInDim S2048x1 ![0] bcast_S2048_S2048x1_0
    (Host.reduceAdd (F := Ideal) (mulf a1 a1) (constant (F := Ideal) S_ .f32 0x00000000#32) reducesTo_S2048x3_S2048_d1 h_S_))

/-- Each direction divided by the larger of its length and the literal. -/
def dirsN (a1 : FVec Ideal S2048x3 .f32) : FVec Ideal S2048x3 .f32 :=
  Host.divf (F := Ideal) a1 (broadcastInDim S2048x3 ![0, 1] bcast_S2048x1_S2048x3_0_1
    (maximumf (dirsNorm a1) (broadcastInDim S2048x1 ![] bcast_S_S2048x1 (constant (F := Ideal) S_ .f32 0x2B8CBCCC#32))))

/-- The points' coordinates times the six frequencies, 18 to a row. -/
def peScaled (x : FVec Ideal S262144x3 .f32) : FVec Ideal S262144x18 .f32 :=
  shapeCast S262144x18
    (mulf (broadcastInDim S262144x3x6 ![0, 1, 2] bcast_S262144x3x1_S262144x3x6_0_1_2
            (broadcastInDim S262144x3x1 ![0, 1] bcast_S262144x3_S262144x3x1_0_1 x))
          (broadcastInDim S262144x3x6 ![0, 1, 2] bcast_S1x1x6_S262144x3x6_0_1_2
            (broadcastInDim S1x1x6 ![2] bcast_S6_S1x1x6_2 freqs6)))
    shapeCasts_S262144x3x6_S262144x18

/-- The position embedding: sines, cosines, the coordinates. -/
def peOf (x : FVec Ideal S262144x3 .f32) : FVec Ideal S262144x39 .f32 :=
  concatenate S262144x39 1 [⟨S262144x18, Host.sin (F := Ideal) (peScaled x)⟩, ⟨S262144x18, Host.cos (F := Ideal) (peScaled x)⟩, ⟨S262144x3, x⟩]
    concatenates_S262144x18_S262144x18_S262144x3_S262144x39_d1

def peArr (a0 : FVec Ideal S2048x128x3 .f32) : FVec Ideal S262144x39 .f32 := peOf (pts a0)

/-- The directions' coordinates times the four frequencies, 12 to a row, one row per ray. -/
def deScaledB (x : FVec Ideal S2048x3 .f32) : FVec Ideal S2048x12 .f32 :=
  shapeCast S2048x12
    (mulf (broadcastInDim S2048x3x4 ![0, 1, 2] bcast_S2048x3x1_S2048x3x4_0_1_2
            (broadcastInDim S2048x3x1 ![0, 1] bcast_S2048x3_S2048x3x1_0_1 x))
          (broadcastInDim S2048x3x4 ![0, 1, 2] bcast_S1x1x4_S2048x3x4_0_1_2
            (broadcastInDim S1x1x4 ![2] bcast_S4_S1x1x4_2 freqs4)))
    shapeCasts_S2048x3x4_S2048x12

/-- The direction embedding, one row per ray. -/
def deOfB (x : FVec Ideal S2048x3 .f32) : FVec Ideal S2048x27 .f32 :=
  concatenate S2048x27 1 [⟨S2048x12, Host.sin (F := Ideal) (deScaledB x)⟩, ⟨S2048x12, Host.cos (F := Ideal) (deScaledB x)⟩, ⟨S2048x3, x⟩]
    concatenates_S2048x12_S2048x12_S2048x3_S2048x27_d1

/-- The direction embedding repeated for each ray's 128 samples, as rows. -/
def deArr (a1 : FVec Ideal S2048x3 .f32) : FVec Ideal S262144x27 .f32 :=
  shapeCast S262144x27
    (broadcastInDim S2048x128x27 ![0, 1, 2] bcast_S2048x1x27_S2048x128x27_0_1_2
      (broadcastInDim S2048x1x27 ![0, 2] bcast_S2048x27_S2048x1x27_0_2 (deOfB (dirsN a1))))
    shapeCasts_S2048x128x27_S262144x27

/-! The arrays the region's windows stage, window by window (the biases are arguments themselves). -/

def A0 (a0 : FVec Ideal S2048x128x3 .f32) : FVec Ideal S262144x39 .bf16 := truncf .bf16 (peArr a0) bitsLt_bf16_f32
def A1 (a1 : FVec Ideal S2048x3 .f32) : FVec Ideal S262144x27 .bf16 := truncf .bf16 (deArr a1) bitsLt_bf16_f32
def A2 (a2 : FVec Ideal S256x39 .f32) : FVec Ideal S39x256 .bf16 :=
  truncf .bf16 (transpose S39x256 [1, 0] a2 transposes_S256x39_S39x256_1_0) bitsLt_bf16_f32
/-- A square weight matrix transposed (layers two to five, seven, eight). -/
def Asq (a : FVec Ideal S256x256 .f32) : FVec Ideal S256x256 .bf16 :=
  truncf .bf16 (transpose S256x256 [1, 0] a transposes_S256x256_S256x256_1_0) bitsLt_bf16_f32
def A12 (a12 : FVec Ideal S256x295 .f32) : FVec Ideal S256x256 .bf16 :=
  truncf .bf16 (extractStridedSlice S256x256 ![0, 0] (transpose S295x256 [1, 0] a12 transposes_S256x295_S295x256_1_0)
    slices_S295x256_S256x256_0_0) bitsLt_bf16_f32
def A13 (a12 : FVec Ideal S256x295 .f32) : FVec Ideal S39x256 .bf16 :=
  truncf .bf16 (extractStridedSlice S39x256 ![256, 0] (transpose S295x256 [1, 0] a12 transposes_S256x295_S295x256_1_0)
    slices_S295x256_S39x256_256_0) bitsLt_bf16_f32
def A19 (a20 : FVec Ideal S128x256 .f32) (a18 : FVec Ideal S1x256 .f32) : FVec Ideal S256x129 .bf16 :=
  truncf .bf16 (concatenate S256x129 1 [⟨S256x128, transpose S256x128 [1, 0] a20 transposes_S128x256_S256x128_1_0⟩,
    ⟨S256x1, transpose S256x1 [1, 0] a18 transposes_S1x256_S256x1_1_0⟩] concatenates_S256x128_S256x1_S256x129_d1) bitsLt_bf16_f32
def A20 (a21 : FVec Ideal S128 .f32) (a19 : FVec Ideal S1 .f32) : FVec Ideal S129 .f32 :=
  concatenate S129 0 [⟨S128, a21⟩, ⟨S1, a19⟩] concatenates_S128_S1_S129_d0
def A21 (a22 : FVec Ideal S128x155 .f32) : FVec Ideal S128x128 .bf16 :=
  truncf .bf16 (extractStridedSlice S128x128 ![0, 0] (transpose S155x128 [1, 0] a22 transposes_S128x155_S155x128_1_0)
    slices_S155x128_S128x128_0_0) bitsLt_bf16_f32
def A22 (a22 : FVec Ideal S128x155 .f32) : FVec Ideal S27x128 .bf16 :=
  truncf .bf16 (extractStridedSlice S27x128 ![128, 0] (transpose S155x128 [1, 0] a22 transposes_S128x155_S155x128_1_0)
    slices_S155x128_S27x128_128_0) bitsLt_bf16_f32
def A24 (a24 : FVec Ideal S3x128 .f32) : FVec Ideal S128x3 .bf16 :=
  truncf .bf16 (transpose S128x3 [1, 0] a24 transposes_S3x128_S128x3_1_0) bitsLt_bf16_f32

/-! After the region. -/

/-- The density result: the region's first column, by ray and sample. -/
def resDensity (out : FVec Ideal S262144x4 .f32) : FVec Ideal S2048x128x1 .f32 :=
  shapeCast S2048x128x1 (extractStridedSlice S262144x1 ![0, 0] out slices_S262144x4_S262144x1_0_0) shapeCasts_S262144x1_S2048x128x1
/-- The colour result: the region's last three columns, by ray and sample. -/
def resColor (out : FVec Ideal S262144x4 .f32) : FVec Ideal S2048x128x3 .f32 :=
  shapeCast S2048x128x3 (extractStridedSlice S262144x3 ![0, 1] out slices_S262144x4_S262144x3_0_1) shapeCasts_S262144x3_S2048x128x3

end Cert.KTerm

end
-- ==== Proof.KArr.lean ====
/-
  The window arithmetic of the kernel's one region, at the ideal instance.

  The grid has 64 points.  The two row-wise input windows and the output window move with the
  point: at point `t` each is rows `4096 t … 4096 t + 4095` of its array, all columns; the other
  twenty-four windows are whole arrays at every point.  So a block of a row-wise window reads its
  array at a shifted row, a block of a whole-array window reads the array itself, every index of the
  output array lies in the block of the point `row / 4096`, and the four host operations after the
  region give the output's first column and its last three columns their [ray, sample] shape.
-/
import proofs.«181742_j549755814570_2_alg».proof.Proof.Gen.KernelIdeal
import proofs.«181742_j549755814570_2_alg».proof.Proof.Gen.KernelIdeal.Launch
import proofs.«181742_j549755814570_2_alg».proof.Proof.Gen.KernelIdeal.Points
import proofs.«181742_j549755814570_2_alg».proof.Proof.KTerm
import Idealize.ShloMosaic.Lib.Pipeline.Value
import Idealize.ShloMosaic.Lib.Pipeline.FrameSuffix
import Idealize.ShloMosaic.Lib.StableHlo.Run
import Idealize.ShloMosaic.PureOps.Ideal
import Idealize.ShloMosaic.Lib.ValueIdx

noncomputable section

namespace Cert.KernelIdeal.KArr

open Cert.KernelIdeal Cert.KernelIdeal.Gen Idealize.ShloMosaic Idealize.ShloMosaic.ValueIdx Idealize.ShloMosaic.TcCoe Idealize.SL.Sem
open Idealize.ShloMosaic.Pipeline (Dat)

/-! ## The windows that move with the point: 0, 1 and the output window 26 -/

/-- Window 0's block index at point `t` is `(t, 0)` (decided over the grid's points). -/
theorem row_index_0 : ∀ t : Fin cfg0.N, win0_0.index t (0 : Fin 2) = t.val ∧ win0_0.index t (1 : Fin 2) = 0 :=
  (by decide +kernel : ∀ t : Fin grid0.N, _)

/-- Window 0's block at point `t` is rows `4096 t … 4096 t + 4095` of its array, all 39 columns. -/
theorem read0_row (X : S262144x39.Idx → EReal) (t : Fin cfg0.N) (y : Fin 4096) (k : Fin 39) :
    ((cfg0.win 0).blk t).view.read (Elt Ideal) X (ix2 y k)
      = X (ix2 (⟨t.val * 4096 + y.val, by have := t.isLt; have hN : cfg0.N = 64 := N_0; omega⟩ : Fin 262144) k) := by
  show X (((cfg0.win 0).blk t).view.emb (ix2 y k)) = X _
  refine congrArg X ?_
  obtain ⟨e0, e1⟩ := row_index_0 t
  funext a
  apply Fin.ext
  match a with
  | ⟨0, _⟩ => show win0_0.index t (0 : Fin 2) * 4096 + 1 * y.val = t.val * 4096 + y.val; rw [e0]; omega
  | ⟨1, _⟩ => show win0_0.index t (1 : Fin 2) * 39 + 1 * k.val = k.val; rw [e1]; omega

/-- Window 1's block index at point `t` is `(t, 0)` (decided over the grid's points). -/
theorem row_index_1 : ∀ t : Fin cfg0.N, win0_1.index t (0 : Fin 2) = t.val ∧ win0_1.index t (1 : Fin 2) = 0 :=
  (by decide +kernel : ∀ t : Fin grid0.N, _)

/-- Window 1's block at point `t` is rows `4096 t … 4096 t + 4095` of its array, all 27 columns. -/
theorem read1_row (X : S262144x27.Idx → EReal) (t : Fin cfg0.N) (y : Fin 4096) (k : Fin 27) :
    ((cfg0.win 1).blk t).view.read (Elt Ideal) X (ix2 y k)
      = X (ix2 (⟨t.val * 4096 + y.val, by have := t.isLt; have hN : cfg0.N = 64 := N_0; omega⟩ : Fin 262144) k) := by
  show X (((cfg0.win 1).blk t).view.emb (ix2 y k)) = X _
  refine congrArg X ?_
  obtain ⟨e0, e1⟩ := row_index_1 t
  funext a
  apply Fin.ext
  match a with
  | ⟨0, _⟩ => show win0_1.index t (0 : Fin 2) * 4096 + 1 * y.val = t.val * 4096 + y.val; rw [e0]; omega
  | ⟨1, _⟩ => show win0_1.index t (1 : Fin 2) * 27 + 1 * k.val = k.val; rw [e1]; omega

/-- Window 26's block index at point `t` is `(t, 0)` (decided over the grid's points). -/
theorem row_index_26 : ∀ t : Fin cfg0.N, win0_26.index t (0 : Fin 2) = t.val ∧ win0_26.index t (1 : Fin 2) = 0 :=
  (by decide +kernel : ∀ t : Fin grid0.N, _)

/-- Window 26's block at point `t` is rows `4096 t … 4096 t + 4095` of its array, all 4 columns. -/
theorem read26_row (X : S262144x4.Idx → EReal) (t : Fin cfg0.N) (y : Fin 4096) (q : Fin 4) :
    ((cfg0.win 26).blk t).view.read (Elt Ideal) X (ix2 y q)
      = X (ix2 (⟨t.val * 4096 + y.val, by have := t.isLt; have hN : cfg0.N = 64 := N_0; omega⟩ : Fin 262144) q) := by
  show X (((cfg0.win 26).blk t).view.emb (ix2 y q)) = X _
  refine congrArg X ?_
  obtain ⟨e0, e1⟩ := row_index_26 t
  funext a
  apply Fin.ext
  match a with
  | ⟨0, _⟩ => show win0_26.index t (0 : Fin 2) * 4096 + 1 * y.val = t.val * 4096 + y.val; rw [e0]; omega
  | ⟨1, _⟩ => show win0_26.index t (1 : Fin 2) * 4 + 1 * q.val = q.val; rw [e1]; omega

/-- An index of the output array is in point `t`'s block iff each coordinate is in the block's range on its axis. -/
theorem mem_blk26 (t : Fin cfg0.N) (i : S262144x4.Idx) :
    i ∈ ((cfg0.win 26).blk t).view.set ↔ ∀ a : Fin 2, win0_26.index t a * S4096x4.size a ≤ (i a).val ∧ (i a).val < win0_26.index t a * S4096x4.size a + S4096x4.size a := by
  show i ∈ ((View.whole main_v60).slice (win0_26.rect t)).set ↔ _
  rw [View.set_slice_whole, Rect.mem_set_unit]
  exact Iff.rfl

/-- Every index of the output array is in the block of the point its row falls in, `row / 4096`, and every point writes back. -/
theorem cover26 : ∀ i : S262144x4.Idx, ∃ t : Fin cfg0.N, (cfg0.win 26).flush t = true ∧ i ∈ ((cfg0.win 26).blk t).view.set := by
  intro i
  have hN : cfg0.N = 64 := N_0
  have hi0 : (i 0).val < 262144 := (i 0).isLt
  have hi1 : (i 1).val < 4 := (i 1).isLt
  refine ⟨⟨(i 0).val / 4096, by omega⟩, flush0_26 _, ?_⟩
  rw [mem_blk26]
  obtain ⟨e0, e1⟩ := row_index_26 ⟨(i 0).val / 4096, by omega⟩
  intro a
  match a with
  | ⟨0, _⟩ => show win0_26.index _ (0 : Fin 2) * 4096 ≤ (i 0).val ∧ (i 0).val < win0_26.index _ (0 : Fin 2) * 4096 + 4096; rw [e0]; show (i 0).val / 4096 * 4096 ≤ (i 0).val ∧ (i 0).val < (i 0).val / 4096 * 4096 + 4096; omega
  | ⟨1, _⟩ => show win0_26.index _ (1 : Fin 2) * 4 ≤ (i 1).val ∧ (i 1).val < win0_26.index _ (1 : Fin 2) * 4 + 4; rw [e1]; omega

/-! ## The windows that are whole arrays at every point: 2 … 25 -/

/-- Window 2's index map is constantly zero (decided over the grid's points). -/
theorem zero_index_2 : ∀ t : Fin cfg0.N, win0_2.index t (0 : Fin 2) = 0 ∧ win0_2.index t (1 : Fin 2) = 0 :=
  (by decide +kernel : ∀ t : Fin grid0.N, _)

/-- Window 2's block at any point is the whole array: reading an array through it gives the array back. -/
theorem read_whole_2 (X : S39x256.Idx → EReal) (t : Fin cfg0.N) :
    (((cfg0.win 2).blk t).view.read (Elt Ideal) X : S39x256.Idx → EReal) = X := by
  obtain ⟨e0, e1⟩ := zero_index_2 t
  funext j
  show X (((cfg0.win 2).blk t).view.emb j) = X j
  refine congrArg X ?_
  funext a
  apply Fin.ext
  match a with
  | ⟨0, _⟩ => show win0_2.index t (0 : Fin 2) * 39 + 1 * (j 0).val = (j 0).val; rw [e0]; omega
  | ⟨1, _⟩ => show win0_2.index t (1 : Fin 2) * 256 + 1 * (j 1).val = (j 1).val; rw [e1]; omega

/-- Window 3's index map is constantly zero (decided over the grid's points). -/
theorem zero_index_3 : ∀ t : Fin cfg0.N, win0_3.index t (0 : Fin 1) = 0 :=
  (by decide +kernel : ∀ t : Fin grid0.N, _)

/-- Window 3's block at any point is the whole array: reading an array through it gives the array back. -/
theorem read_whole_3 (X : S256.Idx → EReal) (t : Fin cfg0.N) :
    (((cfg0.win 3).blk t).view.read (Elt Ideal) X : S256.Idx → EReal) = X := by
  have e0 := zero_index_3 t
  funext j
  show X (((cfg0.win 3).blk t).view.emb j) = X j
  refine congrArg X ?_
  funext a
  apply Fin.ext
  match a with
  | ⟨0, _⟩ => show win0_3.index t (0 : Fin 1) * 256 + 1 * (j 0).val = (j 0).val; rw [e0]; omega

/-- Window 4's index map is constantly zero (decided over the grid's points). -/
theorem zero_index_4 : ∀ t : Fin cfg0.N, win0_4.index t (0 : Fin 2) = 0 ∧ win0_4.index t (1 : Fin 2) = 0 :=
  (by decide +kernel : ∀ t : Fin grid0.N, _)

/-- Window 4's block at any point is the whole array: reading an array through it gives the array back. -/
theorem read_whole_4 (X : S256x256.Idx → EReal) (t : Fin cfg0.N) :
    (((cfg0.win 4).blk t).view.read (Elt Ideal) X : S256x256.Idx → EReal) = X := by
  obtain ⟨e0, e1⟩ := zero_index_4 t
  funext j
  show X (((cfg0.win 4).blk t).view.emb j) = X j
  refine congrArg X ?_
  funext a
  apply Fin.ext
  match a with
  | ⟨0, _⟩ => show win0_4.index t (0 : Fin 2) * 256 + 1 * (j 0).val = (j 0).val; rw [e0]; omega
  | ⟨1, _⟩ => show win0_4.index t (1 : Fin 2) * 256 + 1 * (j 1).val = (j 1).val; rw [e1]; omega

/-- Window 5's index map is constantly zero (decided over the grid's points). -/
theorem zero_index_5 : ∀ t : Fin cfg0.N, win0_5.index t (0 : Fin 1) = 0 :=
  (by decide +kernel : ∀ t : Fin grid0.N, _)

/-- Window 5's block at any point is the whole array: reading an array through it gives the array back. -/
theorem read_whole_5 (X : S256.Idx → EReal) (t : Fin cfg0.N) :
    (((cfg0.win 5).blk t).view.read (Elt Ideal) X : S256.Idx → EReal) = X := by
  have e0 := zero_index_5 t
  funext j
  show X (((cfg0.win 5).blk t).view.emb j) = X j
  refine congrArg X ?_
  funext a
  apply Fin.ext
  match a with
  | ⟨0, _⟩ => show win0_5.index t (0 : Fin 1) * 256 + 1 * (j 0).val = (j 0).val; rw [e0]; omega

/-- Window 6's index map is constantly zero (decided over the grid's points). -/
theorem zero_index_6 : ∀ t : Fin cfg0.N, win0_6.index t (0 : Fin 2) = 0 ∧ win0_6.index t (1 : Fin 2) = 0 :=
  (by decide +kernel : ∀ t : Fin grid0.N, _)

/-- Window 6's block at any point is the whole array: reading an array through it gives the array back. -/
theorem read_whole_6 (X : S256x256.Idx → EReal) (t : Fin cfg0.N) :
    (((cfg0.win 6).blk t).view.read (Elt Ideal) X : S256x256.Idx → EReal) = X := by
  obtain ⟨e0, e1⟩ := zero_index_6 t
  funext j
  show X (((cfg0.win 6).blk t).view.emb j) = X j
  refine congrArg X ?_
  funext a
  apply Fin.ext
  match a with
  | ⟨0, _⟩ => show win0_6.index t (0 : Fin 2) * 256 + 1 * (j 0).val = (j 0).val; rw [e0]; omega
  | ⟨1, _⟩ => show win0_6.index t (1 : Fin 2) * 256 + 1 * (j 1).val = (j 1).val; rw [e1]; omega

/-- Window 7's index map is constantly zero (decided over the grid's points). -/
theorem zero_index_7 : ∀ t : Fin cfg0.N, win0_7.index t (0 : Fin 1) = 0 :=
  (by decide +kernel : ∀ t : Fin grid0.N, _)

/-- Window 7's block at any point is the whole array: reading an array through it gives the array back. -/
theorem read_whole_7 (X : S256.Idx → EReal) (t : Fin cfg0.N) :
    (((cfg0.win 7).blk t).view.read (Elt Ideal) X : S256.Idx → EReal) = X := by
  have e0 := zero_index_7 t
  funext j
  show X (((cfg0.win 7).blk t).view.emb j) = X j
  refine congrArg X ?_
  funext a
  apply Fin.ext
  match a with
  | ⟨0, _⟩ => show win0_7.index t (0 : Fin 1) * 256 + 1 * (j 0).val = (j 0).val; rw [e0]; omega

/-- Window 8's index map is constantly zero (decided over the grid's points). -/
theorem zero_index_8 : ∀ t : Fin cfg0.N, win0_8.index t (0 : Fin 2) = 0 ∧ win0_8.index t (1 : Fin 2) = 0 :=
  (by decide +kernel : ∀ t : Fin grid0.N, _)

/-- Window 8's block at any point is the whole array: reading an array through it gives the array back. -/
theorem read_whole_8 (X : S256x256.Idx → EReal) (t : Fin cfg0.N) :
    (((cfg0.win 8).blk t).view.read (Elt Ideal) X : S256x256.Idx → EReal) = X := by
  obtain ⟨e0, e1⟩ := zero_index_8 t
  funext j
  show X (((cfg0.win 8).blk t).view.emb j) = X j
  refine congrArg X ?_
  funext a
  apply Fin.ext
  match a with
  | ⟨0, _⟩ => show win0_8.index t (0 : Fin 2) * 256 + 1 * (j 0).val = (j 0).val; rw [e0]; omega
  | ⟨1, _⟩ => show win0_8.index t (1 : Fin 2) * 256 + 1 * (j 1).val = (j 1).val; rw [e1]; omega

/-- Window 9's index map is constantly zero (decided over the grid's points). -/
theorem zero_index_9 : ∀ t : Fin cfg0.N, win0_9.index t (0 : Fin 1) = 0 :=
  (by decide +kernel : ∀ t : Fin grid0.N, _)

/-- Window 9's block at any point is the whole array: reading an array through it gives the array back. -/
theorem read_whole_9 (X : S256.Idx → EReal) (t : Fin cfg0.N) :
    (((cfg0.win 9).blk t).view.read (Elt Ideal) X : S256.Idx → EReal) = X := by
  have e0 := zero_index_9 t
  funext j
  show X (((cfg0.win 9).blk t).view.emb j) = X j
  refine congrArg X ?_
  funext a
  apply Fin.ext
  match a with
  | ⟨0, _⟩ => show win0_9.index t (0 : Fin 1) * 256 + 1 * (j 0).val = (j 0).val; rw [e0]; omega

/-- Window 10's index map is constantly zero (decided over the grid's points). -/
theorem zero_index_10 : ∀ t : Fin cfg0.N, win0_10.index t (0 : Fin 2) = 0 ∧ win0_10.index t (1 : Fin 2) = 0 :=
  (by decide +kernel : ∀ t : Fin grid0.N, _)

/-- Window 10's block at any point is the whole array: reading an array through it gives the array back. -/
theorem read_whole_10 (X : S256x256.Idx → EReal) (t : Fin cfg0.N) :
    (((cfg0.win 10).blk t).view.read (Elt Ideal) X : S256x256.Idx → EReal) = X := by
  obtain ⟨e0, e1⟩ := zero_index_10 t
  funext j
  show X (((cfg0.win 10).blk t).view.emb j) = X j
  refine congrArg X ?_
  funext a
  apply Fin.ext
  match a with
  | ⟨0, _⟩ => show win0_10.index t (0 : Fin 2) * 256 + 1 * (j 0).val = (j 0).val; rw [e0]; omega
  | ⟨1, _⟩ => show win0_10.index t (1 : Fin 2) * 256 + 1 * (j 1).val = (j 1).val; rw [e1]; omega

/-- Window 11's index map is constantly zero (decided over the grid's points). -/
theorem zero_index_11 : ∀ t : Fin cfg0.N, win0_11.index t (0 : Fin 1) = 0 :=
  (by decide +kernel : ∀ t : Fin grid0.N, _)

/-- Window 11's block at any point is the whole array: reading an array through it gives the array back. -/
theorem read_whole_11 (X : S256.Idx → EReal) (t : Fin cfg0.N) :
    (((cfg0.win 11).blk t).view.read (Elt Ideal) X : S256.Idx → EReal) = X := by
  have e0 := zero_index_11 t
  funext j
  show X (((cfg0.win 11).blk t).view.emb j) = X j
  refine congrArg X ?_
  funext a
  apply Fin.ext
  match a with
  | ⟨0, _⟩ => show win0_11.index t (0 : Fin 1) * 256 + 1 * (j 0).val = (j 0).val; rw [e0]; omega

/-- Window 12's index map is constantly zero (decided over the grid's points). -/
theorem zero_index_12 : ∀ t : Fin cfg0.N, win0_12.index t (0 : Fin 2) = 0 ∧ win0_12.index t (1 : Fin 2) = 0 :=
  (by decide +kernel : ∀ t : Fin grid0.N, _)

/-- Window 12's block at any point is the whole array: reading an array through it gives the array back. -/
theorem read_whole_12 (X : S256x256.Idx → EReal) (t : Fin cfg0.N) :
    (((cfg0.win 12).blk t).view.read (Elt Ideal) X : S256x256.Idx → EReal) = X := by
  obtain ⟨e0, e1⟩ := zero_index_12 t
  funext j
  show X (((cfg0.win 12).blk t).view.emb j) = X j
  refine congrArg X ?_
  funext a
  apply Fin.ext
  match a with
  | ⟨0, _⟩ => show win0_12.index t (0 : Fin 2) * 256 + 1 * (j 0).val = (j 0).val; rw [e0]; omega
  | ⟨1, _⟩ => show win0_12.index t (1 : Fin 2) * 256 + 1 * (j 1).val = (j 1).val; rw [e1]; omega

/-- Window 13's index map is constantly zero (decided over the grid's points). -/
theorem zero_index_13 : ∀ t : Fin cfg0.N, win0_13.index t (0 : Fin 2) = 0 ∧ win0_13.index t (1 : Fin 2) = 0 :=
  (by decide +kernel : ∀ t : Fin grid0.N, _)

/-- Window 13's block at any point is the whole array: reading an array through it gives the array back. -/
theorem read_whole_13 (X : S39x256.Idx → EReal) (t : Fin cfg0.N) :
    (((cfg0.win 13).blk t).view.read (Elt Ideal) X : S39x256.Idx → EReal) = X := by
  obtain ⟨e0, e1⟩ := zero_index_13 t
  funext j
  show X (((cfg0.win 13).blk t).view.emb j) = X j
  refine congrArg X ?_
  funext a
  apply Fin.ext
  match a with
  | ⟨0, _⟩ => show win0_13.index t (0 : Fin 2) * 39 + 1 * (j 0).val = (j 0).val; rw [e0]; omega
  | ⟨1, _⟩ => show win0_13.index t (1 : Fin 2) * 256 + 1 * (j 1).val = (j 1).val; rw [e1]; omega

/-- Window 14's index map is constantly zero (decided over the grid's points). -/
theorem zero_index_14 : ∀ t : Fin cfg0.N, win0_14.index t (0 : Fin 1) = 0 :=
  (by decide +kernel : ∀ t : Fin grid0.N, _)

/-- Window 14's block at any point is the whole array: reading an array through it gives the array back. -/
theorem read_whole_14 (X : S256.Idx → EReal) (t : Fin cfg0.N) :
    (((cfg0.win 14).blk t).view.read (Elt Ideal) X : S256.Idx → EReal) = X := by
  have e0 := zero_index_14 t
  funext j
  show X (((cfg0.win 14).blk t).view.emb j) = X j
  refine congrArg X ?_
  funext a
  apply Fin.ext
  match a with
  | ⟨0, _⟩ => show win0_14.index t (0 : Fin 1) * 256 + 1 * (j 0).val = (j 0).val; rw [e0]; omega

/-- Window 15's index map is constantly zero (decided over the grid's points). -/
theorem zero_index_15 : ∀ t : Fin cfg0.N, win0_15.index t (0 : Fin 2) = 0 ∧ win0_15.index t (1 : Fin 2) = 0 :=
  (by decide +kernel : ∀ t : Fin grid0.N, _)

/-- Window 15's block at any point is the whole array: reading an array through it gives the array back. -/
theorem read_whole_15 (X : S256x256.Idx → EReal) (t : Fin cfg0.N) :
    (((cfg0.win 15).blk t).view.read (Elt Ideal) X : S256x256.Idx → EReal) = X := by
  obtain ⟨e0, e1⟩ := zero_index_15 t
  funext j
  show X (((cfg0.win 15).blk t).view.emb j) = X j
  refine congrArg X ?_
  funext a
  apply Fin.ext
  match a with
  | ⟨0, _⟩ => show win0_15.index t (0 : Fin 2) * 256 + 1 * (j 0).val = (j 0).val; rw [e0]; omega
  | ⟨1, _⟩ => show win0_15.index t (1 : Fin 2) * 256 + 1 * (j 1).val = (j 1).val; rw [e1]; omega

/-- Window 16's index map is constantly zero (decided over the grid's points). -/
theorem zero_index_16 : ∀ t : Fin cfg0.N, win0_16.index t (0 : Fin 1) = 0 :=
  (by decide +kernel : ∀ t : Fin grid0.N, _)

/-- Window 16's block at any point is the whole array: reading an array through it gives the array back. -/
theorem read_whole_16 (X : S256.Idx → EReal) (t : Fin cfg0.N) :
    (((cfg0.win 16).blk t).view.read (Elt Ideal) X : S256.Idx → EReal) = X := by
  have e0 := zero_index_16 t
  funext j
  show X (((cfg0.win 16).blk t).view.emb j) = X j
  refine congrArg X ?_
  funext a
  apply Fin.ext
  match a with
  | ⟨0, _⟩ => show win0_16.index t (0 : Fin 1) * 256 + 1 * (j 0).val = (j 0).val; rw [e0]; omega

/-- Window 17's index map is constantly zero (decided over the grid's points). -/
theorem zero_index_17 : ∀ t : Fin cfg0.N, win0_17.index t (0 : Fin 2) = 0 ∧ win0_17.index t (1 : Fin 2) = 0 :=
  (by decide +kernel : ∀ t : Fin grid0.N, _)

/-- Window 17's block at any point is the whole array: reading an array through it gives the array back. -/
theorem read_whole_17 (X : S256x256.Idx → EReal) (t : Fin cfg0.N) :
    (((cfg0.win 17).blk t).view.read (Elt Ideal) X : S256x256.Idx → EReal) = X := by
  obtain ⟨e0, e1⟩ := zero_index_17 t
  funext j
  show X (((cfg0.win 17).blk t).view.emb j) = X j
  refine congrArg X ?_
  funext a
  apply Fin.ext
  match a with
  | ⟨0, _⟩ => show win0_17.index t (0 : Fin 2) * 256 + 1 * (j 0).val = (j 0).val; rw [e0]; omega
  | ⟨1, _⟩ => show win0_17.index t (1 : Fin 2) * 256 + 1 * (j 1).val = (j 1).val; rw [e1]; omega

/-- Window 18's index map is constantly zero (decided over the grid's points). -/
theorem zero_index_18 : ∀ t : Fin cfg0.N, win0_18.index t (0 : Fin 1) = 0 :=
  (by decide +kernel : ∀ t : Fin grid0.N, _)

/-- Window 18's block at any point is the whole array: reading an array through it gives the array back. -/
theorem read_whole_18 (X : S256.Idx → EReal) (t : Fin cfg0.N) :
    (((cfg0.win 18).blk t).view.read (Elt Ideal) X : S256.Idx → EReal) = X := by
  have e0 := zero_index_18 t
  funext j
  show X (((cfg0.win 18).blk t).view.emb j) = X j
  refine congrArg X ?_
  funext a
  apply Fin.ext
  match a with
  | ⟨0, _⟩ => show win0_18.index t (0 : Fin 1) * 256 + 1 * (j 0).val = (j 0).val; rw [e0]; omega

/-- Window 19's index map is constantly zero (decided over the grid's points). -/
theorem zero_index_19 : ∀ t : Fin cfg0.N, win0_19.index t (0 : Fin 2) = 0 ∧ win0_19.index t (1 : Fin 2) = 0 :=
  (by decide +kernel : ∀ t : Fin grid0.N, _)

/-- Window 19's block at any point is the whole array: reading an array through it gives the array back. -/
theorem read_whole_19 (X : S256x129.Idx → EReal) (t : Fin cfg0.N) :
    (((cfg0.win 19).blk t).view.read (Elt Ideal) X : S256x129.Idx → EReal) = X := by
  obtain ⟨e0, e1⟩ := zero_index_19 t
  funext j
  show X (((cfg0.win 19).blk t).view.emb j) = X j
  refine congrArg X ?_
  funext a
  apply Fin.ext
  match a with
  | ⟨0, _⟩ => show win0_19.index t (0 : Fin 2) * 256 + 1 * (j 0).val = (j 0).val; rw [e0]; omega
  | ⟨1, _⟩ => show win0_19.index t (1 : Fin 2) * 129 + 1 * (j 1).val = (j 1).val; rw [e1]; omega

/-- Window 20's index map is constantly zero (decided over the grid's points). -/
theorem zero_index_20 : ∀ t : Fin cfg0.N, win0_20.index t (0 : Fin 1) = 0 :=
  (by decide +kernel : ∀ t : Fin grid0.N, _)

/-- Window 20's block at any point is the whole array: reading an array through it gives the array back. -/
theorem read_whole_20 (X : S129.Idx → EReal) (t : Fin cfg0.N) :
    (((cfg0.win 20).blk t).view.read (Elt Ideal) X : S129.Idx → EReal) = X := by
  have e0 := zero_index_20 t
  funext j
  show X (((cfg0.win 20).blk t).view.emb j) = X j
  refine congrArg X ?_
  funext a
  apply Fin.ext
  match a with
  | ⟨0, _⟩ => show win0_20.index t (0 : Fin 1) * 129 + 1 * (j 0).val = (j 0).val; rw [e0]; omega

/-- Window 21's index map is constantly zero (decided over the grid's points). -/
theorem zero_index_21 : ∀ t : Fin cfg0.N, win0_21.index t (0 : Fin 2) = 0 ∧ win0_21.index t (1 : Fin 2) = 0 :=
  (by decide +kernel : ∀ t : Fin grid0.N, _)

/-- Window 21's block at any point is the whole array: reading an array through it gives the array back. -/
theorem read_whole_21 (X : S128x128.Idx → EReal) (t : Fin cfg0.N) :
    (((cfg0.win 21).blk t).view.read (Elt Ideal) X : S128x128.Idx → EReal) = X := by
  obtain ⟨e0, e1⟩ := zero_index_21 t
  funext j
  show X (((cfg0.win 21).blk t).view.emb j) = X j
  refine congrArg X ?_
  funext a
  apply Fin.ext
  match a with
  | ⟨0, _⟩ => show win0_21.index t (0 : Fin 2) * 128 + 1 * (j 0).val = (j 0).val; rw [e0]; omega
  | ⟨1, _⟩ => show win0_21.index t (1 : Fin 2) * 128 + 1 * (j 1).val = (j 1).val; rw [e1]; omega

/-- Window 22's index map is constantly zero (decided over the grid's points). -/
theorem zero_index_22 : ∀ t : Fin cfg0.N, win0_22.index t (0 : Fin 2) = 0 ∧ win0_22.index t (1 : Fin 2) = 0 :=
  (by decide +kernel : ∀ t : Fin grid0.N, _)

/-- Window 22's block at any point is the whole array: reading an array through it gives the array back. -/
theorem read_whole_22 (X : S27x128.Idx → EReal) (t : Fin cfg0.N) :
    (((cfg0.win 22).blk t).view.read (Elt Ideal) X : S27x128.Idx → EReal) = X := by
  obtain ⟨e0, e1⟩ := zero_index_22 t
  funext j
  show X (((cfg0.win 22).blk t).view.emb j) = X j
  refine congrArg X ?_
  funext a
  apply Fin.ext
  match a with
  | ⟨0, _⟩ => show win0_22.index t (0 : Fin 2) * 27 + 1 * (j 0).val = (j 0).val; rw [e0]; omega
  | ⟨1, _⟩ => show win0_22.index t (1 : Fin 2) * 128 + 1 * (j 1).val = (j 1).val; rw [e1]; omega

/-- Window 23's index map is constantly zero (decided over the grid's points). -/
theorem zero_index_23 : ∀ t : Fin cfg0.N, win0_23.index t (0 : Fin 1) = 0 :=
  (by decide +kernel : ∀ t : Fin grid0.N, _)

/-- Window 23's block at any point is the whole array: reading an array through it gives the array back. -/
theorem read_whole_23 (X : S128.Idx → EReal) (t : Fin cfg0.N) :
    (((cfg0.win 23).blk t).view.read (Elt Ideal) X : S128.Idx → EReal) = X := by
  have e0 := zero_index_23 t
  funext j
  show X (((cfg0.win 23).blk t).view.emb j) = X j
  refine congrArg X ?_
  funext a
  apply Fin.ext
  match a with
  | ⟨0, _⟩ => show win0_23.index t (0 : Fin 1) * 128 + 1 * (j 0).val = (j 0).val; rw [e0]; omega

/-- Window 24's index map is constantly zero (decided over the grid's points). -/
theorem zero_index_24 : ∀ t : Fin cfg0.N, win0_24.index t (0 : Fin 2) = 0 ∧ win0_24.index t (1 : Fin 2) = 0 :=
  (by decide +kernel : ∀ t : Fin grid0.N, _)

/-- Window 24's block at any point is the whole array: reading an array through it gives the array back. -/
theorem read_whole_24 (X : S128x3.Idx → EReal) (t : Fin cfg0.N) :
    (((cfg0.win 24).blk t).view.read (Elt Ideal) X : S128x3.Idx → EReal) = X := by
  obtain ⟨e0, e1⟩ := zero_index_24 t
  funext j
  show X (((cfg0.win 24).blk t).view.emb j) = X j
  refine congrArg X ?_
  funext a
  apply Fin.ext
  match a with
  | ⟨0, _⟩ => show win0_24.index t (0 : Fin 2) * 128 + 1 * (j 0).val = (j 0).val; rw [e0]; omega
  | ⟨1, _⟩ => show win0_24.index t (1 : Fin 2) * 3 + 1 * (j 1).val = (j 1).val; rw [e1]; omega

/-- Window 25's index map is constantly zero (decided over the grid's points). -/
theorem zero_index_25 : ∀ t : Fin cfg0.N, win0_25.index t (0 : Fin 1) = 0 :=
  (by decide +kernel : ∀ t : Fin grid0.N, _)

/-- Window 25's block at any point is the whole array: reading an array through it gives the array back. -/
theorem read_whole_25 (X : S3.Idx → EReal) (t : Fin cfg0.N) :
    (((cfg0.win 25).blk t).view.read (Elt Ideal) X : S3.Idx → EReal) = X := by
  have e0 := zero_index_25 t
  funext j
  show X (((cfg0.win 25).blk t).view.emb j) = X j
  refine congrArg X ?_
  funext a
  apply Fin.ext
  match a with
  | ⟨0, _⟩ => show win0_25.index t (0 : Fin 1) * 3 + 1 * (j 0).val = (j 0).val; rw [e0]; omega

/-! ## The host operations after the region -/

/-- The first result after the region's tail: the output array's first column, by ray and sample — for any proof data and any contents at region entry. -/
theorem tail_v62 (dats : (p : Fin 1) → (c : Dev nD) → Dat τ (Elt Ideal) Unit ℕ (UR sig nD τ) ℕ (cfgs p) c)
    (V₀ : Dev nD → Valuation τ sig (Elt Ideal)) (c : Dev nD) :
    (Pipeline.afterTail₀ cfgs dats 0 V₀ [hostOps1] c main_v62 : S2048x128x1.Idx → EReal)
      = Cert.KTerm.resDensity ((dats 0 c).arrAt 26 cfg0.N) := by
  have e : (Pipeline.withArrays (cfgs 0).spec c (V₀ c) (fun w => (dats 0 c).arrAt w (cfgs 0).N) (Proc.devRef .tc main_v60) : S262144x4.Idx → EReal)
      = (dats 0 c).arrAt 26 cfg0.N :=
    Pipeline.withArrays_arr spec0 launch0.win.arr_inj c _ _ 26
  unfold Pipeline.afterTail₀
  show StableHlo.after hostOps1 _ (Proc.devRef .tc main_v62) = _
  after_results
  exact congrArg Cert.KTerm.resDensity e

/-- The second result after the region's tail: the output array's last three columns, by ray and sample. -/
theorem tail_v64 (dats : (p : Fin 1) → (c : Dev nD) → Dat τ (Elt Ideal) Unit ℕ (UR sig nD τ) ℕ (cfgs p) c)
    (V₀ : Dev nD → Valuation τ sig (Elt Ideal)) (c : Dev nD) :
    (Pipeline.afterTail₀ cfgs dats 0 V₀ [hostOps1] c main_v64 : S2048x128x3.Idx → EReal)
      = Cert.KTerm.resColor ((dats 0 c).arrAt 26 cfg0.N) := by
  have e : (Pipeline.withArrays (cfgs 0).spec c (V₀ c) (fun w => (dats 0 c).arrAt w (cfgs 0).N) (Proc.devRef .tc main_v60) : S262144x4.Idx → EReal)
      = (dats 0 c).arrAt 26 cfg0.N :=
    Pipeline.withArrays_arr spec0 launch0.win.arr_inj c _ _ 26
  unfold Pipeline.afterTail₀
  show StableHlo.after hostOps1 _ (Proc.devRef .tc main_v64) = _
  after_results
  exact congrArg Cert.KTerm.resColor e

end Cert.KernelIdeal.KArr

end
-- ==== Proof.KHostA.lean ====
/-
  The arrays the region's windows stage, as the region finds them: each is the host-side function
  of the argument arrays that `Cert.KTerm` names (an embedding, a transposed weight matrix, a band
  of one, the fused head), read off the host operations that run before the region.
-/
import proofs.«181742_j549755814570_2_alg».proof.Proof.Gen.KernelIdeal.Launch
import proofs.«181742_j549755814570_2_alg».proof.Proof.KTerm
import Idealize.ShloMosaic.Lib.StableHlo.Run
import Idealize.ShloMosaic.Lib.Pipeline.Frame

noncomputable section

namespace Cert.KernelIdeal.KHostA

open Idealize.ShloMosaic Idealize.ShloMosaic.TcCoe Idealize.SL.Sem Cert.KernelIdeal Cert.KernelIdeal.Gen

variable (m : (ℓ : Loc nD τ sig) → Buf (Elt Ideal) ℓ)

/-- Core `c`'s buffers after the host operations that precede the region. -/
abbrev pre (c : Dev nD) : Valuation τ sig (Elt Ideal) :=
  StableHlo.after (List.flatten [hostOps0, hostOps0_1, hostOps0_2]) (fun b => m (c, b))

local macro "host_read" : tactic =>
  `(tactic| (dsimp only [pre]
             simp only [hostOps0, hostOps0_1, hostOps0_2, List.flatten_cons, List.flatten_nil, List.append_nil,
               List.cons_append, List.nil_append]
             after_results
             rfl))

set_option maxHeartbeats 1000000 in
theorem pre_v27 (c : Dev nD) :
    (pre m c (Proc.devRef .tc main_v27) : S262144x39.Idx → EReal) = Cert.KTerm.A0 (m ((c : Thread nD τ).loc main_arg0)) := by
  host_read

set_option maxHeartbeats 1000000 in
theorem pre_v28 (c : Dev nD) :
    (pre m c (Proc.devRef .tc main_v28) : S262144x27.Idx → EReal) = Cert.KTerm.A1 (m ((c : Thread nD τ).loc main_arg1)) := by
  host_read

set_option maxHeartbeats 1000000 in
theorem pre_v30 (c : Dev nD) :
    (pre m c (Proc.devRef .tc main_v30) : S39x256.Idx → EReal) = Cert.KTerm.A2 (m ((c : Thread nD τ).loc main_arg2)) := by
  host_read

set_option maxHeartbeats 1000000 in
theorem pre_v32 (c : Dev nD) :
    (pre m c (Proc.devRef .tc main_v32) : S256x256.Idx → EReal) = Cert.KTerm.Asq (m ((c : Thread nD τ).loc main_arg4)) := by
  host_read

set_option maxHeartbeats 1000000 in
theorem pre_v34 (c : Dev nD) :
    (pre m c (Proc.devRef .tc main_v34) : S256x256.Idx → EReal) = Cert.KTerm.Asq (m ((c : Thread nD τ).loc main_arg6)) := by
  host_read

set_option maxHeartbeats 1000000 in
theorem pre_v36 (c : Dev nD) :
    (pre m c (Proc.devRef .tc main_v36) : S256x256.Idx → EReal) = Cert.KTerm.Asq (m ((c : Thread nD τ).loc main_arg8)) := by
  host_read

set_option maxHeartbeats 1000000 in
theorem pre_v38 (c : Dev nD) :
    (pre m c (Proc.devRef .tc main_v38) : S256x256.Idx → EReal) = Cert.KTerm.Asq (m ((c : Thread nD τ).loc main_arg10)) := by
  host_read

set_option maxHeartbeats 1000000 in
theorem pre_v41 (c : Dev nD) :
    (pre m c (Proc.devRef .tc main_v41) : S256x256.Idx → EReal) = Cert.KTerm.A12 (m ((c : Thread nD τ).loc main_arg12)) := by
  host_read

end Cert.KernelIdeal.KHostA

end
-- ==== Proof.KHostB.lean ====
/-
  The arrays the region's windows stage, as the region finds them: each is the host-side function
  of the argument arrays that `Cert.KTerm` names (an embedding, a transposed weight matrix, a band
  of one, the fused head), read off the host operations that run before the region.
-/
import proofs.«181742_j549755814570_2_alg».proof.Proof.Gen.KernelIdeal.Launch
import proofs.«181742_j549755814570_2_alg».proof.Proof.KTerm
import Idealize.ShloMosaic.Lib.StableHlo.Run
import Idealize.ShloMosaic.Lib.Pipeline.Frame

noncomputable section

namespace Cert.KernelIdeal.KHostB

open Idealize.ShloMosaic Idealize.ShloMosaic.TcCoe Idealize.SL.Sem Cert.KernelIdeal Cert.KernelIdeal.Gen

variable (m : (ℓ : Loc nD τ sig) → Buf (Elt Ideal) ℓ)

/-- Core `c`'s buffers after the host operations that precede the region. -/
abbrev pre (c : Dev nD) : Valuation τ sig (Elt Ideal) :=
  StableHlo.after (List.flatten [hostOps0, hostOps0_1, hostOps0_2]) (fun b => m (c, b))

local macro "host_read" : tactic =>
  `(tactic| (dsimp only [pre]
             simp only [hostOps0, hostOps0_1, hostOps0_2, List.flatten_cons, List.flatten_nil, List.append_nil,
               List.cons_append, List.nil_append]
             after_results_simp
             rfl))

set_option maxHeartbeats 1000000 in
theorem pre_v43 (c : Dev nD) :
    (pre m c (Proc.devRef .tc main_v43) : S39x256.Idx → EReal) = Cert.KTerm.A13 (m ((c : Thread nD τ).loc main_arg12)) := by
  host_read

set_option maxHeartbeats 1000000 in
theorem pre_v45 (c : Dev nD) :
    (pre m c (Proc.devRef .tc main_v45) : S256x256.Idx → EReal) = Cert.KTerm.Asq (m ((c : Thread nD τ).loc main_arg14)) := by
  host_read

set_option maxHeartbeats 1000000 in
theorem pre_v47 (c : Dev nD) :
    (pre m c (Proc.devRef .tc main_v47) : S256x256.Idx → EReal) = Cert.KTerm.Asq (m ((c : Thread nD τ).loc main_arg16)) := by
  host_read

set_option maxHeartbeats 1000000 in
theorem pre_v51 (c : Dev nD) :
    (pre m c (Proc.devRef .tc main_v51) : S256x129.Idx → EReal) = Cert.KTerm.A19 (m ((c : Thread nD τ).loc main_arg20)) (m ((c : Thread nD τ).loc main_arg18)) := by
  host_read

set_option maxHeartbeats 1000000 in
theorem pre_v52 (c : Dev nD) :
    (pre m c (Proc.devRef .tc main_v52) : S129.Idx → EReal) = Cert.KTerm.A20 (m ((c : Thread nD τ).loc main_arg21)) (m ((c : Thread nD τ).loc main_arg19)) := by
  host_read

set_option maxHeartbeats 1000000 in
theorem pre_v55 (c : Dev nD) :
    (pre m c (Proc.devRef .tc main_v55) : S128x128.Idx → EReal) = Cert.KTerm.A21 (m ((c : Thread nD τ).loc main_arg22)) := by
  host_read

set_option maxHeartbeats 1000000 in
theorem pre_v57 (c : Dev nD) :
    (pre m c (Proc.devRef .tc main_v57) : S27x128.Idx → EReal) = Cert.KTerm.A22 (m ((c : Thread nD τ).loc main_arg22)) := by
  host_read

set_option maxHeartbeats 1000000 in
theorem pre_v59 (c : Dev nD) :
    (pre m c (Proc.devRef .tc main_v59) : S128x3.Idx → EReal) = Cert.KTerm.A24 (m ((c : Thread nD τ).loc main_arg24)) := by
  host_read

end Cert.KernelIdeal.KHostB

end
-- ==== Proof.Spec.lean ====
/-
  The network both programs compute, one sample row at a time, on the extended reals.

  A row's position embedding `pe` (39 numbers) goes through five affine layers, each followed by
  `max(·, 0)`; the sixth layer sees that result and `pe` again (a skip connection); two more layers
  follow; then come a density head (one number), a bottleneck (128 numbers), a colour layer that
  also sees the direction embedding `de` (27 numbers), and a last affine layer followed by the
  logistic function (three numbers).  Weight matrices are indexed [output, input], as the
  arguments are laid out.  Nothing here needs the entries to be finite: only sums and products of
  extended reals occur, in a fixed grouping.
-/
import Idealize.ShloMosaic.PureOps.Ideal

noncomputable section

namespace Cert.Spec

open Idealize.ShloMosaic

/-- An affine map of a row: `Σ_k x_k · W_{j,k} + b_j`. -/
def lin {K N : ℕ} (x : Fin K → EReal) (W : Fin N → Fin K → EReal) (b : Fin N → EReal) (j : Fin N) : EReal :=
  (∑ k : Fin K, x k * W j k) + b j

/-- The same with the input in two pieces: `x` meets the first `K` columns of `W`, `z` the next `L`. -/
def lin2 {K L M N : ℕ} (hM : K + L = M) (x : Fin K → EReal) (z : Fin L → EReal) (W : Fin N → Fin M → EReal)
    (b : Fin N → EReal) (j : Fin N) : EReal :=
  ((∑ k : Fin K, x k * W j ⟨k.val, by omega⟩) + (∑ l : Fin L, z l * W j ⟨K + l.val, by omega⟩)) + b j

/-- `max(·, 0)`. -/
def relu (x : EReal) : EReal := max x 0

/-- The weights and biases, indexed [output, input]. -/
structure Weights where
  W1 : Fin 256 → Fin 39 → EReal
  b1 : Fin 256 → EReal
  W2 : Fin 256 → Fin 256 → EReal
  b2 : Fin 256 → EReal
  W3 : Fin 256 → Fin 256 → EReal
  b3 : Fin 256 → EReal
  W4 : Fin 256 → Fin 256 → EReal
  b4 : Fin 256 → EReal
  W5 : Fin 256 → Fin 256 → EReal
  b5 : Fin 256 → EReal
  W6 : Fin 256 → Fin 295 → EReal
  b6 : Fin 256 → EReal
  W7 : Fin 256 → Fin 256 → EReal
  b7 : Fin 256 → EReal
  W8 : Fin 256 → Fin 256 → EReal
  b8 : Fin 256 → EReal
  Wd : Fin 1 → Fin 256 → EReal
  bd : Fin 1 → EReal
  Wb : Fin 128 → Fin 256 → EReal
  bb : Fin 128 → EReal
  Wc1 : Fin 128 → Fin 155 → EReal
  bc1 : Fin 128 → EReal
  Wc : Fin 3 → Fin 128 → EReal
  bc : Fin 3 → EReal

variable (w : Weights) (pe : Fin 39 → EReal) (de : Fin 27 → EReal)

def h1 : Fin 256 → EReal := fun j => relu (lin pe w.W1 w.b1 j)
def h2 : Fin 256 → EReal := fun j => relu (lin (h1 w pe) w.W2 w.b2 j)
def h3 : Fin 256 → EReal := fun j => relu (lin (h2 w pe) w.W3 w.b3 j)
def h4 : Fin 256 → EReal := fun j => relu (lin (h3 w pe) w.W4 w.b4 j)
def h5 : Fin 256 → EReal := fun j => relu (lin (h4 w pe) w.W5 w.b5 j)
/-- The skip connection: the sixth layer's input is `h5` followed by `pe`. -/
def h6 : Fin 256 → EReal := fun j => relu (lin2 (by norm_num : 256 + 39 = 295) (h5 w pe) pe w.W6 w.b6 j)
def h7 : Fin 256 → EReal := fun j => relu (lin (h6 w pe) w.W7 w.b7 j)
def h8 : Fin 256 → EReal := fun j => relu (lin (h7 w pe) w.W8 w.b8 j)
/-- The density head. -/
def density : EReal := relu (lin (h8 w pe) w.Wd w.bd 0)
/-- The bottleneck. -/
def bott : Fin 128 → EReal := fun j => relu (lin (h8 w pe) w.Wb w.bb j)
/-- The colour layer's input is the bottleneck followed by `de`. -/
def cf : Fin 128 → EReal := fun j => relu (lin2 (by norm_num : 128 + 27 = 155) (bott w pe) de w.Wc1 w.bc1 j)
/-- The colour head. -/
def color : Fin 3 → EReal := fun j => Ideal.logistic (lin (cf w pe de) w.Wc w.bc j)

end Cert.Spec

end
-- ==== Proof.KOps.lean ====
/-
  The kernel body's operations read at one entry, on the extended reals.

  A block product into a zero accumulator is the plain sum over the shared axis; a bias vector laid
  along a row and repeated down the rows reads as the vector's entry; `max` against a splat of the
  zero word is `max(·, 0)`.  With a block's weight matrix held transposed these give each affine
  layer of the network at a row, in the form `Cert.Spec.lin` states it.
-/
import proofs.«181742_j549755814570_2_alg».proof.Proof.Gen.KernelIdeal.Skeleton
import proofs.«181742_j549755814570_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KOps

open Idealize.ShloMosaic Idealize.ShloMosaic.ValueIdx Cert.KernelIdeal Cert.KernelIdeal.Facts₀

/-- A [4096, 39] block times a [39, 256] block into a zero accumulator, read at (y, j): the sum over the shared axis. -/
theorem mm_39_256 {φ₁ φ₂ : FTy} (x : FVec Ideal S4096x39 φ₁) (w : FVec Ideal S39x256 φ₂) (y : Fin 4096) (j : Fin 256) :
    matmul dot_S4096x39_S39x256_S4096x256_1_0_0_1_n_n none x w (constant S4096x256 .f32 0x00000000#32) (ix2 y j)
      = ∑ k : Fin 39, x (ix2 y k) * w (ix2 k j) := by
  refine (Ideal.matmul_constant_zero_apply dot_S4096x39_S39x256_S4096x256_1_0_0_1_n_n none x w (ix2 y j)).trans ?_
  rw [← Equiv.sum_comp (contrEquiv1 dot_S4096x39_S39x256_S4096x256_1_0_0_1_n_n 39 rfl rfl).symm]
  refine Finset.sum_congr rfl fun k _ => ?_
  have hk := contrEquiv1_symm_val dot_S4096x39_S39x256_S4096x256_1_0_0_1_n_n 39 rfl rfl k
  have el : dot_S4096x39_S39x256_S4096x256_1_0_0_1_n_n.lhsIdx (ix2 y j) ((contrEquiv1 dot_S4096x39_S39x256_S4096x256_1_0_0_1_n_n 39 rfl rfl).symm k) = ix2 y k :=
    funext fun a => Fin.ext (by
      match a with
      | ⟨0, _⟩ =>
        show (dot_S4096x39_S39x256_S4096x256_1_0_0_1_n_n.lhsIdx _ _ (0 : Fin S4096x39.rank)).val = y.val
        unfold DotDims.lhsIdx
        rw [dif_neg (show ¬(0 : Fin S4096x39.rank) ∈ dot_S4096x39_S39x256_S4096x256_1_0_0_1_n_n.lhsBatch by decide),
          dif_pos (show (0 : Fin S4096x39.rank) ∈ dot_S4096x39_S39x256_S4096x256_1_0_0_1_n_n.lhsNonContracting by decide)]
        rfl
      | ⟨1, _⟩ => exact (dot_S4096x39_S39x256_S4096x256_1_0_0_1_n_n.lhsIdx_val_of_single rfl _ _).trans hk)
  have er : dot_S4096x39_S39x256_S4096x256_1_0_0_1_n_n.rhsIdx (ix2 y j) ((contrEquiv1 dot_S4096x39_S39x256_S4096x256_1_0_0_1_n_n 39 rfl rfl).symm k) = ix2 k j :=
    funext fun a => Fin.ext (by
      match a with
      | ⟨0, _⟩ => exact (dot_S4096x39_S39x256_S4096x256_1_0_0_1_n_n.rhsIdx_val_of_single rfl _ _).trans hk
      | ⟨1, _⟩ =>
        show (dot_S4096x39_S39x256_S4096x256_1_0_0_1_n_n.rhsIdx _ _ (1 : Fin S39x256.rank)).val = j.val
        unfold DotDims.rhsIdx
        rw [dif_neg (show ¬(1 : Fin S39x256.rank) ∈ dot_S4096x39_S39x256_S4096x256_1_0_0_1_n_n.rhsBatch by decide),
          dif_pos (show (1 : Fin S39x256.rank) ∈ dot_S4096x39_S39x256_S4096x256_1_0_0_1_n_n.rhsNonContracting by decide)]
        rfl)
  rw [el, er]

/-- The same with the activation's row and the weight block named: the block holds the weight matrix
    transposed, `w (k, j) = W j k`. -/
theorem mmw_39_256 {φ₁ φ₂ : FTy} (x : FVec Ideal S4096x39 φ₁) (w : FVec Ideal S39x256 φ₂) (y : Fin 4096) (j : Fin 256)
    (row : Fin 39 → EReal) (hx : ∀ k, x (ix2 y k) = row k) (W : Fin 256 → Fin 39 → EReal) (hw : ∀ k j, w (ix2 k j) = W j k) :
    matmul dot_S4096x39_S39x256_S4096x256_1_0_0_1_n_n none x (shapeCast S39x256 w shapeCasts_S39x256_S39x256) (constant S4096x256 .f32 0x00000000#32) (ix2 y j)
      = ∑ k : Fin 39, row k * W j k := by
  rw [shapeCast_self]
  refine (mm_39_256 x w y j).trans (Finset.sum_congr rfl fun k _ => ?_)
  rw [hx k, hw k j]

/-- A [4096, 256] block times a [256, 256] block into a zero accumulator, read at (y, j): the sum over the shared axis. -/
theorem mm_256_256 {φ₁ φ₂ : FTy} (x : FVec Ideal S4096x256 φ₁) (w : FVec Ideal S256x256 φ₂) (y : Fin 4096) (j : Fin 256) :
    matmul dot_S4096x256_S256x256_S4096x256_1_0_0_1_n_n none x w (constant S4096x256 .f32 0x00000000#32) (ix2 y j)
      = ∑ k : Fin 256, x (ix2 y k) * w (ix2 k j) := by
  refine (Ideal.matmul_constant_zero_apply dot_S4096x256_S256x256_S4096x256_1_0_0_1_n_n none x w (ix2 y j)).trans ?_
  rw [← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 y j) ((contrEquiv1 dot_S4096x256_S256x256_S4096x256_1_0_0_1_n_n 256 rfl rfl).symm k) = ix2 y k :=
    funext fun a => Fin.ext (by
      match a with
      | ⟨0, _⟩ =>
        show (dot_S4096x256_S256x256_S4096x256_1_0_0_1_n_n.lhsIdx _ _ (0 : Fin S4096x256.rank)).val = y.val
        unfold DotDims.lhsIdx
        rw [dif_neg (show ¬(0 : Fin S4096x256.rank) ∈ dot_S4096x256_S256x256_S4096x256_1_0_0_1_n_n.lhsBatch by decide),
          dif_pos (show (0 : Fin S4096x256.rank) ∈ dot_S4096x256_S256x256_S4096x256_1_0_0_1_n_n.lhsNonContracting by decide)]
        rfl
      | ⟨1, _⟩ => exact (dot_S4096x256_S256x256_S4096x256_1_0_0_1_n_n.lhsIdx_val_of_single rfl _ _).trans hk)
  have er : dot_S4096x256_S256x256_S4096x256_1_0_0_1_n_n.rhsIdx (ix2 y j) ((contrEquiv1 dot_S4096x256_S256x256_S4096x256_1_0_0_1_n_n 256 rfl rfl).symm k) = ix2 k j :=
    funext fun a => Fin.ext (by
      match a with
      | ⟨0, _⟩ => exact (dot_S4096x256_S256x256_S4096x256_1_0_0_1_n_n.rhsIdx_val_of_single rfl _ _).trans hk
      | ⟨1, _⟩ =>
        show (dot_S4096x256_S256x256_S4096x256_1_0_0_1_n_n.rhsIdx _ _ (1 : Fin S256x256.rank)).val = j.val
        unfold DotDims.rhsIdx
        rw [dif_neg (show ¬(1 : Fin S256x256.rank) ∈ dot_S4096x256_S256x256_S4096x256_1_0_0_1_n_n.rhsBatch by decide),
          dif_pos (show (1 : Fin S256x256.rank) ∈ dot_S4096x256_S256x256_S4096x256_1_0_0_1_n_n.rhsNonContracting by decide)]
        rfl)
  rw [el, er]

/-- The same with the activation's row and the weight block named: the block holds the weight matrix
    transposed, `w (k, j) = W j k`. -/
theorem mmw_256_256 {φ₁ φ₂ : FTy} (x : FVec Ideal S4096x256 φ₁) (w : FVec Ideal S256x256 φ₂) (y : Fin 4096) (j : Fin 256)
    (row : Fin 256 → EReal) (hx : ∀ k, x (ix2 y k) = row k) (W : Fin 256 → Fin 256 → EReal) (hw : ∀ k j, w (ix2 k j) = W j k) :
    matmul dot_S4096x256_S256x256_S4096x256_1_0_0_1_n_n none x (shapeCast S256x256 w shapeCasts_S256x256_S256x256) (constant S4096x256 .f32 0x00000000#32) (ix2 y j)
      = ∑ k : Fin 256, row k * W j k := by
  rw [shapeCast_self]
  refine (mm_256_256 x w y j).trans (Finset.sum_congr rfl fun k _ => ?_)
  rw [hx k, hw k j]

/-- A [4096, 256] block times a [256, 129] block into a zero accumulator, read at (y, j): the sum over the shared axis. -/
theorem mm_256_129 {φ₁ φ₂ : FTy} (x : FVec Ideal S4096x256 φ₁) (w : FVec Ideal S256x129 φ₂) (y : Fin 4096) (j : Fin 129) :
    matmul dot_S4096x256_S256x129_S4096x129_1_0_0_1_n_n none x w (constant S4096x129 .f32 0x00000000#32) (ix2 y j)
      = ∑ k : Fin 256, x (ix2 y k) * w (ix2 k j) := by
  refine (Ideal.matmul_constant_zero_apply dot_S4096x256_S256x129_S4096x129_1_0_0_1_n_n none x w (ix2 y j)).trans ?_
  rw [← Equiv.sum_comp (contrEquiv1 dot_S4096x256_S256x129_S4096x129_1_0_0_1_n_n 256 rfl rfl).symm]
  refine Finset.sum_congr rfl fun k _ => ?_
  have hk := contrEquiv1_symm_val dot_S4096x256_S256x129_S4096x129_1_0_0_1_n_n 256 rfl rfl k
  have el : dot_S4096x256_S256x129_S4096x129_1_0_0_1_n_n.lhsIdx (ix2 y j) ((contrEquiv1 dot_S4096x256_S256x129_S4096x129_1_0_0_1_n_n 256 rfl rfl).symm k) = ix2 y k :=
    funext fun a => Fin.ext (by
      match a with
      | ⟨0, _⟩ =>
        show (dot_S4096x256_S256x129_S4096x129_1_0_0_1_n_n.lhsIdx _ _ (0 : Fin S4096x256.rank)).val = y.val
        unfold DotDims.lhsIdx
        rw [dif_neg (show ¬(0 : Fin S4096x256.rank) ∈ dot_S4096x256_S256x129_S4096x129_1_0_0_1_n_n.lhsBatch by decide),
          dif_pos (show (0 : Fin S4096x256.rank) ∈ dot_S4096x256_S256x129_S4096x129_1_0_0_1_n_n.lhsNonContracting by decide)]
        rfl
      | ⟨1, _⟩ => exact (dot_S4096x256_S256x129_S4096x129_1_0_0_1_n_n.lhsIdx_val_of_single rfl _ _).trans hk)
  have er : dot_S4096x256_S256x129_S4096x129_1_0_0_1_n_n.rhsIdx (ix2 y j) ((contrEquiv1 dot_S4096x256_S256x129_S4096x129_1_0_0_1_n_n 256 rfl rfl).symm k) = ix2 k j :=
    funext fun a => Fin.ext (by
      match a with
      | ⟨0, _⟩ => exact (dot_S4096x256_S256x129_S4096x129_1_0_0_1_n_n.rhsIdx_val_of_single rfl _ _).trans hk
      | ⟨1, _⟩ =>
        show (dot_S4096x256_S256x129_S4096x129_1_0_0_1_n_n.rhsIdx _ _ (1 : Fin S256x129.rank)).val = j.val
        unfold DotDims.rhsIdx
        rw [dif_neg (show ¬(1 : Fin S256x129.rank) ∈ dot_S4096x256_S256x129_S4096x129_1_0_0_1_n_n.rhsBatch by decide),
          dif_pos (show (1 : Fin S256x129.rank) ∈ dot_S4096x256_S256x129_S4096x129_1_0_0_1_n_n.rhsNonContracting by decide)]
        rfl)
  rw [el, er]

/-- The same with the activation's row and the weight block named: the block holds the weight matrix
    transposed, `w (k, j) = W j k`. -/
theorem mmw_256_129 {φ₁ φ₂ : FTy} (x : FVec Ideal S4096x256 φ₁) (w : FVec Ideal S256x129 φ₂) (y : Fin 4096) (j : Fin 129)
    (row : Fin 256 → EReal) (hx : ∀ k, x (ix2 y k) = row k) (W : Fin 129 → Fin 256 → EReal) (hw : ∀ k j, w (ix2 k j) = W j k) :
    matmul dot_S4096x256_S256x129_S4096x129_1_0_0_1_n_n none x (shapeCast S256x129 w shapeCasts_S256x129_S256x129) (constant S4096x129 .f32 0x00000000#32) (ix2 y j)
      = ∑ k : Fin 256, row k * W j k := by
  rw [shapeCast_self]
  refine (mm_256_129 x w y j).trans (Finset.sum_congr rfl fun k _ => ?_)
  rw [hx k, hw k j]

/-- A [4096, 128] block times a [128, 128] block into a zero accumulator, read at (y, j): the sum over the shared axis. -/
theorem mm_128_128 {φ₁ φ₂ : FTy} (x : FVec Ideal S4096x128 φ₁) (w : FVec Ideal S128x128 φ₂) (y : Fin 4096) (j : Fin 128) :
    matmul dot_S4096x128_S128x128_S4096x128_1_0_0_1_n_n none x w (constant S4096x128 .f32 0x00000000#32) (ix2 y j)
      = ∑ k : Fin 128, x (ix2 y k) * w (ix2 k j) := by
  refine (Ideal.matmul_constant_zero_apply dot_S4096x128_S128x128_S4096x128_1_0_0_1_n_n none x w (ix2 y j)).trans ?_
  rw [← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 y j) ((contrEquiv1 dot_S4096x128_S128x128_S4096x128_1_0_0_1_n_n 128 rfl rfl).symm k) = ix2 y k :=
    funext fun a => Fin.ext (by
      match a with
      | ⟨0, _⟩ =>
        show (dot_S4096x128_S128x128_S4096x128_1_0_0_1_n_n.lhsIdx _ _ (0 : Fin S4096x128.rank)).val = y.val
        unfold DotDims.lhsIdx
        rw [dif_neg (show ¬(0 : Fin S4096x128.rank) ∈ dot_S4096x128_S128x128_S4096x128_1_0_0_1_n_n.lhsBatch by decide),
          dif_pos (show (0 : Fin S4096x128.rank) ∈ dot_S4096x128_S128x128_S4096x128_1_0_0_1_n_n.lhsNonContracting by decide)]
        rfl
      | ⟨1, _⟩ => exact (dot_S4096x128_S128x128_S4096x128_1_0_0_1_n_n.lhsIdx_val_of_single rfl _ _).trans hk)
  have er : dot_S4096x128_S128x128_S4096x128_1_0_0_1_n_n.rhsIdx (ix2 y j) ((contrEquiv1 dot_S4096x128_S128x128_S4096x128_1_0_0_1_n_n 128 rfl rfl).symm k) = ix2 k j :=
    funext fun a => Fin.ext (by
      match a with
      | ⟨0, _⟩ => exact (dot_S4096x128_S128x128_S4096x128_1_0_0_1_n_n.rhsIdx_val_of_single rfl _ _).trans hk
      | ⟨1, _⟩ =>
        show (dot_S4096x128_S128x128_S4096x128_1_0_0_1_n_n.rhsIdx _ _ (1 : Fin S128x128.rank)).val = j.val
        unfold DotDims.rhsIdx
        rw [dif_neg (show ¬(1 : Fin S128x128.rank) ∈ dot_S4096x128_S128x128_S4096x128_1_0_0_1_n_n.rhsBatch by decide),
          dif_pos (show (1 : Fin S128x128.rank) ∈ dot_S4096x128_S128x128_S4096x128_1_0_0_1_n_n.rhsNonContracting by decide)]
        rfl)
  rw [el, er]

/-- The same with the activation's row and the weight block named: the block holds the weight matrix
    transposed, `w (k, j) = W j k`. -/
theorem mmw_128_128 {φ₁ φ₂ : FTy} (x : FVec Ideal S4096x128 φ₁) (w : FVec Ideal S128x128 φ₂) (y : Fin 4096) (j : Fin 128)
    (row : Fin 128 → EReal) (hx : ∀ k, x (ix2 y k) = row k) (W : Fin 128 → Fin 128 → EReal) (hw : ∀ k j, w (ix2 k j) = W j k) :
    matmul dot_S4096x128_S128x128_S4096x128_1_0_0_1_n_n none x (shapeCast S128x128 w shapeCasts_S128x128_S128x128) (constant S4096x128 .f32 0x00000000#32) (ix2 y j)
      = ∑ k : Fin 128, row k * W j k := by
  rw [shapeCast_self]
  refine (mm_128_128 x w y j).trans (Finset.sum_congr rfl fun k _ => ?_)
  rw [hx k, hw k j]

/-- A [4096, 27] block times a [27, 128] block into a zero accumulator, read at (y, j): the sum over the shared axis. -/
theorem mm_27_128 {φ₁ φ₂ : FTy} (x : FVec Ideal S4096x27 φ₁) (w : FVec Ideal S27x128 φ₂) (y : Fin 4096) (j : Fin 128) :
    matmul dot_S4096x27_S27x128_S4096x128_1_0_0_1_n_n none x w (constant S4096x128 .f32 0x00000000#32) (ix2 y j)
      = ∑ k : Fin 27, x (ix2 y k) * w (ix2 k j) := by
  refine (Ideal.matmul_constant_zero_apply dot_S4096x27_S27x128_S4096x128_1_0_0_1_n_n none x w (ix2 y j)).trans ?_
  rw [← Equiv.sum_comp (contrEquiv1 dot_S4096x27_S27x128_S4096x128_1_0_0_1_n_n 27 rfl rfl).symm]
  refine Finset.sum_congr rfl fun k _ => ?_
  have hk := contrEquiv1_symm_val dot_S4096x27_S27x128_S4096x128_1_0_0_1_n_n 27 rfl rfl k
  have el : dot_S4096x27_S27x128_S4096x128_1_0_0_1_n_n.lhsIdx (ix2 y j) ((contrEquiv1 dot_S4096x27_S27x128_S4096x128_1_0_0_1_n_n 27 rfl rfl).symm k) = ix2 y k :=
    funext fun a => Fin.ext (by
      match a with
      | ⟨0, _⟩ =>
        show (dot_S4096x27_S27x128_S4096x128_1_0_0_1_n_n.lhsIdx _ _ (0 : Fin S4096x27.rank)).val = y.val
        unfold DotDims.lhsIdx
        rw [dif_neg (show ¬(0 : Fin S4096x27.rank) ∈ dot_S4096x27_S27x128_S4096x128_1_0_0_1_n_n.lhsBatch by decide),
          dif_pos (show (0 : Fin S4096x27.rank) ∈ dot_S4096x27_S27x128_S4096x128_1_0_0_1_n_n.lhsNonContracting by decide)]
        rfl
      | ⟨1, _⟩ => exact (dot_S4096x27_S27x128_S4096x128_1_0_0_1_n_n.lhsIdx_val_of_single rfl _ _).trans hk)
  have er : dot_S4096x27_S27x128_S4096x128_1_0_0_1_n_n.rhsIdx (ix2 y j) ((contrEquiv1 dot_S4096x27_S27x128_S4096x128_1_0_0_1_n_n 27 rfl rfl).symm k) = ix2 k j :=
    funext fun a => Fin.ext (by
      match a with
      | ⟨0, _⟩ => exact (dot_S4096x27_S27x128_S4096x128_1_0_0_1_n_n.rhsIdx_val_of_single rfl _ _).trans hk
      | ⟨1, _⟩ =>
        show (dot_S4096x27_S27x128_S4096x128_1_0_0_1_n_n.rhsIdx _ _ (1 : Fin S27x128.rank)).val = j.val
        unfold DotDims.rhsIdx
        rw [dif_neg (show ¬(1 : Fin S27x128.rank) ∈ dot_S4096x27_S27x128_S4096x128_1_0_0_1_n_n.rhsBatch by decide),
          dif_pos (show (1 : Fin S27x128.rank) ∈ dot_S4096x27_S27x128_S4096x128_1_0_0_1_n_n.rhsNonContracting by decide)]
        rfl)
  rw [el, er]

/-- The same with the activation's row and the weight block named: the block holds the weight matrix
    transposed, `w (k, j) = W j k`. -/
theorem mmw_27_128 {φ₁ φ₂ : FTy} (x : FVec Ideal S4096x27 φ₁) (w : FVec Ideal S27x128 φ₂) (y : Fin 4096) (j : Fin 128)
    (row : Fin 27 → EReal) (hx : ∀ k, x (ix2 y k) = row k) (W : Fin 128 → Fin 27 → EReal) (hw : ∀ k j, w (ix2 k j) = W j k) :
    matmul dot_S4096x27_S27x128_S4096x128_1_0_0_1_n_n none x (shapeCast S27x128 w shapeCasts_S27x128_S27x128) (constant S4096x128 .f32 0x00000000#32) (ix2 y j)
      = ∑ k : Fin 27, row k * W j k := by
  rw [shapeCast_self]
  refine (mm_27_128 x w y j).trans (Finset.sum_congr rfl fun k _ => ?_)
  rw [hx k, hw k j]

/-- A [4096, 128] block times a [128, 3] block into a zero accumulator, read at (y, j): the sum over the shared axis. -/
theorem mm_128_3 {φ₁ φ₂ : FTy} (x : FVec Ideal S4096x128 φ₁) (w : FVec Ideal S128x3 φ₂) (y : Fin 4096) (j : Fin 3) :
    matmul dot_S4096x128_S128x3_S4096x3_1_0_0_1_n_n none x w (constant S4096x3 .f32 0x00000000#32) (ix2 y j)
      = ∑ k : Fin 128, x (ix2 y k) * w (ix2 k j) := by
  refine (Ideal.matmul_constant_zero_apply dot_S4096x128_S128x3_S4096x3_1_0_0_1_n_n none x w (ix2 y j)).trans ?_
  rw [← Equiv.sum_comp (contrEquiv1 dot_S4096x128_S128x3_S4096x3_1_0_0_1_n_n 128 rfl rfl).symm]
  refine Finset.sum_congr rfl fun k _ => ?_
  have hk := contrEquiv1_symm_val dot_S4096x128_S128x3_S4096x3_1_0_0_1_n_n 128 rfl rfl k
  have el : dot_S4096x128_S128x3_S4096x3_1_0_0_1_n_n.lhsIdx (ix2 y j) ((contrEquiv1 dot_S4096x128_S128x3_S4096x3_1_0_0_1_n_n 128 rfl rfl).symm k) = ix2 y k :=
    funext fun a => Fin.ext (by
      match a with
      | ⟨0, _⟩ =>
        show (dot_S4096x128_S128x3_S4096x3_1_0_0_1_n_n.lhsIdx _ _ (0 : Fin S4096x128.rank)).val = y.val
        unfold DotDims.lhsIdx
        rw [dif_neg (show ¬(0 : Fin S4096x128.rank) ∈ dot_S4096x128_S128x3_S4096x3_1_0_0_1_n_n.lhsBatch by decide),
          dif_pos (show (0 : Fin S4096x128.rank) ∈ dot_S4096x128_S128x3_S4096x3_1_0_0_1_n_n.lhsNonContracting by decide)]
        rfl
      | ⟨1, _⟩ => exact (dot_S4096x128_S128x3_S4096x3_1_0_0_1_n_n.lhsIdx_val_of_single rfl _ _).trans hk)
  have er : dot_S4096x128_S128x3_S4096x3_1_0_0_1_n_n.rhsIdx (ix2 y j) ((contrEquiv1 dot_S4096x128_S128x3_S4096x3_1_0_0_1_n_n 128 rfl rfl).symm k) = ix2 k j :=
    funext fun a => Fin.ext (by
      match a with
      | ⟨0, _⟩ => exact (dot_S4096x128_S128x3_S4096x3_1_0_0_1_n_n.rhsIdx_val_of_single rfl _ _).trans hk
      | ⟨1, _⟩ =>
        show (dot_S4096x128_S128x3_S4096x3_1_0_0_1_n_n.rhsIdx _ _ (1 : Fin S128x3.rank)).val = j.val
        unfold DotDims.rhsIdx
        rw [dif_neg (show ¬(1 : Fin S128x3.rank) ∈ dot_S4096x128_S128x3_S4096x3_1_0_0_1_n_n.rhsBatch by decide),
          dif_pos (show (1 : Fin S128x3.rank) ∈ dot_S4096x128_S128x3_S4096x3_1_0_0_1_n_n.rhsNonContracting by decide)]
        rfl)
  rw [el, er]

/-- The same with the activation's row and the weight block named: the block holds the weight matrix
    transposed, `w (k, j) = W j k`. -/
theorem mmw_128_3 {φ₁ φ₂ : FTy} (x : FVec Ideal S4096x128 φ₁) (w : FVec Ideal S128x3 φ₂) (y : Fin 4096) (j : Fin 3)
    (row : Fin 128 → EReal) (hx : ∀ k, x (ix2 y k) = row k) (W : Fin 3 → Fin 128 → EReal) (hw : ∀ k j, w (ix2 k j) = W j k) :
    matmul dot_S4096x128_S128x3_S4096x3_1_0_0_1_n_n none x (shapeCast S128x3 w shapeCasts_S128x3_S128x3) (constant S4096x3 .f32 0x00000000#32) (ix2 y j)
      = ∑ k : Fin 128, row k * W j k := by
  rw [shapeCast_self]
  refine (mm_128_3 x w y j).trans (Finset.sum_congr rfl fun k _ => ?_)
  rw [hx k, hw k j]

/-- A bias vector of length 256 laid along a row and repeated down the 4096 rows, read at (y, j). -/
theorem bias_256 (b : FVec Ideal S256 .f32) (y : Fin 4096) (j : Fin 256) :
    broadcastTo S4096x256 (shapeCast S1x256 b shapeCasts_S256_S1x256) broadcasts_S1x256_S4096x256 (ix2 y j) = b (ix1 j) := by
  rw [broadcastTo_1b_ab_apply, shapeCast_a_1a_apply]

/-- A bias vector of length 128 laid along a row and repeated down the 4096 rows, read at (y, j). -/
theorem bias_128 (b : FVec Ideal S128 .f32) (y : Fin 4096) (j : Fin 128) :
    broadcastTo S4096x128 (shapeCast S1x128 b shapeCasts_S128_S1x128) broadcasts_S1x128_S4096x128 (ix2 y j) = b (ix1 j) := by
  rw [broadcastTo_1b_ab_apply, shapeCast_a_1a_apply]

/-- A bias vector of length 3 laid along a row and repeated down the 4096 rows, read at (y, j). -/
theorem bias_3 (b : FVec Ideal S3 .f32) (y : Fin 4096) (j : Fin 3) :
    broadcastTo S4096x3 (shapeCast S1x3 b shapeCasts_S3_S1x3) broadcasts_S1x3_S4096x3 (ix2 y j) = b (ix1 j) := by
  rw [broadcastTo_1b_ab_apply, shapeCast_a_1a_apply]

/-- The 129-long bias passes through a cast to its own shape first. -/
theorem bias_129 (b : FVec Ideal S129 .f32) (y : Fin 4096) (j : Fin 129) :
    broadcastTo S4096x129 (shapeCast S1x129 (shapeCast S129 b shapeCasts_S129_S129) shapeCasts_S129_S1x129) broadcasts_S1x129_S4096x129 (ix2 y j)
      = b (ix1 j) := by
  rw [broadcastTo_1b_ab_apply, shapeCast_a_1a_apply, shapeCast_self]

/-- `max` against a splat of the zero word is `max(·, 0)`. -/
theorem relu_apply {s : Shape} (v : FVec Ideal s .f32) (i : s.Idx) :
    maximumf v (broadcast s (Scalar.ofBits (F := Ideal) .f32 0x00000000#32)) i = Cert.Spec.relu (v i) := by
  show max (v i) (Ideal.ofBits .f32 0x00000000#32) = max (v i) 0
  rw [Ideal.ofBits_zero_f32]

/-- The same after the change of float format, which is the identity on the extended reals. -/
theorem relu_trunc_apply {s : Shape} (v : FVec Ideal s .f32) (i : s.Idx) :
    (truncf .bf16 (maximumf v (broadcast s (Scalar.ofBits (F := Ideal) .f32 0x00000000#32))) bitsLt_bf16_f32 : FVec Ideal s .bf16) i
      = Cert.Spec.relu (v i) :=
  relu_apply v i

/-- An affine layer 39 → 256 at a row: block product, plus the bias row. -/
theorem lin_39_256 {φ₁ : FTy} (x : FVec Ideal S4096x39 φ₁) (w : FVec Ideal S39x256 .bf16) (b : FVec Ideal S256 .f32) (y : Fin 4096) (j : Fin 256)
    (row : Fin 39 → EReal) (hx : ∀ k, x (ix2 y k) = row k) (W : Fin 256 → Fin 39 → EReal) (hw : ∀ k j, w (ix2 k j) = W j k)
    (b' : Fin 256 → EReal) (hb : ∀ j, b (ix1 j) = b' j) :
    addf (matmul dot_S4096x39_S39x256_S4096x256_1_0_0_1_n_n none x (shapeCast S39x256 w shapeCasts_S39x256_S39x256) (constant S4096x256 .f32 0x00000000#32))
        (broadcastTo S4096x256 (shapeCast S1x256 b shapeCasts_S256_S1x256) broadcasts_S1x256_S4096x256) (ix2 y j)
      = Cert.Spec.lin row W b' j := by
  show matmul dot_S4096x39_S39x256_S4096x256_1_0_0_1_n_n none x (shapeCast S39x256 w shapeCasts_S39x256_S39x256) (constant S4096x256 .f32 0x00000000#32) (ix2 y j)
      + broadcastTo S4096x256 (shapeCast S1x256 b shapeCasts_S256_S1x256) broadcasts_S1x256_S4096x256 (ix2 y j) = _
  rw [mmw_39_256 x w y j row hx W hw, bias_256, hb]
  rfl

/-- An affine layer 256 → 256 at a row: block product, plus the bias row. -/
theorem lin_256_256 {φ₁ : FTy} (x : FVec Ideal S4096x256 φ₁) (w : FVec Ideal S256x256 .bf16) (b : FVec Ideal S256 .f32) (y : Fin 4096) (j : Fin 256)
    (row : Fin 256 → EReal) (hx : ∀ k, x (ix2 y k) = row k) (W : Fin 256 → Fin 256 → EReal) (hw : ∀ k j, w (ix2 k j) = W j k)
    (b' : Fin 256 → EReal) (hb : ∀ j, b (ix1 j) = b' j) :
    addf (matmul dot_S4096x256_S256x256_S4096x256_1_0_0_1_n_n none x (shapeCast S256x256 w shapeCasts_S256x256_S256x256) (constant S4096x256 .f32 0x00000000#32))
        (broadcastTo S4096x256 (shapeCast S1x256 b shapeCasts_S256_S1x256) broadcasts_S1x256_S4096x256) (ix2 y j)
      = Cert.Spec.lin row W b' j := by
  show matmul dot_S4096x256_S256x256_S4096x256_1_0_0_1_n_n none x (shapeCast S256x256 w shapeCasts_S256x256_S256x256) (constant S4096x256 .f32 0x00000000#32) (ix2 y j)
      + broadcastTo S4096x256 (shapeCast S1x256 b shapeCasts_S256_S1x256) broadcasts_S1x256_S4096x256 (ix2 y j) = _
  rw [mmw_256_256 x w y j row hx W hw, bias_256, hb]
  rfl

/-- An affine layer 128 → 3 at a row: block product, plus the bias row. -/
theorem lin_128_3 {φ₁ : FTy} (x : FVec Ideal S4096x128 φ₁) (w : FVec Ideal S128x3 .bf16) (b : FVec Ideal S3 .f32) (y : Fin 4096) (j : Fin 3)
    (row : Fin 128 → EReal) (hx : ∀ k, x (ix2 y k) = row k) (W : Fin 3 → Fin 128 → EReal) (hw : ∀ k j, w (ix2 k j) = W j k)
    (b' : Fin 3 → EReal) (hb : ∀ j, b (ix1 j) = b' j) :
    addf (matmul dot_S4096x128_S128x3_S4096x3_1_0_0_1_n_n none x (shapeCast S128x3 w shapeCasts_S128x3_S128x3) (constant S4096x3 .f32 0x00000000#32))
        (broadcastTo S4096x3 (shapeCast S1x3 b shapeCasts_S3_S1x3) broadcasts_S1x3_S4096x3) (ix2 y j)
      = Cert.Spec.lin row W b' j := by
  show matmul dot_S4096x128_S128x3_S4096x3_1_0_0_1_n_n none x (shapeCast S128x3 w shapeCasts_S128x3_S128x3) (constant S4096x3 .f32 0x00000000#32) (ix2 y j)
      + broadcastTo S4096x3 (shapeCast S1x3 b shapeCasts_S3_S1x3) broadcasts_S1x3_S4096x3 (ix2 y j) = _
  rw [mmw_128_3 x w y j row hx W hw, bias_3, hb]
  rfl

/-- An affine layer whose input comes in two pieces (256 and 39 long) met by two bands of rows of the
    transposed weight matrix: the two block products added, plus the bias row. -/
theorem lin2_256_39_256 {φ₁ φ₂ : FTy} (x : FVec Ideal S4096x256 φ₁) (z : FVec Ideal S4096x39 φ₂)
    (wa : FVec Ideal S256x256 .bf16) (wb : FVec Ideal S39x256 .bf16) (b : FVec Ideal S256 .f32) (y : Fin 4096) (j : Fin 256)
    (rowx : Fin 256 → EReal) (hx : ∀ k, x (ix2 y k) = rowx k) (rowz : Fin 39 → EReal) (hz : ∀ l, z (ix2 y l) = rowz l)
    (W : Fin 256 → Fin 295 → EReal) (hM : 256 + 39 = 295)
    (hwa : ∀ (k : Fin 256) (j : Fin 256), wa (ix2 k j) = W j ⟨k.val, by omega⟩)
    (hwb : ∀ (l : Fin 39) (j : Fin 256), wb (ix2 l j) = W j ⟨256 + l.val, by omega⟩)
    (b' : Fin 256 → EReal) (hb : ∀ j, b (ix1 j) = b' j) :
    addf (addf (matmul dot_S4096x256_S256x256_S4096x256_1_0_0_1_n_n none x (shapeCast S256x256 wa shapeCasts_S256x256_S256x256) (constant S4096x256 .f32 0x00000000#32))
          (matmul dot_S4096x39_S39x256_S4096x256_1_0_0_1_n_n none z (shapeCast S39x256 wb shapeCasts_S39x256_S39x256) (constant S4096x256 .f32 0x00000000#32)))
        (broadcastTo S4096x256 (shapeCast S1x256 b shapeCasts_S256_S1x256) broadcasts_S1x256_S4096x256) (ix2 y j)
      = Cert.Spec.lin2 hM rowx rowz W b' j := by
  show (matmul dot_S4096x256_S256x256_S4096x256_1_0_0_1_n_n none x (shapeCast S256x256 wa shapeCasts_S256x256_S256x256) (constant S4096x256 .f32 0x00000000#32) (ix2 y j)
        + matmul dot_S4096x39_S39x256_S4096x256_1_0_0_1_n_n none z (shapeCast S39x256 wb shapeCasts_S39x256_S39x256) (constant S4096x256 .f32 0x00000000#32) (ix2 y j))
      + broadcastTo S4096x256 (shapeCast S1x256 b shapeCasts_S256_S1x256) broadcasts_S1x256_S4096x256 (ix2 y j) = _
  rw [mmw_256_256 x wa y j rowx hx (fun j k => W j ⟨k.val, by omega⟩) hwa,
    mmw_39_256 z wb y j rowz hz (fun j l => W j ⟨256 + l.val, by omega⟩) hwb, bias_256, hb]
  rfl

/-- An affine layer whose input comes in two pieces (128 and 27 long) met by two bands of rows of the
    transposed weight matrix: the two block products added, plus the bias row. -/
theorem lin2_128_27_128 {φ₁ φ₂ : FTy} (x : FVec Ideal S4096x128 φ₁) (z : FVec Ideal S4096x27 φ₂)
    (wa : FVec Ideal S128x128 .bf16) (wb : FVec Ideal S27x128 .bf16) (b : FVec Ideal S128 .f32) (y : Fin 4096) (j : Fin 128)
    (rowx : Fin 128 → EReal) (hx : ∀ k, x (ix2 y k) = rowx k) (rowz : Fin 27 → EReal) (hz : ∀ l, z (ix2 y l) = rowz l)
    (W : Fin 128 → Fin 155 → EReal) (hM : 128 + 27 = 155)
    (hwa : ∀ (k : Fin 128) (j : Fin 128), wa (ix2 k j) = W j ⟨k.val, by omega⟩)
    (hwb : ∀ (l : Fin 27) (j : Fin 128), wb (ix2 l j) = W j ⟨128 + l.val, by omega⟩)
    (b' : Fin 128 → EReal) (hb : ∀ j, b (ix1 j) = b' j) :
    addf (addf (matmul dot_S4096x128_S128x128_S4096x128_1_0_0_1_n_n none x (shapeCast S128x128 wa shapeCasts_S128x128_S128x128) (constant S4096x128 .f32 0x00000000#32))
          (matmul dot_S4096x27_S27x128_S4096x128_1_0_0_1_n_n none z (shapeCast S27x128 wb shapeCasts_S27x128_S27x128) (constant S4096x128 .f32 0x00000000#32)))
        (broadcastTo S4096x128 (shapeCast S1x128 b shapeCasts_S128_S1x128) broadcasts_S1x128_S4096x128) (ix2 y j)
      = Cert.Spec.lin2 hM rowx rowz W b' j := by
  show (matmul dot_S4096x128_S128x128_S4096x128_1_0_0_1_n_n none x (shapeCast S128x128 wa shapeCasts_S128x128_S128x128) (constant S4096x128 .f32 0x00000000#32) (ix2 y j)
        + matmul dot_S4096x27_S27x128_S4096x128_1_0_0_1_n_n none z (shapeCast S27x128 wb shapeCasts_S27x128_S27x128) (constant S4096x128 .f32 0x00000000#32) (ix2 y j))
      + broadcastTo S4096x128 (shapeCast S1x128 b shapeCasts_S128_S1x128) broadcasts_S1x128_S4096x128 (ix2 y j) = _
  rw [mmw_128_128 x wa y j rowx hx (fun j k => W j ⟨k.val, by omega⟩) hwa,
    mmw_27_128 z wb y j rowz hz (fun j l => W j ⟨128 + l.val, by omega⟩) hwb, bias_128, hb]
  rfl

end Cert.KernelIdeal.KOps

end
-- ==== Proof.LibConcat.lean ====
/-
  Two arrays laid side by side, read at coordinates.

  A two-piece concatenation of matrices along the columns reads, at (p, q), the first piece at
  (p, q) when q lies below the first piece's width and the second piece at (p, q − width)
  otherwise; likewise for two vectors laid end to end.  These are the library's two-piece
  concatenation lemmas with both indices written by coordinates.
-/
import Idealize.ShloMosaic.Lib.ValueIdx
import Idealize.ShloMosaic.Lib.Pipeline.Value

namespace Cert.LibConcat

open Idealize.ShloMosaic Idealize.ShloMosaic.ValueIdx

variable {α : Type}

/-- `[n, a] ++ [n, b]` along the columns, at a column `q` of the first piece. -/
theorem concat_cols_left {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (p : Fin n) (q : Fin c) (q' : Fin a)
    (hq : q'.val = q.val) :
    concatenate ⟨2, ![n, c]⟩ 1 [⟨⟨2, ![n, a]⟩, x₁⟩, ⟨⟨2, ![n, b]⟩, x₂⟩] h (ix2 p q) = x₁ (ix2 p q') :=
  concatenate_pair_apply_left 1 x₁ x₂ h (ix2 p q) rfl (ix2 p q') (fun d => by
    match d with
    | ⟨0, _⟩ => rfl
    | ⟨1, _⟩ => exact hq)

/-- `[n, a] ++ [n, b]` along the columns, at a column `q = a + q'` of the second piece. -/
theorem concat_cols_right {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (p : Fin n) (q : Fin c) (q' : Fin b)
    (hq : q'.val + a = q.val) :
    concatenate ⟨2, ![n, c]⟩ 1 [⟨⟨2, ![n, a]⟩, x₁⟩, ⟨⟨2, ![n, b]⟩, x₂⟩] h (ix2 p q) = x₂ (ix2 p q') :=
  concatenate_pair_apply_right 1 x₁ x₂ h (ix2 p q) rfl rfl (ix2 p q') (fun d hd => by
    match d with
    | ⟨0, _⟩ => rfl
    | ⟨1, _⟩ => exact absurd rfl hd) hq

/-- `[a] ++ [b]` laid end to end, at a position `q` of the first piece. -/
theorem concat_vec_left {a b c : ℕ} (x₁ : (⟨1, ![a]⟩ : Shape).Idx → α) (x₂ : (⟨1, ![b]⟩ : Shape).Idx → α)
    (h : Shape.Concatenates [(⟨1, ![a]⟩ : Shape), ⟨1, ![b]⟩] ⟨1, ![c]⟩ 0) (q : Fin c) (q' : Fin a) (hq : q'.val = q.val) :
    concatenate ⟨1, ![c]⟩ 0 [⟨⟨1, ![a]⟩, x₁⟩, ⟨⟨1, ![b]⟩, x₂⟩] h (ix1 q) = x₁ (ix1 q') :=
  concatenate_pair_apply_left 0 x₁ x₂ h (ix1 q) rfl (ix1 q') (fun d => by
    match d with
    | ⟨0, _⟩ => exact hq)

/-- `[a] ++ [b]` laid end to end, at a position `q = a + q'` of the second piece. -/
theorem concat_vec_right {a b c : ℕ} (x₁ : (⟨1, ![a]⟩ : Shape).Idx → α) (x₂ : (⟨1, ![b]⟩ : Shape).Idx → α)
    (h : Shape.Concatenates [(⟨1, ![a]⟩ : Shape), ⟨1, ![b]⟩] ⟨1, ![c]⟩ 0) (q : Fin c) (q' : Fin b) (hq : q'.val + a = q.val) :
    concatenate ⟨1, ![c]⟩ 0 [⟨⟨1, ![a]⟩, x₁⟩, ⟨⟨1, ![b]⟩, x₂⟩] h (ix1 q) = x₂ (ix1 q') :=
  concatenate_pair_apply_right 0 x₁ x₂ h (ix1 q) rfl rfl (ix1 q') (fun d hd => by
    match d with
    | ⟨0, _⟩ => exact absurd rfl hd) hq

end Cert.LibConcat
-- ==== Proof.KPay.lean ====
/-
  The kernel body at one row.

  The body's arithmetic is a chain of pure terms over the blocks it loads: the position-embedding
  block, the direction-embedding block, and the weight and bias blocks, which hold the weight
  matrices transposed ([input, output]), the sixth and the colour layer's in two bands of rows, and
  the density and bottleneck heads side by side in one [256, 129] block.  Read at row `y`, every
  stage is the corresponding layer of `Cert.Spec` applied to row `y` of the two embedding blocks;
  the changes of float format between layers are the identity on the extended reals.
-/
import proofs.«181742_j549755814570_2_alg».proof.Proof.KOps
import proofs.«181742_j549755814570_2_alg».proof.Proof.LibConcat

noncomputable section

namespace Cert.KernelIdeal.KPay

open Idealize.ShloMosaic Idealize.ShloMosaic.ValueIdx Cert.KernelIdeal Cert.KernelIdeal.Facts₀
open Cert.KernelIdeal.Gen (k0_pay1 k0_pay2 k0_pay3 k0_pay4 k0_pay5 k0_pay6 k0_pay7 k0_pay8)
open Cert.KernelIdeal.KOps Cert.Spec

/-- What the weight and bias blocks hold, in terms of the network's weights `w` ([output, input]). -/
structure Blocks (w : Weights)
    (x2 : FVec Ideal S39x256 .bf16) (x3 : FVec Ideal S256 .f32) (x4 : FVec Ideal S256x256 .bf16) (x5 : FVec Ideal S256 .f32)
    (x6 : FVec Ideal S256x256 .bf16) (x7 : FVec Ideal S256 .f32) (x8 : FVec Ideal S256x256 .bf16) (x9 : FVec Ideal S256 .f32)
    (x10 : FVec Ideal S256x256 .bf16) (x11 : FVec Ideal S256 .f32) (x12 : FVec Ideal S256x256 .bf16) (x13 : FVec Ideal S39x256 .bf16)
    (x14 : FVec Ideal S256 .f32) (x15 : FVec Ideal S256x256 .bf16) (x16 : FVec Ideal S256 .f32) (x17 : FVec Ideal S256x256 .bf16)
    (x18 : FVec Ideal S256 .f32) (x19 : FVec Ideal S256x129 .bf16) (x20 : FVec Ideal S129 .f32) (x21 : FVec Ideal S128x128 .bf16)
    (x22 : FVec Ideal S27x128 .bf16) (x23 : FVec Ideal S128 .f32) (x24 : FVec Ideal S128x3 .bf16) (x25 : FVec Ideal S3 .f32) : Prop where
  W1 : ∀ k j, x2 (ix2 k j) = w.W1 j k
  b1 : ∀ j, x3 (ix1 j) = w.b1 j
  W2 : ∀ k j, x4 (ix2 k j) = w.W2 j k
  b2 : ∀ j, x5 (ix1 j) = w.b2 j
  W3 : ∀ k j, x6 (ix2 k j) = w.W3 j k
  b3 : ∀ j, x7 (ix1 j) = w.b3 j
  W4 : ∀ k j, x8 (ix2 k j) = w.W4 j k
  b4 : ∀ j, x9 (ix1 j) = w.b4 j
  W5 : ∀ k j, x10 (ix2 k j) = w.W5 j k
  b5 : ∀ j, x11 (ix1 j) = w.b5 j
  W6a : ∀ (k : Fin 256) (j : Fin 256), x12 (ix2 k j) = w.W6 j ⟨k.val, by omega⟩
  W6b : ∀ (l : Fin 39) (j : Fin 256), x13 (ix2 l j) = w.W6 j ⟨256 + l.val, by omega⟩
  b6 : ∀ j, x14 (ix1 j) = w.b6 j
  W7 : ∀ k j, x15 (ix2 k j) = w.W7 j k
  b7 : ∀ j, x16 (ix1 j) = w.b7 j
  W8 : ∀ k j, x17 (ix2 k j) = w.W8 j k
  b8 : ∀ j, x18 (ix1 j) = w.b8 j
  Wb : ∀ (k : Fin 256) (j : Fin 128), x19 (ix2 k ⟨j.val, by omega⟩) = w.Wb j k
  Wd : ∀ (k : Fin 256), x19 (ix2 k ⟨128, by omega⟩) = w.Wd 0 k
  bb : ∀ (j : Fin 128), x20 (ix1 ⟨j.val, by omega⟩) = w.bb j
  bd : x20 (ix1 ⟨128, by omega⟩) = w.bd 0
  Wc1a : ∀ (k : Fin 128) (j : Fin 128), x21 (ix2 k j) = w.Wc1 j ⟨k.val, by omega⟩
  Wc1b : ∀ (l : Fin 27) (j : Fin 128), x22 (ix2 l j) = w.Wc1 j ⟨128 + l.val, by omega⟩
  bc1 : ∀ j, x23 (ix1 j) = w.bc1 j
  Wc : ∀ k j, x24 (ix2 k j) = w.Wc j k
  bc : ∀ j, x25 (ix1 j) = w.bc j

variable {w : Weights}
    {x2 : FVec Ideal S39x256 .bf16} {x3 : FVec Ideal S256 .f32} {x4 : FVec Ideal S256x256 .bf16} {x5 : FVec Ideal S256 .f32}
    {x6 : FVec Ideal S256x256 .bf16} {x7 : FVec Ideal S256 .f32} {x8 : FVec Ideal S256x256 .bf16} {x9 : FVec Ideal S256 .f32}
    {x10 : FVec Ideal S256x256 .bf16} {x11 : FVec Ideal S256 .f32} {x12 : FVec Ideal S256x256 .bf16} {x13 : FVec Ideal S39x256 .bf16}
    {x14 : FVec Ideal S256 .f32} {x15 : FVec Ideal S256x256 .bf16} {x16 : FVec Ideal S256 .f32} {x17 : FVec Ideal S256x256 .bf16}
    {x18 : FVec Ideal S256 .f32} {x19 : FVec Ideal S256x129 .bf16} {x20 : FVec Ideal S129 .f32} {x21 : FVec Ideal S128x128 .bf16}
    {x22 : FVec Ideal S27x128 .bf16} {x23 : FVec Ideal S128 .f32} {x24 : FVec Ideal S128x3 .bf16} {x25 : FVec Ideal S3 .f32}
    (hB : Blocks w x2 x3 x4 x5 x6 x7 x8 x9 x10 x11 x12 x13 x14 x15 x16 x17 x18 x19 x20 x21 x22 x23 x24 x25)

/-- The embedding blocks pass through a cast to their own shape. -/
theorem pay2_apply (x0 : FVec Ideal S4096x39 .bf16) (i : S4096x39.Idx) : k0_pay2 (F := Ideal) x0 i = x0 i := by
  unfold k0_pay2; exact congrFun (shapeCast_self _ _) i
theorem pay3_apply (x1 : FVec Ideal S4096x27 .bf16) (i : S4096x27.Idx) : k0_pay3 (F := Ideal) x1 i = x1 i := by
  unfold k0_pay3; exact congrFun (shapeCast_self _ _) i

include hB in
/-- Layers one to three, and the fourth layer's product (its bias and `max` come next). -/
theorem pay4_apply (x0 : FVec Ideal S4096x39 .bf16) (y : Fin 4096) (pe : Fin 39 → EReal) (hpe : ∀ k, x0 (ix2 y k) = pe k) (j : Fin 256) :
    k0_pay4 (F := Ideal) x0 x2 x3 x4 x5 x6 x7 x8 (ix2 y j) = ∑ k : Fin 256, h3 w pe k * w.W4 j k := by
  unfold k0_pay4
  refine mmw_256_256 _ x8 y j (h3 w pe) (fun k => ?_) w.W4 hB.W4
  refine (relu_trunc_apply _ _).trans (congrArg Cert.Spec.relu ?_)
  refine lin_256_256 _ x6 x7 y k (h2 w pe) (fun k => ?_) w.W3 hB.W3 w.b3 hB.b3
  refine (relu_trunc_apply _ _).trans (congrArg Cert.Spec.relu ?_)
  refine lin_256_256 _ x4 x5 y k (h1 w pe) (fun k => ?_) w.W2 hB.W2 w.b2 hB.b2
  refine (relu_trunc_apply _ _).trans (congrArg Cert.Spec.relu ?_)
  exact lin_39_256 _ x2 x3 y k pe (fun k => (pay2_apply x0 _).trans (hpe k)) w.W1 hB.W1 w.b1 hB.b1

include hB in
/-- The fourth layer's bias and `max`, then layers five, six (with the skip connection) and seven. -/
theorem pay5_apply (v1 : FVec Ideal S4096x39 .bf16) (v36 : FVec Ideal S4096x256 .f32) (y : Fin 4096) (pe : Fin 39 → EReal)
    (hv1 : ∀ k, v1 (ix2 y k) = pe k) (hv36 : ∀ j, v36 (ix2 y j) = ∑ k : Fin 256, h3 w pe k * w.W4 j k) (j : Fin 256) :
    k0_pay5 (F := Ideal) v1 v36 x9 x10 x11 x12 x13 x14 x15 x16 (ix2 y j) = h7 w pe j := by
  unfold k0_pay5
  refine (relu_apply _ _).trans (congrArg Cert.Spec.relu ?_)
  refine lin_256_256 _ x15 x16 y j (h6 w pe) (fun k => ?_) w.W7 hB.W7 w.b7 hB.b7
  refine (relu_trunc_apply _ _).trans (congrArg Cert.Spec.relu ?_)
  refine lin2_256_39_256 _ v1 x12 x13 x14 y k (h5 w pe) (fun k => ?_) pe hv1 w.W6 (by norm_num) hB.W6a hB.W6b w.b6 hB.b6
  refine (relu_trunc_apply _ _).trans (congrArg Cert.Spec.relu ?_)
  refine lin_256_256 _ x10 x11 y k (h4 w pe) (fun k => ?_) w.W5 hB.W5 w.b5 hB.b5
  refine (relu_trunc_apply _ _).trans (congrArg Cert.Spec.relu ?_)
  show v36 (ix2 y k) + broadcastTo S4096x256 (shapeCast S1x256 x9 shapeCasts_S256_S1x256) broadcasts_S1x256_S4096x256 (ix2 y k) = _
  rw [hv36 k, bias_256, hB.b4]
  rfl

include hB in
/-- Layer eight, then the fused heads: 128 bottleneck columns and one density column, before their `max`. -/
theorem pay6_apply (v76 : FVec Ideal S4096x256 .f32) (y : Fin 4096) (pe : Fin 39 → EReal)
    (hv76 : ∀ j, v76 (ix2 y j) = h7 w pe j) (j : Fin 129) :
    k0_pay6 (F := Ideal) v76 x17 x18 x19 x20 (ix2 y j) = (∑ k : Fin 256, h8 w pe k * x19 (ix2 k j)) + x20 (ix1 j) := by
  unfold k0_pay6
  show matmul dot_S4096x256_S256x129_S4096x129_1_0_0_1_n_n none _ (shapeCast S256x129 x19 shapeCasts_S256x129_S256x129)
        (constant S4096x129 .f32 0x00000000#32) (ix2 y j)
      + broadcastTo S4096x129 (shapeCast S1x129 (shapeCast S129 x20 shapeCasts_S129_S129) shapeCasts_S129_S1x129)
        broadcasts_S1x129_S4096x129 (ix2 y j) = _
  rw [bias_129]
  refine congrArg (· + x20 (ix1 j)) ?_
  refine mmw_256_129 _ x19 y j (h8 w pe) (fun k => ?_) (fun j k => x19 (ix2 k j)) (fun _ _ => rfl)
  refine (relu_trunc_apply _ _).trans (congrArg Cert.Spec.relu ?_)
  exact lin_256_256 _ x17 x18 y k (h7 w pe) (fun k => hv76 k) w.W8 hB.W8 w.b8 hB.b8

include hB in
/-- The density head: column 128 of the fused heads, then `max`. -/
theorem pay7_apply (v76 : FVec Ideal S4096x256 .f32) (y : Fin 4096) (pe : Fin 39 → EReal)
    (hv76 : ∀ j, v76 (ix2 y j) = h7 w pe j) :
    k0_pay7 (F := Ideal) v76 x17 x18 x19 x20 (ix2 y (0 : Fin 1)) = density w pe := by
  unfold k0_pay7
  refine (relu_apply _ _).trans (congrArg Cert.Spec.relu ?_)
  refine (slice2_axis1_apply 128 _ slices_S4096x129_o0_128_S4096x1 y (0 : Fin 1) (⟨128, by omega⟩ : Fin 129) rfl).trans ?_
  rw [pay6_apply hB v76 y pe hv76, hB.bd]
  refine congrArg (· + w.bd 0) (Finset.sum_congr rfl fun k _ => ?_)
  rw [hB.Wd k]

include hB in
/-- The bottleneck (columns 0 to 127 of the fused heads, then `max`), then the colour layer, whose input is
    the bottleneck followed by the direction embedding. -/
theorem pay8_apply (v3 : FVec Ideal S4096x27 .bf16) (v76 : FVec Ideal S4096x256 .f32) (y : Fin 4096) (pe : Fin 39 → EReal)
    (de : Fin 27 → EReal) (hv3 : ∀ q, v3 (ix2 y q) = de q) (hv76 : ∀ j, v76 (ix2 y j) = h7 w pe j) (j : Fin 128) :
    k0_pay8 (F := Ideal) v3 v76 x17 x18 x19 x20 x21 x22 x23 (ix2 y j) = cf w pe de j := by
  unfold k0_pay8
  refine (relu_trunc_apply _ _).trans (congrArg Cert.Spec.relu ?_)
  refine lin2_128_27_128 _ v3 x21 x22 x23 y j (bott w pe) (fun k => ?_) de hv3 w.Wc1 (by norm_num) hB.Wc1a hB.Wc1b w.bc1 hB.bc1
  refine (relu_trunc_apply _ _).trans (congrArg Cert.Spec.relu ?_)
  refine (slice2_axis1_apply 0 _ slices_S4096x129_o0_0_S4096x128 y k (⟨k.val, by omega⟩ : Fin 129) (Nat.zero_add _).symm).trans ?_
  rw [pay6_apply hB v76 y pe hv76, hB.bb k]
  refine congrArg (· + w.bb k) (Finset.sum_congr rfl fun k' _ => ?_)
  rw [hB.Wb k' k]

include hB in
/-- The last affine layer and the logistic function, laid to the right of the density: column 0 of the result. -/
theorem pay1_apply_density (v102 : FVec Ideal S4096x1 .f32) (v116 : FVec Ideal S4096x128 .bf16) (y : Fin 4096) (pe : Fin 39 → EReal)
    (hv102 : v102 (ix2 y (0 : Fin 1)) = density w pe) :
    k0_pay1 (F := Ideal) v102 v116 x24 x25 (ix2 y (0 : Fin 4)) = density w pe := by
  unfold k0_pay1
  exact (Cert.LibConcat.concat_cols_left v102 _ concatenates_S4096x1_S4096x3_S4096x4_d1 y (0 : Fin 4) (0 : Fin 1) rfl).trans hv102

include hB in
/-- Columns 1 to 3 of the result: the colour. -/
theorem pay1_apply_color (v102 : FVec Ideal S4096x1 .f32) (v116 : FVec Ideal S4096x128 .bf16) (y : Fin 4096) (pe : Fin 39 → EReal)
    (de : Fin 27 → EReal) (hv116 : ∀ j, v116 (ix2 y j) = cf w pe de j) (j : Fin 3) :
    k0_pay1 (F := Ideal) v102 v116 x24 x25 (ix2 y (⟨j.val + 1, by omega⟩ : Fin 4)) = color w pe de j := by
  unfold k0_pay1
  refine (Cert.LibConcat.concat_cols_right v102 _ concatenates_S4096x1_S4096x3_S4096x4_d1 y (⟨j.val + 1, by omega⟩ : Fin 4) j rfl).trans ?_
  show Ideal.logistic _ = Ideal.logistic _
  refine congrArg Ideal.logistic ?_
  exact lin_128_3 _ x24 x25 y j (cf w pe de) hv116 w.Wc hB.Wc w.bc hB.bc

end Cert.KernelIdeal.KPay

end
-- ==== Proof.KBlocks.lean ====
/-
  The weight and bias blocks the kernel stages hold the network's weights.

  Each weight block is an argument matrix transposed (entry (k, j) of the block is entry (j, k) of
  the argument); the sixth and the colour layer's blocks are bands of rows of the transposed
  matrix, so band row k (or 256 + k, 128 + k) of the block is column k (or 256 + k, 128 + k) of the
  argument; the fused head holds the transposed bottleneck matrix in its first 128 columns and the
  transposed density row in column 128, and the fused bias the two biases end to end.
-/
import proofs.«181742_j549755814570_2_alg».proof.Proof.KPay
import proofs.«181742_j549755814570_2_alg».proof.Proof.KTerm

noncomputable section

namespace Cert.KernelIdeal.KBlocks

open Idealize.ShloMosaic Idealize.ShloMosaic.ValueIdx Cert.KernelIdeal Cert.KernelIdeal.Facts₀
open Cert.KTerm Cert.LibConcat

/-- The network's weights read off the argument arrays, [output, input]. -/
def wOf (a2 : FVec Ideal S256x39 .f32) (a3 : FVec Ideal S256 .f32) (a4 : FVec Ideal S256x256 .f32) (a5 : FVec Ideal S256 .f32)
    (a6 : FVec Ideal S256x256 .f32) (a7 : FVec Ideal S256 .f32) (a8 : FVec Ideal S256x256 .f32) (a9 : FVec Ideal S256 .f32)
    (a10 : FVec Ideal S256x256 .f32) (a11 : FVec Ideal S256 .f32) (a12 : FVec Ideal S256x295 .f32) (a13 : FVec Ideal S256 .f32)
    (a14 : FVec Ideal S256x256 .f32) (a15 : FVec Ideal S256 .f32) (a16 : FVec Ideal S256x256 .f32) (a17 : FVec Ideal S256 .f32)
    (a18 : FVec Ideal S1x256 .f32) (a19 : FVec Ideal S1 .f32) (a20 : FVec Ideal S128x256 .f32) (a21 : FVec Ideal S128 .f32)
    (a22 : FVec Ideal S128x155 .f32) (a23 : FVec Ideal S128 .f32) (a24 : FVec Ideal S3x128 .f32) (a25 : FVec Ideal S3 .f32) :
    Cert.Spec.Weights where
  W1 := fun j k => a2 (ix2 j k)
  b1 := fun j => a3 (ix1 j)
  W2 := fun j k => a4 (ix2 j k)
  b2 := fun j => a5 (ix1 j)
  W3 := fun j k => a6 (ix2 j k)
  b3 := fun j => a7 (ix1 j)
  W4 := fun j k => a8 (ix2 j k)
  b4 := fun j => a9 (ix1 j)
  W5 := fun j k => a10 (ix2 j k)
  b5 := fun j => a11 (ix1 j)
  W6 := fun j k => a12 (ix2 j k)
  b6 := fun j => a13 (ix1 j)
  W7 := fun j k => a14 (ix2 j k)
  b7 := fun j => a15 (ix1 j)
  W8 := fun j k => a16 (ix2 j k)
  b8 := fun j => a17 (ix1 j)
  Wd := fun j k => a18 (ix2 j k)
  bd := fun j => a19 (ix1 j)
  Wb := fun j k => a20 (ix2 j k)
  bb := fun j => a21 (ix1 j)
  Wc1 := fun j k => a22 (ix2 j k)
  bc1 := fun j => a23 (ix1 j)
  Wc := fun j k => a24 (ix2 j k)
  bc := fun j => a25 (ix1 j)

/-- A transposed square weight block at (k, j) is the argument at (j, k). -/
theorem Asq_apply (a : FVec Ideal S256x256 .f32) (k j : Fin 256) : Asq a (ix2 k j) = a (ix2 j k) :=
  transpose_ix2_apply a transposes_S256x256_S256x256_1_0 k j

theorem blocks_of_args (a2 : FVec Ideal S256x39 .f32) (a3 : FVec Ideal S256 .f32) (a4 : FVec Ideal S256x256 .f32) (a5 : FVec Ideal S256 .f32)
    (a6 : FVec Ideal S256x256 .f32) (a7 : FVec Ideal S256 .f32) (a8 : FVec Ideal S256x256 .f32) (a9 : FVec Ideal S256 .f32)
    (a10 : FVec Ideal S256x256 .f32) (a11 : FVec Ideal S256 .f32) (a12 : FVec Ideal S256x295 .f32) (a13 : FVec Ideal S256 .f32)
    (a14 : FVec Ideal S256x256 .f32) (a15 : FVec Ideal S256 .f32) (a16 : FVec Ideal S256x256 .f32) (a17 : FVec Ideal S256 .f32)
    (a18 : FVec Ideal S1x256 .f32) (a19 : FVec Ideal S1 .f32) (a20 : FVec Ideal S128x256 .f32) (a21 : FVec Ideal S128 .f32)
    (a22 : FVec Ideal S128x155 .f32) (a23 : FVec Ideal S128 .f32) (a24 : FVec Ideal S3x128 .f32) (a25 : FVec Ideal S3 .f32) :
    Cert.KernelIdeal.KPay.Blocks (wOf a2 a3 a4 a5 a6 a7 a8 a9 a10 a11 a12 a13 a14 a15 a16 a17 a18 a19 a20 a21 a22 a23 a24 a25)
      (A2 a2) a3 (Asq a4) a5 (Asq a6) a7 (Asq a8) a9 (Asq a10) a11 (A12 a12) (A13 a12) a13 (Asq a14) a15 (Asq a16) a17
      (A19 a20 a18) (A20 a21 a19) (A21 a22) (A22 a22) a23 (A24 a24) a25 where
  W1 := fun k j => transpose_ix2_apply a2 transposes_S256x39_S39x256_1_0 k j
  b1 := fun _ => rfl
  W2 := fun k j => Asq_apply a4 k j
  b2 := fun _ => rfl
  W3 := fun k j => Asq_apply a6 k j
  b3 := fun _ => rfl
  W4 := fun k j => Asq_apply a8 k j
  b4 := fun _ => rfl
  W5 := fun k j => Asq_apply a10 k j
  b5 := fun _ => rfl
  W6a := fun k j =>
    (slice2_axis0_apply 0 (transpose S295x256 [1, 0] a12 transposes_S256x295_S295x256_1_0) slices_S295x256_S256x256_0_0 k j
      (⟨k.val, by omega⟩ : Fin 295) (Nat.zero_add _).symm).trans
      (transpose_ix2_apply a12 transposes_S256x295_S295x256_1_0 _ j)
  W6b := fun l j =>
    (slice2_axis0_apply 256 (transpose S295x256 [1, 0] a12 transposes_S256x295_S295x256_1_0) slices_S295x256_S39x256_256_0 l j
      (⟨256 + l.val, by omega⟩ : Fin 295) rfl).trans
      (transpose_ix2_apply a12 transposes_S256x295_S295x256_1_0 _ j)
  b6 := fun _ => rfl
  W7 := fun k j => Asq_apply a14 k j
  b7 := fun _ => rfl
  W8 := fun k j => Asq_apply a16 k j
  b8 := fun _ => rfl
  Wb := fun k j =>
    (concat_cols_left (transpose S256x128 [1, 0] a20 transposes_S128x256_S256x128_1_0)
      (transpose S256x1 [1, 0] a18 transposes_S1x256_S256x1_1_0) concatenates_S256x128_S256x1_S256x129_d1 k
      (⟨j.val, by omega⟩ : Fin 129) j rfl).trans (transpose_ix2_apply a20 transposes_S128x256_S256x128_1_0 k j)
  Wd := fun k =>
    (concat_cols_right (transpose S256x128 [1, 0] a20 transposes_S128x256_S256x128_1_0)
      (transpose S256x1 [1, 0] a18 transposes_S1x256_S256x1_1_0) concatenates_S256x128_S256x1_S256x129_d1 k
      (⟨128, by omega⟩ : Fin 129) (0 : Fin 1) rfl).trans (transpose_ix2_apply a18 transposes_S1x256_S256x1_1_0 k (0 : Fin 1))
  bb := fun j => concat_vec_left a21 a19 concatenates_S128_S1_S129_d0 (⟨j.val, by omega⟩ : Fin 129) j rfl
  bd := concat_vec_right a21 a19 concatenates_S128_S1_S129_d0 (⟨128, by omega⟩ : Fin 129) (0 : Fin 1) rfl
  Wc1a := fun k j =>
    (slice2_axis0_apply 0 (transpose S155x128 [1, 0] a22 transposes_S128x155_S155x128_1_0) slices_S155x128_S128x128_0_0 k j
      (⟨k.val, by omega⟩ : Fin 155) (Nat.zero_add _).symm).trans
      (transpose_ix2_apply a22 transposes_S128x155_S155x128_1_0 _ j)
  Wc1b := fun l j =>
    (slice2_axis0_apply 128 (transpose S155x128 [1, 0] a22 transposes_S128x155_S155x128_1_0) slices_S155x128_S27x128_128_0 l j
      (⟨128 + l.val, by omega⟩ : Fin 155) rfl).trans
      (transpose_ix2_apply a22 transposes_S128x155_S155x128_1_0 _ j)
  bc1 := fun _ => rfl
  Wc := fun k j => transpose_ix2_apply a24 transposes_S3x128_S128x3_1_0 k j
  bc := fun _ => rfl

end Cert.KernelIdeal.KBlocks

end
-- ==== Proof.KPayAll.lean ====
/-
  The whole body at one row: the value the body stores, read at row `y`, is the network's density
  in column 0 and its colour in columns 1 to 3, of row `y` of the two embedding blocks.
-/
import proofs.«181742_j549755814570_2_alg».proof.Proof.KPay

noncomputable section

namespace Cert.KernelIdeal.KPay

open Idealize.ShloMosaic Idealize.ShloMosaic.ValueIdx Cert.KernelIdeal Cert.KernelIdeal.Facts₀
open Cert.KernelIdeal.Gen (k0_pay1 k0_pay2 k0_pay3 k0_pay4 k0_pay5 k0_pay6 k0_pay7 k0_pay8)
open Cert.KernelIdeal.KOps Cert.Spec

variable {w : Weights}
    {x2 : FVec Ideal S39x256 .bf16} {x3 : FVec Ideal S256 .f32} {x4 : FVec Ideal S256x256 .bf16} {x5 : FVec Ideal S256 .f32}
    {x6 : FVec Ideal S256x256 .bf16} {x7 : FVec Ideal S256 .f32} {x8 : FVec Ideal S256x256 .bf16} {x9 : FVec Ideal S256 .f32}
    {x10 : FVec Ideal S256x256 .bf16} {x11 : FVec Ideal S256 .f32} {x12 : FVec Ideal S256x256 .bf16} {x13 : FVec Ideal S39x256 .bf16}
    {x14 : FVec Ideal S256 .f32} {x15 : FVec Ideal S256x256 .bf16} {x16 : FVec Ideal S256 .f32} {x17 : FVec Ideal S256x256 .bf16}
    {x18 : FVec Ideal S256 .f32} {x19 : FVec Ideal S256x129 .bf16} {x20 : FVec Ideal S129 .f32} {x21 : FVec Ideal S128x128 .bf16}
    {x22 : FVec Ideal S27x128 .bf16} {x23 : FVec Ideal S128 .f32} {x24 : FVec Ideal S128x3 .bf16} {x25 : FVec Ideal S3 .f32}
    (hB : Blocks w x2 x3 x4 x5 x6 x7 x8 x9 x10 x11 x12 x13 x14 x15 x16 x17 x18 x19 x20 x21 x22 x23 x24 x25)

/-- The stored value, as the body chains its payloads over the loaded blocks. -/
def stored (x0 : FVec Ideal S4096x39 .bf16) (x1 : FVec Ideal S4096x27 .bf16)
    (x2 : FVec Ideal S39x256 .bf16) (x3 : FVec Ideal S256 .f32) (x4 : FVec Ideal S256x256 .bf16) (x5 : FVec Ideal S256 .f32)
    (x6 : FVec Ideal S256x256 .bf16) (x7 : FVec Ideal S256 .f32) (x8 : FVec Ideal S256x256 .bf16) (x9 : FVec Ideal S256 .f32)
    (x10 : FVec Ideal S256x256 .bf16) (x11 : FVec Ideal S256 .f32) (x12 : FVec Ideal S256x256 .bf16) (x13 : FVec Ideal S39x256 .bf16)
    (x14 : FVec Ideal S256 .f32) (x15 : FVec Ideal S256x256 .bf16) (x16 : FVec Ideal S256 .f32) (x17 : FVec Ideal S256x256 .bf16)
    (x18 : FVec Ideal S256 .f32) (x19 : FVec Ideal S256x129 .bf16) (x20 : FVec Ideal S129 .f32) (x21 : FVec Ideal S128x128 .bf16)
    (x22 : FVec Ideal S27x128 .bf16) (x23 : FVec Ideal S128 .f32) (x24 : FVec Ideal S128x3 .bf16) (x25 : FVec Ideal S3 .f32) :
    FVec Ideal S4096x4 .f32 :=
  k0_pay1 (F := Ideal)
    (k0_pay7 (k0_pay5 (k0_pay2 x0) (k0_pay4 x0 x2 x3 x4 x5 x6 x7 x8) x9 x10 x11 x12 x13 x14 x15 x16) x17 x18 x19 x20)
    (k0_pay8 (k0_pay3 x1) (k0_pay5 (k0_pay2 x0) (k0_pay4 x0 x2 x3 x4 x5 x6 x7 x8) x9 x10 x11 x12 x13 x14 x15 x16)
      x17 x18 x19 x20 x21 x22 x23)
    x24 x25

include hB in
theorem h7_row (x0 : FVec Ideal S4096x39 .bf16) (y : Fin 4096) (pe : Fin 39 → EReal) (hpe : ∀ k, x0 (ix2 y k) = pe k) (j : Fin 256) :
    k0_pay5 (F := Ideal) (k0_pay2 x0) (k0_pay4 x0 x2 x3 x4 x5 x6 x7 x8) x9 x10 x11 x12 x13 x14 x15 x16 (ix2 y j) = h7 w pe j :=
  pay5_apply hB (k0_pay2 x0) (k0_pay4 x0 x2 x3 x4 x5 x6 x7 x8) y pe (fun k => (pay2_apply x0 _).trans (hpe k))
    (fun j => pay4_apply hB x0 y pe hpe j) j

include hB in
/-- Column 0 of the stored value at row `y`: the density. -/
theorem stored_density (x0 : FVec Ideal S4096x39 .bf16) (x1 : FVec Ideal S4096x27 .bf16) (y : Fin 4096) (pe : Fin 39 → EReal)
    (hpe : ∀ k, x0 (ix2 y k) = pe k) :
    stored x0 x1 x2 x3 x4 x5 x6 x7 x8 x9 x10 x11 x12 x13 x14 x15 x16 x17 x18 x19 x20 x21 x22 x23 x24 x25 (ix2 y (0 : Fin 4))
      = density w pe :=
  pay1_apply_density hB _ _ y pe (pay7_apply hB _ y pe (fun j => h7_row hB x0 y pe hpe j))

include hB in
/-- Columns 1 to 3 of the stored value at row `y`: the colour. -/
theorem stored_color (x0 : FVec Ideal S4096x39 .bf16) (x1 : FVec Ideal S4096x27 .bf16) (y : Fin 4096) (pe : Fin 39 → EReal)
    (de : Fin 27 → EReal) (hpe : ∀ k, x0 (ix2 y k) = pe k) (hde : ∀ q, x1 (ix2 y q) = de q) (j : Fin 3) :
    stored x0 x1 x2 x3 x4 x5 x6 x7 x8 x9 x10 x11 x12 x13 x14 x15 x16 x17 x18 x19 x20 x21 x22 x23 x24 x25
        (ix2 y (⟨j.val + 1, by omega⟩ : Fin 4))
      = color w pe de j :=
  pay1_apply_color hB _ _ y pe de
    (fun j => pay8_apply hB (k0_pay3 x1) _ y pe de (fun q => (pay3_apply x1 _).trans (hde q)) (fun j => h7_row hB x0 y pe hpe j) j) j

end Cert.KernelIdeal.KPay

end
-- ==== Proof.KVal.lean ====
/-
  What the kernel's program leaves in its result array, as one function of the argument arrays.

  Point `t` of the grid handles rows 4096·t … 4096·t + 4095: it reads those rows of the two
  embedding arrays and the whole weight and bias arrays, and writes back those rows of the result.
  Row by row the stored value is the network of `Cert.Spec` applied to the row's two embeddings
  (`Cert.KernelIdeal.KPay`), with the weights the blocks hold (`Cert.KernelIdeal.KBlocks`).  The 64
  blocks tile the result array, so after the run the array is that function at every index; the
  host operations after the region then cut the density column and the colour columns out of it.
-/
import proofs.«181742_j549755814570_2_alg».proof.Proof.KIFrame
import proofs.«181742_j549755814570_2_alg».proof.Proof.KArr
import proofs.«181742_j549755814570_2_alg».proof.Proof.KHostA
import proofs.«181742_j549755814570_2_alg».proof.Proof.KHostB
import proofs.«181742_j549755814570_2_alg».proof.Proof.KBlocks
import proofs.«181742_j549755814570_2_alg».proof.Proof.KPayAll

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Hand
open Cert.KernelIdeal.Gen (hostOps1 N_0)
open Idealize.ShloMosaic.Pipeline (Dat)

variable (m : (ℓ : Loc nD τ sig) → Buf (Elt Ideal) ℓ) (ρ : Dev nD → PrngReg) (c : Dev nD)

/-! ## Each weight or bias window's block is the whole array, which is the host-side term -/

theorem iblk_2 (t : Fin cfg0.N) : (iblk m c 2 t : S39x256.Idx → EReal) = Cert.KTerm.A2 (m ((c : Thread nD τ).loc main_arg2)) :=
  (Cert.KernelIdeal.KArr.read_whole_2 (V m c main_v30) t).trans (Cert.KernelIdeal.KHostA.pre_v30 m c)
theorem iblk_3 (t : Fin cfg0.N) : (iblk m c 3 t : S256.Idx → EReal) = (m ((c : Thread nD τ).loc main_arg3)) :=
  (Cert.KernelIdeal.KArr.read_whole_3 (V m c main_arg3) t).trans (V_main_arg3 m c)
theorem iblk_4 (t : Fin cfg0.N) : (iblk m c 4 t : S256x256.Idx → EReal) = Cert.KTerm.Asq (m ((c : Thread nD τ).loc main_arg4)) :=
  (Cert.KernelIdeal.KArr.read_whole_4 (V m c main_v32) t).trans (Cert.KernelIdeal.KHostA.pre_v32 m c)
theorem iblk_5 (t : Fin cfg0.N) : (iblk m c 5 t : S256.Idx → EReal) = (m ((c : Thread nD τ).loc main_arg5)) :=
  (Cert.KernelIdeal.KArr.read_whole_5 (V m c main_arg5) t).trans (V_main_arg5 m c)
theorem iblk_6 (t : Fin cfg0.N) : (iblk m c 6 t : S256x256.Idx → EReal) = Cert.KTerm.Asq (m ((c : Thread nD τ).loc main_arg6)) :=
  (Cert.KernelIdeal.KArr.read_whole_6 (V m c main_v34) t).trans (Cert.KernelIdeal.KHostA.pre_v34 m c)
theorem iblk_7 (t : Fin cfg0.N) : (iblk m c 7 t : S256.Idx → EReal) = (m ((c : Thread nD τ).loc main_arg7)) :=
  (Cert.KernelIdeal.KArr.read_whole_7 (V m c main_arg7) t).trans (V_main_arg7 m c)
theorem iblk_8 (t : Fin cfg0.N) : (iblk m c 8 t : S256x256.Idx → EReal) = Cert.KTerm.Asq (m ((c : Thread nD τ).loc main_arg8)) :=
  (Cert.KernelIdeal.KArr.read_whole_8 (V m c main_v36) t).trans (Cert.KernelIdeal.KHostA.pre_v36 m c)
theorem iblk_9 (t : Fin cfg0.N) : (iblk m c 9 t : S256.Idx → EReal) = (m ((c : Thread nD τ).loc main_arg9)) :=
  (Cert.KernelIdeal.KArr.read_whole_9 (V m c main_arg9) t).trans (V_main_arg9 m c)
theorem iblk_10 (t : Fin cfg0.N) : (iblk m c 10 t : S256x256.Idx → EReal) = Cert.KTerm.Asq (m ((c : Thread nD τ).loc main_arg10)) :=
  (Cert.KernelIdeal.KArr.read_whole_10 (V m c main_v38) t).trans (Cert.KernelIdeal.KHostA.pre_v38 m c)
theorem iblk_11 (t : Fin cfg0.N) : (iblk m c 11 t : S256.Idx → EReal) = (m ((c : Thread nD τ).loc main_arg11)) :=
  (Cert.KernelIdeal.KArr.read_whole_11 (V m c main_arg11) t).trans (V_main_arg11 m c)
theorem iblk_12 (t : Fin cfg0.N) : (iblk m c 12 t : S256x256.Idx → EReal) = Cert.KTerm.A12 (m ((c : Thread nD τ).loc main_arg12)) :=
  (Cert.KernelIdeal.KArr.read_whole_12 (V m c main_v41) t).trans (Cert.KernelIdeal.KHostA.pre_v41 m c)
theorem iblk_13 (t : Fin cfg0.N) : (iblk m c 13 t : S39x256.Idx → EReal) = Cert.KTerm.A13 (m ((c : Thread nD τ).loc main_arg12)) :=
  (Cert.KernelIdeal.KArr.read_whole_13 (V m c main_v43) t).trans (Cert.KernelIdeal.KHostB.pre_v43 m c)
theorem iblk_14 (t : Fin cfg0.N) : (iblk m c 14 t : S256.Idx → EReal) = (m ((c : Thread nD τ).loc main_arg13)) :=
  (Cert.KernelIdeal.KArr.read_whole_14 (V m c main_arg13) t).trans (V_main_arg13 m c)
theorem iblk_15 (t : Fin cfg0.N) : (iblk m c 15 t : S256x256.Idx → EReal) = Cert.KTerm.Asq (m ((c : Thread nD τ).loc main_arg14)) :=
  (Cert.KernelIdeal.KArr.read_whole_15 (V m c main_v45) t).trans (Cert.KernelIdeal.KHostB.pre_v45 m c)
theorem iblk_16 (t : Fin cfg0.N) : (iblk m c 16 t : S256.Idx → EReal) = (m ((c : Thread nD τ).loc main_arg15)) :=
  (Cert.KernelIdeal.KArr.read_whole_16 (V m c main_arg15) t).trans (V_main_arg15 m c)
theorem iblk_17 (t : Fin cfg0.N) : (iblk m c 17 t : S256x256.Idx → EReal) = Cert.KTerm.Asq (m ((c : Thread nD τ).loc main_arg16)) :=
  (Cert.KernelIdeal.KArr.read_whole_17 (V m c main_v47) t).trans (Cert.KernelIdeal.KHostB.pre_v47 m c)
theorem iblk_18 (t : Fin cfg0.N) : (iblk m c 18 t : S256.Idx → EReal) = (m ((c : Thread nD τ).loc main_arg17)) :=
  (Cert.KernelIdeal.KArr.read_whole_18 (V m c main_arg17) t).trans (V_main_arg17 m c)
theorem iblk_19 (t : Fin cfg0.N) : (iblk m c 19 t : S256x129.Idx → EReal) = Cert.KTerm.A19 (m ((c : Thread nD τ).loc main_arg20)) (m ((c : Thread nD τ).loc main_arg18)) :=
  (Cert.KernelIdeal.KArr.read_whole_19 (V m c main_v51) t).trans (Cert.KernelIdeal.KHostB.pre_v51 m c)
theorem iblk_20 (t : Fin cfg0.N) : (iblk m c 20 t : S129.Idx → EReal) = Cert.KTerm.A20 (m ((c : Thread nD τ).loc main_arg21)) (m ((c : Thread nD τ).loc main_arg19)) :=
  (Cert.KernelIdeal.KArr.read_whole_20 (V m c main_v52) t).trans (Cert.KernelIdeal.KHostB.pre_v52 m c)
theorem iblk_21 (t : Fin cfg0.N) : (iblk m c 21 t : S128x128.Idx → EReal) = Cert.KTerm.A21 (m ((c : Thread nD τ).loc main_arg22)) :=
  (Cert.KernelIdeal.KArr.read_whole_21 (V m c main_v55) t).trans (Cert.KernelIdeal.KHostB.pre_v55 m c)
theorem iblk_22 (t : Fin cfg0.N) : (iblk m c 22 t : S27x128.Idx → EReal) = Cert.KTerm.A22 (m ((c : Thread nD τ).loc main_arg22)) :=
  (Cert.KernelIdeal.KArr.read_whole_22 (V m c main_v57) t).trans (Cert.KernelIdeal.KHostB.pre_v57 m c)
theorem iblk_23 (t : Fin cfg0.N) : (iblk m c 23 t : S128.Idx → EReal) = (m ((c : Thread nD τ).loc main_arg23)) :=
  (Cert.KernelIdeal.KArr.read_whole_23 (V m c main_arg23) t).trans (V_main_arg23 m c)
theorem iblk_24 (t : Fin cfg0.N) : (iblk m c 24 t : S128x3.Idx → EReal) = Cert.KTerm.A24 (m ((c : Thread nD τ).loc main_arg24)) :=
  (Cert.KernelIdeal.KArr.read_whole_24 (V m c main_v59) t).trans (Cert.KernelIdeal.KHostB.pre_v59 m c)
theorem iblk_25 (t : Fin cfg0.N) : (iblk m c 25 t : S3.Idx → EReal) = (m ((c : Thread nD τ).loc main_arg25)) :=
  (Cert.KernelIdeal.KArr.read_whole_25 (V m c main_arg25) t).trans (V_main_arg25 m c)

/-- Row `y` of point `t`'s block of the position embedding is row `4096·t + y` of the array. -/
theorem iblk_0_row (t : Fin cfg0.N) (y : Fin 4096) (k : Fin 39) (r : Fin 262144) (hr : r.val = t.val * 4096 + y.val) :
    (iblk m c 0 t : S4096x39.Idx → EReal) (ix2 y k) = Cert.KTerm.A0 (m ((c : Thread nD τ).loc main_arg0)) (ix2 r k) := by
  refine (Cert.KernelIdeal.KArr.read0_row (V m c main_v27) t y k).trans ?_
  rw [show (V m c main_v27 : S262144x39.Idx → EReal) = _ from Cert.KernelIdeal.KHostA.pre_v27 m c]
  exact congrArg _ (congrArg (fun r' => ix2 r' k) (Fin.ext hr.symm))

/-- The same for the direction embedding. -/
theorem iblk_1_row (t : Fin cfg0.N) (y : Fin 4096) (q : Fin 27) (r : Fin 262144) (hr : r.val = t.val * 4096 + y.val) :
    (iblk m c 1 t : S4096x27.Idx → EReal) (ix2 y q) = Cert.KTerm.A1 (m ((c : Thread nD τ).loc main_arg1)) (ix2 r q) := by
  refine (Cert.KernelIdeal.KArr.read1_row (V m c main_v28) t y q).trans ?_
  rw [show (V m c main_v28 : S262144x27.Idx → EReal) = _ from Cert.KernelIdeal.KHostA.pre_v28 m c]
  exact congrArg _ (congrArg (fun r' => ix2 r' q) (Fin.ext hr.symm))

/-! ## The result array as one function of the arguments -/

/-- The network's weights, read off core `c`'s argument arrays. -/
def wK : Cert.Spec.Weights := Cert.KernelIdeal.KBlocks.wOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))

/-- One row of the result: the density, then the three colours. -/
def outRow (w : Cert.Spec.Weights) (pe : Fin 39 → EReal) (de : Fin 27 → EReal) (q : Fin 4) : EReal :=
  if h : q.val = 0 then Cert.Spec.density w pe else Cert.Spec.color w pe de ⟨q.val - 1, by have := q.isLt; omega⟩

/-- The result array: row `r` is the network applied to row `r` of the two embeddings. -/
def G : S262144x4.Idx → EReal := fun i =>
  outRow (wK m c) (fun k => Cert.KTerm.A0 (m ((c : Thread nD τ).loc main_arg0)) (ix2 (n0 := 262144) (n1 := 39) (i 0) k))
    (fun q => Cert.KTerm.A1 (m ((c : Thread nD τ).loc main_arg1)) (ix2 (n0 := 262144) (n1 := 27) (i 0) q)) (i 1)

/-- The blocks point `t` loads hold the network's weights. -/
theorem blocks_at (t : Fin cfg0.N) :
    Cert.KernelIdeal.KPay.Blocks (wK m c) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) := by
  rw [iblk_2 m c t, iblk_3 m c t, iblk_4 m c t, iblk_5 m c t, iblk_6 m c t, iblk_7 m c t, iblk_8 m c t, iblk_9 m c t, iblk_10 m c t, iblk_11 m c t, iblk_12 m c t, iblk_13 m c t, iblk_14 m c t, iblk_15 m c t, iblk_16 m c t, iblk_17 m c t, iblk_18 m c t, iblk_19 m c t, iblk_20 m c t, iblk_21 m c t, iblk_22 m c t, iblk_23 m c t, iblk_24 m c t, iblk_25 m c t]
  exact Cert.KernelIdeal.KBlocks.blocks_of_args (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))

theorem hz2 : (![0, 0] : Fin 2 → Nat) = fun _ => 0 := funext fun a => by fin_cases a <;> rfl
theorem hz1 : (![0] : Fin 1 → Nat) = fun _ => 0 := funext fun a => by fin_cases a; rfl

/-- What point `t` writes back is block `t` of `G`. -/
theorem flushed_eq (t : Fin cfg0.N) :
    (dats m 0 c).flushed 26 t = ((cfg0.win 26).blk t).view.read (Elt Ideal) (G m c) := by
  show (cfg0.win 26).cut (grid0.coords t) ((dats m 0 c).after 26 t) = _
  rw [after0_26]
  unfold out0_26
  rw [View.canon_unit_zero hz2]
  simp only [View.ld_unit_zero (S := S4096x39) hz2, View.ld_unit_zero (S := S4096x27) hz2, View.ld_unit_zero (S := S39x256) hz2,
    View.ld_unit_zero (S := S256) hz1, View.ld_unit_zero (S := S256x256) hz2, View.ld_unit_zero (S := S256x129) hz2,
    View.ld_unit_zero (S := S129) hz1, View.ld_unit_zero (S := S128x128) hz2, View.ld_unit_zero (S := S27x128) hz2,
    View.ld_unit_zero (S := S128) hz1, View.ld_unit_zero (S := S128x3) hz2, View.ld_unit_zero (S := S3) hz1]
  funext j
  obtain ⟨y, q, rfl⟩ : ∃ (y : Fin 4096) (q : Fin 4), j = ix2 y q := ⟨j 0, j 1, eq_ix2 j⟩
  have hN : cfg0.N = 64 := N_0
  have hr : t.val * 4096 + y.val < 262144 := by have := t.isLt; have := y.isLt; omega
  refine Eq.trans ?_ (Cert.KernelIdeal.KArr.read26_row (G m c) t y q).symm
  show Cert.KernelIdeal.KPay.stored (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (ix2 y q) = _
  have hB := blocks_at m c t
  have hpe : ∀ k, (iblk m c 0 t : S4096x39.Idx → EReal) (ix2 y k)
      = Cert.KTerm.A0 (m ((c : Thread nD τ).loc main_arg0)) (ix2 (⟨t.val * 4096 + y.val, hr⟩ : Fin 262144) k) :=
    fun k => iblk_0_row m c t y k ⟨t.val * 4096 + y.val, hr⟩ rfl
  have hde : ∀ q', (iblk m c 1 t : S4096x27.Idx → EReal) (ix2 y q')
      = Cert.KTerm.A1 (m ((c : Thread nD τ).loc main_arg1)) (ix2 (⟨t.val * 4096 + y.val, hr⟩ : Fin 262144) q') :=
    fun q' => iblk_1_row m c t y q' ⟨t.val * 4096 + y.val, hr⟩ rfl
  match q with
  | ⟨0, _⟩ => exact Cert.KernelIdeal.KPay.stored_density hB _ _ y _ hpe
  | ⟨1, _⟩ => exact Cert.KernelIdeal.KPay.stored_color hB _ _ y _ _ hpe hde (0 : Fin 3)
  | ⟨2, _⟩ => exact Cert.KernelIdeal.KPay.stored_color hB _ _ y _ _ hpe hde (1 : Fin 3)
  | ⟨3, _⟩ => exact Cert.KernelIdeal.KPay.stored_color hB _ _ y _ _ hpe hde (2 : Fin 3)

/-- The result array after the run. -/
theorem final : (dats m 0 c).arrAt 26 cfg0.N = G m c :=
  (dats m 0 c).arrAt_eq_of_cover 26 (G m c) (fun t _ => flushed_eq m c t) Cert.KernelIdeal.KArr.cover26

/-! ## The run, with the two results named -/

theorem run : θ_run (defs (F := Ideal)) (onTc (τ := τ) (main (F := Ideal))) ⟨m, fun _ => 0, ρ⟩ (fun r => ∀ c : Dev nD,
    (r.2.mem ((c.tc : Thread nD τ).loc main_v62) = Cert.KTerm.resDensity (G m c)
      ∧ r.2.mem ((c.tc : Thread nD τ).loc main_v64) = Cert.KTerm.resColor (G m c))
    ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25))) :=
  (θ_run defs _ _).mono (fun r h c =>
    ⟨⟨((h c).2 main_v62 (Pipeline.mem_restRefs_of main_v62 (by decide) (by decide))).trans
        ((Cert.KernelIdeal.KArr.tail_v62 (dats m) (V0 m) c).trans (congrArg Cert.KTerm.resDensity (final m c))),
      ((h c).2 main_v64 (Pipeline.mem_restRefs_of main_v64 (by decide) (by decide))).trans
        ((Cert.KernelIdeal.KArr.tail_v64 (dats m) (V0 m) c).trans (congrArg Cert.KTerm.resColor (final m c)))⟩,
     args_of_post m (dats m) (A_eq m) r h c⟩)
    (run_main m ρ)

end Cert.KernelIdeal.KVal

end
-- ==== Proof.RefValue.lean ====
/-
  What the reference's stages hold, read one sample row at a time: each layer of the reference is
  an affine map of a row followed by `max(·, 0)`, so row `r` of its result is the network of
  Spec.lean applied to row `r` of the two embeddings, with the weights read off the argument
  arrays at [output, input].  One lemma per kind of operation read at an index, one per layer,
  then the chain.
-/
import proofs.«181742_j549755814570_2_alg».proof.Proof.RefTerm
import proofs.«181742_j549755814570_2_alg».proof.Proof.Spec
import Idealize.ShloMosaic.Lib.ValueIdx
import Idealize.ShloMosaic.Lib.Pipeline.Value
import Idealize.ShloMosaic.Lib.ValueLayout
import Idealize.ShloMosaic.Lib.StackMember
import Idealize.ShloMosaic.Lib.IdealHost
import Idealize.ShloMosaic.PureOps.Ideal.Laws

noncomputable section

namespace Cert.RefValue

open Idealize.ShloMosaic Idealize.ShloMosaic.ValueIdx
open Cert.ReferenceIdeal Cert.RefTerm

/-! ## The operations read at an index -/

/-- A product of an [m, k] by a [k, n] array (one contracted axis, no batch axis) at (r, j) is the
    sum over the contracted coordinate of the products of the entries. -/
theorem dot_apply {m k n : ℕ} (D : DotDims ⟨2, ![m, k]⟩ ⟨2, ![k, n]⟩ ⟨2, ![m, n]⟩) (hD : D = DotDims.plain m k n)
    (A : FVec Ideal ⟨2, ![m, k]⟩ .f32) (B : FVec Ideal ⟨2, ![k, n]⟩ .f32) (r : Fin m) (j : Fin n) :
    Host.dotGeneral (F := Ideal) D none A B (ix2 r j) = ∑ c : Fin k, A (ix2 r c) * B (ix2 c j) := by
  subst hD
  exact StackMember.dotGeneral_plain_apply none A B r j

/-- A bias [n] broadcast to one row [1, n] and then along the rows [m, n] reads, at (r, j), its entry j. -/
theorem bias_apply {m n : ℕ} (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → EReal) (r : Fin m) (j : Fin n) :
    broadcastInDim ⟨2, ![m, n]⟩ ![0, 1] h2 (broadcastInDim ⟨2, ![1, n]⟩ ![1] h1 b) (ix2 r j) = b (ix1 j) := by
  by_cases hn : n = 1
  · subst hn
    have hj : j = 0 := Subsingleton.elim _ _
    subst hj
    refine (broadcastInDim_apply _ h2 _ (ix2 r 0) (ix2 (0 : Fin 1) (0 : Fin 1)) fun a => ?_).trans
      (broadcastInDim_apply _ h1 b (ix2 (0 : Fin 1) (0 : Fin 1)) (ix1 0) fun a => ?_)
    · match a with
      | ⟨0, _⟩ => rfl
      | ⟨1, _⟩ => rfl
    · match a with
      | ⟨0, _⟩ => rfl
  · refine (broadcastInDim_apply _ h2 _ (ix2 r j) (ix2 (0 : Fin 1) j) fun a => ?_).trans
      (broadcastInDim_apply _ h1 b (ix2 (0 : Fin 1) j) (ix1 j) fun a => ?_)
    · match a with
      | ⟨0, _⟩ => rfl
      | ⟨1, _⟩ => exact (if_neg hn).symm
    · match a with
      | ⟨0, _⟩ => exact (if_neg hn).symm

/-- A transposed matrix at (c, j) is the matrix at (j, c). -/
theorem transpose_apply' {a b : ℕ} (W : (⟨2, ![a, b]⟩ : Shape).Idx → EReal)
    (h : (⟨2, ![a, b]⟩ : Shape).Transposes [1, 0] ⟨2, ![b, a]⟩) (c : Fin b) (j : Fin a) :
    transpose ⟨2, ![b, a]⟩ [1, 0] W h (ix2 c j) = W (ix2 j c) := transpose_ix2_apply W h c j

/-- Two arrays laid side by side along the columns: a column below the first width reads the first. -/
theorem concat_left {m p q t : ℕ} (x : (⟨2, ![m, p]⟩ : Shape).Idx → EReal) (z : (⟨2, ![m, q]⟩ : Shape).Idx → EReal)
    (h : Shape.Concatenates [(⟨2, ![m, p]⟩ : Shape), ⟨2, ![m, q]⟩] ⟨2, ![m, t]⟩ 1) (r : Fin m) (k : Fin p) (hk : k.val < t) :
    concatenate ⟨2, ![m, t]⟩ 1 [⟨⟨2, ![m, p]⟩, x⟩, ⟨⟨2, ![m, q]⟩, z⟩] h (ix2 r ⟨k.val, hk⟩) = x (ix2 r k) :=
  concatenate_pair_apply_left 1 x z h (ix2 r ⟨k.val, hk⟩) rfl (ix2 r k) fun b =>
    match b with
    | ⟨0, _⟩ => rfl
    | ⟨1, _⟩ => rfl

/-- … and a column from the first width on reads the second, the first width less. -/
theorem concat_right {m p q t : ℕ} (x : (⟨2, ![m, p]⟩ : Shape).Idx → EReal) (z : (⟨2, ![m, q]⟩ : Shape).Idx → EReal)
    (h : Shape.Concatenates [(⟨2, ![m, p]⟩ : Shape), ⟨2, ![m, q]⟩] ⟨2, ![m, t]⟩ 1) (r : Fin m) (l : Fin q) (hl : p + l.val < t) :
    concatenate ⟨2, ![m, t]⟩ 1 [⟨⟨2, ![m, p]⟩, x⟩, ⟨⟨2, ![m, q]⟩, z⟩] h (ix2 r ⟨p + l.val, hl⟩) = z (ix2 r l) :=
  concatenate_pair_apply_right 1 x z h (ix2 r ⟨p + l.val, hl⟩) rfl rfl (ix2 r l)
    (fun b hb =>
      match b, hb with
      | ⟨0, _⟩, _ => rfl
      | ⟨1, _⟩, hb => absurd rfl hb)
    (Nat.add_comm _ _)

/-- A sum over `K + L` positions is the sum over the first `K` plus the sum over the last `L`. -/
theorem sum_split {K L M : ℕ} (hM : K + L = M) (f : Fin M → EReal) :
    ∑ c : Fin M, f c = (∑ k : Fin K, f ⟨k.val, by omega⟩) + ∑ l : Fin L, f ⟨K + l.val, by omega⟩ := by
  subst hM
  rw [Fin.sum_univ_add]
  rfl

/-- `max(·, 0)` with the 0 a broadcast literal, at an index. -/
theorem relu_lit (x : EReal) : max x (Ideal.ofBits .f32 0x00000000#32) = Cert.Spec.relu x := by
  rw [Ideal.ofBits_zero_f32]; rfl

/-! ## An affine layer read at (r, j) -/

/-- The activations times the transposed weight, plus the bias broadcast along the rows, at (r, j):
    `Σ_c x(r, c) · W(j, c) + b(j)`. -/
theorem affine_apply {m k n : ℕ} (D : DotDims ⟨2, ![m, k]⟩ ⟨2, ![k, n]⟩ ⟨2, ![m, n]⟩) (hD : D = DotDims.plain m k n)
    (hT : (⟨2, ![n, k]⟩ : Shape).Transposes [1, 0] ⟨2, ![k, n]⟩)
    (h1 : (⟨1, ![n]⟩ : Shape).BroadcastsInDim ⟨2, ![1, n]⟩ ![1])
    (h2 : (⟨2, ![1, n]⟩ : Shape).BroadcastsInDim ⟨2, ![m, n]⟩ ![0, 1])
    (x : FVec Ideal ⟨2, ![m, k]⟩ .f32) (W : FVec Ideal ⟨2, ![n, k]⟩ .f32) (b : FVec Ideal ⟨1, ![n]⟩ .f32)
    (r : Fin m) (j : Fin n) :
    addf (F := Ideal) (Host.dotGeneral (F := Ideal) D none x (transpose ⟨2, ![k, n]⟩ [1, 0] W hT))
        (broadcastInDim ⟨2, ![m, n]⟩ ![0, 1] h2 (broadcastInDim ⟨2, ![1, n]⟩ ![1] h1 b)) (ix2 r j)
      = Cert.Spec.lin (fun c => x (ix2 r c)) (fun j c => W (ix2 j c)) (fun j => b (ix1 j)) j := by
  show Host.dotGeneral (F := Ideal) D none x (transpose ⟨2, ![k, n]⟩ [1, 0] W hT) (ix2 r j)
      + broadcastInDim ⟨2, ![m, n]⟩ ![0, 1] h2 (broadcastInDim ⟨2, ![1, n]⟩ ![1] h1 b) (ix2 r j) = _
  rw [dot_apply D hD, bias_apply]
  unfold Cert.Spec.lin
  congr 1
  refine Finset.sum_congr rfl fun c _ => ?_
  rw [transpose_apply']

/-- The same with the activations in two pieces laid side by side: `x` meets the first `p` columns of
    the weight, `z` the next `q`. -/
theorem affine2_apply {m p q t n : ℕ} (hM : p + q = t)
    (D : DotDims ⟨2, ![m, t]⟩ ⟨2, ![t, n]⟩ ⟨2, ![m, n]⟩) (hD : D = DotDims.plain m t n)
    (hC : Shape.Concatenates [(⟨2, ![m, p]⟩ : Shape), ⟨2, ![m, q]⟩] ⟨2, ![m, t]⟩ 1)
    (hT : (⟨2, ![n, t]⟩ : Shape).Transposes [1, 0] ⟨2, ![t, n]⟩)
    (h1 : (⟨1, ![n]⟩ : Shape).BroadcastsInDim ⟨2, ![1, n]⟩ ![1])
    (h2 : (⟨2, ![1, n]⟩ : Shape).BroadcastsInDim ⟨2, ![m, n]⟩ ![0, 1])
    (x : FVec Ideal ⟨2, ![m, p]⟩ .f32) (z : FVec Ideal ⟨2, ![m, q]⟩ .f32) (W : FVec Ideal ⟨2, ![n, t]⟩ .f32)
    (b : FVec Ideal ⟨1, ![n]⟩ .f32) (r : Fin m) (j : Fin n) :
    addf (F := Ideal)
        (Host.dotGeneral (F := Ideal) D none
          (concatenate ⟨2, ![m, t]⟩ 1 [⟨⟨2, ![m, p]⟩, x⟩, ⟨⟨2, ![m, q]⟩, z⟩] hC)
          (transpose ⟨2, ![t, n]⟩ [1, 0] W hT))
        (broadcastInDim ⟨2, ![m, n]⟩ ![0, 1] h2 (broadcastInDim ⟨2, ![1, n]⟩ ![1] h1 b)) (ix2 r j)
      = Cert.Spec.lin2 hM (fun c => x (ix2 r c)) (fun l => z (ix2 r l)) (fun j c => W (ix2 j c)) (fun j => b (ix1 j)) j := by
  show Host.dotGeneral (F := Ideal) D none
        (concatenate ⟨2, ![m, t]⟩ 1 [⟨⟨2, ![m, p]⟩, x⟩, ⟨⟨2, ![m, q]⟩, z⟩] hC)
        (transpose ⟨2, ![t, n]⟩ [1, 0] W hT) (ix2 r j)
      + broadcastInDim ⟨2, ![m, n]⟩ ![0, 1] h2 (broadcastInDim ⟨2, ![1, n]⟩ ![1] h1 b) (ix2 r j) = _
  rw [dot_apply D hD, bias_apply, sum_split hM]
  unfold Cert.Spec.lin2
  congr 2
  · refine Finset.sum_congr rfl fun c _ => ?_
    rw [concat_left, transpose_apply']
  · refine Finset.sum_congr rfl fun l _ => ?_
    rw [concat_right, transpose_apply']

/-! ## The reference's layers read at a row

Each takes what row `r` of its input is (`hx`), so that the layers chain. -/

variable [Facts]
open Facts₀ Facts

theorem relu256_apply (y : FVec Ideal S262144x256 .f32) (i : S262144x256.Idx) : relu256 y i = Cert.Spec.relu (y i) :=
  relu_lit _

theorem relu128_apply (y : FVec Ideal S262144x128 .f32) (i : S262144x128.Idx) : relu128 y i = Cert.Spec.relu (y i) :=
  relu_lit _

theorem relu1_apply (y : FVec Ideal S262144x1 .f32) (i : S262144x1.Idx) : relu1 y i = Cert.Spec.relu (y i) :=
  relu_lit _

theorem layerIn_row (x : FVec Ideal S262144x39 .f32) (W : FVec Ideal S256x39 .f32) (b : FVec Ideal S256 .f32)
    (r : Fin 262144) (h : Fin 39 → EReal) (hx : ∀ c, x (ix2 r c) = h c) (j : Fin 256) :
    layerIn x W b (ix2 r j) = Cert.Spec.relu (Cert.Spec.lin h (fun j c => W (ix2 j c)) (fun j => b (ix1 j)) j) := by
  refine ((relu256_apply _ _).trans (congrArg Cert.Spec.relu (affine_apply _ rfl _ _ _ x W b r j))).trans ?_
  rw [show (fun c => x (ix2 r c)) = h from funext hx]

theorem layer256_row (x : FVec Ideal S262144x256 .f32) (W : FVec Ideal S256x256 .f32) (b : FVec Ideal S256 .f32)
    (r : Fin 262144) (h : Fin 256 → EReal) (hx : ∀ c, x (ix2 r c) = h c) (j : Fin 256) :
    layer256 x W b (ix2 r j) = Cert.Spec.relu (Cert.Spec.lin h (fun j c => W (ix2 j c)) (fun j => b (ix1 j)) j) := by
  refine ((relu256_apply _ _).trans (congrArg Cert.Spec.relu (affine_apply _ rfl _ _ _ x W b r j))).trans ?_
  rw [show (fun c => x (ix2 r c)) = h from funext hx]

theorem layerSkip_row (x : FVec Ideal S262144x256 .f32) (pe : FVec Ideal S262144x39 .f32) (W : FVec Ideal S256x295 .f32)
    (b : FVec Ideal S256 .f32) (r : Fin 262144) (h : Fin 256 → EReal) (hx : ∀ c, x (ix2 r c) = h c)
    (g : Fin 39 → EReal) (hz : ∀ l, pe (ix2 r l) = g l) (j : Fin 256) :
    layerSkip x pe W b (ix2 r j)
      = Cert.Spec.relu (Cert.Spec.lin2 (by norm_num : 256 + 39 = 295) h g (fun j c => W (ix2 j c)) (fun j => b (ix1 j)) j) := by
  refine ((relu256_apply _ _).trans (congrArg Cert.Spec.relu
    (affine2_apply (by norm_num : 256 + 39 = 295) _ rfl _ _ _ _ x pe W b r j))).trans ?_
  rw [show (fun c => x (ix2 r c)) = h from funext hx, show (fun l => pe (ix2 r l)) = g from funext hz]

theorem layerDens_row (x : FVec Ideal S262144x256 .f32) (W : FVec Ideal S1x256 .f32) (b : FVec Ideal S1 .f32)
    (r : Fin 262144) (h : Fin 256 → EReal) (hx : ∀ c, x (ix2 r c) = h c) (j : Fin 1) :
    layerDens x W b (ix2 r j) = Cert.Spec.relu (Cert.Spec.lin h (fun j c => W (ix2 j c)) (fun j => b (ix1 j)) j) := by
  refine ((relu1_apply _ _).trans (congrArg Cert.Spec.relu (affine_apply _ rfl _ _ _ x W b r j))).trans ?_
  rw [show (fun c => x (ix2 r c)) = h from funext hx]

theorem layerBott_row (x : FVec Ideal S262144x256 .f32) (W : FVec Ideal S128x256 .f32) (b : FVec Ideal S128 .f32)
    (r : Fin 262144) (h : Fin 256 → EReal) (hx : ∀ c, x (ix2 r c) = h c) (j : Fin 128) :
    layerBott x W b (ix2 r j) = Cert.Spec.relu (Cert.Spec.lin h (fun j c => W (ix2 j c)) (fun j => b (ix1 j)) j) := by
  refine ((relu128_apply _ _).trans (congrArg Cert.Spec.relu (affine_apply _ rfl _ _ _ x W b r j))).trans ?_
  rw [show (fun c => x (ix2 r c)) = h from funext hx]

theorem layerCf_row (x : FVec Ideal S262144x128 .f32) (de : FVec Ideal S262144x27 .f32) (W : FVec Ideal S128x155 .f32)
    (b : FVec Ideal S128 .f32) (r : Fin 262144) (h : Fin 128 → EReal) (hx : ∀ c, x (ix2 r c) = h c)
    (g : Fin 27 → EReal) (hz : ∀ l, de (ix2 r l) = g l) (j : Fin 128) :
    layerCf x de W b (ix2 r j)
      = Cert.Spec.relu (Cert.Spec.lin2 (by norm_num : 128 + 27 = 155) h g (fun j c => W (ix2 j c)) (fun j => b (ix1 j)) j) := by
  refine ((relu128_apply _ _).trans (congrArg Cert.Spec.relu
    (affine2_apply (by norm_num : 128 + 27 = 155) _ rfl _ _ _ _ x de W b r j))).trans ?_
  rw [show (fun c => x (ix2 r c)) = h from funext hx, show (fun l => de (ix2 r l)) = g from funext hz]

theorem layerOut_row (x : FVec Ideal S262144x128 .f32) (W : FVec Ideal S3x128 .f32) (b : FVec Ideal S3 .f32)
    (r : Fin 262144) (h : Fin 128 → EReal) (hx : ∀ c, x (ix2 r c) = h c) (j : Fin 3) :
    layerOut x W b (ix2 r j) = Cert.Spec.lin h (fun j c => W (ix2 j c)) (fun j => b (ix1 j)) j := by
  refine (affine_apply _ rfl _ _ _ x W b r j).trans ?_
  rw [show (fun c => x (ix2 r c)) = h from funext hx]

/-- One over (one plus the exponential of the negation), the ones literals: the logistic function. -/
theorem logisticOf_apply (y : FVec Ideal S262144x3 .f32) (i : S262144x3.Idx) : logisticOf y i = Ideal.logistic (y i) := by
  show Ideal.div (Ideal.ofBits .f32 0x3F800000#32) (Ideal.ofBits .f32 0x3F800000#32 + Ideal.exp (-(y i))) = _
  rw [Ideal.ofBits_one_f32]
  rfl

/-! ## The chain -/

/-- The weights and biases read off the argument arrays, [output, input]. -/
def wOf (a2 : FVec Ideal S256x39 .f32) (a3 : FVec Ideal S256 .f32) (a4 : FVec Ideal S256x256 .f32) (a5 : FVec Ideal S256 .f32) (a6 : FVec Ideal S256x256 .f32) (a7 : FVec Ideal S256 .f32) (a8 : FVec Ideal S256x256 .f32) (a9 : FVec Ideal S256 .f32) (a10 : FVec Ideal S256x256 .f32) (a11 : FVec Ideal S256 .f32) (a12 : FVec Ideal S256x295 .f32) (a13 : FVec Ideal S256 .f32) (a14 : FVec Ideal S256x256 .f32) (a15 : FVec Ideal S256 .f32) (a16 : FVec Ideal S256x256 .f32) (a17 : FVec Ideal S256 .f32) (a18 : FVec Ideal S1x256 .f32) (a19 : FVec Ideal S1 .f32) (a20 : FVec Ideal S128x256 .f32) (a21 : FVec Ideal S128 .f32) (a22 : FVec Ideal S128x155 .f32) (a23 : FVec Ideal S128 .f32) (a24 : FVec Ideal S3x128 .f32) (a25 : FVec Ideal S3 .f32) :
    Cert.Spec.Weights :=
  { W1 := fun j k => a2 (ix2 j k), b1 := fun j => a3 (ix1 j),
    W2 := fun j k => a4 (ix2 j k), b2 := fun j => a5 (ix1 j),
    W3 := fun j k => a6 (ix2 j k), b3 := fun j => a7 (ix1 j),
    W4 := fun j k => a8 (ix2 j k), b4 := fun j => a9 (ix1 j),
    W5 := fun j k => a10 (ix2 j k), b5 := fun j => a11 (ix1 j),
    W6 := fun j k => a12 (ix2 j k), b6 := fun j => a13 (ix1 j),
    W7 := fun j k => a14 (ix2 j k), b7 := fun j => a15 (ix1 j),
    W8 := fun j k => a16 (ix2 j k), b8 := fun j => a17 (ix1 j),
    Wd := fun j k => a18 (ix2 j k), bd := fun j => a19 (ix1 j),
    Wb := fun j k => a20 (ix2 j k), bb := fun j => a21 (ix1 j),
    Wc1 := fun j k => a22 (ix2 j k), bc1 := fun j => a23 (ix1 j),
    Wc := fun j k => a24 (ix2 j k), bc := fun j => a25 (ix1 j) }

variable (a0 : FVec Ideal S2048x128x3 .f32) (a1 : FVec Ideal S2048x3 .f32) (a2 : FVec Ideal S256x39 .f32) (a3 : FVec Ideal S256 .f32) (a4 : FVec Ideal S256x256 .f32) (a5 : FVec Ideal S256 .f32) (a6 : FVec Ideal S256x256 .f32) (a7 : FVec Ideal S256 .f32) (a8 : FVec Ideal S256x256 .f32) (a9 : FVec Ideal S256 .f32) (a10 : FVec Ideal S256x256 .f32) (a11 : FVec Ideal S256 .f32) (a12 : FVec Ideal S256x295 .f32) (a13 : FVec Ideal S256 .f32) (a14 : FVec Ideal S256x256 .f32) (a15 : FVec Ideal S256 .f32) (a16 : FVec Ideal S256x256 .f32) (a17 : FVec Ideal S256 .f32) (a18 : FVec Ideal S1x256 .f32) (a19 : FVec Ideal S1 .f32) (a20 : FVec Ideal S128x256 .f32) (a21 : FVec Ideal S128 .f32) (a22 : FVec Ideal S128x155 .f32) (a23 : FVec Ideal S128 .f32) (a24 : FVec Ideal S3x128 .f32) (a25 : FVec Ideal S3 .f32)

theorem x1_apply (r : Fin 262144) (j : Fin 256) :
    x1 a0 a1 a2 a3 a4 a5 a6 a7 a8 a9 a10 a11 a12 a13 a14 a15 a16 a17 a18 a19 a20 a21 a22 a23 a24 a25 (ix2 r j) = Cert.Spec.h1 (wOf a2 a3 a4 a5 a6 a7 a8 a9 a10 a11 a12 a13 a14 a15 a16 a17 a18 a19 a20 a21 a22 a23 a24 a25) (fun k => peArr a0 (ix2 r k)) j :=
  layerIn_row _ a2 a3 r _ (fun _ => rfl) j

theorem x2_apply (r : Fin 262144) (j : Fin 256) :
    x2 a0 a1 a2 a3 a4 a5 a6 a7 a8 a9 a10 a11 a12 a13 a14 a15 a16 a17 a18 a19 a20 a21 a22 a23 a24 a25 (ix2 r j) = Cert.Spec.h2 (wOf a2 a3 a4 a5 a6 a7 a8 a9 a10 a11 a12 a13 a14 a15 a16 a17 a18 a19 a20 a21 a22 a23 a24 a25) (fun k => peArr a0 (ix2 r k)) j :=
  layer256_row _ a4 a5 r _ (x1_apply a0 a1 a2 a3 a4 a5 a6 a7 a8 a9 a10 a11 a12 a13 a14 a15 a16 a17 a18 a19 a20 a21 a22 a23 a24 a25 r) j

theorem x3_apply (r : Fin 262144) (j : Fin 256) :
    x3 a0 a1 a2 a3 a4 a5 a6 a7 a8 a9 a10 a11 a12 a13 a14 a15 a16 a17 a18 a19 a20 a21 a22 a23 a24 a25 (ix2 r j) = Cert.Spec.h3 (wOf a2 a3 a4 a5 a6 a7 a8 a9 a10 a11 a12 a13 a14 a15 a16 a17 a18 a19 a20 a21 a22 a23 a24 a25) (fun k => peArr a0 (ix2 r k)) j :=
  layer256_row _ a6 a7 r _ (x2_apply a0 a1 a2 a3 a4 a5 a6 a7 a8 a9 a10 a11 a12 a13 a14 a15 a16 a17 a18 a19 a20 a21 a22 a23 a24 a25 r) j

theorem x4_apply (r : Fin 262144) (j : Fin 256) :
    x4 a0 a1 a2 a3 a4 a5 a6 a7 a8 a9 a10 a11 a12 a13 a14 a15 a16 a17 a18 a19 a20 a21 a22 a23 a24 a25 (ix2 r j) = Cert.Spec.h4 (wOf a2 a3 a4 a5 a6 a7 a8 a9 a10 a11 a12 a13 a14 a15 a16 a17 a18 a19 a20 a21 a22 a23 a24 a25) (fun k => peArr a0 (ix2 r k)) j :=
  layer256_row _ a8 a9 r _ (x3_apply a0 a1 a2 a3 a4 a5 a6 a7 a8 a9 a10 a11 a12 a13 a14 a15 a16 a17 a18 a19 a20 a21 a22 a23 a24 a25 r) j

theorem x5_apply (r : Fin 262144) (j : Fin 256) :
    x5 a0 a1 a2 a3 a4 a5 a6 a7 a8 a9 a10 a11 a12 a13 a14 a15 a16 a17 a18 a19 a20 a21 a22 a23 a24 a25 (ix2 r j) = Cert.Spec.h5 (wOf a2 a3 a4 a5 a6 a7 a8 a9 a10 a11 a12 a13 a14 a15 a16 a17 a18 a19 a20 a21 a22 a23 a24 a25) (fun k => peArr a0 (ix2 r k)) j :=
  layer256_row _ a10 a11 r _ (x4_apply a0 a1 a2 a3 a4 a5 a6 a7 a8 a9 a10 a11 a12 a13 a14 a15 a16 a17 a18 a19 a20 a21 a22 a23 a24 a25 r) j

theorem x6_apply (r : Fin 262144) (j : Fin 256) :
    x6 a0 a1 a2 a3 a4 a5 a6 a7 a8 a9 a10 a11 a12 a13 a14 a15 a16 a17 a18 a19 a20 a21 a22 a23 a24 a25 (ix2 r j) = Cert.Spec.h6 (wOf a2 a3 a4 a5 a6 a7 a8 a9 a10 a11 a12 a13 a14 a15 a16 a17 a18 a19 a20 a21 a22 a23 a24 a25) (fun k => peArr a0 (ix2 r k)) j :=
  layerSkip_row _ _ a12 a13 r _ (x5_apply a0 a1 a2 a3 a4 a5 a6 a7 a8 a9 a10 a11 a12 a13 a14 a15 a16 a17 a18 a19 a20 a21 a22 a23 a24 a25 r) _ (fun _ => rfl) j

theorem x7_apply (r : Fin 262144) (j : Fin 256) :
    x7 a0 a1 a2 a3 a4 a5 a6 a7 a8 a9 a10 a11 a12 a13 a14 a15 a16 a17 a18 a19 a20 a21 a22 a23 a24 a25 (ix2 r j) = Cert.Spec.h7 (wOf a2 a3 a4 a5 a6 a7 a8 a9 a10 a11 a12 a13 a14 a15 a16 a17 a18 a19 a20 a21 a22 a23 a24 a25) (fun k => peArr a0 (ix2 r k)) j :=
  layer256_row _ a14 a15 r _ (x6_apply a0 a1 a2 a3 a4 a5 a6 a7 a8 a9 a10 a11 a12 a13 a14 a15 a16 a17 a18 a19 a20 a21 a22 a23 a24 a25 r) j

theorem x8_apply (r : Fin 262144) (j : Fin 256) :
    x8 a0 a1 a2 a3 a4 a5 a6 a7 a8 a9 a10 a11 a12 a13 a14 a15 a16 a17 a18 a19 a20 a21 a22 a23 a24 a25 (ix2 r j) = Cert.Spec.h8 (wOf a2 a3 a4 a5 a6 a7 a8 a9 a10 a11 a12 a13 a14 a15 a16 a17 a18 a19 a20 a21 a22 a23 a24 a25) (fun k => peArr a0 (ix2 r k)) j :=
  layer256_row _ a16 a17 r _ (x7_apply a0 a1 a2 a3 a4 a5 a6 a7 a8 a9 a10 a11 a12 a13 a14 a15 a16 a17 a18 a19 a20 a21 a22 a23 a24 a25 r) j

/-- Row `r` of the density is the network's density of row `r` of the position embedding. -/
theorem dens2_apply (r : Fin 262144) :
    dens2 a0 a1 a2 a3 a4 a5 a6 a7 a8 a9 a10 a11 a12 a13 a14 a15 a16 a17 a18 a19 a20 a21 a22 a23 a24 a25 (ix2 r (0 : Fin 1)) = Cert.Spec.density (wOf a2 a3 a4 a5 a6 a7 a8 a9 a10 a11 a12 a13 a14 a15 a16 a17 a18 a19 a20 a21 a22 a23 a24 a25) (fun k => peArr a0 (ix2 r k)) :=
  layerDens_row _ a18 a19 r _ (x8_apply a0 a1 a2 a3 a4 a5 a6 a7 a8 a9 a10 a11 a12 a13 a14 a15 a16 a17 a18 a19 a20 a21 a22 a23 a24 a25 r) 0

theorem bottA_apply (r : Fin 262144) (j : Fin 128) :
    bottA a0 a1 a2 a3 a4 a5 a6 a7 a8 a9 a10 a11 a12 a13 a14 a15 a16 a17 a18 a19 a20 a21 a22 a23 a24 a25 (ix2 r j) = Cert.Spec.bott (wOf a2 a3 a4 a5 a6 a7 a8 a9 a10 a11 a12 a13 a14 a15 a16 a17 a18 a19 a20 a21 a22 a23 a24 a25) (fun k => peArr a0 (ix2 r k)) j :=
  layerBott_row _ a20 a21 r _ (x8_apply a0 a1 a2 a3 a4 a5 a6 a7 a8 a9 a10 a11 a12 a13 a14 a15 a16 a17 a18 a19 a20 a21 a22 a23 a24 a25 r) j

theorem cfA_apply (r : Fin 262144) (j : Fin 128) :
    cfA a0 a1 a2 a3 a4 a5 a6 a7 a8 a9 a10 a11 a12 a13 a14 a15 a16 a17 a18 a19 a20 a21 a22 a23 a24 a25 (ix2 r j) = Cert.Spec.cf (wOf a2 a3 a4 a5 a6 a7 a8 a9 a10 a11 a12 a13 a14 a15 a16 a17 a18 a19 a20 a21 a22 a23 a24 a25) (fun k => peArr a0 (ix2 r k)) (fun q => deArr a1 (ix2 r q)) j :=
  layerCf_row _ _ a22 a23 r _ (bottA_apply a0 a1 a2 a3 a4 a5 a6 a7 a8 a9 a10 a11 a12 a13 a14 a15 a16 a17 a18 a19 a20 a21 a22 a23 a24 a25 r) _ (fun _ => rfl) j

/-- Row `r` of the colour is the network's colour of row `r` of the two embeddings. -/
theorem col2_apply (r : Fin 262144) (j : Fin 3) :
    col2 a0 a1 a2 a3 a4 a5 a6 a7 a8 a9 a10 a11 a12 a13 a14 a15 a16 a17 a18 a19 a20 a21 a22 a23 a24 a25 (ix2 r j) = Cert.Spec.color (wOf a2 a3 a4 a5 a6 a7 a8 a9 a10 a11 a12 a13 a14 a15 a16 a17 a18 a19 a20 a21 a22 a23 a24 a25) (fun k => peArr a0 (ix2 r k)) (fun q => deArr a1 (ix2 r q)) j :=
  (logisticOf_apply _ _).trans (congrArg Ideal.logistic (layerOut_row _ a24 a25 r _ (cfA_apply a0 a1 a2 a3 a4 a5 a6 a7 a8 a9 a10 a11 a12 a13 a14 a15 a16 a17 a18 a19 a20 a21 a22 a23 a24 a25 r) j))

end Cert.RefValue

end
-- ==== Proof.EmbedAgree.lean ====
/-
  The two programs' embeddings agree.  The position embedding is the same chain of operations in
  both.  The direction embedding is computed by one program once per ray and then repeated for the
  ray's 128 samples, by the other after the direction has been repeated; either way row
  `128 · p + s` holds the embedding of ray `p`'s normalised direction: a row of an embedding is a
  function of the same row of its input alone (sines, cosines of each coordinate times each
  frequency, then the coordinates), and repeating rows commutes with that.
-/
import proofs.«181742_j549755814570_2_alg».proof.Proof.RefTerm
import proofs.«181742_j549755814570_2_alg».proof.Proof.KTerm
import Idealize.ShloMosaic.Lib.ValueIdx
import Idealize.ShloMosaic.Lib.Pipeline.Value

noncomputable section

namespace Cert.EmbedAgree

open Idealize.ShloMosaic Idealize.ShloMosaic.ValueIdx

/-! ## The operations read at an index -/

/-- An [m, 3] array's coordinates times four frequencies, twelve to a row: column `c` of row `r` is
    coordinate `c / 4` of the row times frequency `c % 4`. -/
theorem scaled_apply {m : ℕ}
    (h1 : (⟨2, ![m, 3]⟩ : Shape).BroadcastsInDim ⟨3, ![m, 3, 1]⟩ ![0, 1])
    (h2 : (⟨3, ![m, 3, 1]⟩ : Shape).BroadcastsInDim ⟨3, ![m, 3, 4]⟩ ![0, 1, 2])
    (h3 : (⟨1, ![4]⟩ : Shape).BroadcastsInDim ⟨3, ![1, 1, 4]⟩ ![2])
    (h4 : (⟨3, ![1, 1, 4]⟩ : Shape).BroadcastsInDim ⟨3, ![m, 3, 4]⟩ ![0, 1, 2])
    (h5 : (⟨3, ![m, 3, 4]⟩ : Shape).ShapeCasts ⟨2, ![m, 12]⟩)
    (fr : FVec Ideal ⟨1, ![4]⟩ .f32) (x : FVec Ideal ⟨2, ![m, 3]⟩ .f32) (r : Fin m) (c : Fin 12) :
    shapeCast ⟨2, ![m, 12]⟩
        (mulf (F := Ideal)
          (broadcastInDim ⟨3, ![m, 3, 4]⟩ ![0, 1, 2] h2 (broadcastInDim ⟨3, ![m, 3, 1]⟩ ![0, 1] h1 x))
          (broadcastInDim ⟨3, ![m, 3, 4]⟩ ![0, 1, 2] h4 (broadcastInDim ⟨3, ![1, 1, 4]⟩ ![2] h3 fr)))
        h5 (ix2 r c)
      = x (ix2 r ⟨c.val / 4, by omega⟩) * fr (ix1 ⟨c.val % 4, by omega⟩) := by
  have hr := r.isLt
  have hc := c.isLt
  refine (shapeCast_apply _ h5 (ix2 r c) (ix3 r (⟨c.val / 4, by omega⟩ : Fin 3) (⟨c.val % 4, by omega⟩ : Fin 4)) ?_).trans ?_
  · rw [Shape.rowMajor_val_two, Shape.rowMajor_val_three]
    show (r.val * 3 + c.val / 4) * 4 + c.val % 4 = r.val * 12 + c.val
    omega
  · show broadcastInDim ⟨3, ![m, 3, 4]⟩ ![0, 1, 2] h2 (broadcastInDim ⟨3, ![m, 3, 1]⟩ ![0, 1] h1 x) _
        * broadcastInDim ⟨3, ![m, 3, 4]⟩ ![0, 1, 2] h4 (broadcastInDim ⟨3, ![1, 1, 4]⟩ ![2] h3 fr) _ = _
    congr 1
    · refine (broadcastInDim_apply _ h2 _ _ (ix3 r (⟨c.val / 4, by omega⟩ : Fin 3) (0 : Fin 1)) fun a => ?_).trans
        (broadcastInDim_apply _ h1 x _ (ix2 r (⟨c.val / 4, by omega⟩ : Fin 3)) fun a => ?_)
      · match a with
        | ⟨0, _⟩ => show r.val = if m = 1 then 0 else r.val; split <;> omega
        | ⟨1, _⟩ => rfl
        | ⟨2, _⟩ => rfl
      · match a with
        | ⟨0, _⟩ => show r.val = if m = 1 then 0 else r.val; split <;> omega
        | ⟨1, _⟩ => rfl
    · refine (broadcastInDim_apply _ h4 _ _ (ix3 (0 : Fin 1) (0 : Fin 1) (⟨c.val % 4, by omega⟩ : Fin 4)) fun a => ?_).trans
        (broadcastInDim_apply _ h3 fr _ (ix1 (⟨c.val % 4, by omega⟩ : Fin 4)) fun a => ?_)
      · match a with
        | ⟨0, _⟩ => rfl
        | ⟨1, _⟩ => rfl
        | ⟨2, _⟩ => rfl
      · match a with
        | ⟨0, _⟩ => rfl

/-- Rows repeated 128 times: a [2048, w] array broadcast to [2048, 1, w], then to [2048, 128, w], then
    flattened to [262144, w], holds at row `r` the array's row `r / 128`. -/
theorem repeat_apply {w : ℕ} {α : Type}
    (hA : (⟨2, ![2048, w]⟩ : Shape).BroadcastsInDim ⟨3, ![2048, 1, w]⟩ ![0, 2])
    (hB : (⟨3, ![2048, 1, w]⟩ : Shape).BroadcastsInDim ⟨3, ![2048, 128, w]⟩ ![0, 1, 2])
    (hS : (⟨3, ![2048, 128, w]⟩ : Shape).ShapeCasts ⟨2, ![262144, w]⟩)
    (y : (⟨2, ![2048, w]⟩ : Shape).Idx → α) (r : Fin 262144) (q : Fin w) :
    shapeCast ⟨2, ![262144, w]⟩
        (broadcastInDim ⟨3, ![2048, 128, w]⟩ ![0, 1, 2] hB (broadcastInDim ⟨3, ![2048, 1, w]⟩ ![0, 2] hA y)) hS (ix2 r q)
      = y (ix2 ⟨r.val / 128, by omega⟩ q) := by
  have hr := r.isLt
  have hq := q.isLt
  refine (shapeCast_apply _ hS (ix2 r q) (ix3 (⟨r.val / 128, by omega⟩ : Fin 2048) (⟨r.val % 128, by omega⟩ : Fin 128) q) ?_).trans ?_
  · rw [Shape.rowMajor_val_two, Shape.rowMajor_val_three]
    show (r.val / 128 * 128 + r.val % 128) * w + q.val = r.val * w + q.val
    rw [Nat.div_add_mod' r.val 128]
  · refine (broadcastInDim_apply _ hB _ _ (ix3 (⟨r.val / 128, by omega⟩ : Fin 2048) (0 : Fin 1) q) fun a => ?_).trans
      (broadcastInDim_apply _ hA y _ (ix2 (⟨r.val / 128, by omega⟩ : Fin 2048) q) fun a => ?_)
    · match a with
      | ⟨0, _⟩ => rfl
      | ⟨1, _⟩ => rfl
      | ⟨2, _⟩ => show q.val = if w = 1 then 0 else q.val; split <;> omega
    · match a with
      | ⟨0, _⟩ => rfl
      | ⟨1, _⟩ => show q.val = if w = 1 then 0 else q.val; split <;> omega

/-- Three arrays of 12, 12 and 3 columns laid side by side: column `q` of row `r` reads the first below 12,
    the second from 12 to 23, the third from 24 on. -/
theorem concat3_apply {m : ℕ} {α : Type}
    (hC : Shape.Concatenates [(⟨2, ![m, 12]⟩ : Shape), ⟨2, ![m, 12]⟩, ⟨2, ![m, 3]⟩] ⟨2, ![m, 27]⟩ 1)
    (s c : (⟨2, ![m, 12]⟩ : Shape).Idx → α) (x : (⟨2, ![m, 3]⟩ : Shape).Idx → α) (r : Fin m) (q : Fin 27) :
    concatenate ⟨2, ![m, 27]⟩ 1 [⟨⟨2, ![m, 12]⟩, s⟩, ⟨⟨2, ![m, 12]⟩, c⟩, ⟨⟨2, ![m, 3]⟩, x⟩] hC (ix2 r q)
      = if h : q.val < 12 then s (ix2 r ⟨q.val, h⟩)
        else if h' : q.val < 24 then c (ix2 r ⟨q.val - 12, by omega⟩)
        else x (ix2 r ⟨q.val - 24, by omega⟩) := by
  have hq := q.isLt
  split
  · next h =>
    refine concatenate_apply_piece 1 [⟨⟨2, ![m, 12]⟩, s⟩, ⟨⟨2, ![m, 12]⟩, c⟩, ⟨⟨2, ![m, 3]⟩, x⟩] hC (ix2 r q) 0
      (by show (0 : ℕ) < 3; omega) ⟨2, ![m, 12]⟩ s rfl rfl 0 rfl
      (ix2 r (⟨q.val, h⟩ : Fin 12)) (fun b hb => ?_) (Nat.zero_add _)
    match b, hb with
    | ⟨0, _⟩, _ => rfl
    | ⟨1, _⟩, hb => exact absurd rfl hb
  · next h =>
    split
    · next h' =>
      refine concatenate_apply_piece 1 [⟨⟨2, ![m, 12]⟩, s⟩, ⟨⟨2, ![m, 12]⟩, c⟩, ⟨⟨2, ![m, 3]⟩, x⟩] hC (ix2 r q) 1
        (by show (1 : ℕ) < 3; omega) ⟨2, ![m, 12]⟩ c rfl rfl 12 rfl
        (ix2 r (⟨q.val - 12, by omega⟩ : Fin 12)) (fun b hb => ?_) ?_
      · match b, hb with
        | ⟨0, _⟩, _ => rfl
        | ⟨1, _⟩, hb => exact absurd rfl hb
      · show 12 + (q.val - 12) = q.val
        omega
    · next h' =>
      refine concatenate_apply_piece 1 [⟨⟨2, ![m, 12]⟩, s⟩, ⟨⟨2, ![m, 12]⟩, c⟩, ⟨⟨2, ![m, 3]⟩, x⟩] hC (ix2 r q) 2
        (by show (2 : ℕ) < 3; omega) ⟨2, ![m, 3]⟩ x rfl rfl 24 rfl
        (ix2 r (⟨q.val - 24, by omega⟩ : Fin 3)) (fun b hb => ?_) ?_
      · match b, hb with
        | ⟨0, _⟩, _ => rfl
        | ⟨1, _⟩, hb => exact absurd rfl hb
      · show 24 + (q.val - 24) = q.val
        omega

/-! ## A row of the direction embedding -/

/-- The 27 numbers embedding three coordinates `v` with four frequencies `fr`: the sines of each
    coordinate times each frequency (coordinate-major), the cosines of the same, the coordinates. -/
def E (fr : Fin 4 → EReal) (v : Fin 3 → EReal) (q : Fin 27) : EReal :=
  if h : q.val < 12 then Ideal.sin (v ⟨q.val / 4, by omega⟩ * fr ⟨q.val % 4, by omega⟩)
  else if h' : q.val < 24 then Ideal.cos (v ⟨(q.val - 12) / 4, by omega⟩ * fr ⟨(q.val - 12) % 4, by omega⟩)
  else v ⟨q.val - 24, by omega⟩

/-- The embedding of an [m, 3] array at (r, q) is `E` of the array's row `r`. -/
theorem embed_apply {m : ℕ}
    (h1 : (⟨2, ![m, 3]⟩ : Shape).BroadcastsInDim ⟨3, ![m, 3, 1]⟩ ![0, 1])
    (h2 : (⟨3, ![m, 3, 1]⟩ : Shape).BroadcastsInDim ⟨3, ![m, 3, 4]⟩ ![0, 1, 2])
    (h3 : (⟨1, ![4]⟩ : Shape).BroadcastsInDim ⟨3, ![1, 1, 4]⟩ ![2])
    (h4 : (⟨3, ![1, 1, 4]⟩ : Shape).BroadcastsInDim ⟨3, ![m, 3, 4]⟩ ![0, 1, 2])
    (h5 : (⟨3, ![m, 3, 4]⟩ : Shape).ShapeCasts ⟨2, ![m, 12]⟩)
    (hC : Shape.Concatenates [(⟨2, ![m, 12]⟩ : Shape), ⟨2, ![m, 12]⟩, ⟨2, ![m, 3]⟩] ⟨2, ![m, 27]⟩ 1)
    (fr : FVec Ideal ⟨1, ![4]⟩ .f32) (x : FVec Ideal ⟨2, ![m, 3]⟩ .f32) (r : Fin m) (q : Fin 27) :
    concatenate ⟨2, ![m, 27]⟩ 1
        [⟨⟨2, ![m, 12]⟩, Host.sin (F := Ideal) (shapeCast ⟨2, ![m, 12]⟩
            (mulf (F := Ideal)
              (broadcastInDim ⟨3, ![m, 3, 4]⟩ ![0, 1, 2] h2 (broadcastInDim ⟨3, ![m, 3, 1]⟩ ![0, 1] h1 x))
              (broadcastInDim ⟨3, ![m, 3, 4]⟩ ![0, 1, 2] h4 (broadcastInDim ⟨3, ![1, 1, 4]⟩ ![2] h3 fr))) h5)⟩,
         ⟨⟨2, ![m, 12]⟩, Host.cos (F := Ideal) (shapeCast ⟨2, ![m, 12]⟩
            (mulf (F := Ideal)
              (broadcastInDim ⟨3, ![m, 3, 4]⟩ ![0, 1, 2] h2 (broadcastInDim ⟨3, ![m, 3, 1]⟩ ![0, 1] h1 x))
              (broadcastInDim ⟨3, ![m, 3, 4]⟩ ![0, 1, 2] h4 (broadcastInDim ⟨3, ![1, 1, 4]⟩ ![2] h3 fr))) h5)⟩,
         ⟨⟨2, ![m, 3]⟩, x⟩] hC (ix2 r q)
      = E (fun f => fr (ix1 f)) (fun i => x (ix2 r i)) q := by
  have hq := q.isLt
  rw [concat3_apply]
  unfold E
  split
  · next h => exact congrArg Ideal.sin (scaled_apply h1 h2 h3 h4 h5 fr x r ⟨q.val, h⟩)
  · next h =>
    split
    · next h' => exact congrArg Ideal.cos (scaled_apply h1 h2 h3 h4 h5 fr x r ⟨q.val - 12, by omega⟩)
    · next h' => rfl

/-! ## The two programs' embeddings -/

variable [Cert.ReferenceIdeal.Facts]

/-- The position embedding: the same operations in both programs. -/
theorem pe_agree (a0 : FVec Ideal Cert.KernelIdeal.S2048x128x3 .f32) : Cert.KTerm.peArr a0 = Cert.RefTerm.peArr a0 := rfl

/-- The normalised directions: the same operations in both programs. -/
theorem dirsN_agree (a1 : FVec Ideal Cert.KernelIdeal.S2048x3 .f32) : Cert.KTerm.dirsN a1 = Cert.RefTerm.dirsN a1 := rfl

/-- The four frequencies: the same literals in both programs. -/
theorem freqs4_agree : Cert.KTerm.freqs4 = Cert.RefTerm.freqs4 := rfl

/-- One program's direction embedding, one row per sample, of any [262144, 3] array: row `r` is `E` of the array's row `r`. -/
theorem deOf_row (x : FVec Ideal Cert.ReferenceIdeal.S262144x3 .f32) (r : Fin 262144) (q : Fin 27) :
    Cert.RefTerm.deOf x (ix2 r q) = E (fun f => Cert.RefTerm.freqs4 (ix1 f)) (fun i => x (ix2 r i)) q :=
  embed_apply _ _ _ _ _ _ Cert.RefTerm.freqs4 x r q

/-- The other program's direction embedding, one row per ray, of any [2048, 3] array: row `p` is `E` of the array's row `p`. -/
theorem deOfB_row (x : FVec Ideal Cert.KernelIdeal.S2048x3 .f32) (p : Fin 2048) (q : Fin 27) :
    Cert.KTerm.deOfB x (ix2 p q) = E (fun f => Cert.KTerm.freqs4 (ix1 f)) (fun i => x (ix2 p i)) q :=
  embed_apply _ _ _ _ _ _ Cert.KTerm.freqs4 x p q

/-- The directions repeated for each ray's 128 samples: row `r` is the direction of ray `r / 128`. -/
theorem dirsRow_apply (a1 : FVec Ideal Cert.ReferenceIdeal.S2048x3 .f32) (r : Fin 262144) (i : Fin 3) :
    Cert.RefTerm.dirsRow a1 (ix2 r i) = Cert.RefTerm.dirsN a1 (ix2 ⟨r.val / 128, by omega⟩ i) :=
  repeat_apply _ _ _ (Cert.RefTerm.dirsN a1) r i

/-- The per-ray embedding repeated for each ray's 128 samples: row `r` is the embedding of ray `r / 128`. -/
theorem deArrK_apply (a1 : FVec Ideal Cert.KernelIdeal.S2048x3 .f32) (r : Fin 262144) (q : Fin 27) :
    Cert.KTerm.deArr a1 (ix2 r q) = Cert.KTerm.deOfB (Cert.KTerm.dirsN a1) (ix2 ⟨r.val / 128, by omega⟩ q) :=
  repeat_apply _ _ _ (Cert.KTerm.deOfB (Cert.KTerm.dirsN a1)) r q

/-- The direction embedding, embedded once per ray and repeated or repeated and then embedded, is the same array. -/
theorem de_agree (a1 : FVec Ideal Cert.KernelIdeal.S2048x3 .f32) (r : Fin 262144) (q : Fin 27) :
    Cert.KTerm.deArr a1 (ix2 r q) = Cert.RefTerm.deArr a1 (ix2 r q) := by
  have hv : (fun i => Cert.RefTerm.dirsRow a1 (ix2 r i))
      = fun i => Cert.RefTerm.dirsN a1 (ix2 ⟨r.val / 128, by have := r.isLt; omega⟩ i) :=
    funext fun i => dirsRow_apply a1 r i
  have hR : Cert.RefTerm.deArr a1 (ix2 r q)
      = E (fun f => Cert.RefTerm.freqs4 (ix1 f))
          (fun i => Cert.RefTerm.dirsN a1 (ix2 ⟨r.val / 128, by have := r.isLt; omega⟩ i)) q :=
    (deOf_row (Cert.RefTerm.dirsRow a1) r q).trans (congrArg (fun v => E (fun f => Cert.RefTerm.freqs4 (ix1 f)) v q) hv)
  have hK : Cert.KTerm.deArr a1 (ix2 r q)
      = E (fun f => Cert.KTerm.freqs4 (ix1 f))
          (fun i => Cert.KTerm.dirsN a1 (ix2 ⟨r.val / 128, by have := r.isLt; omega⟩ i)) q :=
    (deArrK_apply a1 r q).trans (deOfB_row (Cert.KTerm.dirsN a1) ⟨r.val / 128, by have := r.isLt; omega⟩ q)
  rw [hK, hR, freqs4_agree, dirsN_agree]

/-- The same as an equation of arrays. -/
theorem deArr_agree (a1 : FVec Ideal Cert.KernelIdeal.S2048x3 .f32) : Cert.KTerm.deArr a1 = Cert.RefTerm.deArr a1 :=
  funext fun j => by
    rw [eq_ix2 j]
    exact de_agree a1 (j 0) (j 1)

end Cert.EmbedAgree

end
-- ==== Proof.Bridge.lean ====
/-
  The two programs' results are one function of the arguments.

  The reference's density (before its last reshape) at row `r` and the kernel's result array at
  (r, 0) are both the network's density of row `r` of the position embedding; the reference's colour
  at (r, j) and the kernel's result array at (r, j + 1) are both the network's colour of row `r` of the
  two embeddings.  The weights are read off the same argument arrays, the position embeddings are
  the same host term, and the direction embeddings agree entry by entry (embedding a ray's
  direction once and repeating it is embedding the repeated direction).  Both programs end with the
  same reshape to [ray, sample].
-/
import proofs.«181742_j549755814570_2_alg».proof.Proof.KVal
import proofs.«181742_j549755814570_2_alg».proof.Proof.RefValue
import proofs.«181742_j549755814570_2_alg».proof.Proof.EmbedAgree
import proofs.«181742_j549755814570_2_alg».proof.Proof.Gen.ReferenceIdeal
import proofs.«181742_j549755814570_2_alg».proof.Proof.Gen.KernelIdeal

set_option maxRecDepth 16384

noncomputable section

namespace Cert.Bridge

open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ) (c : Dev Cert.KernelIdeal.nD)

/-- The weights read off the arguments are the same record on both sides. -/
theorem w_eq : Cert.RefValue.wOf (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) = Cert.KernelIdeal.KVal.wK m c := rfl

/-- A row of the position embedding the kernel's region reads is the reference's. -/
theorem pe_row (r : Fin 262144) :
    (fun k : Fin 39 => Cert.KTerm.A0 (m ((c.tc : Thread Cert.KernelIdeal.nD Cert.KernelIdeal.τ).loc Cert.KernelIdeal.main_arg0)) (ix2 r k)) = fun k => Cert.RefTerm.peArr (m ((c.tc : Thread Cert.KernelIdeal.nD Cert.KernelIdeal.τ).loc Cert.KernelIdeal.main_arg0)) (ix2 r k) :=
  funext fun k => congrFun (Cert.EmbedAgree.pe_agree (m ((c.tc : Thread Cert.KernelIdeal.nD Cert.KernelIdeal.τ).loc Cert.KernelIdeal.main_arg0))) (ix2 r k)

/-- A row of the direction embedding the kernel's region reads is the reference's. -/
theorem de_row (r : Fin 262144) :
    (fun q : Fin 27 => Cert.KTerm.A1 (m ((c.tc : Thread Cert.KernelIdeal.nD Cert.KernelIdeal.τ).loc Cert.KernelIdeal.main_arg1)) (ix2 r q)) = fun q => Cert.RefTerm.deArr (m ((c.tc : Thread Cert.KernelIdeal.nD Cert.KernelIdeal.τ).loc Cert.KernelIdeal.main_arg1)) (ix2 r q) :=
  funext fun q => Cert.EmbedAgree.de_agree (m ((c.tc : Thread Cert.KernelIdeal.nD Cert.KernelIdeal.τ).loc Cert.KernelIdeal.main_arg1)) r q

/-- The reference's density rows are the first column of the kernel's result array. -/
theorem dens_rows :
    (Cert.RefTerm.dens2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) : (⟨2, ![262144, 1]⟩ : Shape).Idx → EReal)
      = extractStridedSlice Cert.KernelIdeal.S262144x1 ![0, 0] (Cert.KernelIdeal.KVal.G m c)
          Cert.KernelIdeal.Facts₀.slices_S262144x4_S262144x1_0_0 := by
  funext i
  obtain ⟨r, u, rfl⟩ : ∃ (r : Fin 262144) (u : Fin 1), i = ix2 r u := ⟨i 0, i 1, eq_ix2 i⟩
  obtain rfl : u = 0 := Subsingleton.elim _ _
  refine (Cert.RefValue.dens2_apply (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) r).trans ?_
  refine Eq.trans ?_ (slice2_axis1_apply 0 (Cert.KernelIdeal.KVal.G m c) Cert.KernelIdeal.Facts₀.slices_S262144x4_S262144x1_0_0
    r (0 : Fin 1) (⟨0, by omega⟩ : Fin 4) rfl).symm
  show _ = Cert.Spec.density (Cert.KernelIdeal.KVal.wK m c) (fun k => Cert.KTerm.A0 (m ((c.tc : Thread Cert.KernelIdeal.nD Cert.KernelIdeal.τ).loc Cert.KernelIdeal.main_arg0)) (ix2 r k))
  rw [w_eq, pe_row]

/-- The reference's colour rows are the last three columns of the kernel's result array. -/
theorem col_rows :
    (Cert.RefTerm.col2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) : (⟨2, ![262144, 3]⟩ : Shape).Idx → EReal)
      = extractStridedSlice Cert.KernelIdeal.S262144x3 ![0, 1] (Cert.KernelIdeal.KVal.G m c)
          Cert.KernelIdeal.Facts₀.slices_S262144x4_S262144x3_0_1 := by
  funext i
  obtain ⟨r, j, rfl⟩ : ∃ (r : Fin 262144) (j : Fin 3), i = ix2 r j := ⟨i 0, i 1, eq_ix2 i⟩
  refine (Cert.RefValue.col2_apply (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) r j).trans ?_
  refine Eq.trans ?_ (slice2_axis1_apply 1 (Cert.KernelIdeal.KVal.G m c) Cert.KernelIdeal.Facts₀.slices_S262144x4_S262144x3_0_1
    r j (⟨1 + j.val, by omega⟩ : Fin 4) rfl).symm
  show _ = Cert.KernelIdeal.KVal.outRow (Cert.KernelIdeal.KVal.wK m c) (fun k => Cert.KTerm.A0 (m ((c.tc : Thread Cert.KernelIdeal.nD Cert.KernelIdeal.τ).loc Cert.KernelIdeal.main_arg0)) (ix2 r k))
    (fun q => Cert.KTerm.A1 (m ((c.tc : Thread Cert.KernelIdeal.nD Cert.KernelIdeal.τ).loc Cert.KernelIdeal.main_arg1)) (ix2 r q)) (⟨1 + j.val, by omega⟩ : Fin 4)
  unfold Cert.KernelIdeal.KVal.outRow
  rw [dif_neg (by show ¬ (1 + j.val = 0); omega), w_eq, pe_row, de_row]
  exact congrArg _ (Fin.ext (by show j.val = 1 + j.val - 1; omega))

/-- The density results agree. -/
theorem dens_eq : Cert.RefTerm.refDensity (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) = Cert.KTerm.resDensity (Cert.KernelIdeal.KVal.G m c) := by
  unfold Cert.RefTerm.refDensity Cert.KTerm.resDensity
  rw [dens_rows]

/-- The colour results agree. -/
theorem col_eq : Cert.RefTerm.refColor (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) = Cert.KTerm.resColor (Cert.KernelIdeal.KVal.G m c) := by
  unfold Cert.RefTerm.refColor Cert.KTerm.resColor
  rw [col_rows]

end Cert.Bridge

end
-- ==== Proof.lean ====
/-
  The five claims of this certificate.

  The three frames: the kernel's program (at the word level and at the ideal instance) runs its
  host operations, its one pipelined region and its closing host operations to the end without a
  fault and leaves its 26 argument arrays as they were (`Cert.Kernel.Hand.frame`,
  `Cert.KernelIdeal.Hand.frame`); so does the reference, a host program with no region
  (`Cert.ReferenceIdeal.Hand.frame`).  The idealization rewrote no operation, so it preserves the
  kernel trivially.  At the ideal instance the two programs' results are equal: the kernel's result
  array is, row by row, the eleven-layer network of `Cert.Spec` applied to the row's position and
  direction embeddings (`Cert.KernelIdeal.KVal.run`), the reference computes the same network on the
  same embeddings (`Cert.ReferenceIdeal.Hand.run`, `Cert.RefValue`), and the two result terms are one
  function of the arguments (`Cert.Bridge`).  The only law used between the two arrangements is that
  a sum over a concatenated input splits into the sums over its two pieces, which holds on the
  extended reals without any finiteness assumption; the precondition is never opened.
-/
import proofs.«181742_j549755814570_2_alg».proof.Defs
import proofs.«181742_j549755814570_2_alg».proof.Proof.Gen.Kernel
import proofs.«181742_j549755814570_2_alg».proof.Proof.Gen.KernelIdeal
import proofs.«181742_j549755814570_2_alg».proof.Proof.Gen.ReferenceIdeal
import proofs.«181742_j549755814570_2_alg».proof.Proof.Gen.Pre_finite_inputs
import proofs.«181742_j549755814570_2_alg».proof.Proof.KFrame
import proofs.«181742_j549755814570_2_alg».proof.Proof.KIFrame
import proofs.«181742_j549755814570_2_alg».proof.Proof.RefRun
import proofs.«181742_j549755814570_2_alg».proof.Proof.KVal
import proofs.«181742_j549755814570_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ => Cert.ReferenceIdeal.Hand.frame m ρ

theorem preserves : Cert.preserves_Kernel_KernelIdeal := trivial

/-- Both programs end with the density and the colour of the same network on the same embeddings. -/
theorem algebraic : Cert.algebraic_KernelIdeal_ReferenceIdeal := by
  intro m g m' g' _ hagree
  refine ⟨fun c => Cert.KTerm.resDensity (Cert.KernelIdeal.KVal.G m c), fun c => Cert.KTerm.resColor (Cert.KernelIdeal.KVal.G m c), ?_, ?_⟩
  · exact (θ_run (Cert.KernelIdeal.defs (F := Ideal)) _ _).mono (fun r h c => ⟨(h c).1.1, (h c).1.2, (h c).2⟩)
      (Cert.KernelIdeal.KVal.run m g)
  · refine (θ_run (Cert.ReferenceIdeal.defs (F := Ideal)) _ _).mono (fun r h c => ⟨?_, ?_, (h c).2⟩)
      (Cert.ReferenceIdeal.Hand.run m' g')
    · refine (h c).1.1.trans ?_
      obtain ⟨e0, e1, e2, e3, e4, e5, e6, e7, e8, e9, e10, e11, e12, e13, e14, e15, e16, e17, e18, e19, e20, e21, e22, e23, e24, e25⟩ := hagree c
      rw [e0, e1, e2, e3, e4, e5, e6, e7, e8, e9, e10, e11, e12, e13, e14, e15, e16, e17, e18, e19, e20, e21, e22, e23, e24, e25]
      exact Cert.Bridge.dens_eq m c
    · refine (h c).1.2.trans ?_
      obtain ⟨e0, e1, e2, e3, e4, e5, e6, e7, e8, e9, e10, e11, e12, e13, e14, e15, e16, e17, e18, e19, e20, e21, e22, e23, e24, e25⟩ := hagree c
      rw [e0, e1, e2, e3, e4, e5, e6, e7, e8, e9, e10, e11, e12, e13, e14, e15, e16, e17, e18, e19, e20, e21, e22, e23, e24, e25]
      exact Cert.Bridge.col_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
